-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v4) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v117) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S800000x4 : Shape := ⟨2, ![800000, 4]⟩
abbrev S50000x16 : Shape := ⟨2, ![50000, 16]⟩
abbrev S4x64 : Shape := ⟨2, ![4, 64]⟩
abbrev S64 : Shape := ⟨1, ![64]⟩
abbrev S64x64 : Shape := ⟨2, ![64, 64]⟩
abbrev S16x64 : Shape := ⟨2, ![16, 64]⟩
abbrev S192x64 : Shape := ⟨2, ![192, 64]⟩
abbrev S128x64 : Shape := ⟨2, ![128, 64]⟩
abbrev S_ : Shape := ⟨0, ![]⟩

class Facts : Prop where
  bcast_S_S800000x4 : S_.BroadcastsInDim S800000x4 (![] : Fin 0 → Fin S800000x4.rank)
  reducesTo_S800000x4_S_d0_1 : S800000x4.ReducesTo [0, 1] S_
  h_S_ : 0 < S_.numel
  bcast_S_S50000x16 : S_.BroadcastsInDim S50000x16 (![] : Fin 0 → Fin S50000x16.rank)
  reducesTo_S50000x16_S_d0_1 : S50000x16.ReducesTo [0, 1] S_
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S16x64 : S_.BroadcastsInDim S16x64 (![] : Fin 0 → Fin S16x64.rank)
  reducesTo_S16x64_S_d0_1 : S16x64.ReducesTo [0, 1] S_
  bcast_S_S192x64 : S_.BroadcastsInDim S192x64 (![] : Fin 0 → Fin S192x64.rank)
  reducesTo_S192x64_S_d0_1 : S192x64.ReducesTo [0, 1] S_
  bcast_S_S128x64 : S_.BroadcastsInDim S128x64 (![] : Fin 0 → Fin S128x64.rank)
  reducesTo_S128x64_S_d0_1 : S128x64.ReducesTo [0, 1] S_

variable [Facts]

def fn_part8 {F : FTy → Type} [FloatOps F] (main_arg29 : FVec F S64x64 .f32) (main_arg30 : FVec F S64 .f32) (main_v133 : IVec S_ 1) (main_v136 : IVec S64 1) : IVec S_ 1 :=
  let main_c_53 : IVec S_ 1 := constantI S_ 1 1#1
  let main_v137 : IVec S_ 1 := (fun x v => Host.reduce IntOp.andi x v reducesTo_S64_S_d0 h_S_) main_v136 main_c_53
  let main_v138 : IVec S_ 1 := andi main_v133 main_v137
  let main_v139 : FVec F S64x64 .f32 := Host.absf main_arg29
  let main_cst_54 : FVec F S_ .f32 := constant S_ .f32 0x7F800000#32
  let main_v140 : FVec F S64x64 .f32 := broadcastInDim S64x64 ![] bcast_S_S64x64 main_cst_54
  let main_v141 : IVec S64x64 1 := cmpf .olt main_v139 main_v140
  let main_c_55 : IVec S_ 1 := constantI S_ 1 1#1
  let main_v142 : IVec S_ 1 := (fun x v => Host.reduce IntOp.andi x v reducesTo_S64x64_S_d0_1 h_S_) main_v141 main_c_55
  let main_v143 : IVec S_ 1 := andi main_v138 main_v142
  let main_v144 : FVec F S64 .f32 := Host.absf main_arg30
  let main_cst_56 : FVec F S_ .f32 := constant S_ .f32 0x7F800000#32
  let main_v145 : FVec F S64 .f32 := broadcastInDim S64 ![] bcast_S_S64 main_cst_56
  let main_v146 : IVec S64 1 := cmpf .olt main_v144 main_v145
  let main_c_57 : IVec S_ 1 := constantI S_ 1 1#1
  let main_v147 : IVec S_ 1 := (fun x v => Host.reduce IntOp.andi x v reducesTo_S64_S_d0 h_S_) main_v146 main_c_57
  let main_v148 : IVec S_ 1 := andi main_v143 main_v147
  main_v148

def fn_part7 {F : FTy → Type} [FloatOps F] (main_arg26 : FVec F S64 .f32) (main_arg27 : FVec F S64x64 .f32) (main_arg28 : FVec F S64 .f32) (main_arg29 : FVec F S64x64 .f32) (main_arg30 : FVec F S64 .f32) (main_v118 : IVec S_ 1) (main_v119 : FVec F S64 .f32) : IVec S_ 1 :=
  let main_cst_46 : FVec F S_ .f32 := constant S_ .f32 0x7F800000#32
  let main_v120 : FVec F S64 .f32 := broadcastInDim S64 ![] bcast_S_S64 main_cst_46
  let main_v121 : IVec S64 1 := cmpf .olt main_v119 main_v120
  let main_c_47 : IVec S_ 1 := constantI S_ 1 1#1
  let main_v122 : IVec S_ 1 := (fun x v => Host.reduce IntOp.andi x v reducesTo_S64_S_d0 h_S_) main_v121 main_c_47
  let main_v123 : IVec S_ 1 := andi main_v118 main_v122
  let main_v124 : FVec F S64 .f32 := Host.absf main_arg26
  let main_cst_48 : FVec F S_ .f32 := constant S_ .f32 0x7F800000#32
  let main_v125 : FVec F S64 .f32 := broadcastInDim S64 ![] bcast_S_S64 main_cst_48
  let main_v126 : IVec S64 1 := cmpf .olt main_v124 main_v125
  let main_c_49 : IVec S_ 1 := constantI S_ 1 1#1
  let main_v127 : IVec S_ 1 := (fun x v => Host.reduce IntOp.andi x v reducesTo_S64_S_d0 h_S_) main_v126 main_c_49
  let main_v128 : IVec S_ 1 := andi main_v123 main_v127
  let main_v129 : FVec F S64x64 .f32 := Host.absf main_arg27
  let main_cst_50 : FVec F S_ .f32 := constant S_ .f32 0x7F800000#32
  let main_v130 : FVec F S64x64 .f32 := broadcastInDim S64x64 ![] bcast_S_S64x64 main_cst_50
  let main_v131 : IVec S64x64 1 := cmpf .olt main_v129 main_v130
  let main_c_51 : IVec S_ 1 := constantI S_ 1 1#1
  let main_v132 : IVec S_ 1 := (fun x v => Host.reduce IntOp.andi x v reducesTo_S64x64_S_d0_1 h_S_) main_v131 main_c_51
  let main_v133 : IVec S_ 1 := andi main_v128 main_v132
  let main_v134 : FVec F S64 .f32 := Host.absf main_arg28
  let main_cst_52 : FVec F S_ .f32 := constant S_ .f32 0x7F800000#32
  let main_v135 : FVec F S64 .f32 := broadcastInDim S64 ![] bcast_S_S64 main_cst_52
  let main_v136 : IVec S64 1 := cmpf .olt main_v134 main_v135
  fn_part8 (F := F) main_arg29 main_arg30 main_v133 main_v136

def fn_part6 {F : FTy → Type} [FloatOps F] (main_arg22 : FVec F S64 .f32) (main_arg23 : FVec F S64x64 .f32) (main_arg24 : FVec F S64 .f32) (main_arg25 : FVec F S64 .f32) (main_arg26 : FVec F S64 .f32) (main_arg27 : FVec F S64x64 .f32) (main_arg28 : FVec F S64 .f32) (main_arg29 : FVec F S64x64 .f32) (main_arg30 : FVec F S64 .f32) (main_v98 : IVec S_ 1) (main_v101 : IVec S128x64 1) (main_c_39 : IVec S_ 1) : IVec S_ 1 :=
  let main_v102 : IVec S_ 1 := (fun x v => Host.reduce IntOp.andi x v reducesTo_S128x64_S_d0_1 h_S_) main_v101 main_c_39
  let main_v103 : IVec S_ 1 := andi main_v98 main_v102
  let main_v104 : FVec F S64 .f32 := Host.absf main_arg22
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x64 .f32 := Host.absf main_arg23
  let main_cst_42 : FVec F S_ .f32 := constant S_ .f32 0x7F800000#32
  let main_v110 : FVec F S64x64 .f32 := broadcastInDim S64x64 ![] bcast_S_S64x64 main_cst_42
  let main_v111 : IVec S64x64 1 := cmpf .olt main_v109 main_v110
  let main_c_43 : IVec S_ 1 := constantI S_ 1 1#1
  let main_v112 : IVec S_ 1 := (fun x v => Host.reduce IntOp.andi x v reducesTo_S64x64_S_d0_1 h_S_) main_v111 main_c_43
  let main_v113 : IVec S_ 1 := andi main_v108 main_v112
  let main_v114 : FVec F S64 .f32 := Host.absf main_arg24
  let main_cst_44 : FVec F S_ .f32 := constant S_ .f32 0x7F800000#32
  let main_v115 : FVec F S64 .f32 := broadcastInDim S64 ![] bcast_S_S64 main_cst_44
  let main_v116 : IVec S64 1 := cmpf .olt main_v114 main_v115
  let main_c_45 : IVec S_ 1 := constantI S_ 1 1#1
  let main_v117 : IVec S_ 1 := (fun x v => Host.reduce IntOp.andi x v reducesTo_S64_S_d0 h_S_) main_v116 main_c_45
  let main_v118 : IVec S_ 1 := andi main_v113 main_v117
  let main_v119 : FVec F S64 .f32 := Host.absf main_arg25
  fn_part7 (F := F) main_arg26 main_arg27 main_arg28 main_arg29 main_arg30 main_v118 main_v119

def fn_part5 {F : FTy → Type} [FloatOps F] (main_arg19 : FVec F S64 .f32) (main_arg20 : FVec F S64 .f32) (main_arg21 : FVec F S128x64 .f32) (main_arg22 : FVec F S64 .f32) (main_arg23 : FVec F S64x64 .f32) (main_arg24 : FVec F S64 .f32) (main_arg25 : FVec F S64 .f32) (main_arg26 : FVec F S64 .f32) (main_arg27 : FVec F S64x64 .f32) (main_arg28 : FVec F S64 .f32) (main_arg29 : FVec F S64x64 .f32) (main_arg30 : FVec F S64 .f32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S64 .f32 := Host.absf main_arg19
  let main_cst_34 : FVec F S_ .f32 := constant S_ .f32 0x7F800000#32
  let main_v90 : FVec F S64 .f32 := broadcastInDim S64 ![] bcast_S_S64 main_cst_34
  let main_v91 : IVec S64 1 := cmpf .olt main_v89 main_v90
  let main_c_35 : IVec S_ 1 := constantI S_ 1 1#1
  let main_v92 : IVec S_ 1 := (fun x v => Host.reduce IntOp.andi x v reducesTo_S64_S_d0 h_S_) main_v91 main_c_35
  let main_v93 : IVec S_ 1 := andi main_v88 main_v92
  let main_v94 : FVec F S64 .f32 := Host.absf main_arg20
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S128x64 .f32 := Host.absf main_arg21
  let main_cst_38 : FVec F S_ .f32 := constant S_ .f32 0x7F800000#32
  let main_v100 : FVec F S128x64 .f32 := broadcastInDim S128x64 ![] bcast_S_S128x64 main_cst_38
  let main_v101 : IVec S128x64 1 := cmpf .olt main_v99 main_v100
  let main_c_39 : IVec S_ 1 := constantI S_ 1 1#1
  fn_part6 (F := F) main_arg22 main_arg23 main_arg24 main_arg25 main_arg26 main_arg27 main_arg28 main_arg29 main_arg30 main_v98 main_v101 main_c_39

def fn_part4 {F : FTy → Type} [FloatOps F] (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S128x64 .f32) (main_arg22 : FVec F S64 .f32) (main_arg23 : FVec F S64x64 .f32) (main_arg24 : FVec F S64 .f32) (main_arg25 : FVec F S64 .f32) (main_arg26 : FVec F S64 .f32) (main_arg27 : FVec F S64x64 .f32) (main_arg28 : FVec F S64 .f32) (main_arg29 : FVec F S64x64 .f32) (main_arg30 : FVec F S64 .f32) (main_v63 : IVec S_ 1) (main_v67 : IVec S_ 1) : IVec S_ 1 :=
  let main_v68 : IVec S_ 1 := andi main_v63 main_v67
  let main_v69 : FVec F S192x64 .f32 := Host.absf main_arg15
  let main_cst_26 : FVec F S_ .f32 := constant S_ .f32 0x7F800000#32
  let main_v70 : FVec F S192x64 .f32 := broadcastInDim S192x64 ![] bcast_S_S192x64 main_cst_26
  let main_v71 : IVec S192x64 1 := cmpf .olt main_v69 main_v70
  let main_c_27 : IVec S_ 1 := constantI S_ 1 1#1
  let main_v72 : IVec S_ 1 := (fun x v => Host.reduce IntOp.andi x v reducesTo_S192x64_S_d0_1 h_S_) main_v71 main_c_27
  let main_v73 : IVec S_ 1 := andi main_v68 main_v72
  let main_v74 : FVec F S64 .f32 := Host.absf main_arg16
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x64 .f32 := Host.absf main_arg17
  let main_cst_30 : FVec F S_ .f32 := constant S_ .f32 0x7F800000#32
  let main_v80 : FVec F S64x64 .f32 := broadcastInDim S64x64 ![] bcast_S_S64x64 main_cst_30
  let main_v81 : IVec S64x64 1 := cmpf .olt main_v79 main_v80
  let main_c_31 : IVec S_ 1 := constantI S_ 1 1#1
  let main_v82 : IVec S_ 1 := (fun x v => Host.reduce IntOp.andi x v reducesTo_S64x64_S_d0_1 h_S_) main_v81 main_c_31
  let main_v83 : IVec S_ 1 := andi main_v78 main_v82
  let main_v84 : FVec F S64 .f32 := Host.absf main_arg18
  let main_cst_32 : FVec F S_ .f32 := constant S_ .f32 0x7F800000#32
  fn_part5 (F := F) main_arg19 main_arg20 main_arg21 main_arg22 main_arg23 main_arg24 main_arg25 main_arg26 main_arg27 main_arg28 main_arg29 main_arg30 main_v83 main_v84 main_cst_32

def fn_part3 {F : FTy → Type} [FloatOps F] (main_arg12 : FVec F S64 .f32) (main_arg13 : FVec F S64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S128x64 .f32) (main_arg22 : FVec F S64 .f32) (main_arg23 : FVec F S64x64 .f32) (main_arg24 : FVec F S64 .f32) (main_arg25 : FVec F S64 .f32) (main_arg26 : FVec F S64 .f32) (main_arg27 : FVec F S64x64 .f32) (main_arg28 : FVec F S64 .f32) (main_arg29 : FVec F S64x64 .f32) (main_arg30 : FVec F S64 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg12
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg8 : FVec F S64 .f32) (main_arg9 : FVec F S16x64 .f32) (main_arg10 : FVec F S64 .f32) (main_arg11 : FVec F S64x64 .f32) (main_arg12 : FVec F S64 .f32) (main_arg13 : FVec F S64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S128x64 .f32) (main_arg22 : FVec F S64 .f32) (main_arg23 : FVec F S64x64 .f32) (main_arg24 : FVec F S64 .f32) (main_arg25 : FVec F S64 .f32) (main_arg26 : FVec F S64 .f32) (main_arg27 : FVec F S64x64 .f32) (main_arg28 : FVec F S64 .f32) (main_arg29 : FVec F S64x64 .f32) (main_arg30 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S16x64 .f32 := Host.absf main_arg9
  let main_cst_14 : FVec F S_ .f32 := constant S_ .f32 0x7F800000#32
  let main_v40 : FVec F S16x64 .f32 := broadcastInDim S16x64 ![] bcast_S_S16x64 main_cst_14
  let main_v41 : IVec S16x64 1 := cmpf .olt main_v39 main_v40
  let main_c_15 : IVec S_ 1 := constantI S_ 1 1#1
  let main_v42 : IVec S_ 1 := (fun x v => Host.reduce IntOp.andi x v reducesTo_S16x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg11
  let main_cst_18 : FVec F S_ .f32 := constant S_ .f32 0x7F800000#32
  let main_v50 : FVec F S64x64 .f32 := broadcastInDim S64x64 ![] bcast_S_S64x64 main_cst_18
  fn_part3 (F := F) main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg5 : FVec F S64x64 .f32) (main_arg6 : FVec F S64 .f32) (main_arg7 : FVec F S64 .f32) (main_arg8 : FVec F S64 .f32) (main_arg9 : FVec F S16x64 .f32) (main_arg10 : FVec F S64 .f32) (main_arg11 : FVec F S64x64 .f32) (main_arg12 : FVec F S64 .f32) (main_arg13 : FVec F S64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S128x64 .f32) (main_arg22 : FVec F S64 .f32) (main_arg23 : FVec F S64x64 .f32) (main_arg24 : FVec F S64 .f32) (main_arg25 : FVec F S64 .f32) (main_arg26 : FVec F S64 .f32) (main_arg27 : FVec F S64x64 .f32) (main_arg28 : FVec F S64 .f32) (main_arg29 : FVec F S64x64 .f32) (main_arg30 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : IVec S2x800000 32) (main_arg1 : FVec F S800000x4 .f32) (main_arg2 : FVec F S50000x16 .f32) (main_arg3 : FVec F S4x64 .f32) (main_arg4 : FVec F S64 .f32) (main_arg5 : FVec F S64x64 .f32) (main_arg6 : FVec F S64 .f32) (main_arg7 : FVec F S64 .f32) (main_arg8 : FVec F S64 .f32) (main_arg9 : FVec F S16x64 .f32) (main_arg10 : FVec F S64 .f32) (main_arg11 : FVec F S64x64 .f32) (main_arg12 : FVec F S64 .f32) (main_arg13 : FVec F S64 .f32) (main_arg14 : FVec F S64 .f32) (main_arg15 : FVec F S192x64 .f32) (main_arg16 : FVec F S64 .f32) (main_arg17 : FVec F S64x64 .f32) (main_arg18 : FVec F S64 .f32) (main_arg19 : FVec F S64 .f32) (main_arg20 : FVec F S64 .f32) (main_arg21 : FVec F S128x64 .f32) (main_arg22 : FVec F S64 .f32) (main_arg23 : FVec F S64x64 .f32) (main_arg24 : FVec F S64 .f32) (main_arg25 : FVec F S64 .f32) (main_arg26 : FVec F S64 .f32) (main_arg27 : FVec F S64x64 .f32) (main_arg28 : FVec F S64 .f32) (main_arg29 : FVec F S64x64 .f32) (main_arg30 : FVec F S64 .f32) : IVec S_ 1 :=
  let main_v0 : FVec F S800000x4 .f32 := Host.absf main_arg1
  let main_cst : FVec F S_ .f32 := constant S_ .f32 0x7F800000#32
  let main_v1 : FVec F S800000x4 .f32 := broadcastInDim S800000x4 ![] bcast_S_S800000x4 main_cst
  let main_v2 : IVec S800000x4 1 := cmpf .olt main_v0 main_v1
  let main_c : IVec S_ 1 := constantI S_ 1 1#1
  let main_v3 : IVec S_ 1 := (fun x v => Host.reduce IntOp.andi x v reducesTo_S800000x4_S_d0_1 h_S_) main_v2 main_c
  let main_v4 : FVec F S50000x16 .f32 := Host.absf main_arg2
  let main_cst_0 : FVec F S_ .f32 := constant S_ .f32 0x7F800000#32
  let main_v5 : FVec F S50000x16 .f32 := broadcastInDim S50000x16 ![] bcast_S_S50000x16 main_cst_0
  let main_v6 : IVec S50000x16 1 := cmpf .olt main_v4 main_v5
  let main_c_1 : IVec S_ 1 := constantI S_ 1 1#1
  let main_v7 : IVec S_ 1 := (fun x v => Host.reduce IntOp.andi x v reducesTo_S50000x16_S_d0_1 h_S_) main_v6 main_c_1
  let main_v8 : IVec S_ 1 := andi main_v3 main_v7
  let main_v9 : FVec F S4x64 .f32 := Host.absf main_arg3
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S2x800000 : Shape := ⟨2, ![2, 800000]⟩
abbrev S800000x4 : Shape := ⟨2, ![800000, 4]⟩
abbrev S50000x16 : Shape := ⟨2, ![50000, 16]⟩
abbrev S4x64 : Shape := ⟨2, ![4, 64]⟩
abbrev S64 : Shape := ⟨1, ![64]⟩
abbrev S64x64 : Shape := ⟨2, ![64, 64]⟩
abbrev S16x64 : Shape := ⟨2, ![16, 64]⟩
abbrev S192x64 : Shape := ⟨2, ![192, 64]⟩
abbrev S128x64 : Shape := ⟨2, ![128, 64]⟩
abbrev S1x800000 : Shape := ⟨2, ![1, 800000]⟩
abbrev S800000 : Shape := ⟨1, ![800000]⟩
abbrev S50000x64 : Shape := ⟨2, ![50000, 64]⟩
abbrev S5000x16 : Shape := ⟨2, ![5000, 16]⟩
abbrev S5000x64 : Shape := ⟨2, ![5000, 64]⟩
abbrev S1x64 : Shape := ⟨2, ![1, 64]⟩
abbrev S5000 : Shape := ⟨1, ![5000]⟩
abbrev S5000x1 : Shape := ⟨2, ![5000, 1]⟩
abbrev S_ : Shape := ⟨0, ![]⟩
abbrev S800000x1 : Shape := ⟨2, ![800000, 1]⟩
abbrev S800000x64 : Shape := ⟨2, ![800000, 64]⟩
abbrev S2000x4 : Shape := ⟨2, ![2000, 4]⟩
abbrev S2000x64 : Shape := ⟨2, ![2000, 64]⟩
abbrev S2000 : Shape := ⟨1, ![2000]⟩
abbrev S2000x1 : Shape := ⟨2, ![2000, 1]⟩

abbrev nBuf : Space → Nat
  | .hbm => 66
  | .vmem => 49
  | .smem => 0
  | _ => 0

abbrev bufTy : (tb : Table) → Fin (tcTables nBuf tb) → BufTy
  | .hbm, ⟨0, _⟩ => ⟨S2x800000, .i32⟩
  | .hbm, ⟨1, _⟩ => ⟨S800000x4, .f32⟩
  | .hbm, ⟨2, _⟩ => ⟨S50000x16, .f32⟩
  | .hbm, ⟨3, _⟩ => ⟨S4x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S16x64, .f32⟩
  | .hbm, ⟨10, _⟩ => ⟨S64, .f32⟩
  | .hbm, ⟨11, _⟩ => ⟨S64x64, .f32⟩
  | .hbm, ⟨12, _⟩ => ⟨S64, .f32⟩
  | .hbm, ⟨13, _⟩ => ⟨S64, .f32⟩
  | .hbm, ⟨14, _⟩ => ⟨S64, .f32⟩
  | .hbm, ⟨15, _⟩ => ⟨S192x64, .f32⟩
  | .hbm, ⟨16, _⟩ => ⟨S64, .f32⟩
  | .hbm, ⟨17, _⟩ => ⟨S64x64, .f32⟩
  | .hbm, ⟨18, _⟩ => ⟨S64, .f32⟩
  | .hbm, ⟨19, _⟩ => ⟨S64, .f32⟩
  | .hbm, ⟨20, _⟩ => ⟨S64, .f32⟩
  | .hbm, ⟨21, _⟩ => ⟨S128x64, .f32⟩
  | .hbm, ⟨22, _⟩ => ⟨S64, .f32⟩
  | .hbm, ⟨23, _⟩ => ⟨S64x64, .f32⟩
  | .hbm, ⟨24, _⟩ => ⟨S64, .f32⟩
  | .hbm, ⟨25, _⟩ => ⟨S64, .f32⟩
  | .hbm, ⟨26, _⟩ => ⟨S64, .f32⟩
  | .hbm, ⟨27, _⟩ => ⟨S64x64, .f32⟩
  | .hbm, ⟨28, _⟩ => ⟨S64, .f32⟩
  | .hbm, ⟨29, _⟩ => ⟨S64x64, .f32⟩
  | .hbm, ⟨30, _⟩ => ⟨S64, .f32⟩
  | .hbm, ⟨31, _⟩ => ⟨S1x800000, .i32⟩
  | .hbm, ⟨32, _⟩ => ⟨S800000, .i32⟩
  | .hbm, ⟨33, _⟩ => ⟨S1x800000, .i32⟩
  | .hbm, ⟨34, _⟩ => ⟨S800000, .i32⟩
  | .hbm, ⟨35, _⟩ => ⟨S50000x64, .f32⟩
  | .hbm, ⟨36, _⟩ => ⟨S50000x64, .bf16⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x64, .bf16⟩
  | .hbm, ⟨46, _⟩ => ⟨S_, .i32⟩
  | .hbm, ⟨47, _⟩ => ⟨S800000, .i32⟩
  | .hbm, ⟨48, _⟩ => ⟨S800000, .i1⟩
  | .hbm, ⟨49, _⟩ => ⟨S_, .i32⟩
  | .hbm, ⟨50, _⟩ => ⟨S800000, .i32⟩
  | .hbm, ⟨51, _⟩ => ⟨S800000, .i32⟩
  | .hbm, ⟨52, _⟩ => ⟨S800000, .i32⟩
  | .hbm, ⟨53, _⟩ => ⟨S800000x1, .i32⟩
  | .hbm, ⟨54, _⟩ => ⟨S800000x64, .bf16⟩
  | .hbm, ⟨55, _⟩ => ⟨S64x64, .f32⟩
  | .hbm, ⟨56, _⟩ => ⟨S64x64, .f32⟩
  | .hbm, ⟨57, _⟩ => ⟨S64x64, .f32⟩
  | .hbm, ⟨58, _⟩ => ⟨S800000x64, .f32⟩
  | .hbm, ⟨59, _⟩ => ⟨S_, .f32⟩
  | .hbm, ⟨60, _⟩ => ⟨S50000x64, .f32⟩
  | .hbm, ⟨61, _⟩ => ⟨S800000x1, .i32⟩
  | .hbm, ⟨62, _⟩ => ⟨S50000x64, .f32⟩
  | .hbm, ⟨63, _⟩ => ⟨S64x64, .f32⟩
  | .hbm, ⟨64, _⟩ => ⟨S64x64, .f32⟩
  | .hbm, ⟨65, _⟩ => ⟨S50000x64, .f32⟩
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S64, .f32⟩
  | .local _ .vmem, ⟨4, _⟩ => ⟨S64x64, .f32⟩
  | .local _ .vmem, ⟨5, _⟩ => ⟨S64, .f32⟩
  | .local _ .vmem, ⟨6, _⟩ => ⟨S64, .f32⟩
  | .local _ .vmem, ⟨7, _⟩ => ⟨S64, .f32⟩
  | .local _ .vmem, ⟨8, _⟩ => ⟨S5000x64, .f32⟩
  | .local _ .vmem, ⟨9, _⟩ => ⟨S5000x64, .f32⟩
  | .local _ .vmem, ⟨10, _⟩ => ⟨S2000x4, .f32⟩
  | .local _ .vmem, ⟨11, _⟩ => ⟨S2000x4, .f32⟩
  | .local _ .vmem, ⟨12, _⟩ => ⟨S2000x64, .bf16⟩
  | .local _ .vmem, ⟨13, _⟩ => ⟨S2000x64, .bf16⟩
  | .local _ .vmem, ⟨14, _⟩ => ⟨S2000x64, .bf16⟩
  | .local _ .vmem, ⟨15, _⟩ => ⟨S2000x64, .bf16⟩
  | .local _ .vmem, ⟨16, _⟩ => ⟨S4x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64, .f32⟩
  | .local _ .vmem, ⟨21, _⟩ => ⟨S64, .f32⟩
  | .local _ .vmem, ⟨22, _⟩ => ⟨S64x64, .f32⟩
  | .local _ .vmem, ⟨23, _⟩ => ⟨S64x64, .f32⟩
  | .local _ .vmem, ⟨24, _⟩ => ⟨S64x64, .f32⟩
  | .local _ .vmem, ⟨25, _⟩ => ⟨S64, .f32⟩
  | .local _ .vmem, ⟨26, _⟩ => ⟨S64x64, .f32⟩
  | .local _ .vmem, ⟨27, _⟩ => ⟨S64, .f32⟩
  | .local _ .vmem, ⟨28, _⟩ => ⟨S64, .f32⟩
  | .local _ .vmem, ⟨29, _⟩ => ⟨S64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x64, .f32⟩
  | .local _ .vmem, ⟨36, _⟩ => ⟨S64x64, .f32⟩
  | .local _ .vmem, ⟨37, _⟩ => ⟨S64x64, .f32⟩
  | .local _ .vmem, ⟨38, _⟩ => ⟨S64, .f32⟩
  | .local _ .vmem, ⟨39, _⟩ => ⟨S64x64, .f32⟩
  | .local _ .vmem, ⟨40, _⟩ => ⟨S64, .f32⟩
  | .local _ .vmem, ⟨41, _⟩ => ⟨S64, .f32⟩
  | .local _ .vmem, ⟨42, _⟩ => ⟨S64, .f32⟩
  | .local _ .vmem, ⟨43, _⟩ => ⟨S64x64, .f32⟩
  | .local _ .vmem, ⟨44, _⟩ => ⟨S64, .f32⟩
  | .local _ .vmem, ⟨45, _⟩ => ⟨S64x64, .f32⟩
  | .local _ .vmem, ⟨46, _⟩ => ⟨S64, .f32⟩
  | .local _ .vmem, ⟨47, _⟩ => ⟨S2000x64, .f32⟩
  | .local _ .vmem, ⟨48, _⟩ => ⟨S2000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_c : Ref sig .tc := ⟨.hbm, 37, rfl⟩
abbrev main_v6 : Ref sig .tc := ⟨.hbm, 38, rfl⟩
abbrev main_v7 : Ref sig .tc := ⟨.hbm, 39, rfl⟩
abbrev main_c_0 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_c_1 : Ref sig .tc := ⟨.hbm, 46, rfl⟩
abbrev main_v13 : Ref sig .tc := ⟨.hbm, 47, rfl⟩
abbrev main_v14 : Ref sig .tc := ⟨.hbm, 48, rfl⟩
abbrev main_c_2 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_cst : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg8_0 : Ref sig .tc := ⟨.vmem, 21, rfl⟩
abbrev cc1_stg9_0 : Ref sig .tc := ⟨.vmem, 22, rfl⟩
abbrev cc1_stg10_0 : Ref sig .tc := ⟨.vmem, 23, rfl⟩
abbrev cc1_stg11_0 : Ref sig .tc := ⟨.vmem, 24, rfl⟩
abbrev cc1_stg12_0 : Ref sig .tc := ⟨.vmem, 25, rfl⟩
abbrev cc1_stg13_0 : Ref sig .tc := ⟨.vmem, 26, rfl⟩
abbrev cc1_stg14_0 : Ref sig .tc := ⟨.vmem, 27, rfl⟩
abbrev cc1_stg15_0 : Ref sig .tc := ⟨.vmem, 28, rfl⟩
abbrev cc1_stg16_0 : Ref sig .tc := ⟨.vmem, 29, rfl⟩
abbrev cc1_stg17_0 : Ref sig .tc := ⟨.vmem, 30, rfl⟩
abbrev cc1_stg17_1 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg6_0 : Ref sig .tc := ⟨.vmem, 40, rfl⟩
abbrev cc2_stg7_0 : Ref sig .tc := ⟨.vmem, 41, rfl⟩
abbrev cc2_stg8_0 : Ref sig .tc := ⟨.vmem, 42, rfl⟩
abbrev cc2_stg9_0 : Ref sig .tc := ⟨.vmem, 43, rfl⟩
abbrev cc2_stg10_0 : Ref sig .tc := ⟨.vmem, 44, rfl⟩
abbrev cc2_stg11_0 : Ref sig .tc := ⟨.vmem, 45, rfl⟩
abbrev cc2_stg12_0 : Ref sig .tc := ⟨.vmem, 46, rfl⟩
abbrev cc2_stg13_0 : Ref sig .tc := ⟨.vmem, 47, rfl⟩
abbrev cc2_stg13_1 : Ref sig .tc := ⟨.vmem, 48, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem14_0 : DmaSem sig := 27
abbrev cc1_sem15_0 : DmaSem sig := 28
abbrev cc1_sem16_0 : DmaSem sig := 29
abbrev cc1_sem17_0 : DmaSem sig := 30
abbrev cc1_sem17_1 : DmaSem sig := 31
abbrev cc2_sem0_0 : DmaSem sig := 32
abbrev cc2_sem0_1 : DmaSem sig := 33
abbrev cc2_sem1_0 : DmaSem sig := 34
abbrev cc2_sem1_1 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem6_0 : DmaSem sig := 40
abbrev cc2_sem7_0 : DmaSem sig := 41
abbrev cc2_sem8_0 : DmaSem sig := 42
abbrev cc2_sem9_0 : DmaSem sig := 43
abbrev cc2_sem10_0 : DmaSem sig := 44
abbrev cc2_sem11_0 : DmaSem sig := 45
abbrev cc2_sem12_0 : DmaSem sig := 46
abbrev cc2_sem13_0 : DmaSem sig := 47
abbrev cc2_sem13_1 : DmaSem sig := 48

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![400], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_15 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_16 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x4 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S64x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S64x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 1 → Memref sig .tc .vmem S64x64 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S64 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev stage1_15 : Fin 1 → Memref sig .tc .vmem S64 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false]

abbrev stage1_16 : Fin 1 → Memref sig .tc .vmem S64 .f32 := fun | 0 => Memref.whole cc1_stg16_0 | ⟨_ + 1, h⟩ => absurd h (Nat.not_lt.2 (Nat.le_add_left _ _))
abbrev sem1_16 : Fin 1 → DmaSem sig := fun | 0 => cc1_sem16_0 | ⟨_ + 1, h⟩ => absurd h (Nat.not_lt.2 (Nat.le_add_left _ _))
abbrev reads1_16 : Fin grid1.rank → Bool := ![false]

abbrev stage1_17 : Fin 2 → Memref sig .tc .vmem S2000x64 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_7 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_11 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_13 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S64 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S64 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S64x64 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S64 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 1 → Memref sig .tc .vmem S64x64 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false]

abbrev stage2_12 : Fin 1 → Memref sig .tc .vmem S64 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false]

abbrev stage2_13 : Fin 2 → Memref sig .tc .vmem S2000x64 .f32 := fun | 0 => Memref.whole cc2_stg13_0 | 1 => Memref.whole cc2_stg13_1 | ⟨_ + 2, h⟩ => absurd h (Nat.not_lt.2 (Nat.le_add_left _ _))
abbrev sem2_13 : Fin 2 → DmaSem sig := fun | 0 => cc2_sem13_0 | 1 => cc2_sem13_1 | ⟨_ + 2, h⟩ => absurd h (Nat.not_lt.2 (Nat.le_add_left _ _))
abbrev reads2_13 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S64_S64_0 : ∀ a, (![0] : Fin 1 → Nat) a + S64.size a ≤ S64.size a
  h_S64 : 0 < S64.numel
  shapeCasts_S64_S1x64 : S64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  reduces_S5000x64_S5000 : S5000x64.Reduces [1] S5000
  shapeCasts_S5000_S5000x1 : S5000.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S800000 : S_.BroadcastsInDim S800000 (![] : Fin 0 → Fin S800000.rank)
  bcast_S800000_S800000x1_0 : S800000.BroadcastsInDim S800000x1 (![0] : Fin 1 → Fin S800000x1.rank)
  slices_S192x64_S64x64_0_0 : S192x64.Slices ![0, 0] S64x64
  slices_S192x64_S64x64_64_0 : S192x64.Slices ![64, 0] S64x64
  slices_S192x64_S64x64_128_0 : S192x64.Slices ![128, 0] S64x64
  inb_S2000x4_S2000x4_0_0 : ∀ a, (![0, 0] : Fin 2 → Nat) a + S2000x4.size a ≤ S2000x4.size a
  h_S2000x4 : 0 < S2000x4.numel
  inb_S4x64_S4x64_0_0 : ∀ a, (![0, 0] : Fin 2 → Nat) a + S4x64.size a ≤ S4x64.size a
  h_S4x64 : 0 < S4x64.numel
  broadcasts_S1x64_S2000x64 : S1x64.Broadcasts S2000x64
  reduces_S2000x64_S2000 : S2000x64.Reduces [1] S2000
  shapeCasts_S2000_S2000x1 : S2000.ShapeCasts S2000x1
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  shapeCasts_S64x64_S64x64 : S64x64.ShapeCasts S64x64
  bcast_S_S50000x64 : S_.BroadcastsInDim S50000x64 (![] : Fin 0 → Fin S50000x64.rank)
  slices_S128x64_S64x64_0_0 : S128x64.Slices ![0, 0] S64x64
  slices_S128x64_S64x64_64_0 : S128x64.Slices ![64, 0] S64x64
  dot_S5000x16_S16x64_S5000x64_1_0_0_1_n_n_wf : DotDims.WF S5000x16 S16x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S2000x4_S4x64_S2000x64_1_0_0_1_n_n_wf : DotDims.WF S2000x4 S4x64 S2000x64 [1] [0] [0] [1] [] []
  dot_S2000x64_S64x64_S2000x64_1_0_0_1_n_n_wf : DotDims.WF S2000x64 S64x64 S2000x64 [1] [0] [0] [1] [] []
  scatter_S50000x64_S800000x1_S800000x64_1_0_0_1_wf : ScatterDims.WF S50000x64 S800000x1 S800000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64.size a ≤ S64.size a
  hwx0_2 : ∀ i : grid0.Coords, EltTy.bits .f32 = 32 ∨ (Rect.block (s := S64) S64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64.size a ≤ S64.size a
  hwx0_6 : ∀ i : grid0.Coords, EltTy.bits .f32 = 32 ∨ (Rect.block (s := S64) S64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x4.size a ≤ S800000x4.size a
  hwx1_0 : ∀ i : grid1.Coords, EltTy.bits .f32 = 32 ∨ (Rect.block (s := S800000x4) S2000x4.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S800000x64.size a
  hwx1_1 : ∀ i : grid1.Coords, EltTy.bits .bf16 = 32 ∨ (Rect.block (s := S800000x64) S2000x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S800000x64.size a
  hwx1_2 : ∀ i : grid1.Coords, EltTy.bits .bf16 = 32 ∨ (Rect.block (s := S800000x64) S2000x64.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S4x64.size a ≤ S4x64.size a
  hwx1_3 : ∀ i : grid1.Coords, EltTy.bits .f32 = 32 ∨ (Rect.block (s := S4x64) S4x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64.size a ≤ S64.size a
  hwx1_7 : ∀ i : grid1.Coords, EltTy.bits .f32 = 32 ∨ (Rect.block (s := S64) S64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S64x64.size a ≤ S64x64.size a
  hwx1_9 : ∀ i : grid1.Coords, EltTy.bits .f32 = 32 ∨ (Rect.block (s := S64x64) S64x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S64x64.size a ≤ S64x64.size a
  hwx1_11 : ∀ i : grid1.Coords, EltTy.bits .f32 = 32 ∨ (Rect.block (s := S64x64) S64x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64.size a ≤ S64.size a
  hwx1_12 : ∀ i : grid1.Coords, EltTy.bits .f32 = 32 ∨ (Rect.block (s := S64) S64.size (cc1_transform_12 i) (hinb1_12 i)).WholeWords (EltTy.packing .f32)
  hstage1_13 : ∀ j, (stage1_13 j).IsWhole
  nbuf1_13 : grid1.bufCount reads1_13 true = 1
  hreads1_13 : ∀ i i' : grid1.Coords, (∀ a, reads1_13 a = true → i a = i' a) → cc1_transform_13 i = cc1_transform_13 i'
  hinb1_13 : ∀ (i : grid1.Coords) a, (cc1_transform_13 i a + 1) * S64x64.size a ≤ S64x64.size a
  hwx1_13 : ∀ i : grid1.Coords, EltTy.bits .f32 = 32 ∨ (Rect.block (s := S64x64) S64x64.size (cc1_transform_13 i) (hinb1_13 i)).WholeWords (EltTy.packing .f32)
  hstage1_14 : ∀ j, (stage1_14 j).IsWhole
  nbuf1_14 : grid1.bufCount reads1_14 true = 1
  hreads1_14 : ∀ i i' : grid1.Coords, (∀ a, reads1_14 a = true → i a = i' a) → cc1_transform_14 i = cc1_transform_14 i'
  hinb1_14 : ∀ (i : grid1.Coords) a, (cc1_transform_14 i a + 1) * S64.size a ≤ S64.size a
  hwx1_14 : ∀ i : grid1.Coords, EltTy.bits .f32 = 32 ∨ (Rect.block (s := S64) S64.size (cc1_transform_14 i) (hinb1_14 i)).WholeWords (EltTy.packing .f32)
  hstage1_15 : ∀ j, (stage1_15 j).IsWhole
  nbuf1_15 : grid1.bufCount reads1_15 true = 1
  hreads1_15 : ∀ i i' : grid1.Coords, (∀ a, reads1_15 a = true → i a = i' a) → cc1_transform_15 i = cc1_transform_15 i'
  hinb1_15 : ∀ (i : grid1.Coords) a, (cc1_transform_15 i a + 1) * S64.size a ≤ S64.size a
  hwx1_15 : ∀ i : grid1.Coords, EltTy.bits .f32 = 32 ∨ (Rect.block (s := S64) S64.size (cc1_transform_15 i) (hinb1_15 i)).WholeWords (EltTy.packing .f32)
  hstage1_16 : ∀ j, (stage1_16 j).IsWhole
  nbuf1_16 : grid1.bufCount reads1_16 true = 1
  hreads1_16 : ∀ i i' : grid1.Coords, (∀ a, reads1_16 a = true → i a = i' a) → cc1_transform_16 i = cc1_transform_16 i'
  hinb1_16 : ∀ (i : grid1.Coords) a, (cc1_transform_16 i a + 1) * S64.size a ≤ S64.size a
  hwx1_16 : ∀ i : grid1.Coords, EltTy.bits .f32 = 32 ∨ (Rect.block (s := S64) S64.size (cc1_transform_16 i) (hinb1_16 i)).WholeWords (EltTy.packing .f32)
  hstage1_17 : ∀ j, (stage1_17 j).IsWhole
  nbuf1_17 : grid1.bufCount reads1_17 false = 2
  hreads1_17 : ∀ i i' : grid1.Coords, (∀ a, reads1_17 a = true → i a = i' a) → cc1_transform_17 i = cc1_transform_17 i'
  hinb1_17 : ∀ (i : grid1.Coords) a, (cc1_transform_17 i a + 1) * S2000x64.size a ≤ S800000x64.size a
  hwx1_17 : ∀ i : grid1.Coords, EltTy.bits .f32 = 32 ∨ (Rect.block (s := S800000x64) S2000x64.size (cc1_transform_17 i) (hinb1_17 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S64.size a ≤ S64.size a
  hwx2_6 : ∀ i : grid2.Coords, EltTy.bits .f32 = 32 ∨ (Rect.block (s := S64) S64.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S64.size a ≤ S64.size a
  hwx2_7 : ∀ i : grid2.Coords, EltTy.bits .f32 = 32 ∨ (Rect.block (s := S64) S64.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S64.size a ≤ S64.size a
  hwx2_8 : ∀ i : grid2.Coords, EltTy.bits .f32 = 32 ∨ (Rect.block (s := S64) S64.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S64x64.size a ≤ S64x64.size a
  hwx2_9 : ∀ i : grid2.Coords, EltTy.bits .f32 = 32 ∨ (Rect.block (s := S64x64) S64x64.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S64.size a ≤ S64.size a
  hwx2_10 : ∀ i : grid2.Coords, EltTy.bits .f32 = 32 ∨ (Rect.block (s := S64) S64.size (cc2_transform_10 i) (hinb2_10 i)).WholeWords (EltTy.packing .f32)
  hstage2_11 : ∀ j, (stage2_11 j).IsWhole
  nbuf2_11 : grid2.bufCount reads2_11 true = 1
  hreads2_11 : ∀ i i' : grid2.Coords, (∀ a, reads2_11 a = true → i a = i' a) → cc2_transform_11 i = cc2_transform_11 i'
  hinb2_11 : ∀ (i : grid2.Coords) a, (cc2_transform_11 i a + 1) * S64x64.size a ≤ S64x64.size a
  hwx2_11 : ∀ i : grid2.Coords, EltTy.bits .f32 = 32 ∨ (Rect.block (s := S64x64) S64x64.size (cc2_transform_11 i) (hinb2_11 i)).WholeWords (EltTy.packing .f32)
  hstage2_12 : ∀ j, (stage2_12 j).IsWhole
  nbuf2_12 : grid2.bufCount reads2_12 true = 1
  hreads2_12 : ∀ i i' : grid2.Coords, (∀ a, reads2_12 a = true → i a = i' a) → cc2_transform_12 i = cc2_transform_12 i'
  hinb2_12 : ∀ (i : grid2.Coords) a, (cc2_transform_12 i a + 1) * S64.size a ≤ S64.size a
  hwx2_12 : ∀ i : grid2.Coords, EltTy.bits .f32 = 32 ∨ (Rect.block (s := S64) S64.size (cc2_transform_12 i) (hinb2_12 i)).WholeWords (EltTy.packing .f32)
  hstage2_13 : ∀ j, (stage2_13 j).IsWhole
  nbuf2_13 : grid2.bufCount reads2_13 false = 2
  hreads2_13 : ∀ i i' : grid2.Coords, (∀ a, reads2_13 a = true → i a = i' a) → cc2_transform_13 i = cc2_transform_13 i'
  hinb2_13 : ∀ (i : grid2.Coords) a, (cc2_transform_13 i a + 1) * S2000x64.size a ≤ S50000x64.size a
  hwx2_13 : ∀ i : grid2.Coords, EltTy.bits .f32 = 32 ∨ (Rect.block (s := S50000x64) S2000x64.size (cc2_transform_13 i) (hinb2_13 i)).WholeWords (EltTy.packing .f32)

variable [Facts₀]

def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S2000x4_S4x64_S2000x64_1_0_0_1_n_n : DotDims S2000x4 S4x64 S2000x64 where
  lhsContracting := [1]
  rhsContracting := [0]
  lhsNonContracting := [0]
  rhsNonContracting := [1]
  lhsBatch := []
  rhsBatch := []
  wf := dot_S2000x4_S4x64_S2000x64_1_0_0_1_n_n_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

abbrev win0_0 : Pipeline.Window sig grid0 :=
  Pipeline.Window.ofSpec (Memref.whole main_arg2) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg10) S64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg11) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg12) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg13) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg14) S64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S2000x4.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S4x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg7) S64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg8) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v20) S64x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v21) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v22) S64x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg16) S64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_arg17) S64x64.size cc1_transform_13 reads1_13 false true 1 stage1_13 sem1_13
    hrank1 hreads1_13 hinb1_13 nbuf1_13 (Memref.isWhole_whole _) hwx1_13 hstage1_13

abbrev win1_14 : Pipeline.Window sig grid1 :=
  Pipeline.Window.ofSpec (Memref.whole main_arg18) S64.size cc1_transform_14 reads1_14 false true 1 stage1_14 sem1_14
    hrank1 hreads1_14 hinb1_14 nbuf1_14 (Memref.isWhole_whole _) hwx1_14 hstage1_14

abbrev win1_15 : Pipeline.Window sig grid1 :=
  Pipeline.Window.ofSpec (Memref.whole main_arg19) S64.size cc1_transform_15 reads1_15 false true 1 stage1_15 sem1_15
    hrank1 hreads1_15 hinb1_15 nbuf1_15 (Memref.isWhole_whole _) hwx1_15 hstage1_15

abbrev win1_16 : Pipeline.Window sig grid1 :=
  Pipeline.Window.ofSpec (Memref.whole main_arg20) S64.size cc1_transform_16 reads1_16 false true 1 stage1_16 sem1_16
    hrank1 hreads1_16 hinb1_16 nbuf1_16 (Memref.isWhole_whole _) hwx1_16 hstage1_16

abbrev win1_17 : Pipeline.Window sig grid1 :=
  Pipeline.Window.ofSpec (Memref.whole main_v23) S2000x64.size cc1_transform_17 reads1_17 true false 2 stage1_17 sem1_17
    hrank1 hreads1_17 hinb1_17 nbuf1_17 (Memref.isWhole_whole _) hwx1_17 hstage1_17

abbrev win1 : Fin 18 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | 16 => win1_16 | 17 => win1_17 | ⟨_ + 18, h⟩ => absurd h (Nat.not_lt.2 (Nat.le_add_left _ _))
abbrev spec1 : Fin 18 → Pipeline.WinSpec sig grid1.rank := fun w => (win1 w).toWinSpec

abbrev win2_0 : Pipeline.Window sig grid2 :=
  Pipeline.Window.ofSpec (Memref.whole main_v4) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v27) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg22) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg23) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg24) S64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg25) S64.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg26) S64.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg27) S64x64.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg28) S64.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_arg29) S64x64.size cc2_transform_11 reads2_11 false true 1 stage2_11 sem2_11
    hrank2 hreads2_11 hinb2_11 nbuf2_11 (Memref.isWhole_whole _) hwx2_11 hstage2_11

abbrev win2_12 : Pipeline.Window sig grid2 :=
  Pipeline.Window.ofSpec (Memref.whole main_arg30) S64.size cc2_transform_12 reads2_12 false true 1 stage2_12 sem2_12
    hrank2 hreads2_12 hinb2_12 nbuf2_12 (Memref.isWhole_whole _) hwx2_12 hstage2_12

abbrev win2_13 : Pipeline.Window sig grid2 :=
  Pipeline.Window.ofSpec (Memref.whole main_v29) S2000x64.size cc2_transform_13 reads2_13 true false 2 stage2_13 sem2_13
    hrank2 hreads2_13 hinb2_13 nbuf2_13 (Memref.isWhole_whole _) hwx2_13 hstage2_13

abbrev win2 : Fin 14 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | 12 => win2_12 | 13 => win2_13 | ⟨_ + 14, h⟩ => absurd h (Nat.not_lt.2 (Nat.le_add_left _ _))
abbrev spec2 : Fin 14 → Pipeline.WinSpec sig grid2.rank := fun w => (win2 w).toWinSpec

class Facts : Prop extends Facts₀ where

variable [Facts]
-- ==== ReferenceIdeal.lean ====
abbrev S2x800000 : Shape := ⟨2, ![2, 800000]⟩
abbrev S800000x4 : Shape := ⟨2, ![800000, 4]⟩
abbrev S50000x16 : Shape := ⟨2, ![50000, 16]⟩
abbrev S4x64 : Shape := ⟨2, ![4, 64]⟩
abbrev S64 : Shape := ⟨1, ![64]⟩
abbrev S64x64 : Shape := ⟨2, ![64, 64]⟩
abbrev S16x64 : Shape := ⟨2, ![16, 64]⟩
abbrev S192x64 : Shape := ⟨2, ![192, 64]⟩
abbrev S128x64 : Shape := ⟨2, ![128, 64]⟩
abbrev S1x800000 : Shape := ⟨2, ![1, 800000]⟩
abbrev S800000 : Shape := ⟨1, ![800000]⟩
abbrev S800000x64 : Shape := ⟨2, ![800000, 64]⟩
abbrev S1x64 : Shape := ⟨2, ![1, 64]⟩
abbrev S_ : Shape := ⟨0, ![]⟩
abbrev S800000x1 : Shape := ⟨2, ![800000, 1]⟩
abbrev S50000x64 : Shape := ⟨2, ![50000, 64]⟩
abbrev S50000 : Shape := ⟨1, ![50000]⟩
abbrev S50000x1 : Shape := ⟨2, ![50000, 1]⟩
abbrev S800000x192 : Shape := ⟨2, ![800000, 192]⟩
abbrev S50000x128 : Shape := ⟨2, ![50000, 128]⟩

abbrev nBuf : Space → Nat
  | .hbm => 321
  | .vmem => 0
  | .smem => 0
  | _ => 0

abbrev hbmTy0_0 (i : Nat) : BufTy := match i % 128 with
  | 0 => ⟨S2x800000, .i32⟩
  | 1 => ⟨S800000x4, .f32⟩
  | 2 => ⟨S50000x16, .f32⟩
  | 3 => ⟨S4x64, .f32⟩
  | 4 => ⟨S64, .f32⟩
  | 5 => ⟨S64x64, .f32⟩
  | 6 => ⟨S64, .f32⟩
  | 7 => ⟨S64, .f32⟩
  | 8 => ⟨S64, .f32⟩
  | 9 => ⟨S16x64, .f32⟩
  | 10 => ⟨S64, .f32⟩
  | 11 => ⟨S64x64, .f32⟩
  | 12 => ⟨S64, .f32⟩
  | 13 => ⟨S64, .f32⟩
  | 14 => ⟨S64, .f32⟩
  | 15 => ⟨S192x64, .f32⟩
  | 16 => ⟨S64, .f32⟩
  | 17 => ⟨S64x64, .f32⟩
  | 18 => ⟨S64, .f32⟩
  | 19 => ⟨S64, .f32⟩
  | 20 => ⟨S64, .f32⟩
  | 21 => ⟨S128x64, .f32⟩
  | 22 => ⟨S64, .f32⟩
  | 23 => ⟨S64x64, .f32⟩
  | 24 => ⟨S64, .f32⟩
  | 25 => ⟨S64, .f32⟩
  | 26 => ⟨S64, .f32⟩
  | 27 => ⟨S64x64, .f32⟩
  | 28 => ⟨S64, .f32⟩
  | 29 => ⟨S64x64, .f32⟩
  | 30 => ⟨S64, .f32⟩
  | 31 => ⟨S1x800000, .i32⟩
  | 32 => ⟨S800000, .i32⟩
  | 33 => ⟨S1x800000, .i32⟩
  | 34 => ⟨S800000, .i32⟩
  | 35 => ⟨S800000x64, .f32⟩
  | 36 => ⟨S1x64, .f32⟩
  | 37 => ⟨S800000x64, .f32⟩
  | 38 => ⟨S800000x64, .f32⟩
  | 39 => ⟨S800000x64, .f32⟩
  | 40 => ⟨S800000x64, .f32⟩
  | 41 => ⟨S_, .f32⟩
  | 42 => ⟨S800000x64, .f32⟩
  | 43 => ⟨S800000x64, .f32⟩
  | 44 => ⟨S_, .f32⟩
  | 45 => ⟨S800000x64, .f32⟩
  | 46 => ⟨S800000x64, .f32⟩
  | 47 => ⟨S800000x64, .f32⟩
  | 48 => ⟨S800000x64, .f32⟩
  | 49 => ⟨S1x64, .f32⟩
  | 50 => ⟨S800000x64, .f32⟩
  | 51 => ⟨S800000x64, .f32⟩
  | 52 => ⟨S_, .f32⟩
  | 53 => ⟨S800000, .f32⟩
  | 54 => ⟨S800000x1, .f32⟩
  | 55 => ⟨S_, .f32⟩
  | 56 => ⟨S800000x1, .f32⟩
  | 57 => ⟨S800000x1, .f32⟩
  | 58 => ⟨S_, .i32⟩
  | 59 => ⟨S_, .f32⟩
  | 60 => ⟨S800000, .f32⟩
  | 61 => ⟨S800000x1, .f32⟩
  | 62 => ⟨S_, .f32⟩
  | 63 => ⟨S800000x1, .f32⟩
  | 64 => ⟨S800000x1, .f32⟩
  | 65 => ⟨S800000x64, .f32⟩
  | 66 => ⟨S800000x64, .f32⟩
  | 67 => ⟨S800000x64, .f32⟩
  | 68 => ⟨S_, .f32⟩
  | 69 => ⟨S_, .f32⟩
  | 70 => ⟨S_, .f32⟩
  | 71 => ⟨S_, .f32⟩
  | 72 => ⟨S800000, .f32⟩
  | 73 => ⟨S800000x1, .f32⟩
  | 74 => ⟨S800000x1, .f32⟩
  | 75 => ⟨S800000x1, .f32⟩
  | 76 => ⟨S_, .f32⟩
  | 77 => ⟨S_, .i1⟩
  | 78 => ⟨S_, .f32⟩
  | 79 => ⟨S_, .f32⟩
  | 80 => ⟨S800000x1, .f32⟩
  | 81 => ⟨S800000x1, .f32⟩
  | 82 => ⟨S800000x64, .f32⟩
  | 83 => ⟨S800000x64, .f32⟩
  | 84 => ⟨S_, .f32⟩
  | 85 => ⟨S800000x1, .f32⟩
  | 86 => ⟨S800000x1, .f32⟩
  | 87 => ⟨S800000x1, .f32⟩
  | 88 => ⟨S800000x64, .f32⟩
  | 89 => ⟨S800000x64, .f32⟩
  | 90 => ⟨S1x64, .f32⟩
  | 91 => ⟨S800000x64, .f32⟩
  | 92 => ⟨S800000x64, .f32⟩
  | 93 => ⟨S1x64, .f32⟩
  | 94 => ⟨S800000x64, .f32⟩
  | 95 => ⟨S800000x64, .f32⟩
  | 96 => ⟨S50000x64, .f32⟩
  | 97 => ⟨S1x64, .f32⟩
  | 98 => ⟨S50000x64, .f32⟩
  | 99 => ⟨S50000x64, .f32⟩
  | 100 => ⟨S50000x64, .f32⟩
  | 101 => ⟨S50000x64, .f32⟩
  | 102 => ⟨S_, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S50000x64, .f32⟩
  | 109 => ⟨S50000x64, .f32⟩
  | 110 => ⟨S1x64, .f32⟩
  | 111 => ⟨S50000x64, .f32⟩
  | 112 => ⟨S50000x64, .f32⟩
  | 113 => ⟨S_, .f32⟩
  | 114 => ⟨S50000, .f32⟩
  | 115 => ⟨S50000x1, .f32⟩
  | 116 => ⟨S_, .f32⟩
  | 117 => ⟨S50000x1, .f32⟩
  | 118 => ⟨S50000x1, .f32⟩
  | 119 => ⟨S_, .i32⟩
  | 120 => ⟨S_, .f32⟩
  | 121 => ⟨S50000, .f32⟩
  | 122 => ⟨S50000x1, .f32⟩
  | 123 => ⟨S_, .f32⟩
  | 124 => ⟨S50000x1, .f32⟩
  | 125 => ⟨S50000x1, .f32⟩
  | 126 => ⟨S50000x64, .f32⟩
  | 127 => ⟨S50000x64, .f32⟩
  | _ => ⟨S2x800000, .i32⟩

abbrev hbmTy0_1 (i : Nat) : BufTy := match i % 128 with
  | 0 => ⟨S50000x64, .f32⟩
  | 1 => ⟨S_, .f32⟩
  | 2 => ⟨S_, .f32⟩
  | 3 => ⟨S_, .f32⟩
  | 4 => ⟨S_, .f32⟩
  | 5 => ⟨S50000, .f32⟩
  | 6 => ⟨S50000x1, .f32⟩
  | 7 => ⟨S50000x1, .f32⟩
  | 8 => ⟨S50000x1, .f32⟩
  | 9 => ⟨S_, .f32⟩
  | 10 => ⟨S_, .i1⟩
  | 11 => ⟨S_, .f32⟩
  | 12 => ⟨S_, .f32⟩
  | 13 => ⟨S50000x1, .f32⟩
  | 14 => ⟨S50000x1, .f32⟩
  | 15 => ⟨S50000x64, .f32⟩
  | 16 => ⟨S50000x64, .f32⟩
  | 17 => ⟨S_, .f32⟩
  | 18 => ⟨S50000x1, .f32⟩
  | 19 => ⟨S50000x1, .f32⟩
  | 20 => ⟨S50000x1, .f32⟩
  | 21 => ⟨S50000x64, .f32⟩
  | 22 => ⟨S50000x64, .f32⟩
  | 23 => ⟨S1x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x64, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x64, .f32⟩
  | 47 => ⟨S800000x192, .f32⟩
  | 48 => ⟨S800000x64, .f32⟩
  | 49 => ⟨S1x64, .f32⟩
  | 50 => ⟨S800000x64, .f32⟩
  | 51 => ⟨S800000x64, .f32⟩
  | 52 => ⟨S800000x64, .f32⟩
  | 53 => ⟨S800000x64, .f32⟩
  | 54 => ⟨S_, .f32⟩
  | 55 => ⟨S800000x64, .f32⟩
  | 56 => ⟨S800000x64, .f32⟩
  | 57 => ⟨S_, .f32⟩
  | 58 => ⟨S800000x64, .f32⟩
  | 59 => ⟨S800000x64, .f32⟩
  | 60 => ⟨S800000x64, .f32⟩
  | 61 => ⟨S800000x64, .f32⟩
  | 62 => ⟨S1x64, .f32⟩
  | 63 => ⟨S800000x64, .f32⟩
  | 64 => ⟨S800000x64, .f32⟩
  | 65 => ⟨S_, .f32⟩
  | 66 => ⟨S800000, .f32⟩
  | 67 => ⟨S800000x1, .f32⟩
  | 68 => ⟨S_, .f32⟩
  | 69 => ⟨S800000x1, .f32⟩
  | 70 => ⟨S800000x1, .f32⟩
  | 71 => ⟨S_, .i32⟩
  | 72 => ⟨S_, .f32⟩
  | 73 => ⟨S800000, .f32⟩
  | 74 => ⟨S800000x1, .f32⟩
  | 75 => ⟨S_, .f32⟩
  | 76 => ⟨S800000x1, .f32⟩
  | 77 => ⟨S800000x1, .f32⟩
  | 78 => ⟨S800000x64, .f32⟩
  | 79 => ⟨S800000x64, .f32⟩
  | 80 => ⟨S800000x64, .f32⟩
  | 81 => ⟨S_, .f32⟩
  | 82 => ⟨S_, .f32⟩
  | 83 => ⟨S_, .f32⟩
  | 84 => ⟨S_, .f32⟩
  | 85 => ⟨S800000, .f32⟩
  | 86 => ⟨S800000x1, .f32⟩
  | 87 => ⟨S800000x1, .f32⟩
  | 88 => ⟨S800000x1, .f32⟩
  | 89 => ⟨S_, .f32⟩
  | 90 => ⟨S_, .i1⟩
  | 91 => ⟨S_, .f32⟩
  | 92 => ⟨S_, .f32⟩
  | 93 => ⟨S800000x1, .f32⟩
  | 94 => ⟨S800000x1, .f32⟩
  | 95 => ⟨S800000x64, .f32⟩
  | 96 => ⟨S800000x64, .f32⟩
  | 97 => ⟨S_, .f32⟩
  | 98 => ⟨S800000x1, .f32⟩
  | 99 => ⟨S800000x1, .f32⟩
  | 100 => ⟨S800000x1, .f32⟩
  | 101 => ⟨S800000x64, .f32⟩
  | 102 => ⟨S800000x64, .f32⟩
  | 103 => ⟨S1x64, .f32⟩
  | 104 => ⟨S800000x64, .f32⟩
  | 105 => ⟨S800000x64, .f32⟩
  | 106 => ⟨S1x64, .f32⟩
  | 107 => ⟨S800000x64, .f32⟩
  | 108 => ⟨S800000x64, .f32⟩
  | 109 => ⟨S_, .f32⟩
  | 110 => ⟨S50000x64, .f32⟩
  | 111 => ⟨S800000x1, .i32⟩
  | 112 => ⟨S50000x64, .f32⟩
  | 113 => ⟨S50000x128, .f32⟩
  | 114 => ⟨S50000x64, .f32⟩
  | 115 => ⟨S1x64, .f32⟩
  | 116 => ⟨S50000x64, .f32⟩
  | 117 => ⟨S50000x64, .f32⟩
  | 118 => ⟨S50000x64, .f32⟩
  | 119 => ⟨S50000x64, .f32⟩
  | 120 => ⟨S_, .f32⟩
  | 121 => ⟨S50000x64, .f32⟩
  | 122 => ⟨S50000x64, .f32⟩
  | 123 => ⟨S_, .f32⟩
  | 124 => ⟨S50000x64, .f32⟩
  | 125 => ⟨S50000x64, .f32⟩
  | 126 => ⟨S50000x64, .f32⟩
  | 127 => ⟨S50000x64, .f32⟩
  | _ => ⟨S2x800000, .i32⟩

abbrev hbmTy0_2 (i : Nat) : BufTy := match i % 128 with
  | 0 => ⟨S1x64, .f32⟩
  | 1 => ⟨S50000x64, .f32⟩
  | 2 => ⟨S50000x64, .f32⟩
  | 3 => ⟨S_, .f32⟩
  | 4 => ⟨S50000, .f32⟩
  | 5 => ⟨S50000x1, .f32⟩
  | 6 => ⟨S_, .f32⟩
  | 7 => ⟨S50000x1, .f32⟩
  | 8 => ⟨S50000x1, .f32⟩
  | 9 => ⟨S_, .i32⟩
  | 10 => ⟨S_, .f32⟩
  | 11 => ⟨S50000, .f32⟩
  | 12 => ⟨S50000x1, .f32⟩
  | 13 => ⟨S_, .f32⟩
  | 14 => ⟨S50000x1, .f32⟩
  | 15 => ⟨S50000x1, .f32⟩
  | 16 => ⟨S50000x64, .f32⟩
  | 17 => ⟨S50000x64, .f32⟩
  | 18 => ⟨S50000x64, .f32⟩
  | 19 => ⟨S_, .f32⟩
  | 20 => ⟨S_, .f32⟩
  | 21 => ⟨S_, .f32⟩
  | 22 => ⟨S_, .f32⟩
  | 23 => ⟨S50000, .f32⟩
  | 24 => ⟨S50000x1, .f32⟩
  | 25 => ⟨S50000x1, .f32⟩
  | 26 => ⟨S50000x1, .f32⟩
  | 27 => ⟨S_, .f32⟩
  | 28 => ⟨S_, .i1⟩
  | 29 => ⟨S_, .f32⟩
  | 30 => ⟨S_, .f32⟩
  | 31 => ⟨S50000x1, .f32⟩
  | 32 => ⟨S50000x1, .f32⟩
  | 33 => ⟨S50000x64, .f32⟩
  | 34 => ⟨S50000x64, .f32⟩
  | 35 => ⟨S_, .f32⟩
  | 36 => ⟨S50000x1, .f32⟩
  | 37 => ⟨S50000x1, .f32⟩
  | 38 => ⟨S50000x1, .f32⟩
  | 39 => ⟨S50000x64, .f32⟩
  | 40 => ⟨S50000x64, .f32⟩
  | 41 => ⟨S1x64, .f32⟩
  | 42 => ⟨S50000x64, .f32⟩
  | 43 => ⟨S50000x64, .f32⟩
  | 44 => ⟨S1x64, .f32⟩
  | 45 => ⟨S50000x64, .f32⟩
  | 46 => ⟨S50000x64, .f32⟩
  | 47 => ⟨S50000x64, .f32⟩
  | 48 => ⟨S50000x64, .f32⟩
  | 49 => ⟨S1x64, .f32⟩
  | 50 => ⟨S50000x64, .f32⟩
  | 51 => ⟨S50000x64, .f32⟩
  | 52 => ⟨S50000x64, .f32⟩
  | 53 => ⟨S50000x64, .f32⟩
  | 54 => ⟨S_, .f32⟩
  | 55 => ⟨S50000x64, .f32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S50000x64, .f32⟩
  | 62 => ⟨S1x64, .f32⟩
  | 63 => ⟨S50000x64, .f32⟩
  | 64 => ⟨S50000x64, .f32⟩
  | _ => ⟨S2x800000, .i32⟩

abbrev hbmTy (i : Nat) : BufTy := match i / 128 with
  | 0 => hbmTy0_0 i
  | 1 => hbmTy0_1 i
  | 2 => hbmTy0_2 i
  | _ => ⟨S2x800000, .i32⟩

abbrev bufTy : (tb : Table) → Fin (tcTables nBuf tb) → BufTy
  | .hbm, ⟨i, _⟩ => hbmTy i
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_cst : Ref sig .tc := ⟨.hbm, 41, rfl⟩
abbrev main_v10 : Ref sig .tc := ⟨.hbm, 42, rfl⟩
abbrev main_v11 : Ref sig .tc := ⟨.hbm, 43, rfl⟩
abbrev main_cst_0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst_1 : Ref sig .tc := ⟨.hbm, 52, rfl⟩
abbrev main_v19 : Ref sig .tc := ⟨.hbm, 53, rfl⟩
abbrev main_v20 : Ref sig .tc := ⟨.hbm, 54, rfl⟩
abbrev main_cst_2 : Ref sig .tc := ⟨.hbm, 55, rfl⟩
abbrev main_v21 : Ref sig .tc := ⟨.hbm, 56, rfl⟩
abbrev main_v22 : Ref sig .tc := ⟨.hbm, 57, rfl⟩
abbrev main_c : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_v4 : Ref sig .tc := ⟨.hbm, 65, rfl⟩
abbrev main_call0_v5 : Ref sig .tc := ⟨.hbm, 66, rfl⟩
abbrev main_call0_v6 : Ref sig .tc := ⟨.hbm, 67, rfl⟩
abbrev main_call0_v7 : Ref sig .tc := ⟨.hbm, 68, rfl⟩
abbrev main_call0_cst_1 : Ref sig .tc := ⟨.hbm, 69, rfl⟩
abbrev main_call0_v8 : Ref sig .tc := ⟨.hbm, 70, rfl⟩
abbrev main_call0_cst_2 : Ref sig .tc := ⟨.hbm, 71, rfl⟩
abbrev main_call0_v9 : Ref sig .tc := ⟨.hbm, 72, rfl⟩
abbrev main_call0_v10 : Ref sig .tc := ⟨.hbm, 73, rfl⟩
abbrev main_call0_v11 : Ref sig .tc := ⟨.hbm, 74, rfl⟩
abbrev main_call0_v12 : Ref sig .tc := ⟨.hbm, 75, rfl⟩
abbrev main_call0_cst_3 : Ref sig .tc := ⟨.hbm, 76, rfl⟩
abbrev main_call0_v13 : Ref sig .tc := ⟨.hbm, 77, rfl⟩
abbrev main_call0_cst_4 : Ref sig .tc := ⟨.hbm, 78, rfl⟩
abbrev main_call0_call0_v0 : Ref sig .tc := ⟨.hbm, 79, rfl⟩
abbrev main_call0_call0_v1 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_cst_3 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_v31 : Ref sig .tc := ⟨.hbm, 90, rfl⟩
abbrev main_v32 : Ref sig .tc := ⟨.hbm, 91, rfl⟩
abbrev main_v33 : Ref sig .tc := ⟨.hbm, 92, rfl⟩
abbrev main_v34 : Ref sig .tc := ⟨.hbm, 93, rfl⟩
abbrev main_v35 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_v39 : Ref sig .tc := ⟨.hbm, 98, rfl⟩
abbrev main_v40 : Ref sig .tc := ⟨.hbm, 99, rfl⟩
abbrev main_v41 : Ref sig .tc := ⟨.hbm, 100, rfl⟩
abbrev main_v42 : Ref sig .tc := ⟨.hbm, 101, rfl⟩
abbrev main_cst_4 : Ref sig .tc := ⟨.hbm, 102, rfl⟩
abbrev main_v43 : Ref sig .tc := ⟨.hbm, 103, rfl⟩
abbrev main_v44 : Ref sig .tc := ⟨.hbm, 104, rfl⟩
abbrev main_cst_5 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_cst_6 : Ref sig .tc := ⟨.hbm, 113, rfl⟩
abbrev main_v52 : Ref sig .tc := ⟨.hbm, 114, rfl⟩
abbrev main_v53 : Ref sig .tc := ⟨.hbm, 115, rfl⟩
abbrev main_cst_7 : Ref sig .tc := ⟨.hbm, 116, rfl⟩
abbrev main_v54 : Ref sig .tc := ⟨.hbm, 117, rfl⟩
abbrev main_v55 : Ref sig .tc := ⟨.hbm, 118, rfl⟩
abbrev main_c_8 : Ref sig .tc := ⟨.hbm, 119, rfl⟩
abbrev main_call1_cst : Ref sig .tc := ⟨.hbm, 120, rfl⟩
abbrev main_call1_v0 : Ref sig .tc := ⟨.hbm, 121, rfl⟩
abbrev main_call1_v1 : Ref sig .tc := ⟨.hbm, 122, rfl⟩
abbrev main_call1_cst_0 : Ref sig .tc := ⟨.hbm, 123, rfl⟩
abbrev main_call1_v2 : Ref sig .tc := ⟨.hbm, 124, rfl⟩
abbrev main_call1_v3 : Ref sig .tc := ⟨.hbm, 125, rfl⟩
abbrev main_call1_v4 : Ref sig .tc := ⟨.hbm, 126, rfl⟩
abbrev main_call1_v5 : Ref sig .tc := ⟨.hbm, 127, rfl⟩
abbrev main_call1_v6 : Ref sig .tc := ⟨.hbm, 128, rfl⟩
abbrev main_call1_v7 : Ref sig .tc := ⟨.hbm, 129, rfl⟩
abbrev main_call1_cst_1 : Ref sig .tc := ⟨.hbm, 130, rfl⟩
abbrev main_call1_v8 : Ref sig .tc := ⟨.hbm, 131, rfl⟩
abbrev main_call1_cst_2 : Ref sig .tc := ⟨.hbm, 132, rfl⟩
abbrev main_call1_v9 : Ref sig .tc := ⟨.hbm, 133, rfl⟩
abbrev main_call1_v10 : Ref sig .tc := ⟨.hbm, 134, rfl⟩
abbrev main_call1_v11 : Ref sig .tc := ⟨.hbm, 135, rfl⟩
abbrev main_call1_v12 : Ref sig .tc := ⟨.hbm, 136, rfl⟩
abbrev main_call1_cst_3 : Ref sig .tc := ⟨.hbm, 137, rfl⟩
abbrev main_call1_v13 : Ref sig .tc := ⟨.hbm, 138, rfl⟩
abbrev main_call1_cst_4 : Ref sig .tc := ⟨.hbm, 139, rfl⟩
abbrev main_call1_call0_v0 : Ref sig .tc := ⟨.hbm, 140, rfl⟩
abbrev main_call1_call0_v1 : Ref sig .tc := ⟨.hbm, 141, rfl⟩
abbrev main_v56 : Ref sig .tc := ⟨.hbm, 142, rfl⟩
abbrev main_v57 : Ref sig .tc := ⟨.hbm, 143, rfl⟩
abbrev main_v58 : Ref sig .tc := ⟨.hbm, 144, rfl⟩
abbrev main_cst_9 : Ref sig .tc := ⟨.hbm, 145, rfl⟩
abbrev main_v59 : Ref sig .tc := ⟨.hbm, 146, rfl⟩
abbrev main_v60 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_v66 : Ref sig .tc := ⟨.hbm, 153, rfl⟩
abbrev main_v67 : Ref sig .tc := ⟨.hbm, 154, rfl⟩
abbrev main_v68 : Ref sig .tc := ⟨.hbm, 155, rfl⟩
abbrev main_v69 : Ref sig .tc := ⟨.hbm, 156, rfl⟩
abbrev main_c_10 : Ref sig .tc := ⟨.hbm, 157, rfl⟩
abbrev main_v70 : Ref sig .tc := ⟨.hbm, 158, rfl⟩
abbrev main_v71 : Ref sig .tc := ⟨.hbm, 159, rfl⟩
abbrev main_c_11 : Ref sig .tc := ⟨.hbm, 160, rfl⟩
abbrev main_v72 : Ref sig .tc := ⟨.hbm, 161, rfl⟩
abbrev main_v73 : Ref sig .tc := ⟨.hbm, 162, rfl⟩
abbrev main_v74 : Ref sig .tc := ⟨.hbm, 163, rfl⟩
abbrev main_v75 : Ref sig .tc := ⟨.hbm, 164, rfl⟩
abbrev main_v76 : Ref sig .tc := ⟨.hbm, 165, rfl⟩
abbrev main_c_12 : Ref sig .tc := ⟨.hbm, 166, rfl⟩
abbrev main_v77 : Ref sig .tc := ⟨.hbm, 167, rfl⟩
abbrev main_v78 : Ref sig .tc := ⟨.hbm, 168, rfl⟩
abbrev main_c_13 : Ref sig .tc := ⟨.hbm, 169, rfl⟩
abbrev main_v79 : Ref sig .tc := ⟨.hbm, 170, rfl⟩
abbrev main_v80 : Ref sig .tc := ⟨.hbm, 171, rfl⟩
abbrev main_v81 : Ref sig .tc := ⟨.hbm, 172, rfl⟩
abbrev main_v82 : Ref sig .tc := ⟨.hbm, 173, rfl⟩
abbrev main_v83 : Ref sig .tc := ⟨.hbm, 174, rfl⟩
abbrev main_v84 : Ref sig .tc := ⟨.hbm, 175, rfl⟩
abbrev main_v85 : Ref sig .tc := ⟨.hbm, 176, rfl⟩
abbrev main_v86 : Ref sig .tc := ⟨.hbm, 177, rfl⟩
abbrev main_v87 : Ref sig .tc := ⟨.hbm, 178, rfl⟩
abbrev main_v88 : Ref sig .tc := ⟨.hbm, 179, rfl⟩
abbrev main_v89 : Ref sig .tc := ⟨.hbm, 180, rfl⟩
abbrev main_v90 : Ref sig .tc := ⟨.hbm, 181, rfl⟩
abbrev main_cst_14 : Ref sig .tc := ⟨.hbm, 182, rfl⟩
abbrev main_v91 : Ref sig .tc := ⟨.hbm, 183, rfl⟩
abbrev main_v92 : Ref sig .tc := ⟨.hbm, 184, rfl⟩
abbrev main_cst_15 : Ref sig .tc := ⟨.hbm, 185, rfl⟩
abbrev main_v93 : Ref sig .tc := ⟨.hbm, 186, rfl⟩
abbrev main_v94 : Ref sig .tc := ⟨.hbm, 187, rfl⟩
abbrev main_v95 : Ref sig .tc := ⟨.hbm, 188, rfl⟩
abbrev main_v96 : Ref sig .tc := ⟨.hbm, 189, rfl⟩
abbrev main_v97 : Ref sig .tc := ⟨.hbm, 190, rfl⟩
abbrev main_v98 : Ref sig .tc := ⟨.hbm, 191, rfl⟩
abbrev main_v99 : Ref sig .tc := ⟨.hbm, 192, rfl⟩
abbrev main_cst_16 : Ref sig .tc := ⟨.hbm, 193, rfl⟩
abbrev main_v100 : Ref sig .tc := ⟨.hbm, 194, rfl⟩
abbrev main_v101 : Ref sig .tc := ⟨.hbm, 195, rfl⟩
abbrev main_cst_17 : Ref sig .tc := ⟨.hbm, 196, rfl⟩
abbrev main_v102 : Ref sig .tc := ⟨.hbm, 197, rfl⟩
abbrev main_v103 : Ref sig .tc := ⟨.hbm, 198, rfl⟩
abbrev main_c_18 : Ref sig .tc := ⟨.hbm, 199, rfl⟩
abbrev main_call2_cst : Ref sig .tc := ⟨.hbm, 200, rfl⟩
abbrev main_call2_v0 : Ref sig .tc := ⟨.hbm, 201, rfl⟩
abbrev main_call2_v1 : Ref sig .tc := ⟨.hbm, 202, rfl⟩
abbrev main_call2_cst_0 : Ref sig .tc := ⟨.hbm, 203, rfl⟩
abbrev main_call2_v2 : Ref sig .tc := ⟨.hbm, 204, rfl⟩
abbrev main_call2_v3 : Ref sig .tc := ⟨.hbm, 205, rfl⟩
abbrev main_call2_v4 : Ref sig .tc := ⟨.hbm, 206, rfl⟩
abbrev main_call2_v5 : Ref sig .tc := ⟨.hbm, 207, rfl⟩
abbrev main_call2_v6 : Ref sig .tc := ⟨.hbm, 208, rfl⟩
abbrev main_call2_v7 : Ref sig .tc := ⟨.hbm, 209, rfl⟩
abbrev main_call2_cst_1 : Ref sig .tc := ⟨.hbm, 210, rfl⟩
abbrev main_call2_v8 : Ref sig .tc := ⟨.hbm, 211, rfl⟩
abbrev main_call2_cst_2 : Ref sig .tc := ⟨.hbm, 212, rfl⟩
abbrev main_call2_v9 : Ref sig .tc := ⟨.hbm, 213, rfl⟩
abbrev main_call2_v10 : Ref sig .tc := ⟨.hbm, 214, rfl⟩
abbrev main_call2_v11 : Ref sig .tc := ⟨.hbm, 215, rfl⟩
abbrev main_call2_v12 : Ref sig .tc := ⟨.hbm, 216, rfl⟩
abbrev main_call2_cst_3 : Ref sig .tc := ⟨.hbm, 217, rfl⟩
abbrev main_call2_v13 : Ref sig .tc := ⟨.hbm, 218, rfl⟩
abbrev main_call2_cst_4 : Ref sig .tc := ⟨.hbm, 219, rfl⟩
abbrev main_call2_call0_v0 : Ref sig .tc := ⟨.hbm, 220, rfl⟩
abbrev main_call2_call0_v1 : Ref sig .tc := ⟨.hbm, 221, rfl⟩
abbrev main_v104 : Ref sig .tc := ⟨.hbm, 222, rfl⟩
abbrev main_v105 : Ref sig .tc := ⟨.hbm, 223, rfl⟩
abbrev main_v106 : Ref sig .tc := ⟨.hbm, 224, rfl⟩
abbrev main_cst_19 : Ref sig .tc := ⟨.hbm, 225, rfl⟩
abbrev main_v107 : Ref sig .tc := ⟨.hbm, 226, rfl⟩
abbrev main_v108 : Ref sig .tc := ⟨.hbm, 227, rfl⟩
abbrev main_v109 : Ref sig .tc := ⟨.hbm, 228, rfl⟩
abbrev main_v110 : Ref sig .tc := ⟨.hbm, 229, rfl⟩
abbrev main_v111 : Ref sig .tc := ⟨.hbm, 230, rfl⟩
abbrev main_v112 : Ref sig .tc := ⟨.hbm, 231, rfl⟩
abbrev main_v113 : Ref sig .tc := ⟨.hbm, 232, rfl⟩
abbrev main_v114 : Ref sig .tc := ⟨.hbm, 233, rfl⟩
abbrev main_v115 : Ref sig .tc := ⟨.hbm, 234, rfl⟩
abbrev main_v116 : Ref sig .tc := ⟨.hbm, 235, rfl⟩
abbrev main_v117 : Ref sig .tc := ⟨.hbm, 236, rfl⟩
abbrev main_cst_20 : Ref sig .tc := ⟨.hbm, 237, rfl⟩
abbrev main_v118 : Ref sig .tc := ⟨.hbm, 238, rfl⟩
abbrev main_v119 : Ref sig .tc := ⟨.hbm, 239, rfl⟩
abbrev main_v120 : Ref sig .tc := ⟨.hbm, 240, rfl⟩
abbrev main_v121 : Ref sig .tc := ⟨.hbm, 241, rfl⟩
abbrev main_v122 : Ref sig .tc := ⟨.hbm, 242, rfl⟩
abbrev main_v123 : Ref sig .tc := ⟨.hbm, 243, rfl⟩
abbrev main_v124 : Ref sig .tc := ⟨.hbm, 244, rfl⟩
abbrev main_v125 : Ref sig .tc := ⟨.hbm, 245, rfl⟩
abbrev main_v126 : Ref sig .tc := ⟨.hbm, 246, rfl⟩
abbrev main_v127 : Ref sig .tc := ⟨.hbm, 247, rfl⟩
abbrev main_cst_21 : Ref sig .tc := ⟨.hbm, 248, rfl⟩
abbrev main_v128 : Ref sig .tc := ⟨.hbm, 249, rfl⟩
abbrev main_v129 : Ref sig .tc := ⟨.hbm, 250, rfl⟩
abbrev main_cst_22 : Ref sig .tc := ⟨.hbm, 251, rfl⟩
abbrev main_v130 : Ref sig .tc := ⟨.hbm, 252, rfl⟩
abbrev main_v131 : Ref sig .tc := ⟨.hbm, 253, rfl⟩
abbrev main_v132 : Ref sig .tc := ⟨.hbm, 254, rfl⟩
abbrev main_v133 : Ref sig .tc := ⟨.hbm, 255, rfl⟩
abbrev main_v134 : Ref sig .tc := ⟨.hbm, 256, rfl⟩
abbrev main_v135 : Ref sig .tc := ⟨.hbm, 257, rfl⟩
abbrev main_v136 : Ref sig .tc := ⟨.hbm, 258, rfl⟩
abbrev main_cst_23 : Ref sig .tc := ⟨.hbm, 259, rfl⟩
abbrev main_v137 : Ref sig .tc := ⟨.hbm, 260, rfl⟩
abbrev main_v138 : Ref sig .tc := ⟨.hbm, 261, rfl⟩
abbrev main_cst_24 : Ref sig .tc := ⟨.hbm, 262, rfl⟩
abbrev main_v139 : Ref sig .tc := ⟨.hbm, 263, rfl⟩
abbrev main_v140 : Ref sig .tc := ⟨.hbm, 264, rfl⟩
abbrev main_c_25 : Ref sig .tc := ⟨.hbm, 265, rfl⟩
abbrev main_call3_cst : Ref sig .tc := ⟨.hbm, 266, rfl⟩
abbrev main_call3_v0 : Ref sig .tc := ⟨.hbm, 267, rfl⟩
abbrev main_call3_v1 : Ref sig .tc := ⟨.hbm, 268, rfl⟩
abbrev main_call3_cst_0 : Ref sig .tc := ⟨.hbm, 269, rfl⟩
abbrev main_call3_v2 : Ref sig .tc := ⟨.hbm, 270, rfl⟩
abbrev main_call3_v3 : Ref sig .tc := ⟨.hbm, 271, rfl⟩
abbrev main_call3_v4 : Ref sig .tc := ⟨.hbm, 272, rfl⟩
abbrev main_call3_v5 : Ref sig .tc := ⟨.hbm, 273, rfl⟩
abbrev main_call3_v6 : Ref sig .tc := ⟨.hbm, 274, rfl⟩
abbrev main_call3_v7 : Ref sig .tc := ⟨.hbm, 275, rfl⟩
abbrev main_call3_cst_1 : Ref sig .tc := ⟨.hbm, 276, rfl⟩
abbrev main_call3_v8 : Ref sig .tc := ⟨.hbm, 277, rfl⟩
abbrev main_call3_cst_2 : Ref sig .tc := ⟨.hbm, 278, rfl⟩
abbrev main_call3_v9 : Ref sig .tc := ⟨.hbm, 279, rfl⟩
abbrev main_call3_v10 : Ref sig .tc := ⟨.hbm, 280, rfl⟩
abbrev main_call3_v11 : Ref sig .tc := ⟨.hbm, 281, rfl⟩
abbrev main_call3_v12 : Ref sig .tc := ⟨.hbm, 282, rfl⟩
abbrev main_call3_cst_3 : Ref sig .tc := ⟨.hbm, 283, rfl⟩
abbrev main_call3_v13 : Ref sig .tc := ⟨.hbm, 284, rfl⟩
abbrev main_call3_cst_4 : Ref sig .tc := ⟨.hbm, 285, rfl⟩
abbrev main_call3_call0_v0 : Ref sig .tc := ⟨.hbm, 286, rfl⟩
abbrev main_call3_call0_v1 : Ref sig .tc := ⟨.hbm, 287, rfl⟩
abbrev main_v141 : Ref sig .tc := ⟨.hbm, 288, rfl⟩
abbrev main_v142 : Ref sig .tc := ⟨.hbm, 289, rfl⟩
abbrev main_v143 : Ref sig .tc := ⟨.hbm, 290, rfl⟩
abbrev main_cst_26 : Ref sig .tc := ⟨.hbm, 291, rfl⟩
abbrev main_v144 : Ref sig .tc := ⟨.hbm, 292, rfl⟩
abbrev main_v145 : Ref sig .tc := ⟨.hbm, 293, rfl⟩
abbrev main_v146 : Ref sig .tc := ⟨.hbm, 294, rfl⟩
abbrev main_v147 : Ref sig .tc := ⟨.hbm, 295, rfl⟩
abbrev main_v148 : Ref sig .tc := ⟨.hbm, 296, rfl⟩
abbrev main_v149 : Ref sig .tc := ⟨.hbm, 297, rfl⟩
abbrev main_v150 : Ref sig .tc := ⟨.hbm, 298, rfl⟩
abbrev main_v151 : Ref sig .tc := ⟨.hbm, 299, rfl⟩
abbrev main_v152 : Ref sig .tc := ⟨.hbm, 300, rfl⟩
abbrev main_v153 : Ref sig .tc := ⟨.hbm, 301, rfl⟩
abbrev main_v154 : Ref sig .tc := ⟨.hbm, 302, rfl⟩
abbrev main_v155 : Ref sig .tc := ⟨.hbm, 303, rfl⟩
abbrev main_v156 : Ref sig .tc := ⟨.hbm, 304, rfl⟩
abbrev main_v157 : Ref sig .tc := ⟨.hbm, 305, rfl⟩
abbrev main_v158 : Ref sig .tc := ⟨.hbm, 306, rfl⟩
abbrev main_v159 : Ref sig .tc := ⟨.hbm, 307, rfl⟩
abbrev main_v160 : Ref sig .tc := ⟨.hbm, 308, rfl⟩
abbrev main_v161 : Ref sig .tc := ⟨.hbm, 309, rfl⟩
abbrev main_cst_27 : Ref sig .tc := ⟨.hbm, 310, rfl⟩
abbrev main_v162 : Ref sig .tc := ⟨.hbm, 311, rfl⟩
abbrev main_v163 : Ref sig .tc := ⟨.hbm, 312, rfl⟩
abbrev main_cst_28 : Ref sig .tc := ⟨.hbm, 313, rfl⟩
abbrev main_v164 : Ref sig .tc := ⟨.hbm, 314, rfl⟩
abbrev main_v165 : Ref sig .tc := ⟨.hbm, 315, rfl⟩
abbrev main_v166 : Ref sig .tc := ⟨.hbm, 316, rfl⟩
abbrev main_v167 : Ref sig .tc := ⟨.hbm, 317, rfl⟩
abbrev main_v168 : Ref sig .tc := ⟨.hbm, 318, rfl⟩
abbrev main_v169 : Ref sig .tc := ⟨.hbm, 319, rfl⟩
abbrev main_v170 : Ref sig .tc := ⟨.hbm, 320, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  reducesTo_S800000x64_S800000_d1 : S800000x64.ReducesTo [1] S800000
  h_S_ : 0 < S_.numel
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S800000x1_S800000x64_0_1 : S800000x1.BroadcastsInDim S800000x64 (![0, 1] : Fin 2 → Fin S800000x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S50000_d1 : S50000x64.ReducesTo [1] S50000
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  bcast_S_S800000 : S_.BroadcastsInDim S800000 (![] : Fin 0 → Fin S800000.rank)
  concatenates_S800000x64_S800000x64_S800000x64_S800000x192_d1 : Shape.Concatenates [S800000x64, S800000x64, S800000x64] S800000x192 1
  concatenates_S50000x64_S50000x64_S50000x128_d1 : Shape.Concatenates [S50000x64, S50000x64] S50000x128 1
  dot_S800000x4_S4x64_S800000x64_1_0_0_1_n_n_wf : DotDims.WF S800000x4 S4x64 S800000x64 [1] [0] [0] [1] [] []
  dot_S800000x64_S64x64_S800000x64_1_0_0_1_n_n_wf : DotDims.WF S800000x64 S64x64 S800000x64 [1] [0] [0] [1] [] []
  dot_S50000x16_S16x64_S50000x64_1_0_0_1_n_n_wf : DotDims.WF S50000x16 S16x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x192_S192x64_S800000x64_1_0_0_1_n_n_wf : DotDims.WF S800000x192 S192x64 S800000x64 [1] [0] [0] [1] [] []
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []

variable [Facts₀]

def dot_S800000x4_S4x64_S800000x64_1_0_0_1_n_n : DotDims S800000x4 S4x64 S800000x64 where
  lhsContracting := [1]
  rhsContracting := [0]
  lhsNonContracting := [0]
  rhsNonContracting := [1]
  lhsBatch := []
  rhsBatch := []
  wf := dot_S800000x4_S4x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x192_S192x64_S800000x64_1_0_0_1_n_n : DotDims S800000x192 S192x64 S800000x64 where
  lhsContracting := [1]
  rhsContracting := [0]
  lhsNonContracting := [0]
  rhsNonContracting := [1]
  lhsBatch := []
  rhsBatch := []
  wf := dot_S800000x192_S192x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/- The idealized kernel's run with its results named.

   The generated frame certificate of `KernelIdeal` runs @main — three TensorCore regions among host stretches — from
   any launch memory and reads the final state against the last boundary's contents `Gen.W6 m ρ c`, but states only
   that each argument array ends as launched. Here the same run is stated with all that the last thread state knows:
   every unscoped TensorCore buffer ends at `Gen.W6 m ρ c` (`run_uc`), and, projected from that, the three result
   arrays end at `Gen.W6 m ρ c` of their references beside the arguments ending as launched (`run`). -/
import proofs.«156218_j71949292142781_2_alg».proof.Proof.Gen.KernelIdeal.Frame
import proofs.«156218_j71949292142781_2_alg».proof.Defs

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the compiled mesh, from any memory with zero counters, every weakly fair execution of @main on the TensorCores
    terminates, nothing faulting, and in every final state EVERY unscoped TensorCore buffer `b` of every device `c`
    holds `Gen.W6 m ρ c b`: the contents at the last segment boundary, folded from the launch memory through the three
    host stretches (`StableHlo.after`) and the three regions' write-backs. The segments, their chain and the launch
    are the generated ones; only the reading of the final state is kept whole instead of projected. -/
theorem run_uc : θ_run defs (onTc (τ := τ) (main (F := F))) ⟨m, fun _ => 0, ρ⟩ (fun r => ∀ c : Dev nD,
      ∀ b ∈ Pipeline.ucRefs τ sig, r.2.mem (((c : Thread nD τ)).1, b) = Gen.W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h => h)

/-- The run with its results named: from any memory with zero counters every weakly fair execution of @main on the
    TensorCores terminates, nothing faulting, and in every final state, on every device `c`,
    * the three result arrays — the edge latents `main_v23`, the node latents `main_v29`, the node embedding
      `main_v4` — hold `Gen.W6 m ρ c` at their references (they are unscoped buffers in HBM), and
    * every argument array holds what it was launched with (the generated `Gen.W6_main_argK`). -/
theorem run : θ_run defs (onTc (τ := τ) (main (F := F))) ⟨m, fun _ => 0, ρ⟩ (fun r => ∀ c : Dev nD,
      (r.2.mem ((c.tc : Thread nD τ).loc main_v23) = Gen.W6 m ρ c (Proc.devRef .tc main_v23)
       ∧ r.2.mem ((c.tc : Thread nD τ).loc main_v29) = Gen.W6 m ρ c (Proc.devRef .tc main_v29)
       ∧ r.2.mem ((c.tc : Thread nD τ).loc main_v4) = Gen.W6 m ρ c (Proc.devRef .tc main_v4))
      ∧ (
        r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30))) :=
  (θ_run defs _ _).mono (fun r h c =>
    ⟨⟨h c _ (mem_uc main_v23 (by decide)), h c _ (mem_uc main_v29 (by decide)), h c _ (mem_uc main_v4 (by decide))⟩,
      ⟨(h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c),
       (h c _ (mem_uc main_arg21 (by decide))).trans (W6_main_arg21 m ρ c),
       (h c _ (mem_uc main_arg22 (by decide))).trans (W6_main_arg22 m ρ c),
       (h c _ (mem_uc main_arg23 (by decide))).trans (W6_main_arg23 m ρ c),
       (h c _ (mem_uc main_arg24 (by decide))).trans (W6_main_arg24 m ρ c),
       (h c _ (mem_uc main_arg25 (by decide))).trans (W6_main_arg25 m ρ c),
       (h c _ (mem_uc main_arg26 (by decide))).trans (W6_main_arg26 m ρ c),
       (h c _ (mem_uc main_arg27 (by decide))).trans (W6_main_arg27 m ρ c),
       (h c _ (mem_uc main_arg28 (by decide))).trans (W6_main_arg28 m ρ c),
       (h c _ (mem_uc main_arg29 (by decide))).trans (W6_main_arg29 m ρ c),
       (h c _ (mem_uc main_arg30 (by decide))).trans (W6_main_arg30 m ρ c)⟩⟩) (run_uc m ρ)

end Cert.KernelIdeal.KRun

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.LibDenseLayer.lean ====
/-
  One dense layer of the network, read at an entry of its result, on the extended reals.

  For a feature array h : [a, k], a weight matrix W : [k, n], a column of row scales S : [a, 1] and a row of
  biases B : [1, n] the layer computes the product P = h W and the affine form P * S + B, the scale taken per row and
  the bias per column.  The tile of a grid point spells this with the matrix unit's product of the operands rounded
  to bfloat16 (a change of format, which does nothing to an extended real), a column spread over the columns and a
  row spread over the rows; the host spells it with a dot_general and two broadcast_in_dim.  Both spellings are the
  same function of the four arrays, index by index: `prod` and `affine` below.

  Also here: a vector laid out as a column [a] -> [a, 1], or as a row [n] -> [1, n], is the same array whether it is
  written as a reshape or as a broadcast_in_dim; and adding three arrays does not depend on the grouping.
-/
import Idealize.ShloMosaic.Lib.Pipeline.Value
import Idealize.ShloMosaic.Lib.ValueIdx
import Idealize.ShloMosaic.Lib.ValueLayout
import Idealize.ShloMosaic.PureOps.Ideal.Laws
import proofs.«156218_j71949292142781_2_alg».proof.Proof.LibMatmulPlain
import proofs.«156218_j71949292142781_2_alg».proof.Proof.LibDotsNT
import proofs.«156218_j71949292142781_2_alg».proof.Proof.LibKeepdims

noncomputable section

open scoped BigOperators

namespace Cert.Dense

open Idealize.ShloMosaic Idealize.ShloMosaic.ValueIdx

variable {a k n : ℕ}

/-- The product of an [a, k] array and a [k, n] array at entry (r, q): the sum over c of h(r, c) * W(c, q). -/
def prod (h : (⟨2, ![a, k]⟩ : Shape).Idx → EReal) (W : (⟨2, ![k, n]⟩ : Shape).Idx → EReal) :
    (⟨2, ![a, n]⟩ : Shape).Idx → EReal :=
  fun i => ∑ c : Fin k, h (ix2 (i 0) c) * W (ix2 c (i 1))

/-- The product with row r scaled by S(r, 0) and B(0, q) added in column q. -/
def affine (h : (⟨2, ![a, k]⟩ : Shape).Idx → EReal) (W : (⟨2, ![k, n]⟩ : Shape).Idx → EReal)
    (S : (⟨2, ![a, 1]⟩ : Shape).Idx → EReal) (B : (⟨2, ![1, n]⟩ : Shape).Idx → EReal) :
    (⟨2, ![a, n]⟩ : Shape).Idx → EReal :=
  fun i => prod h W i * S (ix2 (i 0) (0 : Fin 1)) + B (ix2 (0 : Fin 1) (i 1))

/-- The product with B(0, q) added in column q (no row scale). -/
def biased (h : (⟨2, ![a, k]⟩ : Shape).Idx → EReal) (W : (⟨2, ![k, n]⟩ : Shape).Idx → EReal)
    (B : (⟨2, ![1, n]⟩ : Shape).Idx → EReal) : (⟨2, ![a, n]⟩ : Shape).Idx → EReal :=
  fun i => prod h W i + B (ix2 (0 : Fin 1) (i 1))

theorem prod_ix2 (h : (⟨2, ![a, k]⟩ : Shape).Idx → EReal) (W : (⟨2, ![k, n]⟩ : Shape).Idx → EReal) (r : Fin a) (q : Fin n) :
    prod h W (ix2 r q) = ∑ c : Fin k, h (ix2 r c) * W (ix2 c q) := rfl

section Products

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product of the two operands rounded to bfloat16, into a zero accumulator, is the product. -/
theorem matmul_eq_prod (x0 : FVec Ideal ⟨2, ![a, k]⟩ .f32) (x1 : FVec Ideal ⟨2, ![k, n]⟩ .f32)
    (hb : FTy.bf16.bits < FTy.f32.bits) :
    matmul d none (truncf .bf16 x0 hb) (truncf .bf16 x1 hb) (constant (F := Ideal) ⟨2, ![a, n]⟩ .f32 0x00000000#32)
      = prod x0 x1 := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none _ _ r q

include hlc hrc hln hrn hlb hrb in
/-- The host's dot_general is the product. -/
theorem dotGeneral_eq_prod (h : FVec Ideal ⟨2, ![a, k]⟩ .f32) (W : FVec Ideal ⟨2, ![k, n]⟩ .f32) :
    Host.dotGeneral (F := Ideal) d none h W = prod h W := by
  funext j
  obtain ⟨r, q, rfl⟩ : ∃ (r : Fin a) (q : Fin n), j = ix2 r q := ⟨j 0, j 1, eq_ix2 j⟩
  exact Cert.LibDotsNT.plain_dotGeneral_apply d hlc hrc hln hrn hlb hrb none .single h W r q

end Products

/-- The tile's spelling of the scale and the bias: the column cast to its own shape and spread over the columns, the
    row cast to its own shape and spread over the rows. -/
theorem tile_affine (P : FVec Ideal ⟨2, ![a, n]⟩ .f32) (x2 : FVec Ideal ⟨2, ![a, 1]⟩ .f32) (x3 : FVec Ideal ⟨2, ![1, n]⟩ .f32)
    (hc2 : (⟨2, ![a, 1]⟩ : Shape).ShapeCasts ⟨2, ![a, 1]⟩) (hb2 : (⟨2, ![a, 1]⟩ : Shape).Broadcasts ⟨2, ![a, n]⟩)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf (mulf P (broadcastTo ⟨2, ![a, n]⟩ (shapeCast ⟨2, ![a, 1]⟩ x2 hc2) hb2))
        (broadcastTo ⟨2, ![a, n]⟩ (shapeCast ⟨2, ![1, n]⟩ x3 hc3) hb3) (ix2 r q)
      = P (ix2 r q) * x2 (ix2 r (0 : Fin 1)) + x3 (ix2 (0 : Fin 1) q) := by
  rw [addf_apply, mulf_apply, Cert.LibKeepdims.row_spread_apply, Cert.LibKeepdims.broadcastTo_a1_ab_apply, shapeCast_self]

/-- The tile's spelling of the bias alone. -/
theorem tile_biased (P : FVec Ideal ⟨2, ![a, n]⟩ .f32) (x3 : FVec Ideal ⟨2, ![1, n]⟩ .f32)
    (hc3 : (⟨2, ![1, n]⟩ : Shape).ShapeCasts ⟨2, ![1, n]⟩) (hb3 : (⟨2, ![1, n]⟩ : Shape).Broadcasts ⟨2, ![a, n]⟩)
    (r : Fin a) (q : Fin n) :
    addf P (broadcastTo ⟨2, ![a, n]⟩ (shapeCast ⟨2, ![1, n]⟩ x3 hc3) hb3) (ix2 r q)
      = P (ix2 r q) + x3 (ix2 (0 : Fin 1) q) := by
  rw [addf_apply, Cert.LibKeepdims.row_spread_apply]

/-- A column [a, 1] laid over [a, n] by broadcast_in_dim along both axes reads, at (r, q), the column's entry of row r. -/
theorem bcast_col_apply {α : Type} (S : (⟨2, ![a, 1]⟩ : Shape).Idx → α)
    (hS : (⟨2, ![a, 1]⟩ : Shape).BroadcastsInDim ⟨2, ![a, n]⟩ ![0, 1]) (r : Fin a) (q : Fin n) :
    broadcastInDim ⟨2, ![a, n]⟩ ![0, 1] hS S (ix2 r q) = S (ix2 r (0 : Fin 1)) := by
  refine broadcastInDim_apply ![0, 1] hS S (ix2 r q) (ix2 r (0 : Fin 1)) fun ax => ?_
  match ax with
  | ⟨0, _⟩ =>
    show r.val = if a = 1 then 0 else r.val
    split
    · have := r.isLt; omega
    · rfl
  | ⟨1, _⟩ => rfl

/-- A row [1, n] laid over [a, n] by broadcast_in_dim along both axes reads, at (r, q), the row's entry of column q. -/
theorem bcast_row_apply {α : Type} (B : (⟨2, ![1, n]⟩ : Shape).Idx → α)
    (hB : (⟨2, ![1, n]⟩ : Shape).BroadcastsInDim ⟨2, ![a, n]⟩ ![0, 1]) (r : Fin a) (q : Fin n) :
    broadcastInDim ⟨2, ![a, n]⟩ ![0, 1] hB B (ix2 r q) = B (ix2 (0 : Fin 1) q) := by
  refine broadcastInDim_apply ![0, 1] hB B (ix2 r q) (ix2 (0 : Fin 1) q) fun ax => ?_
  match ax with
  | ⟨0, _⟩ => rfl
  | ⟨1, _⟩ =>
    show q.val = if n = 1 then 0 else q.val
    split
    · have := q.isLt; omega
    · rfl

/-- The host's spelling of the affine form is `affine`. -/
theorem host_affine (P : FVec Ideal ⟨2, ![a, n]⟩ .f32) (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) (r : Fin a) (q : Fin n) :
    addf (mulf P (broadcastInDim ⟨2, ![a, n]⟩ ![0, 1] hS S)) (broadcastInDim ⟨2, ![a, n]⟩ ![0, 1] hB B) (ix2 r q)
      = P (ix2 r q) * S (ix2 r (0 : Fin 1)) + B (ix2 (0 : Fin 1) q) := by
  rw [addf_apply, mulf_apply, bcast_col_apply, bcast_row_apply]

/-- The host's spelling of the bias alone. -/
theorem host_biased (P : FVec Ideal ⟨2, ![a, n]⟩ .f32) (B : FVec Ideal ⟨2, ![1, n]⟩ .f32)
    (hB : (⟨2, ![1, n]⟩ : Shape).BroadcastsInDim ⟨2, ![a, n]⟩ ![0, 1]) (r : Fin a) (q : Fin n) :
    addf P (broadcastInDim ⟨2, ![a, n]⟩ ![0, 1] hB B) (ix2 r q) = P (ix2 r q) + B (ix2 (0 : Fin 1) q) := by
  rw [addf_apply, bcast_row_apply]

section HostForms

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The affine form as the host spells it: the dot_general times the scale column laid over the columns, plus the bias
    row laid over the rows. -/
theorem affine_eq_host (h : FVec Ideal ⟨2, ![a, k]⟩ .f32) (W : FVec Ideal ⟨2, ![k, n]⟩ .f32)
    (S : FVec Ideal ⟨2, ![a, 1]⟩ .f32) (B : FVec Ideal ⟨2, ![1, n]⟩ .f32)
    (hS : (⟨2, ![a, 1]⟩ : Shape).BroadcastsInDim ⟨2, ![a, n]⟩ ![0, 1])
    (hB : (⟨2, ![1, n]⟩ : Shape).BroadcastsInDim ⟨2, ![a, n]⟩ ![0, 1]) :
    affine h W S B
      = addf (mulf (Host.dotGeneral (F := Ideal) d none h W) (broadcastInDim ⟨2, ![a, n]⟩ ![0, 1] hS S))
          (broadcastInDim ⟨2, ![a, n]⟩ ![0, 1] hB B) := by
  funext j
  obtain ⟨r, q, rfl⟩ : ∃ (r : Fin a) (q : Fin n), j = ix2 r q := ⟨j 0, j 1, eq_ix2 j⟩
  rw [host_affine, dotGeneral_eq_prod d hlc hrc hln hrn hlb hrb]
  rfl

include hlc hrc hln hrn hlb hrb in
/-- The biased form as the host spells it. -/
theorem biased_eq_host (h : FVec Ideal ⟨2, ![a, k]⟩ .f32) (W : FVec Ideal ⟨2, ![k, n]⟩ .f32)
    (B : FVec Ideal ⟨2, ![1, n]⟩ .f32) (hB : (⟨2, ![1, n]⟩ : Shape).BroadcastsInDim ⟨2, ![a, n]⟩ ![0, 1]) :
    biased h W B
      = addf (Host.dotGeneral (F := Ideal) d none h W) (broadcastInDim ⟨2, ![a, n]⟩ ![0, 1] hB B) := by
  funext j
  obtain ⟨r, q, rfl⟩ : ∃ (r : Fin a) (q : Fin n), j = ix2 r q := ⟨j 0, j 1, eq_ix2 j⟩
  rw [host_biased, dotGeneral_eq_prod d hlc hrc hln hrn hlb hrb]
  rfl

end HostForms

/-- A vector laid out as a column: the reshape [a] -> [a, 1] and the broadcast_in_dim along axis 0 are one array. -/
theorem column_cast_eq_bcast {α : Type} (x : (⟨1, ![a]⟩ : Shape).Idx → α)
    (hc : (⟨1, ![a]⟩ : Shape).ShapeCasts ⟨2, ![a, 1]⟩) (hb : (⟨1, ![a]⟩ : Shape).BroadcastsInDim ⟨2, ![a, 1]⟩ ![0]) :
    shapeCast ⟨2, ![a, 1]⟩ x hc = broadcastInDim ⟨2, ![a, 1]⟩ ![0] hb x := by
  funext j
  obtain ⟨r, u, rfl⟩ : ∃ (r : Fin a) (u : Fin 1), j = ix2 r u := ⟨j 0, j 1, eq_ix2 j⟩
  rw [Cert.LibKeepdims.shapeCast_a_a1_apply]
  refine (broadcastInDim_apply ![0] hb x (ix2 r u) (ix1 r) fun ax => ?_).symm
  match ax with
  | ⟨0, _⟩ =>
    show r.val = if a = 1 then 0 else r.val
    split
    · have := r.isLt; omega
    · rfl

/-- A vector laid out as a row: the reshape [n] -> [1, n] and the broadcast_in_dim along axis 1 are one array. -/
theorem row_cast_eq_bcast {α : Type} (x : (⟨1, ![n]⟩ : Shape).Idx → α)
    (hc : (⟨1, ![n]⟩ : Shape).ShapeCasts ⟨2, ![1, n]⟩) (hb : (⟨1, ![n]⟩ : Shape).BroadcastsInDim ⟨2, ![1, n]⟩ ![1]) :
    shapeCast ⟨2, ![1, n]⟩ x hc = broadcastInDim ⟨2, ![1, n]⟩ ![1] hb x := by
  funext j
  obtain ⟨u, q, rfl⟩ : ∃ (u : Fin 1) (q : Fin n), j = ix2 u q := ⟨j 0, j 1, eq_ix2 j⟩
  rw [shapeCast_a_1a_apply]
  refine (broadcastInDim_apply ![1] hb x (ix2 u q) (ix1 q) fun ax => ?_).symm
  match ax with
  | ⟨0, _⟩ =>
    show q.val = if n = 1 then 0 else q.val
    split
    · have := q.isLt; omega
    · rfl

/-- Adding three arrays: the grouping does not matter (addition of extended reals is associative). -/
theorem addf_assoc {s : Shape} {φ : FTy} (x y z : FVec Ideal s φ) : addf x (addf y z) = addf (addf x y) z := by
  funext i
  rw [addf_apply, addf_apply, addf_apply, addf_apply, add_assoc]

end Cert.Dense

end
-- ==== Proof.Layers.lean ====
/-
  The layers of the graph network as functions of whole arrays, on the extended reals, with the number of rows a
  parameter: an affine layer (product with a weight matrix plus a bias per column), the swish activation
  x * (1 / (1 + exp (-x))), and the layer normalisation of each row (subtract the row's mean, scale by the inverse
  square root of the row's variance plus a small constant, then a gain and an offset per column). Every one of them
  acts row by row, so a block of rows of the result is the same function of that block of rows: the statement that
  lets a computation tiled over row blocks be read as one computation over the whole array.
-/
import Idealize.ShloMosaic.PureOps.Ideal
import Idealize.ShloMosaic.PureOps.Ideal.Laws
import Idealize.ShloMosaic.Lib.ValueIdx
import proofs.«156218_j71949292142781_2_alg».proof.Proof.LibDenseLayer

noncomputable section

open scoped BigOperators

namespace Cert.Gnn

open Idealize.ShloMosaic Idealize.ShloMosaic.ValueIdx

/-- A two-dimensional array of extended reals with `a` rows and `n` columns. -/
abbrev Mat (a n : ℕ) : Type := (⟨2, ![a, n]⟩ : Shape).Idx → EReal
/-- A vector of extended reals of length `n`. -/
abbrev Vc (n : ℕ) : Type := (⟨1, ![n]⟩ : Shape).Idx → EReal

/-- The single-precision pattern of 1.0, as the extended real it denotes. -/
def one32 : EReal := Ideal.ofBits .f32 0x3F800000#32
/-- The single-precision pattern of 64.0 (the number of columns a row statistic is averaged over). -/
def c64 : EReal := Ideal.ofBits .f32 0x42800000#32
/-- The single-precision pattern nearest 1e-5 (the constant added to a row's variance). -/
def eps32 : EReal := Ideal.ofBits .f32 0x3727C5AC#32

variable {a k n : ℕ}

/-- The affine layer: entry (r, q) is the sum over c of x(r, c) * W(c, q), plus b(q). -/
def dense (x : Mat a k) (W : Mat k n) (b : Vc n) : Mat a n :=
  fun i => Cert.Dense.prod x W i + b (ix1 (i 1))

/-- The swish activation, entry by entry: x * (1 / (1 + exp (-x))). -/
def swish (x : Mat a n) : Mat a n :=
  fun i => x i * Ideal.div one32 (one32 + Ideal.exp (-(x i)))

/-- The mean of row r: the row's sum divided by 64. -/
def mean (y : Mat a n) (r : Fin a) : EReal := Ideal.div (∑ c : Fin n, y (ix2 r c)) c64

/-- Each entry minus its row's mean. -/
def centred (y : Mat a n) : Mat a n := fun i => y i - mean y (i 0)

/-- The variance of row r: the sum of the squared centred entries divided by 64. -/
def var (y : Mat a n) (r : Fin a) : EReal :=
  Ideal.div (∑ c : Fin n, centred y (ix2 r c) * centred y (ix2 r c)) c64

/-- Layer normalisation of each row, with a gain g and an offset bt per column. -/
def lnorm (y : Mat a n) (g bt : Vc n) : Mat a n :=
  fun i => centred y i * Ideal.rsqrt (var y (i 0) + eps32) * g (ix1 (i 1)) + bt (ix1 (i 1))

/-- Two affine layers with a swish between them. -/
def ffb (x : Mat a k) (W1 : Mat k n) (b1 : Vc n) (W2 : Mat n n) (b2 : Vc n) : Mat a n :=
  dense (swish (dense x W1 b1)) W2 b2

/-- Two affine layers with a swish between them, then layer normalisation. -/
def ffbLn (x : Mat a k) (W1 : Mat k n) (b1 : Vc n) (W2 : Mat n n) (b2 g bt : Vc n) : Mat a n :=
  lnorm (ffb x W1 b1 W2 b2) g bt

/-- The sum of three products plus a bias: the affine layer of three arrays laid side by side, against a weight
    matrix cut into the three matching bands of rows. -/
def dense3 (x1 x2 x3 : Mat a k) (Wa Wb Wc : Mat k n) (b : Vc n) : Mat a n :=
  fun i => Cert.Dense.prod x1 Wa i + Cert.Dense.prod x2 Wb i + Cert.Dense.prod x3 Wc i + b (ix1 (i 1))

/-- The sum of two products plus a bias. -/
def dense2 (x1 x2 : Mat a k) (Wa Wb : Mat k n) (b : Vc n) : Mat a n :=
  fun i => Cert.Dense.prod x1 Wa i + Cert.Dense.prod x2 Wb i + b (ix1 (i 1))

/-- Entry by entry sum of two arrays. -/
def plus (x y : Mat a n) : Mat a n := fun i => x i + y i

/-! ## Blocks of rows -/

/-- The block of `a` rows of X that starts at row `lo`. -/
def rows {A : ℕ} (lo : ℕ) (h : lo + a ≤ A) (X : Mat A n) : Mat a n :=
  fun i => X (ix2 (⟨lo + (i 0).val, by have h0 : (i 0).val < a := (i 0).isLt; omega⟩ : Fin A) (i 1))

theorem rows_ix2 {A : ℕ} (lo : ℕ) (h : lo + a ≤ A) (X : Mat A n) (r : Fin a) (q : Fin n) :
    rows lo h X (ix2 r q) = X (ix2 (⟨lo + r.val, by have := r.isLt; omega⟩ : Fin A) q) := rfl

variable {A : ℕ} (lo : ℕ) (h : lo + a ≤ A)

theorem dense_rows (X : Mat A k) (W : Mat k n) (b : Vc n) :
    dense (rows lo h X) W b = rows lo h (dense X W b) := rfl

theorem dense2_rows (X1 X2 : Mat A k) (Wa Wb : Mat k n) (b : Vc n) :
    dense2 (rows lo h X1) (rows lo h X2) Wa Wb b = rows lo h (dense2 X1 X2 Wa Wb b) := rfl

theorem dense3_rows (X1 X2 X3 : Mat A k) (Wa Wb Wc : Mat k n) (b : Vc n) :
    dense3 (rows lo h X1) (rows lo h X2) (rows lo h X3) Wa Wb Wc b = rows lo h (dense3 X1 X2 X3 Wa Wb Wc b) := rfl

theorem swish_rows (X : Mat A n) : swish (rows lo h X) = rows lo h (swish X) := rfl

theorem plus_rows (X Y : Mat A n) : plus (rows lo h X) (rows lo h Y) = rows lo h (plus X Y) := rfl

theorem lnorm_rows (Y : Mat A n) (g bt : Vc n) : lnorm (rows lo h Y) g bt = rows lo h (lnorm Y g bt) := rfl

theorem ffb_rows (X : Mat A k) (W1 : Mat k n) (b1 : Vc n) (W2 : Mat n n) (b2 : Vc n) :
    ffb (rows lo h X) W1 b1 W2 b2 = rows lo h (ffb X W1 b1 W2 b2) := by
  unfold ffb; rw [dense_rows, swish_rows, dense_rows]

theorem ffbLn_rows (X : Mat A k) (W1 : Mat k n) (b1 : Vc n) (W2 : Mat n n) (b2 g bt : Vc n) :
    ffbLn (rows lo h X) W1 b1 W2 b2 g bt = rows lo h (ffbLn X W1 b1 W2 b2 g bt) := by
  unfold ffbLn; rw [ffb_rows, lnorm_rows]

/-! ## The two fused layers -/

/-- The edge update on a block of edges: the edge features embedded (two affine layers, swish, normalisation), then
    together with the two gathered endpoint embeddings through an affine layer whose weight is cut in three bands,
    swish, an affine layer and a normalisation. -/
def edgeLayer (x : Mat a k) (ns nr : Mat a n) (eW1 : Mat k n) (eb1 : Vc n) (eW2 : Mat n n) (eb2 eg ebt : Vc n)
    (Wa Wb Wc : Mat n n) (pb1 : Vc n) (pW2 : Mat n n) (pb2 pg pbt : Vc n) : Mat a n :=
  lnorm (dense (swish (dense3 (ffbLn x eW1 eb1 eW2 eb2 eg ebt) ns nr Wa Wb Wc pb1)) pW2 pb2) pg pbt

/-- The node update on a block of nodes: the node embeddings and the summed incoming messages through an affine layer
    whose weight is cut in two bands, swish, an affine layer and a normalisation; the embeddings added back; then two
    affine layers with a swish between them. -/
def nodeLayer (nf agg : Mat a n) (Wa Wb : Mat n n) (pb1 : Vc n) (pW2 : Mat n n) (pb2 pg pbt : Vc n)
    (oW1 : Mat n n) (ob1 : Vc n) (oW2 : Mat n n) (ob2 : Vc n) : Mat a n :=
  ffb (plus (lnorm (dense (swish (dense2 nf agg Wa Wb pb1)) pW2 pb2) pg pbt) nf) oW1 ob1 oW2 ob2

theorem edgeLayer_rows (X : Mat A k) (NS NR : Mat A n) (eW1 : Mat k n) (eb1 : Vc n) (eW2 : Mat n n) (eb2 eg ebt : Vc n)
    (Wa Wb Wc : Mat n n) (pb1 : Vc n) (pW2 : Mat n n) (pb2 pg pbt : Vc n) :
    edgeLayer (rows lo h X) (rows lo h NS) (rows lo h NR) eW1 eb1 eW2 eb2 eg ebt Wa Wb Wc pb1 pW2 pb2 pg pbt
      = rows lo h (edgeLayer X NS NR eW1 eb1 eW2 eb2 eg ebt Wa Wb Wc pb1 pW2 pb2 pg pbt) := by
  unfold edgeLayer; rw [ffbLn_rows, dense3_rows, swish_rows, dense_rows, lnorm_rows]

theorem nodeLayer_rows (NF AGG : Mat A n) (Wa Wb : Mat n n) (pb1 : Vc n) (pW2 : Mat n n) (pb2 pg pbt : Vc n)
    (oW1 : Mat n n) (ob1 : Vc n) (oW2 : Mat n n) (ob2 : Vc n) :
    nodeLayer (rows lo h NF) (rows lo h AGG) Wa Wb pb1 pW2 pb2 pg pbt oW1 ob1 oW2 ob2
      = rows lo h (nodeLayer NF AGG Wa Wb pb1 pW2 pb2 pg pbt oW1 ob1 oW2 ob2) := by
  unfold nodeLayer; rw [dense2_rows, swish_rows, dense_rows, lnorm_rows, plus_rows, ffb_rows]

end Cert.Gnn

end
-- ==== Proof.KernelArrays.lean ====
/- From blocks to whole arrays: each of the three TensorCore regions of the idealized kernel, read on the extended
   reals, leaves in its output array ONE function of the whole arrays it finds at entry.

   A region's grid walks the rows of its row arrays in blocks (5000 rows in the embedding region, 2000 rows in the
   edge and node regions); the weights and biases are held whole at every point. Point `t` reads block `t` of each
   row array, applies the layer to that block, and writes the result back as block `t` of the output array. Because
   the layer acts row by row, the layer of a block of rows is the block of rows of the layer of the whole array; the
   blocks written back tile the output array; so the output array ends as the layer of the whole arrays.
   What the body computes on one block is taken as a hypothesis (`hbody`): an equation between the body's output
   window and the layer, for all blocks. -/
import proofs.«156218_j71949292142781_2_alg».proof.Proof.Gen.KernelIdeal.Frame
import proofs.«156218_j71949292142781_2_alg».proof.Proof.Layers
import Idealize.ShloMosaic.Lib.Pipeline.Value
import Idealize.ShloMosaic.Lib.Tactic

set_option maxRecDepth 16384

noncomputable section

namespace Cert.KernelIdeal.KArr

open Idealize.ShloMosaic Idealize.ShloMosaic.TcCoe Idealize.SL.Sem
open Idealize.ShloMosaic.Pipeline (Dat)
open Idealize.ShloMosaic.ValueIdx
open Cert.KernelIdeal.Gen Cert.Gnn

variable (V : (c : Dev nD) → (b : Ref sig .tc) → Buf (Elt Ideal) ((c : Thread nD τ).loc b))

/-! ## The embedding region: 10 points, 5000 nodes each -/

/-- Window 0 is at block row `t`, block column 0, at point `t`. -/
theorem index0_0 : ∀ t : Fin cfg0.N, win0_0.index t (0 : Fin 2) = t.val ∧ win0_0.index t (1 : Fin 2) = 0 :=
  (by decide +kernel : ∀ t : Fin grid0.N, _)

/-- Window 7 is at block row `t`, block column 0, at point `t`. -/
theorem index0_7 : ∀ t : Fin cfg0.N, win0_7.index t (0 : Fin 2) = t.val ∧ win0_7.index t (1 : Fin 2) = 0 :=
  (by decide +kernel : ∀ t : Fin grid0.N, _)

/-- Window 1 is at block 0 at every point. -/
theorem index0_1 : ∀ t : Fin cfg0.N, win0_1.index t (0 : Fin 2) = 0 ∧ win0_1.index t (1 : Fin 2) = 0 :=
  (by decide +kernel : ∀ t : Fin grid0.N, _)

/-- Window 2 is at block 0 at every point. -/
theorem index0_2 : ∀ t : Fin cfg0.N, win0_2.index t (0 : Fin 1) = 0 :=
  (by decide +kernel : ∀ t : Fin grid0.N, _)

/-- Window 3 is at block 0 at every point. -/
theorem index0_3 : ∀ t : Fin cfg0.N, win0_3.index t (0 : Fin 2) = 0 ∧ win0_3.index t (1 : Fin 2) = 0 :=
  (by decide +kernel : ∀ t : Fin grid0.N, _)

/-- Window 4 is at block 0 at every point. -/
theorem index0_4 : ∀ t : Fin cfg0.N, win0_4.index t (0 : Fin 1) = 0 :=
  (by decide +kernel : ∀ t : Fin grid0.N, _)

/-- Window 5 is at block 0 at every point. -/
theorem index0_5 : ∀ t : Fin cfg0.N, win0_5.index t (0 : Fin 1) = 0 :=
  (by decide +kernel : ∀ t : Fin grid0.N, _)

/-- Window 6 is at block 0 at every point. -/
theorem index0_6 : ∀ t : Fin cfg0.N, win0_6.index t (0 : Fin 1) = 0 :=
  (by decide +kernel : ∀ t : Fin grid0.N, _)

/-- Block `t` of 5000 rows lies inside the 50000 rows. -/
theorem inside0 (t : Fin cfg0.N) : 5000 * t.val + 5000 ≤ 50000 := by
  have h : t.val < 10 := lt_of_lt_of_eq t.isLt N_0
  omega

/-- Window 0's block at point `t` is the block of rows 5000 t … 5000 t + 4999 of its array. -/
theorem rowBlock0_0 (c : Dev nD) (t : Fin cfg0.N) :
    (iblk0 V c 0 t : Mat 5000 16) = rows (5000 * t.val) (inside0 t) (V c (Pipeline.arrRef spec0 0) : Mat 50000 16) := by
  obtain ⟨e0, e1⟩ := index0_0 t
  funext x
  unfold iblk0
  rw [View.read_apply]
  show (V c (Pipeline.arrRef spec0 0) : Mat 50000 16) _ = (V c (Pipeline.arrRef spec0 0) : Mat 50000 16) _
  congr 1
  funext a
  apply Fin.ext
  match a with
  | ⟨0, _⟩ => show win0_0.index t (0 : Fin 2) * 5000 + 1 * (x 0).val = 5000 * t.val + (x 0).val; rw [e0]; omega
  | ⟨1, _⟩ => show win0_0.index t (1 : Fin 2) * 16 + 1 * (x 1).val = (x 1).val; rw [e1]; omega

/-- Read through the output window's block at point `t`, an array of 50000 rows gives its block of rows
    5000 t … 5000 t + 4999. -/
theorem rowBlock0_7 (c : Dev nD) (t : Fin cfg0.N) (Y : Buf (Elt Ideal) ((cfg0.win 7).arr.view.loc (c.tc : Thread nD τ))) :
    (((cfg0.win 7).blk t).view.read (Elt Ideal) Y : Mat 5000 64) = rows (5000 * t.val) (inside0 t) (Y : Mat 50000 64) := by
  obtain ⟨e0, e1⟩ := index0_7 t
  funext x
  rw [View.read_apply]
  show (Y : Mat 50000 64) _ = (Y : Mat 50000 64) _
  congr 1
  funext a
  apply Fin.ext
  match a with
  | ⟨0, _⟩ => show win0_7.index t (0 : Fin 2) * 5000 + 1 * (x 0).val = 5000 * t.val + (x 0).val; rw [e0]; omega
  | ⟨1, _⟩ => show win0_7.index t (1 : Fin 2) * 64 + 1 * (x 1).val = (x 1).val; rw [e1]; omega

/-- Window 1 is held whole: its block at every point is its array. -/
theorem whole0_1 (c : Dev nD) (t : Fin cfg0.N) :
    (iblk0 V c 1 t : Mat 16 64) = (V c (Pipeline.arrRef spec0 1) : Mat 16 64) := by
  obtain ⟨e0, e1⟩ := index0_1 t
  funext x
  unfold iblk0
  rw [View.read_apply]
  show (V c (Pipeline.arrRef spec0 1) : Mat 16 64) _ = (V c (Pipeline.arrRef spec0 1) : Mat 16 64) _
  congr 1
  funext a
  apply Fin.ext
  match a with
  | ⟨0, _⟩ => show win0_1.index t (0 : Fin 2) * 16 + 1 * (x 0).val = (x 0).val; rw [e0]; omega
  | ⟨1, _⟩ => show win0_1.index t (1 : Fin 2) * 64 + 1 * (x 1).val = (x 1).val; rw [e1]; omega

/-- Window 2 is held whole: its block at every point is its array. -/
theorem whole0_2 (c : Dev nD) (t : Fin cfg0.N) :
    (iblk0 V c 2 t : Vc 64) = (V c (Pipeline.arrRef spec0 2) : Vc 64) := by
  obtain e0 := index0_2 t
  funext x
  unfold iblk0
  rw [View.read_apply]
  show (V c (Pipeline.arrRef spec0 2) : Vc 64) _ = (V c (Pipeline.arrRef spec0 2) : Vc 64) _
  congr 1
  funext a
  apply Fin.ext
  match a with
  | ⟨0, _⟩ => show win0_2.index t (0 : Fin 1) * 64 + 1 * (x 0).val = (x 0).val; rw [e0]; omega

/-- Window 3 is held whole: its block at every point is its array. -/
theorem whole0_3 (c : Dev nD) (t : Fin cfg0.N) :
    (iblk0 V c 3 t : Mat 64 64) = (V c (Pipeline.arrRef spec0 3) : Mat 64 64) := by
  obtain ⟨e0, e1⟩ := index0_3 t
  funext x
  unfold iblk0
  rw [View.read_apply]
  show (V c (Pipeline.arrRef spec0 3) : Mat 64 64) _ = (V c (Pipeline.arrRef spec0 3) : Mat 64 64) _
  congr 1
  funext a
  apply Fin.ext
  match a with
  | ⟨0, _⟩ => show win0_3.index t (0 : Fin 2) * 64 + 1 * (x 0).val = (x 0).val; rw [e0]; omega
  | ⟨1, _⟩ => show win0_3.index t (1 : Fin 2) * 64 + 1 * (x 1).val = (x 1).val; rw [e1]; omega

/-- Window 4 is held whole: its block at every point is its array. -/
theorem whole0_4 (c : Dev nD) (t : Fin cfg0.N) :
    (iblk0 V c 4 t : Vc 64) = (V c (Pipeline.arrRef spec0 4) : Vc 64) := by
  obtain e0 := index0_4 t
  funext x
  unfold iblk0
  rw [View.read_apply]
  show (V c (Pipeline.arrRef spec0 4) : Vc 64) _ = (V c (Pipeline.arrRef spec0 4) : Vc 64) _
  congr 1
  funext a
  apply Fin.ext
  match a with
  | ⟨0, _⟩ => show win0_4.index t (0 : Fin 1) * 64 + 1 * (x 0).val = (x 0).val; rw [e0]; omega

/-- Window 5 is held whole: its block at every point is its array. -/
theorem whole0_5 (c : Dev nD) (t : Fin cfg0.N) :
    (iblk0 V c 5 t : Vc 64) = (V c (Pipeline.arrRef spec0 5) : Vc 64) := by
  obtain e0 := index0_5 t
  funext x
  unfold iblk0
  rw [View.read_apply]
  show (V c (Pipeline.arrRef spec0 5) : Vc 64) _ = (V c (Pipeline.arrRef spec0 5) : Vc 64) _
  congr 1
  funext a
  apply Fin.ext
  match a with
  | ⟨0, _⟩ => show win0_5.index t (0 : Fin 1) * 64 + 1 * (x 0).val = (x 0).val; rw [e0]; omega

/-- Window 6 is held whole: its block at every point is its array. -/
theorem whole0_6 (c : Dev nD) (t : Fin cfg0.N) :
    (iblk0 V c 6 t : Vc 64) = (V c (Pipeline.arrRef spec0 6) : Vc 64) := by
  obtain e0 := index0_6 t
  funext x
  unfold iblk0
  rw [View.read_apply]
  show (V c (Pipeline.arrRef spec0 6) : Vc 64) _ = (V c (Pipeline.arrRef spec0 6) : Vc 64) _
  congr 1
  funext a
  apply Fin.ext
  match a with
  | ⟨0, _⟩ => show win0_6.index t (0 : Fin 1) * 64 + 1 * (x 0).val = (x 0).val; rw [e0]; omega

/-- The layer of blocks of rows with the weights held whole is the block of rows of the layer of the whole arrays:
    the step one point of this region takes, over any blocks equal to those. -/
theorem blockStep0 {lo : ℕ} (h : lo + 5000 ≤ 50000) (X : Mat 50000 16) (W1 : Mat 16 64) (b1 : Vc 64) (W2 : Mat 64 64) (b2 : Vc 64) (g : Vc 64) (bt : Vc 64)
    (x0 : Mat 5000 16) (x1 : Mat 16 64) (x2 : Vc 64) (x3 : Mat 64 64) (x4 : Vc 64) (x5 : Vc 64) (x6 : Vc 64)
    (e0 : x0 = rows lo h X) (e1 : x1 = W1) (e2 : x2 = b1) (e3 : x3 = W2) (e4 : x4 = b2) (e5 : x5 = g) (e6 : x6 = bt) :
    ffbLn x0 x1 x2 x3 x4 x5 x6 = rows lo h (ffbLn X W1 b1 W2 b2 g bt) := by
  subst e0 e1 e2 e3 e4 e5 e6
  exact ffbLn_rows lo h _ _ _ _ _ _ _

/-- The embedding of all 50000 nodes: the embedding layer of the whole arrays the region finds at entry. -/
abbrev whole0 (c : Dev nD) : Mat 50000 64 :=
  ffbLn (V c (Pipeline.arrRef spec0 0) : Mat 50000 16) (V c (Pipeline.arrRef spec0 1) : Mat 16 64) (V c (Pipeline.arrRef spec0 2) : Vc 64)
    (V c (Pipeline.arrRef spec0 3) : Mat 64 64) (V c (Pipeline.arrRef spec0 4) : Vc 64) (V c (Pipeline.arrRef spec0 5) : Vc 64)
    (V c (Pipeline.arrRef spec0 6) : Vc 64)

/-- What point `t` writes back is block `t` of the layer of the whole arrays. -/
theorem flushed0 (c : Dev nD) (t : Fin cfg0.N)
    (hbody0 : ∀ (x0 : Vec Ideal S5000x16 .f32) (x1 : Vec Ideal S16x64 .f32) (x2 : Vec Ideal S64 .f32) (x3 : Vec Ideal S64x64 .f32) (x4 : Vec Ideal S64 .f32) (x5 : Vec Ideal S64 .f32) (x6 : Vec Ideal S64 .f32),
      (out0_7 (F := Ideal) x0 x1 x2 x3 x4 x5 x6 : Mat 5000 64) = ffbLn x0 x1 x2 x3 x4 x5 x6) :
    (dat0 V c).flushed 7 t = ((cfg0.win 7).blk t).view.read (Elt Ideal) (whole0 V c) := by
  show (cfg0.win 7).cut (grid0.coords t) ((dat0 V c).after 7 t) = _
  rw [after0_7]
  exact ((hbody0 _ _ _ _ _ _ _).trans (blockStep0 (inside0 t) _ _ _ _ _ _ _ _ _ _ _ _ _ _
    (rowBlock0_0 V c t) (whole0_1 V c t) (whole0_2 V c t) (whole0_3 V c t) (whole0_4 V c t) (whole0_5 V c t) (whole0_6 V c t))).trans
    (rowBlock0_7 c t (whole0 V c)).symm

/-- An index of the output array is in point `t`'s block iff each coordinate is in the block's range on its axis. -/
theorem inBlock0 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v4).slice (win0_7.rect t)).set ↔ _
  rw [View.set_slice_whole, Rect.mem_set_unit]
  exact Iff.rfl

/-- Every index of the output array is in some point's block: row `r` is in the block of point `r / 5000`. -/
theorem cover0 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have hN : (i 0).val / 5000 < cfg0.N := by rw [show cfg0.N = 10 from N_0]; omega
  obtain ⟨e0, e1⟩ := index0_7 ⟨(i 0).val / 5000, hN⟩
  refine ⟨⟨(i 0).val / 5000, hN⟩, flush0_7 _, ?_⟩
  rw [inBlock0]
  intro a
  match a with
  | ⟨0, _⟩ =>
    show win0_7.index ⟨(i 0).val / 5000, hN⟩ (0 : Fin 2) * 5000 ≤ (i 0).val ∧ (i 0).val < win0_7.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_7.index ⟨(i 0).val / 5000, hN⟩ (1 : Fin 2) * 64 ≤ (i 1).val ∧ (i 1).val < win0_7.index ⟨(i 0).val / 5000, hN⟩ (1 : Fin 2) * 64 + 64
    rw [e1]; omega

/-- THE EMBEDDING REGION'S OUTPUT ARRAY after its run is the embedding of all nodes: two affine layers with a swish
    between them and a layer normalisation, of the node features and weights the region finds at entry. -/
theorem final0 (c : Dev nD)
    (hbody0 : ∀ (x0 : Vec Ideal S5000x16 .f32) (x1 : Vec Ideal S16x64 .f32) (x2 : Vec Ideal S64 .f32) (x3 : Vec Ideal S64x64 .f32) (x4 : Vec Ideal S64 .f32) (x5 : Vec Ideal S64 .f32) (x6 : Vec Ideal S64 .f32),
      (out0_7 (F := Ideal) x0 x1 x2 x3 x4 x5 x6 : Mat 5000 64) = ffbLn x0 x1 x2 x3 x4 x5 x6) :
    ((dat0 V c).arrAt 7 cfg0.N : Mat 50000 64)
      = ffbLn (V c (Pipeline.arrRef spec0 0) : Mat 50000 16) (V c (Pipeline.arrRef spec0 1) : Mat 16 64) (V c (Pipeline.arrRef spec0 2) : Vc 64)
    (V c (Pipeline.arrRef spec0 3) : Mat 64 64) (V c (Pipeline.arrRef spec0 4) : Vc 64) (V c (Pipeline.arrRef spec0 5) : Vc 64)
    (V c (Pipeline.arrRef spec0 6) : Vc 64) :=
  (dat0 V c).arrAt_eq_of_cover 7 (whole0 V c) (fun t _ => flushed0 V c t hbody0) cover0

/-! ## The edge region: 400 points, 2000 edges each -/

/-- Window 0 is at block row `t`, block column 0, at point `t`. -/
theorem index1_0 : ∀ t : Fin cfg1.N, win1_0.index t (0 : Fin 2) = t.val ∧ win1_0.index t (1 : Fin 2) = 0 :=
  (by decide +kernel : ∀ t : Fin grid1.N, _)

/-- Window 1 is at block row `t`, block column 0, at point `t`. -/
theorem index1_1 : ∀ t : Fin cfg1.N, win1_1.index t (0 : Fin 2) = t.val ∧ win1_1.index t (1 : Fin 2) = 0 :=
  (by decide +kernel : ∀ t : Fin grid1.N, _)

/-- Window 2 is at block row `t`, block column 0, at point `t`. -/
theorem index1_2 : ∀ t : Fin cfg1.N, win1_2.index t (0 : Fin 2) = t.val ∧ win1_2.index t (1 : Fin 2) = 0 :=
  (by decide +kernel : ∀ t : Fin grid1.N, _)

/-- Window 17 is at block row `t`, block column 0, at point `t`. -/
theorem index1_17 : ∀ t : Fin cfg1.N, win1_17.index t (0 : Fin 2) = t.val ∧ win1_17.index t (1 : Fin 2) = 0 :=
  (by decide +kernel : ∀ t : Fin grid1.N, _)

/-- Window 3 is at block 0 at every point. -/
theorem index1_3 : ∀ t : Fin cfg1.N, win1_3.index t (0 : Fin 2) = 0 ∧ win1_3.index t (1 : Fin 2) = 0 :=
  (by decide +kernel : ∀ t : Fin grid1.N, _)

/-- Window 4 is at block 0 at every point. -/
theorem index1_4 : ∀ t : Fin cfg1.N, win1_4.index t (0 : Fin 1) = 0 :=
  (by decide +kernel : ∀ t : Fin grid1.N, _)

/-- Window 5 is at block 0 at every point. -/
theorem index1_5 : ∀ t : Fin cfg1.N, win1_5.index t (0 : Fin 2) = 0 ∧ win1_5.index t (1 : Fin 2) = 0 :=
  (by decide +kernel : ∀ t : Fin grid1.N, _)

/-- Window 6 is at block 0 at every point. -/
theorem index1_6 : ∀ t : Fin cfg1.N, win1_6.index t (0 : Fin 1) = 0 :=
  (by decide +kernel : ∀ t : Fin grid1.N, _)

/-- Window 7 is at block 0 at every point. -/
theorem index1_7 : ∀ t : Fin cfg1.N, win1_7.index t (0 : Fin 1) = 0 :=
  (by decide +kernel : ∀ t : Fin grid1.N, _)

/-- Window 8 is at block 0 at every point. -/
theorem index1_8 : ∀ t : Fin cfg1.N, win1_8.index t (0 : Fin 1) = 0 :=
  (by decide +kernel : ∀ t : Fin grid1.N, _)

/-- Window 9 is at block 0 at every point. -/
theorem index1_9 : ∀ t : Fin cfg1.N, win1_9.index t (0 : Fin 2) = 0 ∧ win1_9.index t (1 : Fin 2) = 0 :=
  (by decide +kernel : ∀ t : Fin grid1.N, _)

/-- Window 10 is at block 0 at every point. -/
theorem index1_10 : ∀ t : Fin cfg1.N, win1_10.index t (0 : Fin 2) = 0 ∧ win1_10.index t (1 : Fin 2) = 0 :=
  (by decide +kernel : ∀ t : Fin grid1.N, _)

/-- Window 11 is at block 0 at every point. -/
theorem index1_11 : ∀ t : Fin cfg1.N, win1_11.index t (0 : Fin 2) = 0 ∧ win1_11.index t (1 : Fin 2) = 0 :=
  (by decide +kernel : ∀ t : Fin grid1.N, _)

/-- Window 12 is at block 0 at every point. -/
theorem index1_12 : ∀ t : Fin cfg1.N, win1_12.index t (0 : Fin 1) = 0 :=
  (by decide +kernel : ∀ t : Fin grid1.N, _)

/-- Window 13 is at block 0 at every point. -/
theorem index1_13 : ∀ t : Fin cfg1.N, win1_13.index t (0 : Fin 2) = 0 ∧ win1_13.index t (1 : Fin 2) = 0 :=
  (by decide +kernel : ∀ t : Fin grid1.N, _)

/-- Window 14 is at block 0 at every point. -/
theorem index1_14 : ∀ t : Fin cfg1.N, win1_14.index t (0 : Fin 1) = 0 :=
  (by decide +kernel : ∀ t : Fin grid1.N, _)

/-- Window 15 is at block 0 at every point. -/
theorem index1_15 : ∀ t : Fin cfg1.N, win1_15.index t (0 : Fin 1) = 0 :=
  (by decide +kernel : ∀ t : Fin grid1.N, _)

/-- Window 16 is at block 0 at every point. -/
theorem index1_16 : ∀ t : Fin cfg1.N, win1_16.index t (0 : Fin 1) = 0 :=
  (by decide +kernel : ∀ t : Fin grid1.N, _)

/-- Block `t` of 2000 rows lies inside the 800000 rows. -/
theorem inside1 (t : Fin cfg1.N) : 2000 * t.val + 2000 ≤ 800000 := by
  have h : t.val < 400 := lt_of_lt_of_eq t.isLt N_1
  omega

/-- Window 0's block at point `t` is the block of rows 2000 t … 2000 t + 1999 of its array. -/
theorem rowBlock1_0 (c : Dev nD) (t : Fin cfg1.N) :
    (iblk1 V c 0 t : Mat 2000 4) = rows (2000 * t.val) (inside1 t) (V c (Pipeline.arrRef spec1 0) : Mat 800000 4) := by
  obtain ⟨e0, e1⟩ := index1_0 t
  funext x
  unfold iblk1
  rw [View.read_apply]
  show (V c (Pipeline.arrRef spec1 0) : Mat 800000 4) _ = (V c (Pipeline.arrRef spec1 0) : Mat 800000 4) _
  congr 1
  funext a
  apply Fin.ext
  match a with
  | ⟨0, _⟩ => show win1_0.index t (0 : Fin 2) * 2000 + 1 * (x 0).val = 2000 * t.val + (x 0).val; rw [e0]; omega
  | ⟨1, _⟩ => show win1_0.index t (1 : Fin 2) * 4 + 1 * (x 1).val = (x 1).val; rw [e1]; omega

/-- Window 1's block at point `t` is the block of rows 2000 t … 2000 t + 1999 of its array. -/
theorem rowBlock1_1 (c : Dev nD) (t : Fin cfg1.N) :
    (iblk1 V c 1 t : Mat 2000 64) = rows (2000 * t.val) (inside1 t) (V c (Pipeline.arrRef spec1 1) : Mat 800000 64) := by
  obtain ⟨e0, e1⟩ := index1_1 t
  funext x
  unfold iblk1
  rw [View.read_apply]
  show (V c (Pipeline.arrRef spec1 1) : Mat 800000 64) _ = (V c (Pipeline.arrRef spec1 1) : Mat 800000 64) _
  congr 1
  funext a
  apply Fin.ext
  match a with
  | ⟨0, _⟩ => show win1_1.index t (0 : Fin 2) * 2000 + 1 * (x 0).val = 2000 * t.val + (x 0).val; rw [e0]; omega
  | ⟨1, _⟩ => show win1_1.index t (1 : Fin 2) * 64 + 1 * (x 1).val = (x 1).val; rw [e1]; omega

/-- Window 2's block at point `t` is the block of rows 2000 t … 2000 t + 1999 of its array. -/
theorem rowBlock1_2 (c : Dev nD) (t : Fin cfg1.N) :
    (iblk1 V c 2 t : Mat 2000 64) = rows (2000 * t.val) (inside1 t) (V c (Pipeline.arrRef spec1 2) : Mat 800000 64) := by
  obtain ⟨e0, e1⟩ := index1_2 t
  funext x
  unfold iblk1
  rw [View.read_apply]
  show (V c (Pipeline.arrRef spec1 2) : Mat 800000 64) _ = (V c (Pipeline.arrRef spec1 2) : Mat 800000 64) _
  congr 1
  funext a
  apply Fin.ext
  match a with
  | ⟨0, _⟩ => show win1_2.index t (0 : Fin 2) * 2000 + 1 * (x 0).val = 2000 * t.val + (x 0).val; rw [e0]; omega
  | ⟨1, _⟩ => show win1_2.index t (1 : Fin 2) * 64 + 1 * (x 1).val = (x 1).val; rw [e1]; omega

/-- Read through the output window's block at point `t`, an array of 800000 rows gives its block of rows
    2000 t … 2000 t + 1999. -/
theorem rowBlock1_17 (c : Dev nD) (t : Fin cfg1.N) (Y : Buf (Elt Ideal) ((cfg1.win 17).arr.view.loc (c.tc : Thread nD τ))) :
    (((cfg1.win 17).blk t).view.read (Elt Ideal) Y : Mat 2000 64) = rows (2000 * t.val) (inside1 t) (Y : Mat 800000 64) := by
  obtain ⟨e0, e1⟩ := index1_17 t
  funext x
  rw [View.read_apply]
  show (Y : Mat 800000 64) _ = (Y : Mat 800000 64) _
  congr 1
  funext a
  apply Fin.ext
  match a with
  | ⟨0, _⟩ => show win1_17.index t (0 : Fin 2) * 2000 + 1 * (x 0).val = 2000 * t.val + (x 0).val; rw [e0]; omega
  | ⟨1, _⟩ => show win1_17.index t (1 : Fin 2) * 64 + 1 * (x 1).val = (x 1).val; rw [e1]; omega

/-- Window 3 is held whole: its block at every point is its array. -/
theorem whole1_3 (c : Dev nD) (t : Fin cfg1.N) :
    (iblk1 V c 3 t : Mat 4 64) = (V c (Pipeline.arrRef spec1 3) : Mat 4 64) := by
  obtain ⟨e0, e1⟩ := index1_3 t
  funext x
  unfold iblk1
  rw [View.read_apply]
  show (V c (Pipeline.arrRef spec1 3) : Mat 4 64) _ = (V c (Pipeline.arrRef spec1 3) : Mat 4 64) _
  congr 1
  funext a
  apply Fin.ext
  match a with
  | ⟨0, _⟩ => show win1_3.index t (0 : Fin 2) * 4 + 1 * (x 0).val = (x 0).val; rw [e0]; omega
  | ⟨1, _⟩ => show win1_3.index t (1 : Fin 2) * 64 + 1 * (x 1).val = (x 1).val; rw [e1]; omega

/-- Window 4 is held whole: its block at every point is its array. -/
theorem whole1_4 (c : Dev nD) (t : Fin cfg1.N) :
    (iblk1 V c 4 t : Vc 64) = (V c (Pipeline.arrRef spec1 4) : Vc 64) := by
  obtain e0 := index1_4 t
  funext x
  unfold iblk1
  rw [View.read_apply]
  show (V c (Pipeline.arrRef spec1 4) : Vc 64) _ = (V c (Pipeline.arrRef spec1 4) : Vc 64) _
  congr 1
  funext a
  apply Fin.ext
  match a with
  | ⟨0, _⟩ => show win1_4.index t (0 : Fin 1) * 64 + 1 * (x 0).val = (x 0).val; rw [e0]; omega

/-- Window 5 is held whole: its block at every point is its array. -/
theorem whole1_5 (c : Dev nD) (t : Fin cfg1.N) :
    (iblk1 V c 5 t : Mat 64 64) = (V c (Pipeline.arrRef spec1 5) : Mat 64 64) := by
  obtain ⟨e0, e1⟩ := index1_5 t
  funext x
  unfold iblk1
  rw [View.read_apply]
  show (V c (Pipeline.arrRef spec1 5) : Mat 64 64) _ = (V c (Pipeline.arrRef spec1 5) : Mat 64 64) _
  congr 1
  funext a
  apply Fin.ext
  match a with
  | ⟨0, _⟩ => show win1_5.index t (0 : Fin 2) * 64 + 1 * (x 0).val = (x 0).val; rw [e0]; omega
  | ⟨1, _⟩ => show win1_5.index t (1 : Fin 2) * 64 + 1 * (x 1).val = (x 1).val; rw [e1]; omega

/-- Window 6 is held whole: its block at every point is its array. -/
theorem whole1_6 (c : Dev nD) (t : Fin cfg1.N) :
    (iblk1 V c 6 t : Vc 64) = (V c (Pipeline.arrRef spec1 6) : Vc 64) := by
  obtain e0 := index1_6 t
  funext x
  unfold iblk1
  rw [View.read_apply]
  show (V c (Pipeline.arrRef spec1 6) : Vc 64) _ = (V c (Pipeline.arrRef spec1 6) : Vc 64) _
  congr 1
  funext a
  apply Fin.ext
  match a with
  | ⟨0, _⟩ => show win1_6.index t (0 : Fin 1) * 64 + 1 * (x 0).val = (x 0).val; rw [e0]; omega

/-- Window 7 is held whole: its block at every point is its array. -/
theorem whole1_7 (c : Dev nD) (t : Fin cfg1.N) :
    (iblk1 V c 7 t : Vc 64) = (V c (Pipeline.arrRef spec1 7) : Vc 64) := by
  obtain e0 := index1_7 t
  funext x
  unfold iblk1
  rw [View.read_apply]
  show (V c (Pipeline.arrRef spec1 7) : Vc 64) _ = (V c (Pipeline.arrRef spec1 7) : Vc 64) _
  congr 1
  funext a
  apply Fin.ext
  match a with
  | ⟨0, _⟩ => show win1_7.index t (0 : Fin 1) * 64 + 1 * (x 0).val = (x 0).val; rw [e0]; omega

/-- Window 8 is held whole: its block at every point is its array. -/
theorem whole1_8 (c : Dev nD) (t : Fin cfg1.N) :
    (iblk1 V c 8 t : Vc 64) = (V c (Pipeline.arrRef spec1 8) : Vc 64) := by
  obtain e0 := index1_8 t
  funext x
  unfold iblk1
  rw [View.read_apply]
  show (V c (Pipeline.arrRef spec1 8) : Vc 64) _ = (V c (Pipeline.arrRef spec1 8) : Vc 64) _
  congr 1
  funext a
  apply Fin.ext
  match a with
  | ⟨0, _⟩ => show win1_8.index t (0 : Fin 1) * 64 + 1 * (x 0).val = (x 0).val; rw [e0]; omega

/-- Window 9 is held whole: its block at every point is its array. -/
theorem whole1_9 (c : Dev nD) (t : Fin cfg1.N) :
    (iblk1 V c 9 t : Mat 64 64) = (V c (Pipeline.arrRef spec1 9) : Mat 64 64) := by
  obtain ⟨e0, e1⟩ := index1_9 t
  funext x
  unfold iblk1
  rw [View.read_apply]
  show (V c (Pipeline.arrRef spec1 9) : Mat 64 64) _ = (V c (Pipeline.arrRef spec1 9) : Mat 64 64) _
  congr 1
  funext a
  apply Fin.ext
  match a with
  | ⟨0, _⟩ => show win1_9.index t (0 : Fin 2) * 64 + 1 * (x 0).val = (x 0).val; rw [e0]; omega
  | ⟨1, _⟩ => show win1_9.index t (1 : Fin 2) * 64 + 1 * (x 1).val = (x 1).val; rw [e1]; omega

/-- Window 10 is held whole: its block at every point is its array. -/
theorem whole1_10 (c : Dev nD) (t : Fin cfg1.N) :
    (iblk1 V c 10 t : Mat 64 64) = (V c (Pipeline.arrRef spec1 10) : Mat 64 64) := by
  obtain ⟨e0, e1⟩ := index1_10 t
  funext x
  unfold iblk1
  rw [View.read_apply]
  show (V c (Pipeline.arrRef spec1 10) : Mat 64 64) _ = (V c (Pipeline.arrRef spec1 10) : Mat 64 64) _
  congr 1
  funext a
  apply Fin.ext
  match a with
  | ⟨0, _⟩ => show win1_10.index t (0 : Fin 2) * 64 + 1 * (x 0).val = (x 0).val; rw [e0]; omega
  | ⟨1, _⟩ => show win1_10.index t (1 : Fin 2) * 64 + 1 * (x 1).val = (x 1).val; rw [e1]; omega

/-- Window 11 is held whole: its block at every point is its array. -/
theorem whole1_11 (c : Dev nD) (t : Fin cfg1.N) :
    (iblk1 V c 11 t : Mat 64 64) = (V c (Pipeline.arrRef spec1 11) : Mat 64 64) := by
  obtain ⟨e0, e1⟩ := index1_11 t
  funext x
  unfold iblk1
  rw [View.read_apply]
  show (V c (Pipeline.arrRef spec1 11) : Mat 64 64) _ = (V c (Pipeline.arrRef spec1 11) : Mat 64 64) _
  congr 1
  funext a
  apply Fin.ext
  match a with
  | ⟨0, _⟩ => show win1_11.index t (0 : Fin 2) * 64 + 1 * (x 0).val = (x 0).val; rw [e0]; omega
  | ⟨1, _⟩ => show win1_11.index t (1 : Fin 2) * 64 + 1 * (x 1).val = (x 1).val; rw [e1]; omega

/-- Window 12 is held whole: its block at every point is its array. -/
theorem whole1_12 (c : Dev nD) (t : Fin cfg1.N) :
    (iblk1 V c 12 t : Vc 64) = (V c (Pipeline.arrRef spec1 12) : Vc 64) := by
  obtain e0 := index1_12 t
  funext x
  unfold iblk1
  rw [View.read_apply]
  show (V c (Pipeline.arrRef spec1 12) : Vc 64) _ = (V c (Pipeline.arrRef spec1 12) : Vc 64) _
  congr 1
  funext a
  apply Fin.ext
  match a with
  | ⟨0, _⟩ => show win1_12.index t (0 : Fin 1) * 64 + 1 * (x 0).val = (x 0).val; rw [e0]; omega

/-- Window 13 is held whole: its block at every point is its array. -/
theorem whole1_13 (c : Dev nD) (t : Fin cfg1.N) :
    (iblk1 V c 13 t : Mat 64 64) = (V c (Pipeline.arrRef spec1 13) : Mat 64 64) := by
  obtain ⟨e0, e1⟩ := index1_13 t
  funext x
  unfold iblk1
  rw [View.read_apply]
  show (V c (Pipeline.arrRef spec1 13) : Mat 64 64) _ = (V c (Pipeline.arrRef spec1 13) : Mat 64 64) _
  congr 1
  funext a
  apply Fin.ext
  match a with
  | ⟨0, _⟩ => show win1_13.index t (0 : Fin 2) * 64 + 1 * (x 0).val = (x 0).val; rw [e0]; omega
  | ⟨1, _⟩ => show win1_13.index t (1 : Fin 2) * 64 + 1 * (x 1).val = (x 1).val; rw [e1]; omega

/-- Window 14 is held whole: its block at every point is its array. -/
theorem whole1_14 (c : Dev nD) (t : Fin cfg1.N) :
    (iblk1 V c 14 t : Vc 64) = (V c (Pipeline.arrRef spec1 14) : Vc 64) := by
  obtain e0 := index1_14 t
  funext x
  unfold iblk1
  rw [View.read_apply]
  show (V c (Pipeline.arrRef spec1 14) : Vc 64) _ = (V c (Pipeline.arrRef spec1 14) : Vc 64) _
  congr 1
  funext a
  apply Fin.ext
  match a with
  | ⟨0, _⟩ => show win1_14.index t (0 : Fin 1) * 64 + 1 * (x 0).val = (x 0).val; rw [e0]; omega

/-- Window 15 is held whole: its block at every point is its array. -/
theorem whole1_15 (c : Dev nD) (t : Fin cfg1.N) :
    (iblk1 V c 15 t : Vc 64) = (V c (Pipeline.arrRef spec1 15) : Vc 64) := by
  obtain e0 := index1_15 t
  funext x
  unfold iblk1
  rw [View.read_apply]
  show (V c (Pipeline.arrRef spec1 15) : Vc 64) _ = (V c (Pipeline.arrRef spec1 15) : Vc 64) _
  congr 1
  funext a
  apply Fin.ext
  match a with
  | ⟨0, _⟩ => show win1_15.index t (0 : Fin 1) * 64 + 1 * (x 0).val = (x 0).val; rw [e0]; omega

/-- Window 16 is held whole: its block at every point is its array. -/
theorem whole1_16 (c : Dev nD) (t : Fin cfg1.N) :
    (iblk1 V c 16 t : Vc 64) = (V c (Pipeline.arrRef spec1 16) : Vc 64) := by
  obtain e0 := index1_16 t
  funext x
  unfold iblk1
  rw [View.read_apply]
  show (V c (Pipeline.arrRef spec1 16) : Vc 64) _ = (V c (Pipeline.arrRef spec1 16) : Vc 64) _
  congr 1
  funext a
  apply Fin.ext
  match a with
  | ⟨0, _⟩ => show win1_16.index t (0 : Fin 1) * 64 + 1 * (x 0).val = (x 0).val; rw [e0]; omega

/-- The layer of blocks of rows with the weights held whole is the block of rows of the layer of the whole arrays:
    the step one point of this region takes, over any blocks equal to those. -/
theorem blockStep1 {lo : ℕ} (h : lo + 2000 ≤ 800000) (X : Mat 800000 4) (NS : Mat 800000 64) (NR : Mat 800000 64) (eW1 : Mat 4 64) (eb1 : Vc 64) (eW2 : Mat 64 64) (eb2 : Vc 64) (eg : Vc 64) (ebt : Vc 64) (Wa : Mat 64 64) (Wb : Mat 64 64) (Wc : Mat 64 64) (pb1 : Vc 64) (pW2 : Mat 64 64) (pb2 : Vc 64) (pg : Vc 64) (pbt : Vc 64)
    (x0 : Mat 2000 4) (x1 : Mat 2000 64) (x2 : Mat 2000 64) (x3 : Mat 4 64) (x4 : Vc 64) (x5 : Mat 64 64) (x6 : Vc 64) (x7 : Vc 64) (x8 : Vc 64) (x9 : Mat 64 64) (x10 : Mat 64 64) (x11 : Mat 64 64) (x12 : Vc 64) (x13 : Mat 64 64) (x14 : Vc 64) (x15 : Vc 64) (x16 : Vc 64)
    (e0 : x0 = rows lo h X) (e1 : x1 = rows lo h NS) (e2 : x2 = rows lo h NR) (e3 : x3 = eW1) (e4 : x4 = eb1) (e5 : x5 = eW2) (e6 : x6 = eb2) (e7 : x7 = eg) (e8 : x8 = ebt) (e9 : x9 = Wa) (e10 : x10 = Wb) (e11 : x11 = Wc) (e12 : x12 = pb1) (e13 : x13 = pW2) (e14 : x14 = pb2) (e15 : x15 = pg) (e16 : x16 = pbt) :
    edgeLayer x0 x1 x2 x3 x4 x5 x6 x7 x8 x9 x10 x11 x12 x13 x14 x15 x16 = rows lo h (edgeLayer X NS NR eW1 eb1 eW2 eb2 eg ebt Wa Wb Wc pb1 pW2 pb2 pg pbt) := by
  subst e0 e1 e2 e3 e4 e5 e6 e7 e8 e9 e10 e11 e12 e13 e14 e15 e16
  exact edgeLayer_rows lo h _ _ _ _ _ _ _ _ _ _ _ _ _ _ _ _ _

/-- The updated latents of all 800000 edges: the edge layer of the whole arrays the region finds at entry. -/
abbrev whole1 (c : Dev nD) : Mat 800000 64 :=
  edgeLayer (V c (Pipeline.arrRef spec1 0) : Mat 800000 4) (V c (Pipeline.arrRef spec1 1) : Mat 800000 64) (V c (Pipeline.arrRef spec1 2) : Mat 800000 64)
    (V c (Pipeline.arrRef spec1 3) : Mat 4 64) (V c (Pipeline.arrRef spec1 4) : Vc 64) (V c (Pipeline.arrRef spec1 5) : Mat 64 64)
    (V c (Pipeline.arrRef spec1 6) : Vc 64) (V c (Pipeline.arrRef spec1 7) : Vc 64) (V c (Pipeline.arrRef spec1 8) : Vc 64)
    (V c (Pipeline.arrRef spec1 9) : Mat 64 64) (V c (Pipeline.arrRef spec1 10) : Mat 64 64) (V c (Pipeline.arrRef spec1 11) : Mat 64 64)
    (V c (Pipeline.arrRef spec1 12) : Vc 64) (V c (Pipeline.arrRef spec1 13) : Mat 64 64) (V c (Pipeline.arrRef spec1 14) : Vc 64)
    (V c (Pipeline.arrRef spec1 15) : Vc 64) (V c (Pipeline.arrRef spec1 16) : Vc 64)

/-- What point `t` writes back is block `t` of the layer of the whole arrays. -/
theorem flushed1 (c : Dev nD) (t : Fin cfg1.N)
    (hbody1 : ∀ (x0 : Vec Ideal S2000x4 .f32) (x1 : Vec Ideal S2000x64 .bf16) (x2 : Vec Ideal S2000x64 .bf16) (x3 : Vec Ideal S4x64 .f32) (x4 : Vec Ideal S64 .f32) (x5 : Vec Ideal S64x64 .f32) (x6 : Vec Ideal S64 .f32) (x7 : Vec Ideal S64 .f32) (x8 : Vec Ideal S64 .f32) (x9 : Vec Ideal S64x64 .f32) (x10 : Vec Ideal S64x64 .f32) (x11 : Vec Ideal S64x64 .f32) (x12 : Vec Ideal S64 .f32) (x13 : Vec Ideal S64x64 .f32) (x14 : Vec Ideal S64 .f32) (x15 : Vec Ideal S64 .f32) (x16 : Vec Ideal S64 .f32),
      (out1_17 (F := Ideal) x0 x1 x2 x3 x4 x5 x6 x7 x8 x9 x10 x11 x12 x13 x14 x15 x16 : Mat 2000 64) = edgeLayer x0 x1 x2 x3 x4 x5 x6 x7 x8 x9 x10 x11 x12 x13 x14 x15 x16) :
    (dat1 V c).flushed 17 t = ((cfg1.win 17).blk t).view.read (Elt Ideal) (whole1 V c) := by
  show (cfg1.win 17).cut (grid1.coords t) ((dat1 V c).after 17 t) = _
  rw [after1_17]
  exact ((hbody1 _ _ _ _ _ _ _ _ _ _ _ _ _ _ _ _ _).trans (blockStep1 (inside1 t) _ _ _ _ _ _ _ _ _ _ _ _ _ _ _ _ _ _ _ _ _ _ _ _ _ _ _ _ _ _ _ _ _ _
    (rowBlock1_0 V c t) (rowBlock1_1 V c t) (rowBlock1_2 V c t) (whole1_3 V c t) (whole1_4 V c t) (whole1_5 V c t) (whole1_6 V c t) (whole1_7 V c t) (whole1_8 V c t) (whole1_9 V c t) (whole1_10 V c t) (whole1_11 V c t) (whole1_12 V c t) (whole1_13 V c t) (whole1_14 V c t) (whole1_15 V c t) (whole1_16 V c t))).trans
    (rowBlock1_17 c t (whole1 V c)).symm

/-- An index of the output array is in point `t`'s block iff each coordinate is in the block's range on its axis. -/
theorem inBlock1 (t : Fin cfg1.N) (i : S800000x64.Idx) :
    i ∈ ((cfg1.win 17).blk t).view.set ↔ ∀ a : Fin 2, win1_17.index t a * S2000x64.size a ≤ (i a).val ∧ (i a).val < win1_17.index t a * S2000x64.size a + S2000x64.size a := by
  show i ∈ ((View.whole main_v23).slice (win1_17.rect t)).set ↔ _
  rw [View.set_slice_whole, Rect.mem_set_unit]
  exact Iff.rfl

/-- Every index of the output array is in some point's block: row `r` is in the block of point `r / 2000`. -/
theorem cover1 (i : S800000x64.Idx) : ∃ t : Fin cfg1.N, (cfg1.win 17).flush t = true ∧ i ∈ ((cfg1.win 17).blk t).view.set := by
  have hi0 : (i 0).val < 800000 := (i 0).isLt
  have hi1 : (i 1).val < 64 := (i 1).isLt
  have hN : (i 0).val / 2000 < cfg1.N := by rw [show cfg1.N = 400 from N_1]; omega
  obtain ⟨e0, e1⟩ := index1_17 ⟨(i 0).val / 2000, hN⟩
  refine ⟨⟨(i 0).val / 2000, hN⟩, flush1_17 _, ?_⟩
  rw [inBlock1]
  intro a
  match a with
  | ⟨0, _⟩ =>
    show win1_17.index ⟨(i 0).val / 2000, hN⟩ (0 : Fin 2) * 2000 ≤ (i 0).val ∧ (i 0).val < win1_17.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win1_17.index ⟨(i 0).val / 2000, hN⟩ (1 : Fin 2) * 64 ≤ (i 1).val ∧ (i 1).val < win1_17.index ⟨(i 0).val / 2000, hN⟩ (1 : Fin 2) * 64 + 64
    rw [e1]; omega

/-- THE EDGE REGION'S OUTPUT ARRAY after its run is the edge layer of the whole arrays the region finds at entry: the
    edge features embedded, joined with the two gathered endpoint embeddings, through the edge update. -/
theorem final1 (c : Dev nD)
    (hbody1 : ∀ (x0 : Vec Ideal S2000x4 .f32) (x1 : Vec Ideal S2000x64 .bf16) (x2 : Vec Ideal S2000x64 .bf16) (x3 : Vec Ideal S4x64 .f32) (x4 : Vec Ideal S64 .f32) (x5 : Vec Ideal S64x64 .f32) (x6 : Vec Ideal S64 .f32) (x7 : Vec Ideal S64 .f32) (x8 : Vec Ideal S64 .f32) (x9 : Vec Ideal S64x64 .f32) (x10 : Vec Ideal S64x64 .f32) (x11 : Vec Ideal S64x64 .f32) (x12 : Vec Ideal S64 .f32) (x13 : Vec Ideal S64x64 .f32) (x14 : Vec Ideal S64 .f32) (x15 : Vec Ideal S64 .f32) (x16 : Vec Ideal S64 .f32),
      (out1_17 (F := Ideal) x0 x1 x2 x3 x4 x5 x6 x7 x8 x9 x10 x11 x12 x13 x14 x15 x16 : Mat 2000 64) = edgeLayer x0 x1 x2 x3 x4 x5 x6 x7 x8 x9 x10 x11 x12 x13 x14 x15 x16) :
    ((dat1 V c).arrAt 17 cfg1.N : Mat 800000 64)
      = edgeLayer (V c (Pipeline.arrRef spec1 0) : Mat 800000 4) (V c (Pipeline.arrRef spec1 1) : Mat 800000 64) (V c (Pipeline.arrRef spec1 2) : Mat 800000 64)
    (V c (Pipeline.arrRef spec1 3) : Mat 4 64) (V c (Pipeline.arrRef spec1 4) : Vc 64) (V c (Pipeline.arrRef spec1 5) : Mat 64 64)
    (V c (Pipeline.arrRef spec1 6) : Vc 64) (V c (Pipeline.arrRef spec1 7) : Vc 64) (V c (Pipeline.arrRef spec1 8) : Vc 64)
    (V c (Pipeline.arrRef spec1 9) : Mat 64 64) (V c (Pipeline.arrRef spec1 10) : Mat 64 64) (V c (Pipeline.arrRef spec1 11) : Mat 64 64)
    (V c (Pipeline.arrRef spec1 12) : Vc 64) (V c (Pipeline.arrRef spec1 13) : Mat 64 64) (V c (Pipeline.arrRef spec1 14) : Vc 64)
    (V c (Pipeline.arrRef spec1 15) : Vc 64) (V c (Pipeline.arrRef spec1 16) : Vc 64) :=
  (dat1 V c).arrAt_eq_of_cover 17 (whole1 V c) (fun t _ => flushed1 V c t hbody1) cover1

/-! ## The node region: 25 points, 2000 nodes each -/

/-- Window 0 is at block row `t`, block column 0, at point `t`. -/
theorem index2_0 : ∀ t : Fin cfg2.N, win2_0.index t (0 : Fin 2) = t.val ∧ win2_0.index t (1 : Fin 2) = 0 :=
  (by decide +kernel : ∀ t : Fin grid2.N, _)

/-- Window 1 is at block row `t`, block column 0, at point `t`. -/
theorem index2_1 : ∀ t : Fin cfg2.N, win2_1.index t (0 : Fin 2) = t.val ∧ win2_1.index t (1 : Fin 2) = 0 :=
  (by decide +kernel : ∀ t : Fin grid2.N, _)

/-- Window 13 is at block row `t`, block column 0, at point `t`. -/
theorem index2_13 : ∀ t : Fin cfg2.N, win2_13.index t (0 : Fin 2) = t.val ∧ win2_13.index t (1 : Fin 2) = 0 :=
  (by decide +kernel : ∀ t : Fin grid2.N, _)

/-- Window 2 is at block 0 at every point. -/
theorem index2_2 : ∀ t : Fin cfg2.N, win2_2.index t (0 : Fin 2) = 0 ∧ win2_2.index t (1 : Fin 2) = 0 :=
  (by decide +kernel : ∀ t : Fin grid2.N, _)

/-- Window 3 is at block 0 at every point. -/
theorem index2_3 : ∀ t : Fin cfg2.N, win2_3.index t (0 : Fin 2) = 0 ∧ win2_3.index t (1 : Fin 2) = 0 :=
  (by decide +kernel : ∀ t : Fin grid2.N, _)

/-- Window 4 is at block 0 at every point. -/
theorem index2_4 : ∀ t : Fin cfg2.N, win2_4.index t (0 : Fin 1) = 0 :=
  (by decide +kernel : ∀ t : Fin grid2.N, _)

/-- Window 5 is at block 0 at every point. -/
theorem index2_5 : ∀ t : Fin cfg2.N, win2_5.index t (0 : Fin 2) = 0 ∧ win2_5.index t (1 : Fin 2) = 0 :=
  (by decide +kernel : ∀ t : Fin grid2.N, _)

/-- Window 6 is at block 0 at every point. -/
theorem index2_6 : ∀ t : Fin cfg2.N, win2_6.index t (0 : Fin 1) = 0 :=
  (by decide +kernel : ∀ t : Fin grid2.N, _)

/-- Window 7 is at block 0 at every point. -/
theorem index2_7 : ∀ t : Fin cfg2.N, win2_7.index t (0 : Fin 1) = 0 :=
  (by decide +kernel : ∀ t : Fin grid2.N, _)

/-- Window 8 is at block 0 at every point. -/
theorem index2_8 : ∀ t : Fin cfg2.N, win2_8.index t (0 : Fin 1) = 0 :=
  (by decide +kernel : ∀ t : Fin grid2.N, _)

/-- Window 9 is at block 0 at every point. -/
theorem index2_9 : ∀ t : Fin cfg2.N, win2_9.index t (0 : Fin 2) = 0 ∧ win2_9.index t (1 : Fin 2) = 0 :=
  (by decide +kernel : ∀ t : Fin grid2.N, _)

/-- Window 10 is at block 0 at every point. -/
theorem index2_10 : ∀ t : Fin cfg2.N, win2_10.index t (0 : Fin 1) = 0 :=
  (by decide +kernel : ∀ t : Fin grid2.N, _)

/-- Window 11 is at block 0 at every point. -/
theorem index2_11 : ∀ t : Fin cfg2.N, win2_11.index t (0 : Fin 2) = 0 ∧ win2_11.index t (1 : Fin 2) = 0 :=
  (by decide +kernel : ∀ t : Fin grid2.N, _)

/-- Window 12 is at block 0 at every point. -/
theorem index2_12 : ∀ t : Fin cfg2.N, win2_12.index t (0 : Fin 1) = 0 :=
  (by decide +kernel : ∀ t : Fin grid2.N, _)

/-- Block `t` of 2000 rows lies inside the 50000 rows. -/
theorem inside2 (t : Fin cfg2.N) : 2000 * t.val + 2000 ≤ 50000 := by
  have h : t.val < 25 := lt_of_lt_of_eq t.isLt N_2
  omega

/-- Window 0's block at point `t` is the block of rows 2000 t … 2000 t + 1999 of its array. -/
theorem rowBlock2_0 (c : Dev nD) (t : Fin cfg2.N) :
    (iblk2 V c 0 t : Mat 2000 64) = rows (2000 * t.val) (inside2 t) (V c (Pipeline.arrRef spec2 0) : Mat 50000 64) := by
  obtain ⟨e0, e1⟩ := index2_0 t
  funext x
  unfold iblk2
  rw [View.read_apply]
  show (V c (Pipeline.arrRef spec2 0) : Mat 50000 64) _ = (V c (Pipeline.arrRef spec2 0) : Mat 50000 64) _
  congr 1
  funext a
  apply Fin.ext
  match a with
  | ⟨0, _⟩ => show win2_0.index t (0 : Fin 2) * 2000 + 1 * (x 0).val = 2000 * t.val + (x 0).val; rw [e0]; omega
  | ⟨1, _⟩ => show win2_0.index t (1 : Fin 2) * 64 + 1 * (x 1).val = (x 1).val; rw [e1]; omega

/-- Window 1's block at point `t` is the block of rows 2000 t … 2000 t + 1999 of its array. -/
theorem rowBlock2_1 (c : Dev nD) (t : Fin cfg2.N) :
    (iblk2 V c 1 t : Mat 2000 64) = rows (2000 * t.val) (inside2 t) (V c (Pipeline.arrRef spec2 1) : Mat 50000 64) := by
  obtain ⟨e0, e1⟩ := index2_1 t
  funext x
  unfold iblk2
  rw [View.read_apply]
  show (V c (Pipeline.arrRef spec2 1) : Mat 50000 64) _ = (V c (Pipeline.arrRef spec2 1) : Mat 50000 64) _
  congr 1
  funext a
  apply Fin.ext
  match a with
  | ⟨0, _⟩ => show win2_1.index t (0 : Fin 2) * 2000 + 1 * (x 0).val = 2000 * t.val + (x 0).val; rw [e0]; omega
  | ⟨1, _⟩ => show win2_1.index t (1 : Fin 2) * 64 + 1 * (x 1).val = (x 1).val; rw [e1]; omega

/-- Read through the output window's block at point `t`, an array of 50000 rows gives its block of rows
    2000 t … 2000 t + 1999. -/
theorem rowBlock2_13 (c : Dev nD) (t : Fin cfg2.N) (Y : Buf (Elt Ideal) ((cfg2.win 13).arr.view.loc (c.tc : Thread nD τ))) :
    (((cfg2.win 13).blk t).view.read (Elt Ideal) Y : Mat 2000 64) = rows (2000 * t.val) (inside2 t) (Y : Mat 50000 64) := by
  obtain ⟨e0, e1⟩ := index2_13 t
  funext x
  rw [View.read_apply]
  show (Y : Mat 50000 64) _ = (Y : Mat 50000 64) _
  congr 1
  funext a
  apply Fin.ext
  match a with
  | ⟨0, _⟩ => show win2_13.index t (0 : Fin 2) * 2000 + 1 * (x 0).val = 2000 * t.val + (x 0).val; rw [e0]; omega
  | ⟨1, _⟩ => show win2_13.index t (1 : Fin 2) * 64 + 1 * (x 1).val = (x 1).val; rw [e1]; omega

/-- Window 2 is held whole: its block at every point is its array. -/
theorem whole2_2 (c : Dev nD) (t : Fin cfg2.N) :
    (iblk2 V c 2 t : Mat 64 64) = (V c (Pipeline.arrRef spec2 2) : Mat 64 64) := by
  obtain ⟨e0, e1⟩ := index2_2 t
  funext x
  unfold iblk2
  rw [View.read_apply]
  show (V c (Pipeline.arrRef spec2 2) : Mat 64 64) _ = (V c (Pipeline.arrRef spec2 2) : Mat 64 64) _
  congr 1
  funext a
  apply Fin.ext
  match a with
  | ⟨0, _⟩ => show win2_2.index t (0 : Fin 2) * 64 + 1 * (x 0).val = (x 0).val; rw [e0]; omega
  | ⟨1, _⟩ => show win2_2.index t (1 : Fin 2) * 64 + 1 * (x 1).val = (x 1).val; rw [e1]; omega

/-- Window 3 is held whole: its block at every point is its array. -/
theorem whole2_3 (c : Dev nD) (t : Fin cfg2.N) :
    (iblk2 V c 3 t : Mat 64 64) = (V c (Pipeline.arrRef spec2 3) : Mat 64 64) := by
  obtain ⟨e0, e1⟩ := index2_3 t
  funext x
  unfold iblk2
  rw [View.read_apply]
  show (V c (Pipeline.arrRef spec2 3) : Mat 64 64) _ = (V c (Pipeline.arrRef spec2 3) : Mat 64 64) _
  congr 1
  funext a
  apply Fin.ext
  match a with
  | ⟨0, _⟩ => show win2_3.index t (0 : Fin 2) * 64 + 1 * (x 0).val = (x 0).val; rw [e0]; omega
  | ⟨1, _⟩ => show win2_3.index t (1 : Fin 2) * 64 + 1 * (x 1).val = (x 1).val; rw [e1]; omega

/-- Window 4 is held whole: its block at every point is its array. -/
theorem whole2_4 (c : Dev nD) (t : Fin cfg2.N) :
    (iblk2 V c 4 t : Vc 64) = (V c (Pipeline.arrRef spec2 4) : Vc 64) := by
  obtain e0 := index2_4 t
  funext x
  unfold iblk2
  rw [View.read_apply]
  show (V c (Pipeline.arrRef spec2 4) : Vc 64) _ = (V c (Pipeline.arrRef spec2 4) : Vc 64) _
  congr 1
  funext a
  apply Fin.ext
  match a with
  | ⟨0, _⟩ => show win2_4.index t (0 : Fin 1) * 64 + 1 * (x 0).val = (x 0).val; rw [e0]; omega

/-- Window 5 is held whole: its block at every point is its array. -/
theorem whole2_5 (c : Dev nD) (t : Fin cfg2.N) :
    (iblk2 V c 5 t : Mat 64 64) = (V c (Pipeline.arrRef spec2 5) : Mat 64 64) := by
  obtain ⟨e0, e1⟩ := index2_5 t
  funext x
  unfold iblk2
  rw [View.read_apply]
  show (V c (Pipeline.arrRef spec2 5) : Mat 64 64) _ = (V c (Pipeline.arrRef spec2 5) : Mat 64 64) _
  congr 1
  funext a
  apply Fin.ext
  match a with
  | ⟨0, _⟩ => show win2_5.index t (0 : Fin 2) * 64 + 1 * (x 0).val = (x 0).val; rw [e0]; omega
  | ⟨1, _⟩ => show win2_5.index t (1 : Fin 2) * 64 + 1 * (x 1).val = (x 1).val; rw [e1]; omega

/-- Window 6 is held whole: its block at every point is its array. -/
theorem whole2_6 (c : Dev nD) (t : Fin cfg2.N) :
    (iblk2 V c 6 t : Vc 64) = (V c (Pipeline.arrRef spec2 6) : Vc 64) := by
  obtain e0 := index2_6 t
  funext x
  unfold iblk2
  rw [View.read_apply]
  show (V c (Pipeline.arrRef spec2 6) : Vc 64) _ = (V c (Pipeline.arrRef spec2 6) : Vc 64) _
  congr 1
  funext a
  apply Fin.ext
  match a with
  | ⟨0, _⟩ => show win2_6.index t (0 : Fin 1) * 64 + 1 * (x 0).val = (x 0).val; rw [e0]; omega

/-- Window 7 is held whole: its block at every point is its array. -/
theorem whole2_7 (c : Dev nD) (t : Fin cfg2.N) :
    (iblk2 V c 7 t : Vc 64) = (V c (Pipeline.arrRef spec2 7) : Vc 64) := by
  obtain e0 := index2_7 t
  funext x
  unfold iblk2
  rw [View.read_apply]
  show (V c (Pipeline.arrRef spec2 7) : Vc 64) _ = (V c (Pipeline.arrRef spec2 7) : Vc 64) _
  congr 1
  funext a
  apply Fin.ext
  match a with
  | ⟨0, _⟩ => show win2_7.index t (0 : Fin 1) * 64 + 1 * (x 0).val = (x 0).val; rw [e0]; omega

/-- Window 8 is held whole: its block at every point is its array. -/
theorem whole2_8 (c : Dev nD) (t : Fin cfg2.N) :
    (iblk2 V c 8 t : Vc 64) = (V c (Pipeline.arrRef spec2 8) : Vc 64) := by
  obtain e0 := index2_8 t
  funext x
  unfold iblk2
  rw [View.read_apply]
  show (V c (Pipeline.arrRef spec2 8) : Vc 64) _ = (V c (Pipeline.arrRef spec2 8) : Vc 64) _
  congr 1
  funext a
  apply Fin.ext
  match a with
  | ⟨0, _⟩ => show win2_8.index t (0 : Fin 1) * 64 + 1 * (x 0).val = (x 0).val; rw [e0]; omega

/-- Window 9 is held whole: its block at every point is its array. -/
theorem whole2_9 (c : Dev nD) (t : Fin cfg2.N) :
    (iblk2 V c 9 t : Mat 64 64) = (V c (Pipeline.arrRef spec2 9) : Mat 64 64) := by
  obtain ⟨e0, e1⟩ := index2_9 t
  funext x
  unfold iblk2
  rw [View.read_apply]
  show (V c (Pipeline.arrRef spec2 9) : Mat 64 64) _ = (V c (Pipeline.arrRef spec2 9) : Mat 64 64) _
  congr 1
  funext a
  apply Fin.ext
  match a with
  | ⟨0, _⟩ => show win2_9.index t (0 : Fin 2) * 64 + 1 * (x 0).val = (x 0).val; rw [e0]; omega
  | ⟨1, _⟩ => show win2_9.index t (1 : Fin 2) * 64 + 1 * (x 1).val = (x 1).val; rw [e1]; omega

/-- Window 10 is held whole: its block at every point is its array. -/
theorem whole2_10 (c : Dev nD) (t : Fin cfg2.N) :
    (iblk2 V c 10 t : Vc 64) = (V c (Pipeline.arrRef spec2 10) : Vc 64) := by
  obtain e0 := index2_10 t
  funext x
  unfold iblk2
  rw [View.read_apply]
  show (V c (Pipeline.arrRef spec2 10) : Vc 64) _ = (V c (Pipeline.arrRef spec2 10) : Vc 64) _
  congr 1
  funext a
  apply Fin.ext
  match a with
  | ⟨0, _⟩ => show win2_10.index t (0 : Fin 1) * 64 + 1 * (x 0).val = (x 0).val; rw [e0]; omega

/-- Window 11 is held whole: its block at every point is its array. -/
theorem whole2_11 (c : Dev nD) (t : Fin cfg2.N) :
    (iblk2 V c 11 t : Mat 64 64) = (V c (Pipeline.arrRef spec2 11) : Mat 64 64) := by
  obtain ⟨e0, e1⟩ := index2_11 t
  funext x
  unfold iblk2
  rw [View.read_apply]
  show (V c (Pipeline.arrRef spec2 11) : Mat 64 64) _ = (V c (Pipeline.arrRef spec2 11) : Mat 64 64) _
  congr 1
  funext a
  apply Fin.ext
  match a with
  | ⟨0, _⟩ => show win2_11.index t (0 : Fin 2) * 64 + 1 * (x 0).val = (x 0).val; rw [e0]; omega
  | ⟨1, _⟩ => show win2_11.index t (1 : Fin 2) * 64 + 1 * (x 1).val = (x 1).val; rw [e1]; omega

/-- Window 12 is held whole: its block at every point is its array. -/
theorem whole2_12 (c : Dev nD) (t : Fin cfg2.N) :
    (iblk2 V c 12 t : Vc 64) = (V c (Pipeline.arrRef spec2 12) : Vc 64) := by
  obtain e0 := index2_12 t
  funext x
  unfold iblk2
  rw [View.read_apply]
  show (V c (Pipeline.arrRef spec2 12) : Vc 64) _ = (V c (Pipeline.arrRef spec2 12) : Vc 64) _
  congr 1
  funext a
  apply Fin.ext
  match a with
  | ⟨0, _⟩ => show win2_12.index t (0 : Fin 1) * 64 + 1 * (x 0).val = (x 0).val; rw [e0]; omega

/-- The layer of blocks of rows with the weights held whole is the block of rows of the layer of the whole arrays:
    the step one point of this region takes, over any blocks equal to those. -/
theorem blockStep2 {lo : ℕ} (h : lo + 2000 ≤ 50000) (NF : Mat 50000 64) (AGG : Mat 50000 64) (Wa : Mat 64 64) (Wb : Mat 64 64) (pb1 : Vc 64) (pW2 : Mat 64 64) (pb2 : Vc 64) (pg : Vc 64) (pbt : Vc 64) (oW1 : Mat 64 64) (ob1 : Vc 64) (oW2 : Mat 64 64) (ob2 : Vc 64)
    (x0 : Mat 2000 64) (x1 : Mat 2000 64) (x2 : Mat 64 64) (x3 : Mat 64 64) (x4 : Vc 64) (x5 : Mat 64 64) (x6 : Vc 64) (x7 : Vc 64) (x8 : Vc 64) (x9 : Mat 64 64) (x10 : Vc 64) (x11 : Mat 64 64) (x12 : Vc 64)
    (e0 : x0 = rows lo h NF) (e1 : x1 = rows lo h AGG) (e2 : x2 = Wa) (e3 : x3 = Wb) (e4 : x4 = pb1) (e5 : x5 = pW2) (e6 : x6 = pb2) (e7 : x7 = pg) (e8 : x8 = pbt) (e9 : x9 = oW1) (e10 : x10 = ob1) (e11 : x11 = oW2) (e12 : x12 = ob2) :
    nodeLayer x0 x1 x2 x3 x4 x5 x6 x7 x8 x9 x10 x11 x12 = rows lo h (nodeLayer NF AGG Wa Wb pb1 pW2 pb2 pg pbt oW1 ob1 oW2 ob2) := by
  subst e0 e1 e2 e3 e4 e5 e6 e7 e8 e9 e10 e11 e12
  exact nodeLayer_rows lo h _ _ _ _ _ _ _ _ _ _ _ _ _

/-- The updated latents of all 50000 nodes: the node layer of the whole arrays the region finds at entry. -/
abbrev whole2 (c : Dev nD) : Mat 50000 64 :=
  nodeLayer (V c (Pipeline.arrRef spec2 0) : Mat 50000 64) (V c (Pipeline.arrRef spec2 1) : Mat 50000 64) (V c (Pipeline.arrRef spec2 2) : Mat 64 64)
    (V c (Pipeline.arrRef spec2 3) : Mat 64 64) (V c (Pipeline.arrRef spec2 4) : Vc 64) (V c (Pipeline.arrRef spec2 5) : Mat 64 64)
    (V c (Pipeline.arrRef spec2 6) : Vc 64) (V c (Pipeline.arrRef spec2 7) : Vc 64) (V c (Pipeline.arrRef spec2 8) : Vc 64)
    (V c (Pipeline.arrRef spec2 9) : Mat 64 64) (V c (Pipeline.arrRef spec2 10) : Vc 64) (V c (Pipeline.arrRef spec2 11) : Mat 64 64)
    (V c (Pipeline.arrRef spec2 12) : Vc 64)

/-- What point `t` writes back is block `t` of the layer of the whole arrays. -/
theorem flushed2 (c : Dev nD) (t : Fin cfg2.N)
    (hbody2 : ∀ (x0 : Vec Ideal S2000x64 .f32) (x1 : Vec Ideal S2000x64 .f32) (x2 : Vec Ideal S64x64 .f32) (x3 : Vec Ideal S64x64 .f32) (x4 : Vec Ideal S64 .f32) (x5 : Vec Ideal S64x64 .f32) (x6 : Vec Ideal S64 .f32) (x7 : Vec Ideal S64 .f32) (x8 : Vec Ideal S64 .f32) (x9 : Vec Ideal S64x64 .f32) (x10 : Vec Ideal S64 .f32) (x11 : Vec Ideal S64x64 .f32) (x12 : Vec Ideal S64 .f32),
      (out2_13 (F := Ideal) x0 x1 x2 x3 x4 x5 x6 x7 x8 x9 x10 x11 x12 : Mat 2000 64) = nodeLayer x0 x1 x2 x3 x4 x5 x6 x7 x8 x9 x10 x11 x12) :
    (dat2 V c).flushed 13 t = ((cfg2.win 13).blk t).view.read (Elt Ideal) (whole2 V c) := by
  show (cfg2.win 13).cut (grid2.coords t) ((dat2 V c).after 13 t) = _
  rw [after2_13]
  exact ((hbody2 _ _ _ _ _ _ _ _ _ _ _ _ _).trans (blockStep2 (inside2 t) _ _ _ _ _ _ _ _ _ _ _ _ _ _ _ _ _ _ _ _ _ _ _ _ _ _
    (rowBlock2_0 V c t) (rowBlock2_1 V c t) (whole2_2 V c t) (whole2_3 V c t) (whole2_4 V c t) (whole2_5 V c t) (whole2_6 V c t) (whole2_7 V c t) (whole2_8 V c t) (whole2_9 V c t) (whole2_10 V c t) (whole2_11 V c t) (whole2_12 V c t))).trans
    (rowBlock2_13 c t (whole2 V c)).symm

/-- An index of the output array is in point `t`'s block iff each coordinate is in the block's range on its axis. -/
theorem inBlock2 (t : Fin cfg2.N) (i : S50000x64.Idx) :
    i ∈ ((cfg2.win 13).blk t).view.set ↔ ∀ a : Fin 2, win2_13.index t a * S2000x64.size a ≤ (i a).val ∧ (i a).val < win2_13.index t a * S2000x64.size a + S2000x64.size a := by
  show i ∈ ((View.whole main_v29).slice (win2_13.rect t)).set ↔ _
  rw [View.set_slice_whole, Rect.mem_set_unit]
  exact Iff.rfl

/-- Every index of the output array is in some point's block: row `r` is in the block of point `r / 2000`. -/
theorem cover2 (i : S50000x64.Idx) : ∃ t : Fin cfg2.N, (cfg2.win 13).flush t = true ∧ i ∈ ((cfg2.win 13).blk t).view.set := by
  have hi0 : (i 0).val < 50000 := (i 0).isLt
  have hi1 : (i 1).val < 64 := (i 1).isLt
  have hN : (i 0).val / 2000 < cfg2.N := by rw [show cfg2.N = 25 from N_2]; omega
  obtain ⟨e0, e1⟩ := index2_13 ⟨(i 0).val / 2000, hN⟩
  refine ⟨⟨(i 0).val / 2000, hN⟩, flush2_13 _, ?_⟩
  rw [inBlock2]
  intro a
  match a with
  | ⟨0, _⟩ =>
    show win2_13.index ⟨(i 0).val / 2000, hN⟩ (0 : Fin 2) * 2000 ≤ (i 0).val ∧ (i 0).val < win2_13.index ⟨(i 0).val / 2000, hN⟩ (0 : Fin 2) * 2000 + 2000
    rw [e0]; show (i 0).val / 2000 * 2000 ≤ (i 0).val ∧ (i 0).val < (i 0).val / 2000 * 2000 + 2000; omega
  | ⟨1, _⟩ =>
    show win2_13.index ⟨(i 0).val / 2000, hN⟩ (1 : Fin 2) * 64 ≤ (i 1).val ∧ (i 1).val < win2_13.index ⟨(i 0).val / 2000, hN⟩ (1 : Fin 2) * 64 + 64
    rw [e1]; omega

/-- THE NODE REGION'S OUTPUT ARRAY after its run is the node layer of the whole arrays the region finds at entry: the
    node embeddings and the summed incoming messages through the node update, the embeddings added back, then the output layers. -/
theorem final2 (c : Dev nD)
    (hbody2 : ∀ (x0 : Vec Ideal S2000x64 .f32) (x1 : Vec Ideal S2000x64 .f32) (x2 : Vec Ideal S64x64 .f32) (x3 : Vec Ideal S64x64 .f32) (x4 : Vec Ideal S64 .f32) (x5 : Vec Ideal S64x64 .f32) (x6 : Vec Ideal S64 .f32) (x7 : Vec Ideal S64 .f32) (x8 : Vec Ideal S64 .f32) (x9 : Vec Ideal S64x64 .f32) (x10 : Vec Ideal S64 .f32) (x11 : Vec Ideal S64x64 .f32) (x12 : Vec Ideal S64 .f32),
      (out2_13 (F := Ideal) x0 x1 x2 x3 x4 x5 x6 x7 x8 x9 x10 x11 x12 : Mat 2000 64) = nodeLayer x0 x1 x2 x3 x4 x5 x6 x7 x8 x9 x10 x11 x12) :
    ((dat2 V c).arrAt 13 cfg2.N : Mat 50000 64)
      = nodeLayer (V c (Pipeline.arrRef spec2 0) : Mat 50000 64) (V c (Pipeline.arrRef spec2 1) : Mat 50000 64) (V c (Pipeline.arrRef spec2 2) : Mat 64 64)
    (V c (Pipeline.arrRef spec2 3) : Mat 64 64) (V c (Pipeline.arrRef spec2 4) : Vc 64) (V c (Pipeline.arrRef spec2 5) : Mat 64 64)
    (V c (Pipeline.arrRef spec2 6) : Vc 64) (V c (Pipeline.arrRef spec2 7) : Vc 64) (V c (Pipeline.arrRef spec2 8) : Vc 64)
    (V c (Pipeline.arrRef spec2 9) : Mat 64 64) (V c (Pipeline.arrRef spec2 10) : Vc 64) (V c (Pipeline.arrRef spec2 11) : Mat 64 64)
    (V c (Pipeline.arrRef spec2 12) : Vc 64) :=
  (dat2 V c).arrAt_eq_of_cover 13 (whole2 V c) (fun t _ => flushed2 V c t hbody2) cover2

end Cert.KernelIdeal.KArr

end
-- ==== Proof.TileForms.lean ====
/-
  The layers as a kernel body spells them on one block of rows, each shown to be the layer function of Layers.lean:
  an affine layer is a matrix product into a zero accumulator plus the bias vector laid out as a row and spread over
  the rows; the swish is x * (1 / (1 + exp (0 - x))); a row statistic is a sum along the columns, kept as a column and
  divided by 64; the normalisation spreads the column statistics back over the columns. Rounding an operand to a
  narrower format changes nothing on the extended reals.
-/
import Idealize.ShloMosaic.Lib.Pipeline.Value
import Idealize.ShloMosaic.Lib.ValueIdx
import Idealize.ShloMosaic.Lib.ValueLayout
import Idealize.ShloMosaic.PureOps.Ideal.Laws
import proofs.«156218_j71949292142781_2_alg».proof.Proof.Layers

noncomputable section

open scoped BigOperators

namespace Cert.Gnn.Tile

open Idealize.ShloMosaic Idealize.ShloMosaic.ValueIdx Cert.Gnn

variable {a k n : ℕ}

/-- Rounding to a narrower float format is the identity on the extended reals. -/
theorem truncf_id {s : Shape} (x : FVec Ideal s .f32) (hb : FTy.bf16.bits < FTy.f32.bits) :
    (truncf .bf16 x hb : s.Idx → EReal) = x := by
  funext i; rw [truncf_apply]

section Product

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The matrix unit's product into a zero accumulator is the product, whatever the operands' formats. -/
theorem matmul_zero {φ₁ φ₂ : FTy} (x : FVec Ideal ⟨2, ![a, k]⟩ φ₁) (W : FVec Ideal ⟨2, ![k, n]⟩ φ₂) :
    (matmul d none x W (constant (F := Ideal) ⟨2, ![a, n]⟩ .f32 0x00000000#32) : Mat a n)
      = Cert.Dense.prod (x : Mat a k) (W : Mat k n) := by
  funext j
  obtain ⟨r, q, rfl⟩ : ∃ (r : Fin a) (q : Fin n), j = ix2 r q := ⟨j 0, j 1, eq_ix2 j⟩
  exact Cert.LibMatmulPlain.matmul_zero_apply d hlc hrc hln hrn hlb hrb none x W r q

end Product

/-- A bias vector laid out as a row and spread over the rows, added to an array: column q gets b(q). -/
theorem add_bias (P : FVec Ideal ⟨2, ![a, n]⟩ .f32) (b : FVec Ideal ⟨1, ![n]⟩ .f32)
    (hc : (⟨1, ![n]⟩ : Shape).ShapeCasts ⟨2, ![1, n]⟩) (hb : (⟨2, ![1, n]⟩ : Shape).Broadcasts ⟨2, ![a, n]⟩) :
    (addf P (broadcastTo ⟨2, ![a, n]⟩ (shapeCast ⟨2, ![1, n]⟩ b hc) hb) : Mat a n)
      = fun i => (P : Mat a n) i + (b : Vc n) (ix1 (i 1)) := by
  funext j
  obtain ⟨r, q, rfl⟩ : ∃ (r : Fin a) (q : Fin n), j = ix2 r q := ⟨j 0, j 1, eq_ix2 j⟩
  rw [addf_apply, broadcastTo_1b_ab_apply, shapeCast_a_1a_apply]
  rfl

/-- A gain vector laid out as a row and spread over the rows, multiplied into an array: column q is scaled by g(q). -/
theorem mul_gain (P : FVec Ideal ⟨2, ![a, n]⟩ .f32) (g : FVec Ideal ⟨1, ![n]⟩ .f32)
    (hc : (⟨1, ![n]⟩ : Shape).ShapeCasts ⟨2, ![1, n]⟩) (hb : (⟨2, ![1, n]⟩ : Shape).Broadcasts ⟨2, ![a, n]⟩) :
    (mulf P (broadcastTo ⟨2, ![a, n]⟩ (shapeCast ⟨2, ![1, n]⟩ g hc) hb) : Mat a n)
      = fun i => (P : Mat a n) i * (g : Vc n) (ix1 (i 1)) := by
  funext j
  obtain ⟨r, q, rfl⟩ : ∃ (r : Fin a) (q : Fin n), j = ix2 r q := ⟨j 0, j 1, eq_ix2 j⟩
  rw [mulf_apply, broadcastTo_1b_ab_apply, shapeCast_a_1a_apply]
  rfl

/-- The swish as a body spells it, with the negation written 0 - x. -/
theorem swish_eq (x : FVec Ideal ⟨2, ![a, n]⟩ .f32) :
    (mulf x (divf (broadcast ⟨2, ![a, n]⟩ (Scalar.ofBits (F := Ideal) .f32 0x3F800000#32))
        (addf (broadcast ⟨2, ![a, n]⟩ (Scalar.ofBits (F := Ideal) .f32 0x3F800000#32))
          (exp (subf (broadcast ⟨2, ![a, n]⟩ (Scalar.ofBits (F := Ideal) .f32 0x00000000#32)) x)))) : Mat a n)
      = swish (x : Mat a n) := by
  funext i
  rw [mulf_apply, divf_apply, addf_apply, broadcast_apply]
  show (x i : EReal) * Ideal.div (Ideal.ofBits .f32 0x3F800000#32)
      (Ideal.ofBits .f32 0x3F800000#32 + Ideal.exp (Ideal.ofBits .f32 0x00000000#32 - x i)) = _
  rw [Ideal.ofBits_zero_f32, zero_sub]
  rfl

/-- A row statistic as a body spells it: the sum along the columns, kept as a column, divided by 64; read at row p. -/
theorem stat_col (y : FVec Ideal ⟨2, ![a, n]⟩ .f32)
    (h : (⟨2, ![a, n]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (p : Fin a) (u : Fin 1) :
    (divf (shapeCast ⟨2, ![a, 1]⟩ (multiReduction .add [1] (⟨1, ![a]⟩ : Shape) y 0x00000000#32 h hφ hacc) hcast)
        (broadcast ⟨2, ![a, 1]⟩ (Scalar.ofBits (F := Ideal) .f32 0x42800000#32)) : Mat a 1) (ix2 p u)
      = Ideal.div (∑ c : Fin n, (y : Mat a n) (ix2 p c)) c64 := by
  rw [divf_apply, broadcast_apply, Cert.LibKeepdims.shapeCast_a_a1_apply, Cert.LibKeepdims.rowSum_apply]
  rfl

section Affine

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- The product of two operands both rounded to the narrow format. -/
theorem prod_tt (x : FVec Ideal ⟨2, ![a, k]⟩ .f32) (W : FVec Ideal ⟨2, ![k, n]⟩ .f32)
    (hx hW : FTy.bf16.bits < FTy.f32.bits) :
    (matmul d none (truncf .bf16 x hx) (truncf .bf16 W hW) (constant (F := Ideal) ⟨2, ![a, n]⟩ .f32 0x00000000#32) : Mat a n)
      = Cert.Dense.prod (x : Mat a k) (W : Mat k n) := by
  rw [matmul_zero d hlc hrc hln hrn hlb hrb, truncf_id, truncf_id]

include hlc hrc hln hrn hlb hrb in
/-- The product of an operand already in the narrow format and a weight rounded to it. -/
theorem prod_nt (x : FVec Ideal ⟨2, ![a, k]⟩ .bf16) (W : FVec Ideal ⟨2, ![k, n]⟩ .f32)
    (hW : FTy.bf16.bits < FTy.f32.bits) :
    (matmul d none x (truncf .bf16 W hW) (constant (F := Ideal) ⟨2, ![a, n]⟩ .f32 0x00000000#32) : Mat a n)
      = Cert.Dense.prod (x : Mat a k) (W : Mat k n) := by
  rw [matmul_zero d hlc hrc hln hrn hlb hrb, truncf_id]

include hlc hrc hln hrn hlb hrb in
/-- An affine layer as a body spells it. -/
theorem dense_eq (x : FVec Ideal ⟨2, ![a, k]⟩ .f32) (W : FVec Ideal ⟨2, ![k, n]⟩ .f32) (b : FVec Ideal ⟨1, ![n]⟩ .f32)
    (hx hW : FTy.bf16.bits < FTy.f32.bits)
    (hc : (⟨1, ![n]⟩ : Shape).ShapeCasts ⟨2, ![1, n]⟩) (hb : (⟨2, ![1, n]⟩ : Shape).Broadcasts ⟨2, ![a, n]⟩) :
    (addf (matmul d none (truncf .bf16 x hx) (truncf .bf16 W hW) (constant (F := Ideal) ⟨2, ![a, n]⟩ .f32 0x00000000#32))
        (broadcastTo ⟨2, ![a, n]⟩ (shapeCast ⟨2, ![1, n]⟩ b hc) hb) : Mat a n)
      = dense (x : Mat a k) (W : Mat k n) (b : Vc n) := by
  rw [add_bias, prod_tt d hlc hrc hln hrn hlb hrb]
  rfl

end Affine

section Norm

variable (y : FVec Ideal ⟨2, ![a, n]⟩ .f32)
  (h : (⟨2, ![a, n]⟩ : Shape).Reduces [1] (⟨1, ![a]⟩ : Shape)) (hφ : FKind.Formats .f32)
  (hacc : (0x00000000#32 : BitVec 32) = 0x00000000#32)
  (hcast : (⟨1, ![a]⟩ : Shape).ShapeCasts ⟨2, ![a, 1]⟩)
  (hbc : (⟨2, ![a, 1]⟩ : Shape).Broadcasts ⟨2, ![a, n]⟩)

/-- The column of row means as a body spells it, read at row p. -/
theorem mean_col (p : Fin a) (u : Fin 1) :
    (divf (shapeCast ⟨2, ![a, 1]⟩ (multiReduction .add [1] (⟨1, ![a]⟩ : Shape) y 0x00000000#32 h hφ hacc) hcast)
        (broadcast ⟨2, ![a, 1]⟩ (Scalar.ofBits (F := Ideal) .f32 0x42800000#32)) : Mat a 1) (ix2 p u)
      = mean (y : Mat a n) p :=
  stat_col y h hφ hacc hcast p u

/-- Each entry minus its row's mean, the mean column spread back over the columns. -/
theorem centred_eq :
    (subf y (broadcastTo ⟨2, ![a, n]⟩
        (divf (shapeCast ⟨2, ![a, 1]⟩ (multiReduction .add [1] (⟨1, ![a]⟩ : Shape) y 0x00000000#32 h hφ hacc) hcast)
          (broadcast ⟨2, ![a, 1]⟩ (Scalar.ofBits (F := Ideal) .f32 0x42800000#32))) hbc) : Mat a n)
      = centred (y : Mat a n) := by
  funext j
  obtain ⟨r, q, rfl⟩ : ∃ (r : Fin a) (q : Fin n), j = ix2 r q := ⟨j 0, j 1, eq_ix2 j⟩
  rw [subf_apply, Cert.LibKeepdims.broadcastTo_a1_ab_apply, stat_col]
  rfl

/-- The column of row variances as a body spells it (the squares of the centred entries summed along the columns and
    divided by 64), read at row p. -/
theorem var_col (ce : FVec Ideal ⟨2, ![a, n]⟩ .f32) (yy : Mat a n) (hce : (ce : Mat a n) = centred yy)
    (p : Fin a) (u : Fin 1) :
    (divf (shapeCast ⟨2, ![a, 1]⟩ (multiReduction .add [1] (⟨1, ![a]⟩ : Shape) (mulf ce ce) 0x00000000#32 h hφ hacc) hcast)
        (broadcast ⟨2, ![a, 1]⟩ (Scalar.ofBits (F := Ideal) .f32 0x42800000#32)) : Mat a 1) (ix2 p u)
      = var yy p := by
  rw [stat_col]
  unfold var
  rw [← hce]
  rfl

end Norm

/-- The normalisation as a body spells it, from the centred entries and the column of row variances: the small constant
    added, the inverse square root spread over the columns, then the gain and the offset rows. -/
theorem lnorm_eq (g bt : FVec Ideal ⟨1, ![n]⟩ .f32) (vcol : FVec Ideal ⟨2, ![a, 1]⟩ .f32)
    (ce : FVec Ideal ⟨2, ![a, n]⟩ .f32) (yy : Mat a n) (hce : (ce : Mat a n) = centred yy)
    (hv : ∀ (p : Fin a) (u : Fin 1), (vcol : Mat a 1) (ix2 p u) = var yy p)
    (hc : (⟨1, ![n]⟩ : Shape).ShapeCasts ⟨2, ![1, n]⟩) (hb : (⟨2, ![1, n]⟩ : Shape).Broadcasts ⟨2, ![a, n]⟩)
    (hbc : (⟨2, ![a, 1]⟩ : Shape).Broadcasts ⟨2, ![a, n]⟩) :
    (addf (mulf (mulf ce (broadcastTo ⟨2, ![a, n]⟩
          (rsqrt (addf vcol (broadcast ⟨2, ![a, 1]⟩ (Scalar.ofBits (F := Ideal) .f32 0x3727C5AC#32)))) hbc))
        (broadcastTo ⟨2, ![a, n]⟩ (shapeCast ⟨2, ![1, n]⟩ g hc) hb))
      (broadcastTo ⟨2, ![a, n]⟩ (shapeCast ⟨2, ![1, n]⟩ bt hc) hb) : Mat a n)
      = lnorm yy g bt := by
  rw [add_bias, mul_gain]
  funext j
  obtain ⟨r, q, rfl⟩ : ∃ (r : Fin a) (q : Fin n), j = ix2 r q := ⟨j 0, j 1, eq_ix2 j⟩
  show (mulf ce (broadcastTo ⟨2, ![a, n]⟩
      (rsqrt (addf vcol (broadcast ⟨2, ![a, 1]⟩ (Scalar.ofBits (F := Ideal) .f32 0x3727C5AC#32)))) hbc) : Mat a n) (ix2 r q)
      * (g : Vc n) (ix1 q) + (bt : Vc n) (ix1 q) = _
  rw [mulf_apply, Cert.LibKeepdims.broadcastTo_a1_ab_apply]
  show (ce : Mat a n) (ix2 r q) * Ideal.rsqrt ((vcol : Mat a 1) (ix2 r (0 : Fin 1)) + eps32) * (g : Vc n) (ix1 q) + (bt : Vc n) (ix1 q) = _
  rw [hv, hce]
  rfl

/-- The whole normalisation of an array as a body spells it in one piece: the mean column, the centred entries, the
    variance column of their squares, then the scaling, the gain and the offset. -/
theorem lnorm_inline (y : FVec Ideal ⟨2, ![a, n]⟩ .f32) (g bt : FVec Ideal ⟨1, ![n]⟩ .f32)
    (h : (⟨2, ![a, n]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩)
    (hbc : (⟨2, ![a, 1]⟩ : Shape).Broadcasts ⟨2, ![a, n]⟩)
    (hc : (⟨1, ![n]⟩ : Shape).ShapeCasts ⟨2, ![1, n]⟩) (hb : (⟨2, ![1, n]⟩ : Shape).Broadcasts ⟨2, ![a, n]⟩) :
    (addf (mulf (mulf
        (subf y (broadcastTo ⟨2, ![a, n]⟩
          (divf (shapeCast ⟨2, ![a, 1]⟩ (multiReduction .add [1] (⟨1, ![a]⟩ : Shape) y 0x00000000#32 h hφ hacc) hcast)
            (broadcast ⟨2, ![a, 1]⟩ (Scalar.ofBits (F := Ideal) .f32 0x42800000#32))) hbc))
        (broadcastTo ⟨2, ![a, n]⟩ (rsqrt (addf
          (divf (shapeCast ⟨2, ![a, 1]⟩ (multiReduction .add [1] (⟨1, ![a]⟩ : Shape)
              (mulf
                (subf y (broadcastTo ⟨2, ![a, n]⟩
                  (divf (shapeCast ⟨2, ![a, 1]⟩ (multiReduction .add [1] (⟨1, ![a]⟩ : Shape) y 0x00000000#32 h hφ hacc) hcast)
                    (broadcast ⟨2, ![a, 1]⟩ (Scalar.ofBits (F := Ideal) .f32 0x42800000#32))) hbc))
                (subf y (broadcastTo ⟨2, ![a, n]⟩
                  (divf (shapeCast ⟨2, ![a, 1]⟩ (multiReduction .add [1] (⟨1, ![a]⟩ : Shape) y 0x00000000#32 h hφ hacc) hcast)
                    (broadcast ⟨2, ![a, 1]⟩ (Scalar.ofBits (F := Ideal) .f32 0x42800000#32))) hbc)))
              0x00000000#32 h hφ hacc) hcast)
            (broadcast ⟨2, ![a, 1]⟩ (Scalar.ofBits (F := Ideal) .f32 0x42800000#32)))
          (broadcast ⟨2, ![a, 1]⟩ (Scalar.ofBits (F := Ideal) .f32 0x3727C5AC#32)))) hbc))
        (broadcastTo ⟨2, ![a, n]⟩ (shapeCast ⟨2, ![1, n]⟩ g hc) hb))
      (broadcastTo ⟨2, ![a, n]⟩ (shapeCast ⟨2, ![1, n]⟩ bt hc) hb) : Mat a n)
      = lnorm (y : Mat a n) g bt :=
  lnorm_eq g bt _ _ (y : Mat a n) (centred_eq y h hφ hacc hcast hbc)
    (fun p u => var_col h hφ hacc hcast _ (y : Mat a n) (centred_eq y h hφ hacc hcast hbc) p u) hc hb hbc

/-- Three arrays added, then a bias row. -/
theorem sum3_bias (P1 P2 P3 : FVec Ideal ⟨2, ![a, n]⟩ .f32) (b : FVec Ideal ⟨1, ![n]⟩ .f32)
    (hc : (⟨1, ![n]⟩ : Shape).ShapeCasts ⟨2, ![1, n]⟩) (hb : (⟨2, ![1, n]⟩ : Shape).Broadcasts ⟨2, ![a, n]⟩) :
    (addf (addf (addf P1 P2) P3) (broadcastTo ⟨2, ![a, n]⟩ (shapeCast ⟨2, ![1, n]⟩ b hc) hb) : Mat a n)
      = fun i => (P1 : Mat a n) i + (P2 : Mat a n) i + (P3 : Mat a n) i + (b : Vc n) (ix1 (i 1)) := by
  rw [add_bias]; rfl

/-- Two arrays added, then a bias row. -/
theorem sum2_bias (P1 P2 : FVec Ideal ⟨2, ![a, n]⟩ .f32) (b : FVec Ideal ⟨1, ![n]⟩ .f32)
    (hc : (⟨1, ![n]⟩ : Shape).ShapeCasts ⟨2, ![1, n]⟩) (hb : (⟨2, ![1, n]⟩ : Shape).Broadcasts ⟨2, ![a, n]⟩) :
    (addf (addf P1 P2) (broadcastTo ⟨2, ![a, n]⟩ (shapeCast ⟨2, ![1, n]⟩ b hc) hb) : Mat a n)
      = fun i => (P1 : Mat a n) i + (P2 : Mat a n) i + (b : Vc n) (ix1 (i 1)) := by
  rw [add_bias]; rfl

end Cert.Gnn.Tile

end
-- ==== Proof.Body0.lean ====
/-
  The first region's body on one block of 5000 nodes: the node features through two affine layers with a swish between
  them, then the layer normalisation of each row - the function ffbLn of Layers.lean of the block and the weights.
-/
import proofs.«156218_j71949292142781_2_alg».proof.Proof.Gen.KernelIdeal.Frame
import proofs.«156218_j71949292142781_2_alg».proof.Proof.TileForms

noncomputable section

open scoped BigOperators

namespace Cert.KernelIdeal.Body0

open Idealize.ShloMosaic Idealize.ShloMosaic.ValueIdx Cert.Gnn Cert.KernelIdeal Cert.KernelIdeal.Gen

variable (v0 : Vec Ideal S5000x16 .f32) (v2 : Vec Ideal S16x64 .f32) (v5 : Vec Ideal S64 .f32)
  (v18 : Vec Ideal S64x64 .f32) (v21 : Vec Ideal S64 .f32)

/-- The two affine layers with the swish between them. -/
theorem pay2_eq : (k0_pay2 (F := Ideal) v0 v2 v5 v18 v21 : Mat 5000 64) = ffb (v0 : Mat 5000 16) v2 v5 v18 v21 := by
  dsimp only [k0_pay2]
  rw [Tile.dense_eq _ rfl rfl rfl rfl rfl rfl v0 v2 v5, Tile.swish_eq, Tile.dense_eq _ rfl rfl rfl rfl rfl rfl]
  rfl

/-- Each entry of the second affine layer's output minus its row's mean. -/
theorem pay5_eq : (k0_pay5 (F := Ideal) v0 v2 v5 v18 v21 : Mat 5000 64) = centred (ffb (v0 : Mat 5000 16) v2 v5 v18 v21) := by
  dsimp only [k0_pay5, k0_pay3]
  rw [pay2_eq]
  exact Tile.centred_eq _ _ _ _ _ _

/-- The column of row variances. -/
theorem pay4_at (p : Fin 5000) (u : Fin 1) :
    (k0_pay4 (F := Ideal) v0 v2 v5 v18 v21 : Mat 5000 1) (ix2 p u) = var (ffb (v0 : Mat 5000 16) v2 v5 v18 v21) p := by
  dsimp only [k0_pay4]
  exact Tile.var_col _ _ _ _ (k0_pay5 (F := Ideal) v0 v2 v5 v18 v21) _ (pay5_eq v0 v2 v5 v18 v21) p u

/-- The normalisation from the centred entries and the variance column. -/
theorem pay1_eq (g bt : Vec Ideal S64 .f32) (vcol : FVec Ideal S5000x1 .f32) (ce : FVec Ideal S5000x64 .f32)
    (yy : Mat 5000 64) (hce : (ce : Mat 5000 64) = centred yy)
    (hv : ∀ (p : Fin 5000) (u : Fin 1), (vcol : Mat 5000 1) (ix2 p u) = var yy p) :
    (k0_pay1 (F := Ideal) g bt vcol ce : Mat 5000 64) = lnorm yy g bt := by
  dsimp only [k0_pay1]
  exact Tile.lnorm_eq g bt vcol ce yy hce hv _ _ _

theorem origin2 : (![0, 0] : Fin 2 → Nat) = fun _ => 0 := funext fun a => by fin_cases a <;> rfl
theorem origin1 : (![0] : Fin 1 → Nat) = fun _ => 0 := funext fun a => by fin_cases a; rfl

/-- What the body leaves in the output block: the embedding layer of the block of node features. -/
theorem out0_eq (x0 : Vec Ideal S5000x16 .f32) (x1 : Vec Ideal S16x64 .f32) (x2 : Vec Ideal S64 .f32)
    (x3 : Vec Ideal S64x64 .f32) (x4 x5 x6 : Vec Ideal S64 .f32) :
    (out0_7 (F := Ideal) x0 x1 x2 x3 x4 x5 x6 : Mat 5000 64) = ffbLn (x0 : Mat 5000 16) x1 x2 x3 x4 x5 x6 := by
  unfold out0_7
  rw [View.canon_unit_zero origin2]
  simp only [View.ld_unit_zero (S := S5000x16) origin2, View.ld_unit_zero (S := S16x64) origin2,
    View.ld_unit_zero (S := S64x64) origin2, View.ld_unit_zero (S := S64) origin1]
  exact pay1_eq x5 x6 _ _ _ (pay5_eq x0 x1 x2 x3 x4) (pay4_at x0 x1 x2 x3 x4)

end Cert.KernelIdeal.Body0

end
-- ==== Proof.Body1.lean ====
/-
  The second region's body on one block of 2000 edges: the edge features embedded, then with the two gathered endpoint
  embeddings through the edge update - the function edgeLayer of Layers.lean of the blocks and the weights.
-/
import proofs.«156218_j71949292142781_2_alg».proof.Proof.Gen.KernelIdeal.Frame
import proofs.«156218_j71949292142781_2_alg».proof.Proof.TileForms

noncomputable section

open scoped BigOperators

namespace Cert.KernelIdeal.Body1

open Idealize.ShloMosaic Idealize.ShloMosaic.ValueIdx Cert.Gnn Cert.KernelIdeal Cert.KernelIdeal.Gen

theorem origin2 : (![0, 0] : Fin 2 → Nat) = fun _ => 0 := funext fun a => by fin_cases a <;> rfl
theorem origin1 : (![0] : Fin 1 → Nat) = fun _ => 0 := funext fun a => by fin_cases a; rfl

section Embed

variable (v0 : Vec Ideal S2000x4 .f32) (v2 : Vec Ideal S4x64 .f32) (v5 : Vec Ideal S64 .f32)
  (v18 : Vec Ideal S64x64 .f32) (v21 : Vec Ideal S64 .f32)

/-- The two affine layers of the edge embedding with the swish between them. -/
theorem pay2_eq : (k1_pay2 (F := Ideal) v0 v2 v5 v18 v21 : Mat 2000 64) = ffb (v0 : Mat 2000 4) v2 v5 v18 v21 := by
  dsimp only [k1_pay2]
  rw [Tile.dense_eq _ rfl rfl rfl rfl rfl rfl v0 v2 v5, Tile.swish_eq, Tile.dense_eq _ rfl rfl rfl rfl rfl rfl]
  rfl

/-- Each entry minus its row's mean. -/
theorem pay5_eq : (k1_pay5 (F := Ideal) v0 v2 v5 v18 v21 : Mat 2000 64) = centred (ffb (v0 : Mat 2000 4) v2 v5 v18 v21) := by
  dsimp only [k1_pay5, k1_pay3]
  rw [pay2_eq]
  exact Tile.centred_eq _ _ _ _ _ _

/-- The column of row variances. -/
theorem pay4_at (p : Fin 2000) (u : Fin 1) :
    (k1_pay4 (F := Ideal) v0 v2 v5 v18 v21 : Mat 2000 1) (ix2 p u) = var (ffb (v0 : Mat 2000 4) v2 v5 v18 v21) p := by
  dsimp only [k1_pay4]
  exact Tile.var_col _ _ _ _ (k1_pay5 (F := Ideal) v0 v2 v5 v18 v21) _ (pay5_eq v0 v2 v5 v18 v21) p u

end Embed

/-- The normalised embedding with the two gathered blocks through the three-band affine layer and the swish. -/
theorem pay6_eq (g bt : Vec Ideal S64 .f32) (vcol : FVec Ideal S2000x1 .f32) (ce : FVec Ideal S2000x64 .f32)
    (yy : Mat 2000 64) (hce : (ce : Mat 2000 64) = centred yy)
    (hv : ∀ (p : Fin 2000) (u : Fin 1), (vcol : Mat 2000 1) (ix2 p u) = var yy p)
    (ns nr : Vec Ideal S2000x64 .bf16) (Wa Wb Wc : Vec Ideal S64x64 .f32) (pb1 : Vec Ideal S64 .f32) :
    (k1_pay6 (F := Ideal) g bt vcol ce ns nr Wa Wb Wc pb1 : Mat 2000 64)
      = swish (dense3 (lnorm yy g bt) (ns : Mat 2000 64) (nr : Mat 2000 64) Wa Wb Wc pb1) := by
  dsimp only [k1_pay6]
  simp only [shapeCast_self]
  rw [Tile.lnorm_eq g bt vcol ce yy hce hv, Tile.prod_tt _ rfl rfl rfl rfl rfl rfl,
    Tile.prod_nt _ rfl rfl rfl rfl rfl rfl, Tile.prod_nt _ rfl rfl rfl rfl rfl rfl, Tile.sum3_bias, Tile.swish_eq]
  rfl

/-- The last affine layer and the normalisation of the edge update. -/
theorem pay1_eq (v81 : FVec Ideal S2000x64 .f32) (W2 : Vec Ideal S64x64 .f32) (b2 g bt : Vec Ideal S64 .f32) :
    (k1_pay1 (F := Ideal) v81 W2 b2 g bt : Mat 2000 64) = lnorm (dense (v81 : Mat 2000 64) W2 b2) g bt := by
  dsimp only [k1_pay1]
  rw [Tile.dense_eq _ rfl rfl rfl rfl rfl rfl v81 W2 b2]
  exact Tile.lnorm_inline _ g bt _ _ _ _ _ _ _

/-- What the body leaves in the output block: the edge update of the blocks. -/
theorem out1_eq (x0 : Vec Ideal S2000x4 .f32) (x1 x2 : Vec Ideal S2000x64 .bf16) (x3 : Vec Ideal S4x64 .f32)
    (x4 : Vec Ideal S64 .f32) (x5 : Vec Ideal S64x64 .f32) (x6 x7 x8 : Vec Ideal S64 .f32)
    (x9 x10 x11 : Vec Ideal S64x64 .f32) (x12 : Vec Ideal S64 .f32) (x13 : Vec Ideal S64x64 .f32)
    (x14 x15 x16 : Vec Ideal S64 .f32) :
    (out1_17 (F := Ideal) x0 x1 x2 x3 x4 x5 x6 x7 x8 x9 x10 x11 x12 x13 x14 x15 x16 : Mat 2000 64)
      = edgeLayer (x0 : Mat 2000 4) (x1 : Mat 2000 64) (x2 : Mat 2000 64) x3 x4 x5 x6 x7 x8 x9 x10 x11 x12 x13 x14 x15 x16 := by
  unfold out1_17
  rw [View.canon_unit_zero origin2]
  simp only [View.ld_unit_zero (S := S2000x4) origin2, View.ld_unit_zero (S := S4x64) origin2,
    View.ld_unit_zero (S := S64x64) origin2, View.ld_unit_zero (S := S64) origin1,
    View.ld_unit_zero (S := S2000x64) origin2]
  rw [pay1_eq, pay6_eq x7 x8 _ _ _ (pay5_eq x0 x3 x4 x5 x6) (pay4_at x0 x3 x4 x5 x6)]
  rfl

end Cert.KernelIdeal.Body1

end
-- ==== Proof.Body2.lean ====
/-
  The third region's body on one block of 2000 nodes: the node embeddings and the summed messages through the node
  update, the embeddings added back, then the output layers - the function nodeLayer of Layers.lean.
-/
import proofs.«156218_j71949292142781_2_alg».proof.Proof.Gen.KernelIdeal.Frame
import proofs.«156218_j71949292142781_2_alg».proof.Proof.TileForms

noncomputable section

open scoped BigOperators

namespace Cert.KernelIdeal.Body2

open Idealize.ShloMosaic Idealize.ShloMosaic.ValueIdx Cert.Gnn Cert.KernelIdeal Cert.KernelIdeal.Gen

theorem origin2 : (![0, 0] : Fin 2 → Nat) = fun _ => 0 := funext fun a => by fin_cases a <;> rfl
theorem origin1 : (![0] : Fin 1 → Nat) = fun _ => 0 := funext fun a => by fin_cases a; rfl

/-- The two-band affine layer, the swish and the second affine layer of the node update. -/
theorem pay3_eq (v0 v2 : Vec Ideal S2000x64 .f32) (v6 v9 : Vec Ideal S64x64 .f32) (v15 : Vec Ideal S64 .f32)
    (v28 : Vec Ideal S64x64 .f32) (v31 : Vec Ideal S64 .f32) :
    (k2_pay3 (F := Ideal) v0 v2 v6 v9 v15 v28 v31 : Mat 2000 64)
      = dense (swish (dense2 (v0 : Mat 2000 64) v2 v6 v9 v15)) v28 v31 := by
  dsimp only [k2_pay3, k2_pay2]
  simp only [shapeCast_self]
  rw [Tile.prod_tt _ rfl rfl rfl rfl rfl rfl v0 v6, Tile.prod_tt _ rfl rfl rfl rfl rfl rfl v2 v9, Tile.sum2_bias,
    Tile.swish_eq, Tile.dense_eq _ rfl rfl rfl rfl rfl rfl]
  rfl

/-- The normalisation, the embeddings added back, an affine layer, the swish and the last product. -/
theorem pay5_eq (v1 y : FVec Ideal S2000x64 .f32) (g bt : Vec Ideal S64 .f32) (oW1 : Vec Ideal S64x64 .f32)
    (ob1 : Vec Ideal S64 .f32) (oW2 : Vec Ideal S64x64 .f32) :
    (k2_pay5 (F := Ideal) v1 y g bt
        (multiReduction .add [1] S2000 y 0x00000000#32 reduces_S2000x64_S2000 (.inl rfl) rfl) oW1 ob1 oW2 : Mat 2000 64)
      = Cert.Dense.prod (swish (dense (plus (lnorm (y : Mat 2000 64) g bt) v1) oW1 ob1)) oW2 := by
  dsimp only [k2_pay5]
  rw [Tile.lnorm_inline y g bt, Tile.dense_eq _ rfl rfl rfl rfl rfl rfl, Tile.swish_eq, Tile.prod_tt _ rfl rfl rfl rfl rfl rfl]
  rfl

/-- What the body leaves in the output block: the node update of the blocks. -/
theorem out2_eq (x0 x1 : Vec Ideal S2000x64 .f32) (x2 x3 : Vec Ideal S64x64 .f32) (x4 : Vec Ideal S64 .f32)
    (x5 : Vec Ideal S64x64 .f32) (x6 x7 x8 : Vec Ideal S64 .f32) (x9 : Vec Ideal S64x64 .f32) (x10 : Vec Ideal S64 .f32)
    (x11 : Vec Ideal S64x64 .f32) (x12 : Vec Ideal S64 .f32) :
    (out2_13 (F := Ideal) x0 x1 x2 x3 x4 x5 x6 x7 x8 x9 x10 x11 x12 : Mat 2000 64)
      = nodeLayer (x0 : Mat 2000 64) x1 x2 x3 x4 x5 x6 x7 x8 x9 x10 x11 x12 := by
  unfold out2_13
  rw [View.canon_unit_zero origin2]
  simp only [View.ld_unit_zero (S := S2000x64) origin2, View.ld_unit_zero (S := S64x64) origin2,
    View.ld_unit_zero (S := S64) origin1]
  dsimp only [k2_pay1, k2_pay4]
  rw [pay5_eq, Tile.add_bias, pay3_eq]
  dsimp only [k2_pay2]
  rw [shapeCast_self]
  rfl

end Cert.KernelIdeal.Body2

end
-- ==== Proof.Spec.lean ====
/-
  The network as three functions of the argument arrays, over the extended reals. Two steps are carried as they are
  stated by the host and never opened: gathering the node embeddings at the (wrapped) sender or receiver index of every
  edge, and summing the edge latents into their receiver nodes. Everything else is the layers of Layers.lean:
    node embedding   NF = ffbLn (node features)
    edge latents     EL = edgeLayer (edge features) (NF at the senders) (NF at the receivers), the first weight in bands
    node latents     NL = nodeLayer NF (EL summed into the receivers), the first weight in bands.
-/
import Idealize.ShloMosaic.PureOps.Ideal
import Idealize.ShloMosaic.Lib.ValueIdx
import proofs.«156218_j71949292142781_2_alg».proof.Proof.Layers

noncomputable section

namespace Cert.Gnn.Spec

open Idealize.ShloMosaic Idealize.ShloMosaic.ValueIdx Cert.Gnn

/-- The shapes of the index row, the index column, a scalar, the node array and the edge array. -/
abbrev SI : Shape := ⟨1, ![800000]⟩
abbrev SIc : Shape := ⟨2, ![800000, 1]⟩
abbrev S0 : Shape := ⟨0, ![]⟩
abbrev SN : Shape := ⟨2, ![50000, 64]⟩
abbrev SE : Shape := ⟨2, ![800000, 64]⟩
abbrev SE2 : Shape := ⟨2, ![2, 800000]⟩

/-- The shape facts and the gather and scatter dimension records the host steps are stated with. -/
structure HostDims where
  b0 : S0.BroadcastsInDim SI ![]
  bcol : SI.BroadcastsInDim SIc ![0]
  bz : S0.BroadcastsInDim SN ![]
  gd : GatherDims SN SIc SE
  sd : ScatterDims SN SIc SE

/-- Row r of the [2, 800000] edge-index array: the senders (r = 0) or the receivers (r = 1). -/
def rowOf (E : IVec SE2 32) (r : Fin 2) : IVec SI 32 := fun i => E (ix2 r (i 0))

/-- An index row with negative entries wrapped by the number of nodes, laid out as a column. -/
def wrap (H : HostDims) (v : IVec SI 32) : IVec SIc 32 :=
  broadcastInDim SIc ![0] H.bcol
    (select (cmpi .slt v (broadcastInDim SI ![] H.b0 (constantI S0 32 0#32)))
      (addi v (broadcastInDim SI ![] H.b0 (constantI S0 32 50000#32))) v)

/-- The rows of X at the wrapped indices v: one row per edge. -/
def gath (H : HostDims) (X : Mat 50000 64) (v : IVec SI 32) : Mat 800000 64 :=
  Host.gather H.gd X (wrap H v)

/-- The edge rows summed into the node rows the indices v name, from zero. -/
def agg (H : HostDims) (v : IVec SI 32) (EL : Mat 800000 64) : Mat 50000 64 :=
  Host.scatterAdd (F := Ideal) (φ := .f32) H.sd
    (broadcastInDim SN ![] H.bz (constant (F := Ideal) S0 .f32 0x00000000#32))
    (broadcastInDim SIc ![0] H.bcol v) EL

/-- The edge latents from the edge features, the node embedding NF and the two index rows. -/
def edgeLatents (H : HostDims) (vs vr : IVec SI 32) (NF : Mat 50000 64) (x : Mat 800000 4)
    (eW1 : Mat 4 64) (eb1 : Vc 64) (eW2 : Mat 64 64) (eb2 eg ebt : Vc 64)
    (pW1 : Mat 192 64) (pb1 : Vc 64) (pW2 : Mat 64 64) (pb2 pg pbt : Vc 64) : Mat 800000 64 :=
  edgeLayer x (gath H NF vs) (gath H NF vr) eW1 eb1 eW2 eb2 eg ebt
    (rows 0 (by omega) pW1) (rows 64 (by omega) pW1) (rows 128 (by omega) pW1) pb1 pW2 pb2 pg pbt

/-- The node latents from the node embedding, the edge latents and the receiver index row. -/
def nodeLatents (H : HostDims) (vr : IVec SI 32) (NF : Mat 50000 64) (EL : Mat 800000 64)
    (nW1 : Mat 128 64) (nb1 : Vc 64) (nW2 : Mat 64 64) (nb2 ng nbt : Vc 64)
    (oW1 : Mat 64 64) (ob1 : Vc 64) (oW2 : Mat 64 64) (ob2 : Vc 64) : Mat 50000 64 :=
  nodeLayer NF (agg H vr EL) (rows 0 (by omega) nW1) (rows 64 (by omega) nW1) nb1 nW2 nb2 ng nbt oW1 ob1 oW2 ob2

end Cert.Gnn.Spec

end
-- ==== Proof.Bands.lean ====
/-
  Arrays laid side by side along the columns, and a weight matrix cut into the matching bands of rows. The law that
  joins the two programs: the product of a side-by-side join [x1 | x2 | x3] with a weight matrix W is the sum of the
  products of each piece with its band of W's rows, because a sum over the joined columns splits into the sums over
  each piece's columns (addition of extended reals is associative and commutative; no finiteness is needed).
-/
import Idealize.ShloMosaic.Lib.Pipeline.Value
import Idealize.ShloMosaic.Lib.ValueIdx
import Idealize.ShloMosaic.Lib.ValueLayout
import proofs.«156218_j71949292142781_2_alg».proof.Proof.Layers

noncomputable section

open scoped BigOperators

namespace Cert.Gnn.Bands

open Idealize.ShloMosaic Idealize.ShloMosaic.ValueIdx Cert.Gnn

variable {a k n : ℕ}

/-- A band of rows of a matrix cut out as a slice is the block of rows that starts there. -/
theorem band_eq {K : ℕ} (lo : ℕ) (h : lo + k ≤ K) (W : Mat K n)
    (hs : (⟨2, ![K, n]⟩ : Shape).Slices ![lo, 0] ⟨2, ![k, n]⟩) :
    (extractStridedSlice ⟨2, ![k, n]⟩ ![lo, 0] W hs : Mat k n) = rows lo h W := by
  funext j
  obtain ⟨r, q, rfl⟩ : ∃ (r : Fin k) (q : Fin n), j = ix2 r q := ⟨j 0, j 1, eq_ix2 j⟩
  rw [slice2_axis0_eq]
  rfl

/-! ## Three blocks of columns side by side -/

section Three

variable {α : Type} {t : ℕ} (y₀ y₁ y₂ : (⟨2, ![a, k]⟩ : Shape).Idx → α)
  (h : Shape.Concatenates [(⟨2, ![a, k]⟩ : Shape), ⟨2, ![a, k]⟩, ⟨2, ![a, k]⟩] ⟨2, ![a, t]⟩ 1)
  (p : Fin a) (j : Fin t)

/-- Column j = i is column i of the first block. -/
theorem cat3_fst (i : Fin k) (hi : i.val = j.val) :
    concatenate ⟨2, ![a, t]⟩ 1 [⟨⟨2, ![a, k]⟩, y₀⟩, ⟨⟨2, ![a, k]⟩, y₁⟩, ⟨⟨2, ![a, k]⟩, y₂⟩] h (ix2 p j) = y₀ (ix2 p i) :=
  concatenate_apply_piece (t := ⟨2, ![a, t]⟩) 1
    [⟨⟨2, ![a, k]⟩, y₀⟩, ⟨⟨2, ![a, k]⟩, y₁⟩, ⟨⟨2, ![a, k]⟩, y₂⟩] h (ix2 p j) 0 (by show (0 : ℕ) < 3; omega)
    ⟨2, ![a, k]⟩ y₀ rfl rfl 0 rfl (ix2 p i)
    (fun ax hax => by
      match ax with
      | ⟨0, _⟩ => rfl
      | ⟨1, _⟩ => exact absurd rfl hax)
    (by show 0 + i.val = j.val; omega)

/-- Column j = k + i is column i of the second block. -/
theorem cat3_snd (i : Fin k) (hi : k + i.val = j.val) :
    concatenate ⟨2, ![a, t]⟩ 1 [⟨⟨2, ![a, k]⟩, y₀⟩, ⟨⟨2, ![a, k]⟩, y₁⟩, ⟨⟨2, ![a, k]⟩, y₂⟩] h (ix2 p j) = y₁ (ix2 p i) :=
  concatenate_apply_piece (t := ⟨2, ![a, t]⟩) 1
    [⟨⟨2, ![a, k]⟩, y₀⟩, ⟨⟨2, ![a, k]⟩, y₁⟩, ⟨⟨2, ![a, k]⟩, y₂⟩] h (ix2 p j) 1 (by show (1 : ℕ) < 3; omega)
    ⟨2, ![a, k]⟩ y₁ rfl rfl k rfl (ix2 p i)
    (fun ax hax => by
      match ax with
      | ⟨0, _⟩ => rfl
      | ⟨1, _⟩ => exact absurd rfl hax)
    (by show k + i.val = j.val; exact hi)

/-- Column j = k + k + i is column i of the third block. -/
theorem cat3_thd (i : Fin k) (hi : k + k + i.val = j.val) :
    concatenate ⟨2, ![a, t]⟩ 1 [⟨⟨2, ![a, k]⟩, y₀⟩, ⟨⟨2, ![a, k]⟩, y₁⟩, ⟨⟨2, ![a, k]⟩, y₂⟩] h (ix2 p j) = y₂ (ix2 p i) :=
  concatenate_apply_piece (t := ⟨2, ![a, t]⟩) 1
    [⟨⟨2, ![a, k]⟩, y₀⟩, ⟨⟨2, ![a, k]⟩, y₁⟩, ⟨⟨2, ![a, k]⟩, y₂⟩] h (ix2 p j) 2 (by show (2 : ℕ) < 3; omega)
    ⟨2, ![a, k]⟩ y₂ rfl rfl (k + k) rfl (ix2 p i)
    (fun ax hax => by
      match ax with
      | ⟨0, _⟩ => rfl
      | ⟨1, _⟩ => exact absurd rfl hax)
    (by show k + k + i.val = j.val; exact hi)

end Three

/-! ## Two blocks of columns side by side -/

section Two

variable {α : Type} {t : ℕ} (y₀ y₁ : (⟨2, ![a, k]⟩ : Shape).Idx → α)
  (h : Shape.Concatenates [(⟨2, ![a, k]⟩ : Shape), ⟨2, ![a, k]⟩] ⟨2, ![a, t]⟩ 1)
  (p : Fin a) (j : Fin t)

theorem cat2_fst (i : Fin k) (hi : i.val = j.val) :
    concatenate ⟨2, ![a, t]⟩ 1 [⟨⟨2, ![a, k]⟩, y₀⟩, ⟨⟨2, ![a, k]⟩, y₁⟩] h (ix2 p j) = y₀ (ix2 p i) :=
  concatenate_apply_piece (t := ⟨2, ![a, t]⟩) 1
    [⟨⟨2, ![a, k]⟩, y₀⟩, ⟨⟨2, ![a, k]⟩, y₁⟩] h (ix2 p j) 0 (by show (0 : ℕ) < 2; omega)
    ⟨2, ![a, k]⟩ y₀ rfl rfl 0 rfl (ix2 p i)
    (fun ax hax => by
      match ax with
      | ⟨0, _⟩ => rfl
      | ⟨1, _⟩ => exact absurd rfl hax)
    (by show 0 + i.val = j.val; omega)

theorem cat2_snd (i : Fin k) (hi : k + i.val = j.val) :
    concatenate ⟨2, ![a, t]⟩ 1 [⟨⟨2, ![a, k]⟩, y₀⟩, ⟨⟨2, ![a, k]⟩, y₁⟩] h (ix2 p j) = y₁ (ix2 p i) :=
  concatenate_apply_piece (t := ⟨2, ![a, t]⟩) 1
    [⟨⟨2, ![a, k]⟩, y₀⟩, ⟨⟨2, ![a, k]⟩, y₁⟩] h (ix2 p j) 1 (by show (1 : ℕ) < 2; omega)
    ⟨2, ![a, k]⟩ y₁ rfl rfl k rfl (ix2 p i)
    (fun ax hax => by
      match ax with
      | ⟨0, _⟩ => rfl
      | ⟨1, _⟩ => exact absurd rfl hax)
    (by show k + i.val = j.val; exact hi)

end Two

/-! ## The product against a join is the sum of the products against the bands -/

/-- Three blocks side by side against a weight matrix of 3k rows: the affine layer of the join is the three-band
    affine layer of the blocks. -/
theorem dense_cat3 (x1 x2 x3 : Mat a k) (W : Mat (k + k + k) n) (b : Vc n)
    (h : Shape.Concatenates [(⟨2, ![a, k]⟩ : Shape), ⟨2, ![a, k]⟩, ⟨2, ![a, k]⟩] ⟨2, ![a, k + k + k]⟩ 1) :
    dense (concatenate ⟨2, ![a, k + k + k]⟩ 1 [⟨⟨2, ![a, k]⟩, x1⟩, ⟨⟨2, ![a, k]⟩, x2⟩, ⟨⟨2, ![a, k]⟩, x3⟩] h : Mat a (k + k + k)) W b
      = dense3 x1 x2 x3 (rows 0 (by omega) W) (rows k (by omega) W) (rows (k + k) (by omega) W) b := by
  funext j
  obtain ⟨r, q, rfl⟩ : ∃ (r : Fin a) (q : Fin n), j = ix2 r q := ⟨j 0, j 1, eq_ix2 j⟩
  have e1 : ∀ c : Fin k, (concatenate ⟨2, ![a, k + k + k]⟩ 1 [⟨⟨2, ![a, k]⟩, x1⟩, ⟨⟨2, ![a, k]⟩, x2⟩, ⟨⟨2, ![a, k]⟩, x3⟩] h
      : Mat a (k + k + k)) (ix2 r (Fin.castAdd k (Fin.castAdd k c))) = x1 (ix2 r c) :=
    fun c => cat3_fst x1 x2 x3 h r _ c (by simp <;> omega)
  have e2 : ∀ c : Fin k, (concatenate ⟨2, ![a, k + k + k]⟩ 1 [⟨⟨2, ![a, k]⟩, x1⟩, ⟨⟨2, ![a, k]⟩, x2⟩, ⟨⟨2, ![a, k]⟩, x3⟩] h
      : Mat a (k + k + k)) (ix2 r (Fin.castAdd k (Fin.natAdd k c))) = x2 (ix2 r c) :=
    fun c => cat3_snd x1 x2 x3 h r _ c (by simp <;> omega)
  have e3 : ∀ c : Fin k, (concatenate ⟨2, ![a, k + k + k]⟩ 1 [⟨⟨2, ![a, k]⟩, x1⟩, ⟨⟨2, ![a, k]⟩, x2⟩, ⟨⟨2, ![a, k]⟩, x3⟩] h
      : Mat a (k + k + k)) (ix2 r (Fin.natAdd (k + k) c)) = x3 (ix2 r c) :=
    fun c => cat3_thd x1 x2 x3 h r _ c (by simp <;> omega)
  generalize (concatenate ⟨2, ![a, k + k + k]⟩ 1 [⟨⟨2, ![a, k]⟩, x1⟩, ⟨⟨2, ![a, k]⟩, x2⟩, ⟨⟨2, ![a, k]⟩, x3⟩] h
      : Mat a (k + k + k)) = J at e1 e2 e3 ⊢
  show (∑ c : Fin (k + k + k), J (ix2 r c) * W (ix2 c q)) + b (ix1 q)
    = (∑ c : Fin k, x1 (ix2 r c) * rows 0 _ W (ix2 c q)) + (∑ c : Fin k, x2 (ix2 r c) * rows k _ W (ix2 c q))
      + (∑ c : Fin k, x3 (ix2 r c) * rows (k + k) _ W (ix2 c q)) + b (ix1 q)
  rw [Fin.sum_univ_add, Fin.sum_univ_add]
  congr 1
  congr 1
  congr 1
  · refine Finset.sum_congr rfl fun c _ => ?_
    rw [e1 c, rows_ix2]
    exact congrArg (fun z => x1 (ix2 r c) * W (ix2 z q)) (Fin.ext (by simp <;> omega))
  · refine Finset.sum_congr rfl fun c _ => ?_
    rw [e2 c, rows_ix2]
    exact congrArg (fun z => x2 (ix2 r c) * W (ix2 z q)) (Fin.ext (by simp <;> omega))
  · refine Finset.sum_congr rfl fun c _ => ?_
    rw [e3 c, rows_ix2]
    exact congrArg (fun z => x3 (ix2 r c) * W (ix2 z q)) (Fin.ext (by simp <;> omega))

/-- Two blocks side by side against a weight matrix of 2k rows. -/
theorem dense_cat2 (x1 x2 : Mat a k) (W : Mat (k + k) n) (b : Vc n)
    (h : Shape.Concatenates [(⟨2, ![a, k]⟩ : Shape), ⟨2, ![a, k]⟩] ⟨2, ![a, k + k]⟩ 1) :
    dense (concatenate ⟨2, ![a, k + k]⟩ 1 [⟨⟨2, ![a, k]⟩, x1⟩, ⟨⟨2, ![a, k]⟩, x2⟩] h : Mat a (k + k)) W b
      = dense2 x1 x2 (rows 0 (by omega) W) (rows k (by omega) W) b := by
  funext j
  obtain ⟨r, q, rfl⟩ : ∃ (r : Fin a) (q : Fin n), j = ix2 r q := ⟨j 0, j 1, eq_ix2 j⟩
  have e1 : ∀ c : Fin k, (concatenate ⟨2, ![a, k + k]⟩ 1 [⟨⟨2, ![a, k]⟩, x1⟩, ⟨⟨2, ![a, k]⟩, x2⟩] h
      : Mat a (k + k)) (ix2 r (Fin.castAdd k c)) = x1 (ix2 r c) :=
    fun c => cat2_fst x1 x2 h r _ c (by simp <;> omega)
  have e2 : ∀ c : Fin k, (concatenate ⟨2, ![a, k + k]⟩ 1 [⟨⟨2, ![a, k]⟩, x1⟩, ⟨⟨2, ![a, k]⟩, x2⟩] h
      : Mat a (k + k)) (ix2 r (Fin.natAdd k c)) = x2 (ix2 r c) :=
    fun c => cat2_snd x1 x2 h r _ c (by simp <;> omega)
  generalize (concatenate ⟨2, ![a, k + k]⟩ 1 [⟨⟨2, ![a, k]⟩, x1⟩, ⟨⟨2, ![a, k]⟩, x2⟩] h : Mat a (k + k)) = J at e1 e2 ⊢
  show (∑ c : Fin (k + k), J (ix2 r c) * W (ix2 c q)) + b (ix1 q)
    = (∑ c : Fin k, x1 (ix2 r c) * rows 0 _ W (ix2 c q)) + (∑ c : Fin k, x2 (ix2 r c) * rows k _ W (ix2 c q))
      + b (ix1 q)
  rw [Fin.sum_univ_add]
  congr 1
  congr 1
  · refine Finset.sum_congr rfl fun c _ => ?_
    rw [e1 c, rows_ix2]
    exact congrArg (fun z => x1 (ix2 r c) * W (ix2 z q)) (Fin.ext (by simp <;> omega))
  · refine Finset.sum_congr rfl fun c _ => ?_
    rw [e2 c, rows_ix2]
    exact congrArg (fun z => x2 (ix2 r c) * W (ix2 z q)) (Fin.ext (by simp <;> omega))

end Cert.Gnn.Bands

end
-- ==== Proof.KernelValue.lean ====
/- The three result arrays of the idealized kernel as functions of the launch memory.

   The kernel's run leaves every TensorCore buffer at the contents of the last segment boundary, a fold from the launch
   memory through three host stretches and three regions. Read back through that fold: an argument array is never
   written, so it holds what it was launched with at every boundary; a host result is its operation's function of the
   buffers before it (a row of the edge-index array, a gather of node rows, a scatter-add of edge rows, a band of a
   weight matrix); a region's output array is the layer of the whole arrays the region finds at entry. Composed, the
   node embedding, the edge latents and the node latents are the network's three functions of the arguments, with the
   gather and the scatter-add carried as the host states them. -/
import proofs.«156218_j71949292142781_2_alg».proof.Proof.Gen.KernelIdeal.Frame
import proofs.«156218_j71949292142781_2_alg».proof.Proof.KernelArrays
import proofs.«156218_j71949292142781_2_alg».proof.Proof.Body0
import proofs.«156218_j71949292142781_2_alg».proof.Proof.Body1
import proofs.«156218_j71949292142781_2_alg».proof.Proof.Body2
import proofs.«156218_j71949292142781_2_alg».proof.Proof.Spec
import proofs.«156218_j71949292142781_2_alg».proof.Proof.Bands
import proofs.«156218_j71949292142781_2_alg».proof.Proof.TileForms
import Idealize.ShloMosaic.Lib.StableHlo.Run
import Idealize.ShloMosaic.Lib.ValueLayout

set_option maxRecDepth 16384

noncomputable section

namespace Cert.KernelIdeal.KVal

open Idealize.ShloMosaic Idealize.ShloMosaic.TcCoe Idealize.SL.Sem
open Idealize.ShloMosaic.ValueIdx
open Cert.KernelIdeal.Gen Cert.Gnn

variable (m : (ℓ : Loc nD τ sig) → Buf (Elt Ideal) ℓ) (ρ : Dev nD → PrngReg)

/-- The shape facts and the gather and scatter dimension records the host's steps are stated with. -/
def HK : Spec.HostDims :=
  ⟨bcast_S_S800000, bcast_S800000_S800000x1_0, bcast_S_S50000x64, gather_S50000x64_S800000x1_S800000x64_1_0_n_n_0_1_164,
    scatter_S50000x64_S800000x1_S800000x64_1_0_0_1⟩

/-- The host stretch 0 writes only its own results: every other TensorCore buffer keeps its contents across it. -/
theorem keeps0 (W : Valuation τ sig (Elt Ideal)) (b : Ref sig .tc)
    (hb : ∀ x ∈ ([main_v0, main_v1, main_v2, main_v3] : List (Ref sig .tc)), b ≠ x) :
    StableHlo.after (hostOps0 (F := Ideal)) W (Proc.devRef .tc b) = W (Proc.devRef .tc b) := by
  refine StableHlo.after_of_forall_not_mem _ _ (List.forall_iff_forall_mem.mp ?_)
  simp only [hostOps0, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by simp))

/-- The host stretch 1 writes only its own results: every other TensorCore buffer keeps its contents across it. -/
theorem keeps1 (W : Valuation τ sig (Elt Ideal)) (b : Ref sig .tc)
    (hb : ∀ x ∈ ([main_v5, main_c, main_v6, main_v7, main_c_0, main_v8, main_v9, main_v10, main_v11, main_v12, main_c_1, main_v13, main_v14, main_c_2, main_v15, main_v16, main_v17, main_v18, main_v19, main_v20, main_v21, main_v22] : List (Ref sig .tc)), b ≠ x) :
    StableHlo.after (hostOps1 (F := Ideal)) W (Proc.devRef .tc b) = W (Proc.devRef .tc b) := by
  refine StableHlo.after_of_forall_not_mem _ _ (List.forall_iff_forall_mem.mp ?_)
  simp only [hostOps1, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by simp))

/-- The host stretch 2 writes only its own results: every other TensorCore buffer keeps its contents across it. -/
theorem keeps2 (W : Valuation τ sig (Elt Ideal)) (b : Ref sig .tc)
    (hb : ∀ x ∈ ([main_cst, main_v24, main_v25, main_v26, main_v27, main_v28] : List (Ref sig .tc)), b ≠ x) :
    StableHlo.after (hostOps2 (F := Ideal)) W (Proc.devRef .tc b) = W (Proc.devRef .tc b) := by
  refine StableHlo.after_of_forall_not_mem _ _ (List.forall_iff_forall_mem.mp ?_)
  simp only [hostOps2, List.flatten_cons, List.flatten_nil, List.append_nil, List.cons_append,
    List.nil_append, List.Forall, StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (hb _ (by simp))

/-! ## The rows of the edge-index array -/

/-- Row 0 of a [2, 800000] array, cut out as a [1, 800000] slice and flattened, is its row of senders. -/
theorem row_first (E : IVec Spec.SE2 32) (hs : Spec.SE2.Slices ![0, 0] ⟨2, ![1, 800000]⟩)
    (hc : (⟨2, ![1, 800000]⟩ : Shape).ShapeCasts Spec.SI) :
    shapeCast Spec.SI (extractStridedSlice ⟨2, ![1, 800000]⟩ ![0, 0] E hs) hc = Spec.rowOf E 0 := by
  funext i
  obtain ⟨q, rfl⟩ : ∃ q : Fin 800000, i = ix1 q := ⟨i 0, eq_ix1 i⟩
  rw [shapeCast_1a_a_apply, slice2_axis0_apply 0 E hs 0 q 0 rfl]
  rfl

/-- Row 1, cut out and flattened, is its row of receivers. -/
theorem row_second (E : IVec Spec.SE2 32) (hs : Spec.SE2.Slices ![1, 0] ⟨2, ![1, 800000]⟩)
    (hc : (⟨2, ![1, 800000]⟩ : Shape).ShapeCasts Spec.SI) :
    shapeCast Spec.SI (extractStridedSlice ⟨2, ![1, 800000]⟩ ![1, 0] E hs) hc = Spec.rowOf E 1 := by
  funext i
  obtain ⟨q, rfl⟩ : ∃ q : Fin 800000, i = ix1 q := ⟨i 0, eq_ix1 i⟩
  rw [shapeCast_1a_a_apply, slice2_axis0_apply 1 E hs 0 q 1 rfl]
  rfl

/-- After the first host stretch the senders' buffer holds row 0 of the launched edge-index array. -/
theorem senders_eq (c : Dev nD) :
    (W1 m ρ c (Proc.devRef .tc main_v1) : IVec Spec.SI 32) = Spec.rowOf (m ((c : Thread nD τ).loc main_arg0) : IVec Spec.SE2 32) 0 := by
  show StableHlo.after (hostOps0 (F := Ideal)) (W0 m ρ c) (Proc.devRef .tc main_v1) = _
  after_results
  exact row_first _ _ _

/-- After the first host stretch the receivers' buffer holds row 1 of the launched edge-index array. -/
theorem receivers_eq (c : Dev nD) :
    (W1 m ρ c (Proc.devRef .tc main_v3) : IVec Spec.SI 32) = Spec.rowOf (m ((c : Thread nD τ).loc main_arg0) : IVec Spec.SE2 32) 1 := by
  show StableHlo.after (hostOps0 (F := Ideal)) (W0 m ρ c) (Proc.devRef .tc main_v3) = _
  after_results
  exact row_second _ _ _

/-! ## Arguments are never written -/

/-- A buffer the first host stretch does not write holds its launch contents after it. -/
theorem arg_at1 (c : Dev nD) (b : Ref sig .tc) (h0 : ∀ x ∈ ([main_v0, main_v1, main_v2, main_v3] : List (Ref sig .tc)), b ≠ x) :
    W1 m ρ c (Proc.devRef .tc b) = m ((c.tc : Thread nD τ).loc b) := keeps0 _ b h0

/-- … and after the embedding region, when it is not one of the region's arrays. -/
theorem arg_at2 (c : Dev nD) (b : Ref sig .tc) (h0 : ∀ x ∈ ([main_v0, main_v1, main_v2, main_v3] : List (Ref sig .tc)), b ≠ x)
    (hs0 : ∀ w, Pipeline.arrRef spec0 w ≠ b) :
    W2 m ρ c (Proc.devRef .tc b) = m ((c.tc : Thread nD τ).loc b) :=
  (W2_of_ne m ρ c b hs0).trans (arg_at1 m ρ c b h0)

/-- … and after the second host stretch, when that does not write it. -/
theorem arg_at3 (c : Dev nD) (b : Ref sig .tc) (h0 : ∀ x ∈ ([main_v0, main_v1, main_v2, main_v3] : List (Ref sig .tc)), b ≠ x)
    (hs0 : ∀ w, Pipeline.arrRef spec0 w ≠ b)
    (h1 : ∀ x ∈ ([main_v5, main_c, main_v6, main_v7, main_c_0, main_v8, main_v9, main_v10, main_v11, main_v12, main_c_1, main_v13, main_v14, main_c_2, main_v15, main_v16, main_v17, main_v18, main_v19, main_v20, main_v21, main_v22] : List (Ref sig .tc)), b ≠ x) :
    W3 m ρ c (Proc.devRef .tc b) = m ((c.tc : Thread nD τ).loc b) :=
  (keeps1 _ b h1).trans (arg_at2 m ρ c b h0 hs0)

/-- … and after the edge region, when it is not one of the region's arrays. -/
theorem arg_at4 (c : Dev nD) (b : Ref sig .tc) (h0 : ∀ x ∈ ([main_v0, main_v1, main_v2, main_v3] : List (Ref sig .tc)), b ≠ x)
    (hs0 : ∀ w, Pipeline.arrRef spec0 w ≠ b)
    (h1 : ∀ x ∈ ([main_v5, main_c, main_v6, main_v7, main_c_0, main_v8, main_v9, main_v10, main_v11, main_v12, main_c_1, main_v13, main_v14, main_c_2, main_v15, main_v16, main_v17, main_v18, main_v19, main_v20, main_v21, main_v22] : List (Ref sig .tc)), b ≠ x)
    (hs1 : ∀ w, Pipeline.arrRef spec1 w ≠ b) :
    W4 m ρ c (Proc.devRef .tc b) = m ((c.tc : Thread nD τ).loc b) :=
  (W4_of_ne m ρ c b hs1).trans (arg_at3 m ρ c b h0 hs0 h1)

/-- … and after the third host stretch, when that does not write it. -/
theorem arg_at5 (c : Dev nD) (b : Ref sig .tc) (h0 : ∀ x ∈ ([main_v0, main_v1, main_v2, main_v3] : List (Ref sig .tc)), b ≠ x)
    (hs0 : ∀ w, Pipeline.arrRef spec0 w ≠ b)
    (h1 : ∀ x ∈ ([main_v5, main_c, main_v6, main_v7, main_c_0, main_v8, main_v9, main_v10, main_v11, main_v12, main_c_1, main_v13, main_v14, main_c_2, main_v15, main_v16, main_v17, main_v18, main_v19, main_v20, main_v21, main_v22] : List (Ref sig .tc)), b ≠ x)
    (hs1 : ∀ w, Pipeline.arrRef spec1 w ≠ b)
    (h2 : ∀ x ∈ ([main_cst, main_v24, main_v25, main_v26, main_v27, main_v28] : List (Ref sig .tc)), b ≠ x) :
    W5 m ρ c (Proc.devRef .tc b) = m ((c.tc : Thread nD τ).loc b) :=
  (keeps2 _ b h2).trans (arg_at4 m ρ c b h0 hs0 h1 hs1)

/-- Equal arguments give equal layers. -/
theorem ffbLn_congr {a k n : ℕ} {x x' : Mat a k} {W1 W1' : Mat k n} {b1 b1' : Vc n} {W2 W2' : Mat n n} {b2 b2' : Vc n} {g g' : Vc n} {bt bt' : Vc n}
    (e0 : x = x') (e1 : W1 = W1') (e2 : b1 = b1') (e3 : W2 = W2') (e4 : b2 = b2') (e5 : g = g') (e6 : bt = bt') :
    ffbLn x W1 b1 W2 b2 g bt = ffbLn x' W1' b1' W2' b2' g' bt' := by
  subst e0 e1 e2 e3 e4 e5 e6
  rfl

/-- Equal arguments give equal layers. -/
theorem edgeLayer_congr {a k n : ℕ} {x x' : Mat a k} {ns ns' : Mat a n} {nr nr' : Mat a n} {eW1 eW1' : Mat k n} {eb1 eb1' : Vc n} {eW2 eW2' : Mat n n} {eb2 eb2' : Vc n} {eg eg' : Vc n} {ebt ebt' : Vc n} {Wa Wa' : Mat n n} {Wb Wb' : Mat n n} {Wc Wc' : Mat n n} {pb1 pb1' : Vc n} {pW2 pW2' : Mat n n} {pb2 pb2' : Vc n} {pg pg' : Vc n} {pbt pbt' : Vc n}
    (e0 : x = x') (e1 : ns = ns') (e2 : nr = nr') (e3 : eW1 = eW1') (e4 : eb1 = eb1') (e5 : eW2 = eW2') (e6 : eb2 = eb2') (e7 : eg = eg') (e8 : ebt = ebt') (e9 : Wa = Wa') (e10 : Wb = Wb') (e11 : Wc = Wc') (e12 : pb1 = pb1') (e13 : pW2 = pW2') (e14 : pb2 = pb2') (e15 : pg = pg') (e16 : pbt = pbt') :
    edgeLayer x ns nr eW1 eb1 eW2 eb2 eg ebt Wa Wb Wc pb1 pW2 pb2 pg pbt = edgeLayer x' ns' nr' eW1' eb1' eW2' eb2' eg' ebt' Wa' Wb' Wc' pb1' pW2' pb2' pg' pbt' := by
  subst e0 e1 e2 e3 e4 e5 e6 e7 e8 e9 e10 e11 e12 e13 e14 e15 e16
  rfl

/-- Equal arguments give equal layers. -/
theorem nodeLayer_congr {a n : ℕ} {nf nf' : Mat a n} {ag ag' : Mat a n} {Wa Wa' : Mat n n} {Wb Wb' : Mat n n} {pb1 pb1' : Vc n} {pW2 pW2' : Mat n n} {pb2 pb2' : Vc n} {pg pg' : Vc n} {pbt pbt' : Vc n} {oW1 oW1' : Mat n n} {ob1 ob1' : Vc n} {oW2 oW2' : Mat n n} {ob2 ob2' : Vc n}
    (e0 : nf = nf') (e1 : ag = ag') (e2 : Wa = Wa') (e3 : Wb = Wb') (e4 : pb1 = pb1') (e5 : pW2 = pW2') (e6 : pb2 = pb2') (e7 : pg = pg') (e8 : pbt = pbt') (e9 : oW1 = oW1') (e10 : ob1 = ob1') (e11 : oW2 = oW2') (e12 : ob2 = ob2') :
    nodeLayer nf ag Wa Wb pb1 pW2 pb2 pg pbt oW1 ob1 oW2 ob2 = nodeLayer nf' ag' Wa' Wb' pb1' pW2' pb2' pg' pbt' oW1' ob1' oW2' ob2' := by
  subst e0 e1 e2 e3 e4 e5 e6 e7 e8 e9 e10 e11 e12
  rfl

/-! ## The node embedding -/

/-- The launched edge-index array on device `c`. -/
abbrev E (c : Dev nD) : IVec Spec.SE2 32 := m ((c.tc : Thread nD τ).loc main_arg0)

/-- The node embedding as a function of the launch memory: the embedding layer of the node features. -/
abbrev NF (c : Dev nD) : Mat 50000 64 :=
  ffbLn (m ((c.tc : Thread nD τ).loc main_arg2) : Mat 50000 16) (m ((c.tc : Thread nD τ).loc main_arg9) : Mat 16 64) (m ((c.tc : Thread nD τ).loc main_arg10) : Vc 64)
    (m ((c.tc : Thread nD τ).loc main_arg11) : Mat 64 64) (m ((c.tc : Thread nD τ).loc main_arg12) : Vc 64) (m ((c.tc : Thread nD τ).loc main_arg13) : Vc 64)
    (m ((c.tc : Thread nD τ).loc main_arg14) : Vc 64)

/-- The embedding region leaves the node embedding in its output array. -/
theorem nf_at2 (c : Dev nD) : (W2 m ρ c (Proc.devRef .tc main_v4) : Mat 50000 64) = NF m c :=
  (W2_arr m ρ c 7).trans ((KArr.final0 (V1 m ρ) c Body0.out0_eq).trans
    (ffbLn_congr (arg_at1 m ρ c main_arg2 (by decide)) (arg_at1 m ρ c main_arg9 (by decide)) (arg_at1 m ρ c main_arg10 (by decide))
      (arg_at1 m ρ c main_arg11 (by decide)) (arg_at1 m ρ c main_arg12 (by decide)) (arg_at1 m ρ c main_arg13 (by decide))
      (arg_at1 m ρ c main_arg14 (by decide))))

/-- Nothing writes it afterwards: it is still there at the edge region's entry, … -/
theorem nf_at3 (c : Dev nD) : (W3 m ρ c (Proc.devRef .tc main_v4) : Mat 50000 64) = NF m c :=
  (keeps1 _ main_v4 (by decide)).trans (nf_at2 m ρ c)
/-- … at its exit, … -/
theorem nf_at4 (c : Dev nD) : (W4 m ρ c (Proc.devRef .tc main_v4) : Mat 50000 64) = NF m c :=
  (W4_of_ne m ρ c main_v4 (by decide)).trans (nf_at3 m ρ c)
/-- … at the node region's entry, … -/
theorem nf_at5 (c : Dev nD) : (W5 m ρ c (Proc.devRef .tc main_v4) : Mat 50000 64) = NF m c :=
  (keeps2 _ main_v4 (by decide)).trans (nf_at4 m ρ c)

/-- THE NODE EMBEDDING at the end of the run (the node region reads it and leaves it in place). -/
theorem val_nf (c : Dev nD) : (W6 m ρ c (Proc.devRef .tc main_v4) : Mat 50000 64) = NF m c :=
  (W6_arr m ρ c 0).trans (((dat2 (V5 m ρ) c).arrAt_in 0 rfl _).trans ((A_eq2 (V5 m ρ) c 0).trans (nf_at5 m ρ c)))

/-! ## The edge latents -/

/-- The senders' row is untouched by the embedding region. -/
theorem senders_at2 (c : Dev nD) : (W2 m ρ c (Proc.devRef .tc main_v1) : IVec Spec.SI 32) = Spec.rowOf (E m c) 0 :=
  (W2_of_ne m ρ c main_v1 (by decide)).trans (senders_eq m ρ c)
/-- The receivers' row is untouched by the embedding region, … -/
theorem receivers_at2 (c : Dev nD) : (W2 m ρ c (Proc.devRef .tc main_v3) : IVec Spec.SI 32) = Spec.rowOf (E m c) 1 :=
  (W2_of_ne m ρ c main_v3 (by decide)).trans (receivers_eq m ρ c)
/-- … by the second host stretch and by the edge region. -/
theorem receivers_at4 (c : Dev nD) : (W4 m ρ c (Proc.devRef .tc main_v3) : IVec Spec.SI 32) = Spec.rowOf (E m c) 1 :=
  (W4_of_ne m ρ c main_v3 (by decide)).trans ((keeps1 _ main_v3 (by decide)).trans (receivers_at2 m ρ c))

/-- The second host stretch gathers the node embedding at the wrapped senders (the rounding of the embedding to a narrower
    format before the gather is the identity on the extended reals). -/
theorem gathered_senders (c : Dev nD) :
    (W3 m ρ c (Proc.devRef .tc main_v12) : Mat 800000 64) = Spec.gath HK (NF m c) (Spec.rowOf (E m c) 0) := by
  have h : (W3 m ρ c (Proc.devRef .tc main_v12) : Mat 800000 64)
      = Spec.gath HK (truncf (F := Ideal) .bf16 (W2 m ρ c (Proc.devRef .tc main_v4) : FVec Ideal S50000x64 .f32) bitsLt_bf16_f32 : FVec Ideal S50000x64 .bf16)
          (W2 m ρ c (Proc.devRef .tc main_v1) : IVec Spec.SI 32) := by
    show StableHlo.after (hostOps1 (F := Ideal)) (W2 m ρ c) (Proc.devRef .tc main_v12) = _
    after_results <;> rfl
  rw [h, Tile.truncf_id, nf_at2, senders_at2]

/-- The second host stretch gathers the node embedding at the wrapped receivers. -/
theorem gathered_receivers (c : Dev nD) :
    (W3 m ρ c (Proc.devRef .tc main_v19) : Mat 800000 64) = Spec.gath HK (NF m c) (Spec.rowOf (E m c) 1) := by
  have h : (W3 m ρ c (Proc.devRef .tc main_v19) : Mat 800000 64)
      = Spec.gath HK (truncf (F := Ideal) .bf16 (W2 m ρ c (Proc.devRef .tc main_v4) : FVec Ideal S50000x64 .f32) bitsLt_bf16_f32 : FVec Ideal S50000x64 .bf16)
          (W2 m ρ c (Proc.devRef .tc main_v3) : IVec Spec.SI 32) := by
    show StableHlo.after (hostOps1 (F := Ideal)) (W2 m ρ c) (Proc.devRef .tc main_v19) = _
    after_results <;> rfl
  rw [h, Tile.truncf_id, nf_at2, receivers_at2]

/-- The first band of 64 rows of the edge update's first weight matrix. -/
theorem band_e0 (c : Dev nD) :
    (W3 m ρ c (Proc.devRef .tc main_v20) : Mat 64 64) = rows 0 (by omega) (m ((c.tc : Thread nD τ).loc main_arg15) : Mat 192 64) := by
  have h : (W3 m ρ c (Proc.devRef .tc main_v20) : Mat 64 64)
      = extractStridedSlice ⟨2, ![64, 64]⟩ ![0, 0] (W2 m ρ c (Proc.devRef .tc main_arg15) : Mat 192 64) slices_S192x64_S64x64_0_0 := by
    show StableHlo.after (hostOps1 (F := Ideal)) (W2 m ρ c) (Proc.devRef .tc main_v20) = _
    after_results <;> rfl
  rw [h, arg_at2 m ρ c main_arg15 (by decide) (by decide)]
  exact Bands.band_eq 0 (by omega) _ _

/-- Its second band. -/
theorem band_e1 (c : Dev nD) :
    (W3 m ρ c (Proc.devRef .tc main_v21) : Mat 64 64) = rows 64 (by omega) (m ((c.tc : Thread nD τ).loc main_arg15) : Mat 192 64) := by
  have h : (W3 m ρ c (Proc.devRef .tc main_v21) : Mat 64 64)
      = extractStridedSlice ⟨2, ![64, 64]⟩ ![64, 0] (W2 m ρ c (Proc.devRef .tc main_arg15) : Mat 192 64) slices_S192x64_S64x64_64_0 := by
    show StableHlo.after (hostOps1 (F := Ideal)) (W2 m ρ c) (Proc.devRef .tc main_v21) = _
    after_results <;> rfl
  rw [h, arg_at2 m ρ c main_arg15 (by decide) (by decide)]
  exact Bands.band_eq 64 (by omega) _ _

/-- Its third band. -/
theorem band_e2 (c : Dev nD) :
    (W3 m ρ c (Proc.devRef .tc main_v22) : Mat 64 64) = rows 128 (by omega) (m ((c.tc : Thread nD τ).loc main_arg15) : Mat 192 64) := by
  have h : (W3 m ρ c (Proc.devRef .tc main_v22) : Mat 64 64)
      = extractStridedSlice ⟨2, ![64, 64]⟩ ![128, 0] (W2 m ρ c (Proc.devRef .tc main_arg15) : Mat 192 64) slices_S192x64_S64x64_128_0 := by
    show StableHlo.after (hostOps1 (F := Ideal)) (W2 m ρ c) (Proc.devRef .tc main_v22) = _
    after_results <;> rfl
  rw [h, arg_at2 m ρ c main_arg15 (by decide) (by decide)]
  exact Bands.band_eq 128 (by omega) _ _

/-- The edge latents as a function of the launch memory. -/
abbrev EL (c : Dev nD) : Mat 800000 64 :=
  Spec.edgeLatents HK (Spec.rowOf (E m c) 0) (Spec.rowOf (E m c) 1) (NF m c) (m ((c.tc : Thread nD τ).loc main_arg1) : Mat 800000 4)
    (m ((c.tc : Thread nD τ).loc main_arg3) : Mat 4 64) (m ((c.tc : Thread nD τ).loc main_arg4) : Vc 64) (m ((c.tc : Thread nD τ).loc main_arg5) : Mat 64 64)
    (m ((c.tc : Thread nD τ).loc main_arg6) : Vc 64) (m ((c.tc : Thread nD τ).loc main_arg7) : Vc 64) (m ((c.tc : Thread nD τ).loc main_arg8) : Vc 64)
    (m ((c.tc : Thread nD τ).loc main_arg15) : Mat 192 64) (m ((c.tc : Thread nD τ).loc main_arg16) : Vc 64) (m ((c.tc : Thread nD τ).loc main_arg17) : Mat 64 64)
    (m ((c.tc : Thread nD τ).loc main_arg18) : Vc 64) (m ((c.tc : Thread nD τ).loc main_arg19) : Vc 64) (m ((c.tc : Thread nD τ).loc main_arg20) : Vc 64)

/-- The edge region leaves the edge latents in its output array. -/
theorem el_at4 (c : Dev nD) : (W4 m ρ c (Proc.devRef .tc main_v23) : Mat 800000 64) = EL m c :=
  (W4_arr m ρ c 17).trans ((KArr.final1 (V3 m ρ) c Body1.out1_eq).trans
    (edgeLayer_congr (arg_at3 m ρ c main_arg1 (by decide) (by decide) (by decide)) (gathered_senders m ρ c) (gathered_receivers m ρ c)
      (arg_at3 m ρ c main_arg3 (by decide) (by decide) (by decide)) (arg_at3 m ρ c main_arg4 (by decide) (by decide) (by decide))
      (arg_at3 m ρ c main_arg5 (by decide) (by decide) (by decide)) (arg_at3 m ρ c main_arg6 (by decide) (by decide) (by decide))
      (arg_at3 m ρ c main_arg7 (by decide) (by decide) (by decide)) (arg_at3 m ρ c main_arg8 (by decide) (by decide) (by decide))
      (band_e0 m ρ c) (band_e1 m ρ c) (band_e2 m ρ c)
      (arg_at3 m ρ c main_arg16 (by decide) (by decide) (by decide)) (arg_at3 m ρ c main_arg17 (by decide) (by decide) (by decide))
      (arg_at3 m ρ c main_arg18 (by decide) (by decide) (by decide)) (arg_at3 m ρ c main_arg19 (by decide) (by decide) (by decide))
      (arg_at3 m ρ c main_arg20 (by decide) (by decide) (by decide))))

/-- THE EDGE LATENTS at the end of the run (nothing after the edge region writes them). -/
theorem val_el (c : Dev nD) : (W6 m ρ c (Proc.devRef .tc main_v23) : Mat 800000 64) = EL m c :=
  (W6_of_ne m ρ c main_v23 (by decide)).trans ((keeps2 _ main_v23 (by decide)).trans (el_at4 m ρ c))

/-! ## The node latents -/

/-- The third host stretch sums the edge latents into their receiver nodes, from zero. -/
theorem summed (c : Dev nD) :
    (W5 m ρ c (Proc.devRef .tc main_v26) : Mat 50000 64) = Spec.agg HK (Spec.rowOf (E m c) 1) (EL m c) := by
  have h : (W5 m ρ c (Proc.devRef .tc main_v26) : Mat 50000 64)
      = Spec.agg HK (W4 m ρ c (Proc.devRef .tc main_v3) : IVec Spec.SI 32) (W4 m ρ c (Proc.devRef .tc main_v23) : Mat 800000 64) := by
    show StableHlo.after (hostOps2 (F := Ideal)) (W4 m ρ c) (Proc.devRef .tc main_v26) = _
    after_results <;> rfl
  rw [h, receivers_at4, el_at4]

/-- The first band of 64 rows of the node update's first weight matrix. -/
theorem band_n0 (c : Dev nD) :
    (W5 m ρ c (Proc.devRef .tc main_v27) : Mat 64 64) = rows 0 (by omega) (m ((c.tc : Thread nD τ).loc main_arg21) : Mat 128 64) := by
  have h : (W5 m ρ c (Proc.devRef .tc main_v27) : Mat 64 64)
      = extractStridedSlice ⟨2, ![64, 64]⟩ ![0, 0] (W4 m ρ c (Proc.devRef .tc main_arg21) : Mat 128 64) slices_S128x64_S64x64_0_0 := by
    show StableHlo.after (hostOps2 (F := Ideal)) (W4 m ρ c) (Proc.devRef .tc main_v27) = _
    after_results <;> rfl
  rw [h, arg_at4 m ρ c main_arg21 (by decide) (by decide) (by decide) (by decide)]
  exact Bands.band_eq 0 (by omega) _ _

/-- Its second band. -/
theorem band_n1 (c : Dev nD) :
    (W5 m ρ c (Proc.devRef .tc main_v28) : Mat 64 64) = rows 64 (by omega) (m ((c.tc : Thread nD τ).loc main_arg21) : Mat 128 64) := by
  have h : (W5 m ρ c (Proc.devRef .tc main_v28) : Mat 64 64)
      = extractStridedSlice ⟨2, ![64, 64]⟩ ![64, 0] (W4 m ρ c (Proc.devRef .tc main_arg21) : Mat 128 64) slices_S128x64_S64x64_64_0 := by
    show StableHlo.after (hostOps2 (F := Ideal)) (W4 m ρ c) (Proc.devRef .tc main_v28) = _
    after_results <;> rfl
  rw [h, arg_at4 m ρ c main_arg21 (by decide) (by decide) (by decide) (by decide)]
  exact Bands.band_eq 64 (by omega) _ _

/-- The node latents as a function of the launch memory. -/
abbrev NL (c : Dev nD) : Mat 50000 64 :=
  Spec.nodeLatents HK (Spec.rowOf (E m c) 1) (NF m c) (EL m c) (m ((c.tc : Thread nD τ).loc main_arg21) : Mat 128 64)
    (m ((c.tc : Thread nD τ).loc main_arg22) : Vc 64) (m ((c.tc : Thread nD τ).loc main_arg23) : Mat 64 64) (m ((c.tc : Thread nD τ).loc main_arg24) : Vc 64)
    (m ((c.tc : Thread nD τ).loc main_arg25) : Vc 64) (m ((c.tc : Thread nD τ).loc main_arg26) : Vc 64) (m ((c.tc : Thread nD τ).loc main_arg27) : Mat 64 64)
    (m ((c.tc : Thread nD τ).loc main_arg28) : Vc 64) (m ((c.tc : Thread nD τ).loc main_arg29) : Mat 64 64) (m ((c.tc : Thread nD τ).loc main_arg30) : Vc 64)

/-- THE NODE LATENTS at the end of the run: the node region's output array. -/
theorem val_nl (c : Dev nD) : (W6 m ρ c (Proc.devRef .tc main_v29) : Mat 50000 64) = NL m c :=
  (W6_arr m ρ c 13).trans ((KArr.final2 (V5 m ρ) c Body2.out2_eq).trans
    (nodeLayer_congr (nf_at5 m ρ c) (summed m ρ c) (band_n0 m ρ c) (band_n1 m ρ c)
      (arg_at5 m ρ c main_arg22 (by decide) (by decide) (by decide) (by decide) (by decide))
      (arg_at5 m ρ c main_arg23 (by decide) (by decide) (by decide) (by decide) (by decide))
      (arg_at5 m ρ c main_arg24 (by decide) (by decide) (by decide) (by decide) (by decide))
      (arg_at5 m ρ c main_arg25 (by decide) (by decide) (by decide) (by decide) (by decide))
      (arg_at5 m ρ c main_arg26 (by decide) (by decide) (by decide) (by decide) (by decide))
      (arg_at5 m ρ c main_arg27 (by decide) (by decide) (by decide) (by decide) (by decide))
      (arg_at5 m ρ c main_arg28 (by decide) (by decide) (by decide) (by decide) (by decide))
      (arg_at5 m ρ c main_arg29 (by decide) (by decide) (by decide) (by decide) (by decide))
      (arg_at5 m ρ c main_arg30 (by decide) (by decide) (by decide) (by decide) (by decide))))

end Cert.KernelIdeal.KVal

end
-- ==== Proof.RefRun.lean ====
/- The idealized reference's run, read as a list. @main of `Cert.ReferenceIdeal` is one straight line of 290 host
   operations once its four calls of the variance function (each with its nested call of the selection function) are
   replaced by the callee's operations over the call's own buffers. The line is given as six consecutive stretches,
   `main = seq ops` is proved window by window, and the run theorem states: every weakly fair execution terminates
   with each result buffer at the fold of the operations over the launch contents, and with every argument unchanged. -/
import proofs.«156218_j71949292142781_2_alg».proof.Defs
import proofs.«156218_j71949292142781_2_alg».proof.Proof.Gen.ReferenceIdeal
import Idealize.ShloMosaic.Lib.StableHlo.Run
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge embedding: the sender and receiver rows of the edge index taken apart (`main_v0` … `main_v3`), then the edge features through linear map, swish, linear map and layer normalisation; the last operation writes `main_v36`. Operations 1 … 65 of 290, in program order. -/
abbrev ops_ef : List (HloOp τ sig (Elt F)) :=
  [ StableHlo.unary main_arg0 main_v0 ((extractStridedSlice S1x800000 ![0, 0] · slices_S2x800000_S1x800000_0_0) : (⟨S2x800000, .i32⟩ : BufTy).Contents (Elt F) → (⟨S1x800000, .i32⟩ : BufTy).Contents (Elt F)),   -- %0 = slice %arg0 [0:1, 0:800000]
    StableHlo.reshape main_v0 main_v1 rfl shapeCasts_S1x800000_S800000,   -- %1 = reshape %0
    StableHlo.unary main_arg0 main_v2 ((extractStridedSlice S1x800000 ![1, 0] · slices_S2x800000_S1x800000_1_0) : (⟨S2x800000, .i32⟩ : BufTy).Contents (Elt F) → (⟨S1x800000, .i32⟩ : BufTy).Contents (Elt F)),   -- %2 = slice %arg0 [1:2, 0:800000]
    StableHlo.reshape main_v2 main_v3 rfl shapeCasts_S1x800000_S800000,   -- %3 = reshape %2
    StableHlo.binary main_arg1 main_arg3 main_v4 ((fun l r => Host.dotGeneral dot_S800000x4_S4x64_S800000x64_1_0_0_1_n_n none l r) : (⟨S800000x4, .f32⟩ : BufTy).Contents (Elt F) → (⟨S4x64, .f32⟩ : BufTy).Contents (Elt F) → (⟨S800000x64, .f32⟩ : BufTy).Contents (Elt F)),   -- %4 = dot_general %arg1, %arg3, contracting_dims = [1] x [0], precision = [DEFAULT, DEFAULT]
    StableHlo.unary main_arg4 main_v5 (broadcastInDim S1x64 ![1] bcast_S64_S1x64_1 : (⟨S64, .f32⟩ : BufTy).Contents (Elt F) → (⟨S1x64, .f32⟩ : BufTy).Contents (Elt F)),   -- %5 = broadcast_in_dim %arg4, dims = [1]
    StableHlo.unary main_v5 main_v6 (broadcastInDim S800000x64 ![0, 1] bcast_S1x64_S800000x64_0_1 : (⟨S1x64, .f32⟩ : BufTy).Contents (Elt F) → (⟨S800000x64, .f32⟩ : BufTy).Contents (Elt F)),   -- %6 = broadcast_in_dim %5, dims = [0, 1]
    StableHlo.binary main_v4 main_v6 main_v7 (addf : (⟨S800000x64, .f32⟩ : BufTy).Contents (Elt F) → (⟨S800000x64, .f32⟩ : BufTy).Contents (Elt F) → (⟨S800000x64, .f32⟩ : BufTy).Contents (Elt F)),   -- %7 = add %4, %6
    StableHlo.unary main_v7 main_v8 (Host.negf : (⟨S800000x64, .f32⟩ : BufTy).Contents (Elt F) → (⟨S800000x64, .f32⟩ : BufTy).Contents (Elt F)),   -- %8 = negate %7
    StableHlo.unary main_v8 main_v9 (Host.exp : (⟨S800000x64, .f32⟩ : BufTy).Contents (Elt F) → (⟨S800000x64, .f32⟩ : BufTy).Contents (Elt F)),   -- %9 = exponential %8
    StableHlo.nullary main_cst (constant S_ .f32 0x3F800000#32),   -- %cst = constant dense<1.000000e+00>
    StableHlo.unary main_cst main_v10 (broadcastInDim S800000x64 ![] bcast_S_S800000x64 : (⟨S_, .f32⟩ : BufTy).Contents (Elt F) → (⟨S800000x64, .f32⟩ : BufTy).Contents (Elt F)),   -- %10 = broadcast_in_dim %cst, dims = []
    StableHlo.binary main_v10 main_v9 main_v11 (addf : (⟨S800000x64, .f32⟩ : BufTy).Contents (Elt F) → (⟨S800000x64, .f32⟩ : BufTy).Contents (Elt F) → (⟨S800000x64, .f32⟩ : BufTy).Contents (Elt F)),   -- %11 = add %10, %9
    StableHlo.nullary main_cst_0 (constant S_ .f32 0x3F800000#32),   -- %cst_0 = constant dense<1.000000e+00>
    StableHlo.unary main_cst_0 main_v12 (broadcastInDim S800000x64 ![] bcast_S_S800000x64 : (⟨S_, .f32⟩ : BufTy).Contents (Elt F) → (⟨S800000x64, .f32⟩ : BufTy).Contents (Elt F)),   -- %12 = broadcast_in_dim %cst_0, dims = []
    StableHlo.binary main_v12 main_v11 main_v13 (Host.divf : (⟨S800000x64, .f32⟩ : BufTy).Contents (Elt F) → (⟨S800000x64, .f32⟩ : BufTy).Contents (Elt F) → (⟨S800000x64, .f32⟩ : BufTy).Contents (Elt F)),   -- %13 = divide %12, %11
    StableHlo.binary main_v7 main_v13 main_v14 (mulf : (⟨S800000x64, .f32⟩ : BufTy).Contents (Elt F) → (⟨S800000x64, .f32⟩ : BufTy).Contents (Elt F) → (⟨S800000x64, .f32⟩ : BufTy).Contents (Elt F)),   -- %14 = multiply %7, %13
    StableHlo.binary main_v14 main_arg5 main_v15 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),   -- %15 = dot_general %14, %arg5, contracting_dims = [1] x [0], precision = [DEFAULT, DEFAULT]
    StableHlo.unary main_arg6 main_v16 (broadcastInDim S1x64 ![1] bcast_S64_S1x64_1 : (⟨S64, .f32⟩ : BufTy).Contents (Elt F) → (⟨S1x64, .f32⟩ : BufTy).Contents (Elt F)),   -- %16 = broadcast_in_dim %arg6, dims = [1]
    StableHlo.unary main_v16 main_v17 (broadcastInDim S800000x64 ![0, 1] bcast_S1x64_S800000x64_0_1 : (⟨S1x64, .f32⟩ : BufTy).Contents (Elt F) → (⟨S800000x64, .f32⟩ : BufTy).Contents (Elt F)),   -- %17 = broadcast_in_dim %16, dims = [0, 1]
    StableHlo.binary main_v15 main_v17 main_v18 (addf : (⟨S800000x64, .f32⟩ : BufTy).Contents (Elt F) → (⟨S800000x64, .f32⟩ : BufTy).Contents (Elt F) → (⟨S800000x64, .f32⟩ : BufTy).Contents (Elt F)),   -- %18 = add %15, %17
    StableHlo.nullary main_cst_1 (constant S_ .f32 0x00000000#32),   -- %cst_1 = constant dense<0.000000e+00>
    StableHlo.binary main_v18 main_cst_1 main_v19 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),   -- %19 = reduce(%18 init: %cst_1) applies add across dimensions = [1]
    StableHlo.unary main_v19 main_v20 (broadcastInDim S800000x1 ![0] bcast_S800000_S800000x1_0 : (⟨S800000, .f32⟩ : BufTy).Contents (Elt F) → (⟨S800000x1, .f32⟩ : BufTy).Contents (Elt F)),   -- %20 = broadcast_in_dim %19, dims = [0]
    StableHlo.nullary main_cst_2 (constant S_ .f32 0x42800000#32),   -- %cst_2 = constant dense<6.400000e+01>
    StableHlo.unary main_cst_2 main_v21 (broadcastInDim S800000x1 ![] bcast_S_S800000x1 : (⟨S_, .f32⟩ : BufTy).Contents (Elt F) → (⟨S800000x1, .f32⟩ : BufTy).Contents (Elt F)),   -- %21 = broadcast_in_dim %cst_2, dims = []
    StableHlo.binary main_v20 main_v21 main_v22 (Host.divf : (⟨S800000x1, .f32⟩ : BufTy).Contents (Elt F) → (⟨S800000x1, .f32⟩ : BufTy).Contents (Elt F) → (⟨S800000x1, .f32⟩ : BufTy).Contents (Elt F)),   -- %22 = divide %20, %21
    StableHlo.nullary main_c (constantI S_ 32 0#32),   -- %c = constant dense<0>
    StableHlo.TRef.nullary main_call0.cst (constant S_ .f32 0x00000000#32),   -- in @_var: %cst = constant dense<0.000000e+00>
    StableHlo.TRef.binary (.of main_v18 : StableHlo.TRef sig ⟨S800000x64, .f32⟩) main_call0.cst main_call0.v0 (fun x v => Host.reduceAdd x v reducesTo_S800000x64_S800000_d1 h_S_),   -- in @_var: %0 = reduce(%arg0 init: %cst) applies add across dimensions = [1]
    StableHlo.TRef.unary main_call0.v0 main_call0.v1 (broadcastInDim S800000x1 ![0] bcast_S800000_S800000x1_0),   -- in @_var: %1 = broadcast_in_dim %0, dims = [0]
    StableHlo.TRef.nullary main_call0.cst_0 (constant S_ .f32 0x42800000#32),   -- in @_var: %cst_0 = constant dense<6.400000e+01>
    StableHlo.TRef.unary main_call0.cst_0 main_call0.v2 (broadcastInDim S800000x1 ![] bcast_S_S800000x1),   -- in @_var: %2 = broadcast_in_dim %cst_0, dims = []
    StableHlo.TRef.binary main_call0.v1 main_call0.v2 main_call0.v3 Host.divf,   -- in @_var: %3 = divide %1, %2
    StableHlo.TRef.unary main_call0.v3 main_call0.v4 (broadcastInDim S800000x64 ![0, 1] bcast_S800000x1_S800000x64_0_1),   -- in @_var: %4 = broadcast_in_dim %3, dims = [0, 1]
    StableHlo.TRef.binary (.of main_v18 : StableHlo.TRef sig ⟨S800000x64, .f32⟩) main_call0.v4 main_call0.v5 subf,   -- in @_var: %5 = subtract %arg0, %4
    StableHlo.TRef.binary main_call0.v5 main_call0.v5 main_call0.v6 mulf,   -- in @_var: %6 = square %5
    StableHlo.TRef.unary (.of main_c : StableHlo.TRef sig ⟨S_, .i32⟩) main_call0.v7 (sitofp .f32),   -- in @_var: %7 = convert %arg1
    StableHlo.TRef.nullary main_call0.cst_1 (constant S_ .f32 0x42800000#32),   -- in @_var: %cst_1 = constant dense<6.400000e+01>
    StableHlo.TRef.binary main_call0.cst_1 main_call0.v7 main_call0.v8 subf,   -- in @_var: %8 = subtract %cst_1, %7
    StableHlo.TRef.nullary main_call0.cst_2 (constant S_ .f32 0x00000000#32),   -- in @_var: %cst_2 = constant dense<0.000000e+00>
    StableHlo.TRef.binary main_call0.v6 main_call0.cst_2 main_call0.v9 (fun x v => Host.reduceAdd x v reducesTo_S800000x64_S800000_d1 h_S_),   -- in @_var: %9 = reduce(%6 init: %cst_2) applies add across dimensions = [1]
    StableHlo.TRef.unary main_call0.v9 main_call0.v10 (broadcastInDim S800000x1 ![0] bcast_S800000_S800000x1_0),   -- in @_var: %10 = broadcast_in_dim %9, dims = [0]
    StableHlo.TRef.unary main_call0.v8 main_call0.v11 (broadcastInDim S800000x1 ![] bcast_S_S800000x1),   -- in @_var: %11 = broadcast_in_dim %8, dims = []
    StableHlo.TRef.binary main_call0.v10 main_call0.v11 main_call0.v12 Host.divf,   -- in @_var: %12 = divide %10, %11
    StableHlo.TRef.nullary main_call0.cst_3 (constant S_ .f32 0x00000000#32),   -- in @_var: %cst_3 = constant dense<0.000000e+00>
    StableHlo.TRef.binary main_call0.v8 main_call0.cst_3 main_call0.v13 (cmpf .ogt),   -- in @_var: %13 = compare GT, %8, %cst_3, FLOAT
    StableHlo.TRef.nullary main_call0.cst_4 (constant S_ .f32 0x7FC00000#32),   -- in @_var: %cst_4 = constant dense<0x7FC00000>
    StableHlo.TRef.unary main_call0.cst_4 main_call0.call0.v0 id,   -- in @_where: %0 = convert %arg2
    StableHlo.TRef.unary main_call0.call0.v0 main_call0.call0.v1 (broadcastInDim S800000x1 ![] bcast_S_S800000x1),   -- in @_where: %1 = broadcast_in_dim %0, dims = []
    StableHlo.TRef.ternary main_call0.v13 main_call0.v12 main_call0.call0.v1 main_call0.call0.v2 (fun p a b => select (broadcastInDim S800000x1 ![] bcast_S_S800000x1 p) a b),   -- in @_where: %2 = select %arg0, %arg1, %1
    StableHlo.unary main_v22 main_v24 (broadcastInDim S800000x64 ![0, 1] bcast_S800000x1_S800000x64_0_1 : (⟨S800000x1, .f32⟩ : BufTy).Contents (Elt F) → (⟨S800000x64, .f32⟩ : BufTy).Contents (Elt F)),   -- %24 = broadcast_in_dim %22, dims = [0, 1]
    StableHlo.binary main_v18 main_v24 main_v25 (subf : (⟨S800000x64, .f32⟩ : BufTy).Contents (Elt F) → (⟨S800000x64, .f32⟩ : BufTy).Contents (Elt F) → (⟨S800000x64, .f32⟩ : BufTy).Contents (Elt F)),   -- %25 = subtract %18, %24
    StableHlo.nullary main_cst_3 (constant S_ .f32 0x3727C5AC#32),   -- %cst_3 = constant dense<9.99999974E-6>
    StableHlo.unary main_cst_3 main_v26 (broadcastInDim S800000x1 ![] bcast_S_S800000x1 : (⟨S_, .f32⟩ : BufTy).Contents (Elt F) → (⟨S800000x1, .f32⟩ : BufTy).Contents (Elt F)),   -- %26 = broadcast_in_dim %cst_3, dims = []
    StableHlo.binary main_v23 main_v26 main_v27 (addf : (⟨S800000x1, .f32⟩ : BufTy).Contents (Elt F) → (⟨S800000x1, .f32⟩ : BufTy).Contents (Elt F) → (⟨S800000x1, .f32⟩ : BufTy).Contents (Elt F)),   -- %27 = add %23, %26
    StableHlo.unary main_v27 main_v28 (Host.rsqrt : (⟨S800000x1, .f32⟩ : BufTy).Contents (Elt F) → (⟨S800000x1, .f32⟩ : BufTy).Contents (Elt F)),   -- %28 = rsqrt %27
    StableHlo.unary main_v28 main_v29 (broadcastInDim S800000x64 ![0, 1] bcast_S800000x1_S800000x64_0_1 : (⟨S800000x1, .f32⟩ : BufTy).Contents (Elt F) → (⟨S800000x64, .f32⟩ : BufTy).Contents (Elt F)),   -- %29 = broadcast_in_dim %28, dims = [0, 1]
    StableHlo.binary main_v25 main_v29 main_v30 (mulf : (⟨S800000x64, .f32⟩ : BufTy).Contents (Elt F) → (⟨S800000x64, .f32⟩ : BufTy).Contents (Elt F) → (⟨S800000x64, .f32⟩ : BufTy).Contents (Elt F)),   -- %30 = multiply %25, %29
    StableHlo.unary main_arg7 main_v31 (broadcastInDim S1x64 ![1] bcast_S64_S1x64_1 : (⟨S64, .f32⟩ : BufTy).Contents (Elt F) → (⟨S1x64, .f32⟩ : BufTy).Contents (Elt F)),   -- %31 = broadcast_in_dim %arg7, dims = [1]
    StableHlo.unary main_v31 main_v32 (broadcastInDim S800000x64 ![0, 1] bcast_S1x64_S800000x64_0_1 : (⟨S1x64, .f32⟩ : BufTy).Contents (Elt F) → (⟨S800000x64, .f32⟩ : BufTy).Contents (Elt F)),   -- %32 = broadcast_in_dim %31, dims = [0, 1]
    StableHlo.binary main_v30 main_v32 main_v33 (mulf : (⟨S800000x64, .f32⟩ : BufTy).Contents (Elt F) → (⟨S800000x64, .f32⟩ : BufTy).Contents (Elt F) → (⟨S800000x64, .f32⟩ : BufTy).Contents (Elt F)),   -- %33 = multiply %30, %32
    StableHlo.unary main_arg8 main_v34 (broadcastInDim S1x64 ![1] bcast_S64_S1x64_1 : (⟨S64, .f32⟩ : BufTy).Contents (Elt F) → (⟨S1x64, .f32⟩ : BufTy).Contents (Elt F)),   -- %34 = broadcast_in_dim %arg8, dims = [1]
    StableHlo.unary main_v34 main_v35 (broadcastInDim S800000x64 ![0, 1] bcast_S1x64_S800000x64_0_1 : (⟨S1x64, .f32⟩ : BufTy).Contents (Elt F) → (⟨S800000x64, .f32⟩ : BufTy).Contents (Elt F)),   -- %35 = broadcast_in_dim %34, dims = [0, 1]
    StableHlo.binary main_v33 main_v35 main_v36 (addf : (⟨S800000x64, .f32⟩ : BufTy).Contents (Elt F) → (⟨S800000x64, .f32⟩ : BufTy).Contents (Elt F) → (⟨S800000x64, .f32⟩ : BufTy).Contents (Elt F)) ]   -- %36 = add %33, %35

/-- The node embedding: the node features through linear map, swish, linear map and layer normalisation; the last operation writes `main_v69`. Operations 66 … 126 of 290, in program order. -/
abbrev ops_nf : List (HloOp τ sig (Elt F)) :=
  [ StableHlo.binary main_arg2 main_arg9 main_v37 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),   -- %37 = dot_general %arg2, %arg9, contracting_dims = [1] x [0], precision = [DEFAULT, DEFAULT]
    StableHlo.unary main_arg10 main_v38 (broadcastInDim S1x64 ![1] bcast_S64_S1x64_1 : (⟨S64, .f32⟩ : BufTy).Contents (Elt F) → (⟨S1x64, .f32⟩ : BufTy).Contents (Elt F)),   -- %38 = broadcast_in_dim %arg10, dims = [1]
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),   -- %39 = broadcast_in_dim %38, dims = [0, 1]
    StableHlo.binary main_v37 main_v39 main_v40 (addf : (⟨S50000x64, .f32⟩ : BufTy).Contents (Elt F) → (⟨S50000x64, .f32⟩ : BufTy).Contents (Elt F) → (⟨S50000x64, .f32⟩ : BufTy).Contents (Elt F)),   -- %40 = add %37, %39
    StableHlo.unary main_v40 main_v41 (Host.negf : (⟨S50000x64, .f32⟩ : BufTy).Contents (Elt F) → (⟨S50000x64, .f32⟩ : BufTy).Contents (Elt F)),   -- %41 = negate %40
    StableHlo.unary main_v41 main_v42 (Host.exp : (⟨S50000x64, .f32⟩ : BufTy).Contents (Elt F) → (⟨S50000x64, .f32⟩ : BufTy).Contents (Elt F)),   -- %42 = exponential %41
    StableHlo.nullary main_cst_4 (constant S_ .f32 0x3F800000#32),   -- %cst_4 = constant dense<1.000000e+00>
    StableHlo.unary main_cst_4 main_v43 (broadcastInDim S50000x64 ![] bcast_S_S50000x64 : (⟨S_, .f32⟩ : BufTy).Contents (Elt F) → (⟨S50000x64, .f32⟩ : BufTy).Contents (Elt F)),   -- %43 = broadcast_in_dim %cst_4, dims = []
    StableHlo.binary main_v43 main_v42 main_v44 (addf : (⟨S50000x64, .f32⟩ : BufTy).Contents (Elt F) → (⟨S50000x64, .f32⟩ : BufTy).Contents (Elt F) → (⟨S50000x64, .f32⟩ : BufTy).Contents (Elt F)),   -- %44 = add %43, %42
    StableHlo.nullary main_cst_5 (constant S_ .f32 0x3F800000#32),   -- %cst_5 = constant dense<1.000000e+00>
    StableHlo.unary main_cst_5 main_v45 (broadcastInDim S50000x64 ![] bcast_S_S50000x64 : (⟨S_, .f32⟩ : BufTy).Contents (Elt F) → (⟨S50000x64, .f32⟩ : BufTy).Contents (Elt F)),   -- %45 = broadcast_in_dim %cst_5, dims = []
    StableHlo.binary main_v45 main_v44 main_v46 (Host.divf : (⟨S50000x64, .f32⟩ : BufTy).Contents (Elt F) → (⟨S50000x64, .f32⟩ : BufTy).Contents (Elt F) → (⟨S50000x64, .f32⟩ : BufTy).Contents (Elt F)),   -- %46 = divide %45, %44
    StableHlo.binary main_v40 main_v46 main_v47 (mulf : (⟨S50000x64, .f32⟩ : BufTy).Contents (Elt F) → (⟨S50000x64, .f32⟩ : BufTy).Contents (Elt F) → (⟨S50000x64, .f32⟩ : BufTy).Contents (Elt F)),   -- %47 = multiply %40, %46
    StableHlo.binary main_v47 main_arg11 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %48 = dot_general %47, %arg11, contracting_dims = [1] x [0], precision = [DEFAULT, DEFAULT]
    StableHlo.unary main_arg12 main_v49 (broadcastInDim S1x64 ![1] bcast_S64_S1x64_1 : (⟨S64, .f32⟩ : BufTy).Contents (Elt F) → (⟨S1x64, .f32⟩ : BufTy).Contents (Elt F)),   -- %49 = broadcast_in_dim %arg12, dims = [1]
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),   -- %50 = broadcast_in_dim %49, dims = [0, 1]
    StableHlo.binary main_v48 main_v50 main_v51 (addf : (⟨S50000x64, .f32⟩ : BufTy).Contents (Elt F) → (⟨S50000x64, .f32⟩ : BufTy).Contents (Elt F) → (⟨S50000x64, .f32⟩ : BufTy).Contents (Elt F)),   -- %51 = add %48, %50
    StableHlo.nullary main_cst_6 (constant S_ .f32 0x00000000#32),   -- %cst_6 = constant dense<0.000000e+00>
    StableHlo.binary main_v51 main_cst_6 main_v52 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),   -- %52 = reduce(%51 init: %cst_6) applies add across dimensions = [1]
    StableHlo.unary main_v52 main_v53 (broadcastInDim S50000x1 ![0] bcast_S50000_S50000x1_0 : (⟨S50000, .f32⟩ : BufTy).Contents (Elt F) → (⟨S50000x1, .f32⟩ : BufTy).Contents (Elt F)),   -- %53 = broadcast_in_dim %52, dims = [0]
    StableHlo.nullary main_cst_7 (constant S_ .f32 0x42800000#32),   -- %cst_7 = constant dense<6.400000e+01>
    StableHlo.unary main_cst_7 main_v54 (broadcastInDim S50000x1 ![] bcast_S_S50000x1 : (⟨S_, .f32⟩ : BufTy).Contents (Elt F) → (⟨S50000x1, .f32⟩ : BufTy).Contents (Elt F)),   -- %54 = broadcast_in_dim %cst_7, dims = []
    StableHlo.binary main_v53 main_v54 main_v55 (Host.divf : (⟨S50000x1, .f32⟩ : BufTy).Contents (Elt F) → (⟨S50000x1, .f32⟩ : BufTy).Contents (Elt F) → (⟨S50000x1, .f32⟩ : BufTy).Contents (Elt F)),   -- %55 = divide %53, %54
    StableHlo.nullary main_c_8 (constantI S_ 32 0#32),   -- %c_8 = constant dense<0>
    StableHlo.TRef.nullary main_call1.cst (constant S_ .f32 0x00000000#32),   -- in @_var_0: %cst = constant dense<0.000000e+00>
    StableHlo.TRef.binary (.of main_v51 : StableHlo.TRef sig ⟨S50000x64, .f32⟩) main_call1.cst main_call1.v0 (fun x v => Host.reduceAdd x v reducesTo_S50000x64_S50000_d1 h_S_),   -- in @_var_0: %0 = reduce(%arg0 init: %cst) applies add across dimensions = [1]
    StableHlo.TRef.unary main_call1.v0 main_call1.v1 (broadcastInDim S50000x1 ![0] bcast_S50000_S50000x1_0),   -- in @_var_0: %1 = broadcast_in_dim %0, dims = [0]
    StableHlo.TRef.nullary main_call1.cst_0 (constant S_ .f32 0x42800000#32),   -- in @_var_0: %cst_0 = constant dense<6.400000e+01>
    StableHlo.TRef.unary main_call1.cst_0 main_call1.v2 (broadcastInDim S50000x1 ![] bcast_S_S50000x1),   -- in @_var_0: %2 = broadcast_in_dim %cst_0, dims = []
    StableHlo.TRef.binary main_call1.v1 main_call1.v2 main_call1.v3 Host.divf,   -- in @_var_0: %3 = divide %1, %2
    StableHlo.TRef.unary main_call1.v3 main_call1.v4 (broadcastInDim S50000x64 ![0, 1] bcast_S50000x1_S50000x64_0_1),   -- in @_var_0: %4 = broadcast_in_dim %3, dims = [0, 1]
    StableHlo.TRef.binary (.of main_v51 : StableHlo.TRef sig ⟨S50000x64, .f32⟩) main_call1.v4 main_call1.v5 subf,   -- in @_var_0: %5 = subtract %arg0, %4
    StableHlo.TRef.binary main_call1.v5 main_call1.v5 main_call1.v6 mulf,   -- in @_var_0: %6 = square %5
    StableHlo.TRef.unary (.of main_c_8 : StableHlo.TRef sig ⟨S_, .i32⟩) main_call1.v7 (sitofp .f32),   -- in @_var_0: %7 = convert %arg1
    StableHlo.TRef.nullary main_call1.cst_1 (constant S_ .f32 0x42800000#32),   -- in @_var_0: %cst_1 = constant dense<6.400000e+01>
    StableHlo.TRef.binary main_call1.cst_1 main_call1.v7 main_call1.v8 subf,   -- in @_var_0: %8 = subtract %cst_1, %7
    StableHlo.TRef.nullary main_call1.cst_2 (constant S_ .f32 0x00000000#32),   -- in @_var_0: %cst_2 = constant dense<0.000000e+00>
    StableHlo.TRef.binary main_call1.v6 main_call1.cst_2 main_call1.v9 (fun x v => Host.reduceAdd x v reducesTo_S50000x64_S50000_d1 h_S_),   -- in @_var_0: %9 = reduce(%6 init: %cst_2) applies add across dimensions = [1]
    StableHlo.TRef.unary main_call1.v9 main_call1.v10 (broadcastInDim S50000x1 ![0] bcast_S50000_S50000x1_0),   -- in @_var_0: %10 = broadcast_in_dim %9, dims = [0]
    StableHlo.TRef.unary main_call1.v8 main_call1.v11 (broadcastInDim S50000x1 ![] bcast_S_S50000x1),   -- in @_var_0: %11 = broadcast_in_dim %8, dims = []
    StableHlo.TRef.binary main_call1.v10 main_call1.v11 main_call1.v12 Host.divf,   -- in @_var_0: %12 = divide %10, %11
    StableHlo.TRef.nullary main_call1.cst_3 (constant S_ .f32 0x00000000#32),   -- in @_var_0: %cst_3 = constant dense<0.000000e+00>
    StableHlo.TRef.binary main_call1.v8 main_call1.cst_3 main_call1.v13 (cmpf .ogt),   -- in @_var_0: %13 = compare GT, %8, %cst_3, FLOAT
    StableHlo.TRef.nullary main_call1.cst_4 (constant S_ .f32 0x7FC00000#32),   -- in @_var_0: %cst_4 = constant dense<0x7FC00000>
    StableHlo.TRef.unary main_call1.cst_4 main_call1.call0.v0 id,   -- in @_where_1: %0 = convert %arg2
    StableHlo.TRef.unary main_call1.call0.v0 main_call1.call0.v1 (broadcastInDim S50000x1 ![] bcast_S_S50000x1),   -- in @_where_1: %1 = broadcast_in_dim %0, dims = []
    StableHlo.TRef.ternary main_call1.v13 main_call1.v12 main_call1.call0.v1 main_call1.call0.v2 (fun p a b => select (broadcastInDim S50000x1 ![] bcast_S_S50000x1 p) a b),   -- in @_where_1: %2 = select %arg0, %arg1, %1
    StableHlo.unary main_v55 main_v57 (broadcastInDim S50000x64 ![0, 1] bcast_S50000x1_S50000x64_0_1 : (⟨S50000x1, .f32⟩ : BufTy).Contents (Elt F) → (⟨S50000x64, .f32⟩ : BufTy).Contents (Elt F)),   -- %57 = broadcast_in_dim %55, dims = [0, 1]
    StableHlo.binary main_v51 main_v57 main_v58 (subf : (⟨S50000x64, .f32⟩ : BufTy).Contents (Elt F) → (⟨S50000x64, .f32⟩ : BufTy).Contents (Elt F) → (⟨S50000x64, .f32⟩ : BufTy).Contents (Elt F)),   -- %58 = subtract %51, %57
    StableHlo.nullary main_cst_9 (constant S_ .f32 0x3727C5AC#32),   -- %cst_9 = constant dense<9.99999974E-6>
    StableHlo.unary main_cst_9 main_v59 (broadcastInDim S50000x1 ![] bcast_S_S50000x1 : (⟨S_, .f32⟩ : BufTy).Contents (Elt F) → (⟨S50000x1, .f32⟩ : BufTy).Contents (Elt F)),   -- %59 = broadcast_in_dim %cst_9, dims = []
    StableHlo.binary main_v56 main_v59 main_v60 (addf : (⟨S50000x1, .f32⟩ : BufTy).Contents (Elt F) → (⟨S50000x1, .f32⟩ : BufTy).Contents (Elt F) → (⟨S50000x1, .f32⟩ : BufTy).Contents (Elt F)),   -- %60 = add %56, %59
    StableHlo.unary main_v60 main_v61 (Host.rsqrt : (⟨S50000x1, .f32⟩ : BufTy).Contents (Elt F) → (⟨S50000x1, .f32⟩ : BufTy).Contents (Elt F)),   -- %61 = rsqrt %60
    StableHlo.unary main_v61 main_v62 (broadcastInDim S50000x64 ![0, 1] bcast_S50000x1_S50000x64_0_1 : (⟨S50000x1, .f32⟩ : BufTy).Contents (Elt F) → (⟨S50000x64, .f32⟩ : BufTy).Contents (Elt F)),   -- %62 = broadcast_in_dim %61, dims = [0, 1]
    StableHlo.binary main_v58 main_v62 main_v63 (mulf : (⟨S50000x64, .f32⟩ : BufTy).Contents (Elt F) → (⟨S50000x64, .f32⟩ : BufTy).Contents (Elt F) → (⟨S50000x64, .f32⟩ : BufTy).Contents (Elt F)),   -- %63 = multiply %58, %62
    StableHlo.unary main_arg13 main_v64 (broadcastInDim S1x64 ![1] bcast_S64_S1x64_1 : (⟨S64, .f32⟩ : BufTy).Contents (Elt F) → (⟨S1x64, .f32⟩ : BufTy).Contents (Elt F)),   -- %64 = broadcast_in_dim %arg13, dims = [1]
    StableHlo.unary main_v64 main_v65 (broadcastInDim S50000x64 ![0, 1] bcast_S1x64_S50000x64_0_1 : (⟨S1x64, .f32⟩ : BufTy).Contents (Elt F) → (⟨S50000x64, .f32⟩ : BufTy).Contents (Elt F)),   -- %65 = broadcast_in_dim %64, dims = [0, 1]
    StableHlo.binary main_v63 main_v65 main_v66 (mulf : (⟨S50000x64, .f32⟩ : BufTy).Contents (Elt F) → (⟨S50000x64, .f32⟩ : BufTy).Contents (Elt F) → (⟨S50000x64, .f32⟩ : BufTy).Contents (Elt F)),   -- %66 = multiply %63, %65
    StableHlo.unary main_arg14 main_v67 (broadcastInDim S1x64 ![1] bcast_S64_S1x64_1 : (⟨S64, .f32⟩ : BufTy).Contents (Elt F) → (⟨S1x64, .f32⟩ : BufTy).Contents (Elt F)),   -- %67 = broadcast_in_dim %arg14, dims = [1]
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),   -- %68 = broadcast_in_dim %67, dims = [0, 1]
    StableHlo.binary main_v66 main_v68 main_v69 (addf : (⟨S50000x64, .f32⟩ : BufTy).Contents (Elt F) → (⟨S50000x64, .f32⟩ : BufTy).Contents (Elt F) → (⟨S50000x64, .f32⟩ : BufTy).Contents (Elt F)) ]   -- %69 = add %66, %68

/-- The node embedding gathered at the senders and at the receivers; the last operation writes `main_v83`. Operations 127 … 144 of 290, in program order. -/
abbrev ops_gather : List (HloOp τ sig (Elt F)) :=
  [ StableHlo.nullary main_c_10 (constantI S_ 32 0#32),   -- %c_10 = constant dense<0>
    StableHlo.unary main_c_10 main_v70 (broadcastInDim S800000 ![] bcast_S_S800000 : (⟨S_, .i32⟩ : BufTy).Contents (Elt F) → (⟨S800000, .i32⟩ : BufTy).Contents (Elt F)),   -- %70 = broadcast_in_dim %c_10, dims = []
    StableHlo.binary main_v1 main_v70 main_v71 (cmpi .slt : (⟨S800000, .i32⟩ : BufTy).Contents (Elt F) → (⟨S800000, .i32⟩ : BufTy).Contents (Elt F) → (⟨S800000, .i1⟩ : BufTy).Contents (Elt F)),   -- %71 = compare LT, %1, %70, SIGNED
    StableHlo.nullary main_c_11 (constantI S_ 32 50000#32),   -- %c_11 = constant dense<50000>
    StableHlo.unary main_c_11 main_v72 (broadcastInDim S800000 ![] bcast_S_S800000 : (⟨S_, .i32⟩ : BufTy).Contents (Elt F) → (⟨S800000, .i32⟩ : BufTy).Contents (Elt F)),   -- %72 = broadcast_in_dim %c_11, dims = []
    StableHlo.binary main_v1 main_v72 main_v73 (addi : (⟨S800000, .i32⟩ : BufTy).Contents (Elt F) → (⟨S800000, .i32⟩ : BufTy).Contents (Elt F) → (⟨S800000, .i32⟩ : BufTy).Contents (Elt F)),   -- %73 = add %1, %72
    StableHlo.ternary main_v71 main_v73 main_v1 main_v74 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),   -- %74 = select %71, %73, %1
    StableHlo.unary main_v74 main_v75 (broadcastInDim S800000x1 ![0] bcast_S800000_S800000x1_0 : (⟨S800000, .i32⟩ : BufTy).Contents (Elt F) → (⟨S800000x1, .i32⟩ : BufTy).Contents (Elt F)),   -- %75 = broadcast_in_dim %74, dims = [0]
    StableHlo.binary main_v69 main_v75 main_v76 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),   -- %76 = "gather"(%69, %75) <{dimension_numbers = #gather<offset_dims = [1], collapsed_slice_dims = [0], start_in …
    StableHlo.nullary main_c_12 (constantI S_ 32 0#32),   -- %c_12 = constant dense<0>
    StableHlo.unary main_c_12 main_v77 (broadcastInDim S800000 ![] bcast_S_S800000 : (⟨S_, .i32⟩ : BufTy).Contents (Elt F) → (⟨S800000, .i32⟩ : BufTy).Contents (Elt F)),   -- %77 = broadcast_in_dim %c_12, dims = []
    StableHlo.binary main_v3 main_v77 main_v78 (cmpi .slt : (⟨S800000, .i32⟩ : BufTy).Contents (Elt F) → (⟨S800000, .i32⟩ : BufTy).Contents (Elt F) → (⟨S800000, .i1⟩ : BufTy).Contents (Elt F)),   -- %78 = compare LT, %3, %77, SIGNED
    StableHlo.nullary main_c_13 (constantI S_ 32 50000#32),   -- %c_13 = constant dense<50000>
    StableHlo.unary main_c_13 main_v79 (broadcastInDim S800000 ![] bcast_S_S800000 : (⟨S_, .i32⟩ : BufTy).Contents (Elt F) → (⟨S800000, .i32⟩ : BufTy).Contents (Elt F)),   -- %79 = broadcast_in_dim %c_13, dims = []
    StableHlo.binary main_v3 main_v79 main_v80 (addi : (⟨S800000, .i32⟩ : BufTy).Contents (Elt F) → (⟨S800000, .i32⟩ : BufTy).Contents (Elt F) → (⟨S800000, .i32⟩ : BufTy).Contents (Elt F)),   -- %80 = add %3, %79
    StableHlo.ternary main_v78 main_v80 main_v3 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),   -- %81 = select %78, %80, %3
    StableHlo.unary main_v81 main_v82 (broadcastInDim S800000x1 ![0] bcast_S800000_S800000x1_0 : (⟨S800000, .i32⟩ : BufTy).Contents (Elt F) → (⟨S800000x1, .i32⟩ : BufTy).Contents (Elt F)),   -- %82 = broadcast_in_dim %81, dims = [0]
    StableHlo.binary main_v69 main_v82 main_v83 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)) ]   -- %83 = "gather"(%69, %82) <{dimension_numbers = #gather<offset_dims = [1], collapsed_slice_dims = [0], start_in …

/-- The edge latents: edge embedding and the two gathered node embeddings concatenated, through linear map, swish, linear map and layer normalisation; the last operation writes `main_v117`. Operations 145 … 206 of 290, in program order. -/
abbrev ops_el : List (HloOp τ sig (Elt F)) :=
  [ StableHlo.nary ![main_v36, main_v76, main_v83] main_v84 (fun u => concatenate S800000x192 1 [⟨S800000x64, u 0⟩, ⟨S800000x64, u 1⟩, ⟨S800000x64, u 2⟩] concatenates_S800000x64_S800000x64_S800000x64_S800000x192_d1),   -- %84 = concatenate %36, %76, %83, dim = 1
    StableHlo.binary main_v84 main_arg15 main_v85 ((fun l r => Host.dotGeneral dot_S800000x192_S192x64_S800000x64_1_0_0_1_n_n none l r) : (⟨S800000x192, .f32⟩ : BufTy).Contents (Elt F) → (⟨S192x64, .f32⟩ : BufTy).Contents (Elt F) → (⟨S800000x64, .f32⟩ : BufTy).Contents (Elt F)),   -- %85 = dot_general %84, %arg15, contracting_dims = [1] x [0], precision = [DEFAULT, DEFAULT]
    StableHlo.unary main_arg16 main_v86 (broadcastInDim S1x64 ![1] bcast_S64_S1x64_1 : (⟨S64, .f32⟩ : BufTy).Contents (Elt F) → (⟨S1x64, .f32⟩ : BufTy).Contents (Elt F)),   -- %86 = broadcast_in_dim %arg16, dims = [1]
    StableHlo.unary main_v86 main_v87 (broadcastInDim S800000x64 ![0, 1] bcast_S1x64_S800000x64_0_1 : (⟨S1x64, .f32⟩ : BufTy).Contents (Elt F) → (⟨S800000x64, .f32⟩ : BufTy).Contents (Elt F)),   -- %87 = broadcast_in_dim %86, dims = [0, 1]
    StableHlo.binary main_v85 main_v87 main_v88 (addf : (⟨S800000x64, .f32⟩ : BufTy).Contents (Elt F) → (⟨S800000x64, .f32⟩ : BufTy).Contents (Elt F) → (⟨S800000x64, .f32⟩ : BufTy).Contents (Elt F)),   -- %88 = add %85, %87
    StableHlo.unary main_v88 main_v89 (Host.negf : (⟨S800000x64, .f32⟩ : BufTy).Contents (Elt F) → (⟨S800000x64, .f32⟩ : BufTy).Contents (Elt F)),   -- %89 = negate %88
    StableHlo.unary main_v89 main_v90 (Host.exp : (⟨S800000x64, .f32⟩ : BufTy).Contents (Elt F) → (⟨S800000x64, .f32⟩ : BufTy).Contents (Elt F)),   -- %90 = exponential %89
    StableHlo.nullary main_cst_14 (constant S_ .f32 0x3F800000#32),   -- %cst_14 = constant dense<1.000000e+00>
    StableHlo.unary main_cst_14 main_v91 (broadcastInDim S800000x64 ![] bcast_S_S800000x64 : (⟨S_, .f32⟩ : BufTy).Contents (Elt F) → (⟨S800000x64, .f32⟩ : BufTy).Contents (Elt F)),   -- %91 = broadcast_in_dim %cst_14, dims = []
    StableHlo.binary main_v91 main_v90 main_v92 (addf : (⟨S800000x64, .f32⟩ : BufTy).Contents (Elt F) → (⟨S800000x64, .f32⟩ : BufTy).Contents (Elt F) → (⟨S800000x64, .f32⟩ : BufTy).Contents (Elt F)),   -- %92 = add %91, %90
    StableHlo.nullary main_cst_15 (constant S_ .f32 0x3F800000#32),   -- %cst_15 = constant dense<1.000000e+00>
    StableHlo.unary main_cst_15 main_v93 (broadcastInDim S800000x64 ![] bcast_S_S800000x64 : (⟨S_, .f32⟩ : BufTy).Contents (Elt F) → (⟨S800000x64, .f32⟩ : BufTy).Contents (Elt F)),   -- %93 = broadcast_in_dim %cst_15, dims = []
    StableHlo.binary main_v93 main_v92 main_v94 (Host.divf : (⟨S800000x64, .f32⟩ : BufTy).Contents (Elt F) → (⟨S800000x64, .f32⟩ : BufTy).Contents (Elt F) → (⟨S800000x64, .f32⟩ : BufTy).Contents (Elt F)),   -- %94 = divide %93, %92
    StableHlo.binary main_v88 main_v94 main_v95 (mulf : (⟨S800000x64, .f32⟩ : BufTy).Contents (Elt F) → (⟨S800000x64, .f32⟩ : BufTy).Contents (Elt F) → (⟨S800000x64, .f32⟩ : BufTy).Contents (Elt F)),   -- %95 = multiply %88, %94
    StableHlo.binary main_v95 main_arg17 main_v96 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),   -- %96 = dot_general %95, %arg17, contracting_dims = [1] x [0], precision = [DEFAULT, DEFAULT]
    StableHlo.unary main_arg18 main_v97 (broadcastInDim S1x64 ![1] bcast_S64_S1x64_1 : (⟨S64, .f32⟩ : BufTy).Contents (Elt F) → (⟨S1x64, .f32⟩ : BufTy).Contents (Elt F)),   -- %97 = broadcast_in_dim %arg18, dims = [1]
    StableHlo.unary main_v97 main_v98 (broadcastInDim S800000x64 ![0, 1] bcast_S1x64_S800000x64_0_1 : (⟨S1x64, .f32⟩ : BufTy).Contents (Elt F) → (⟨S800000x64, .f32⟩ : BufTy).Contents (Elt F)),   -- %98 = broadcast_in_dim %97, dims = [0, 1]
    StableHlo.binary main_v96 main_v98 main_v99 (addf : (⟨S800000x64, .f32⟩ : BufTy).Contents (Elt F) → (⟨S800000x64, .f32⟩ : BufTy).Contents (Elt F) → (⟨S800000x64, .f32⟩ : BufTy).Contents (Elt F)),   -- %99 = add %96, %98
    StableHlo.nullary main_cst_16 (constant S_ .f32 0x00000000#32),   -- %cst_16 = constant dense<0.000000e+00>
    StableHlo.binary main_v99 main_cst_16 main_v100 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),   -- %100 = reduce(%99 init: %cst_16) applies add across dimensions = [1]
    StableHlo.unary main_v100 main_v101 (broadcastInDim S800000x1 ![0] bcast_S800000_S800000x1_0 : (⟨S800000, .f32⟩ : BufTy).Contents (Elt F) → (⟨S800000x1, .f32⟩ : BufTy).Contents (Elt F)),   -- %101 = broadcast_in_dim %100, dims = [0]
    StableHlo.nullary main_cst_17 (constant S_ .f32 0x42800000#32),   -- %cst_17 = constant dense<6.400000e+01>
    StableHlo.unary main_cst_17 main_v102 (broadcastInDim S800000x1 ![] bcast_S_S800000x1 : (⟨S_, .f32⟩ : BufTy).Contents (Elt F) → (⟨S800000x1, .f32⟩ : BufTy).Contents (Elt F)),   -- %102 = broadcast_in_dim %cst_17, dims = []
    StableHlo.binary main_v101 main_v102 main_v103 (Host.divf : (⟨S800000x1, .f32⟩ : BufTy).Contents (Elt F) → (⟨S800000x1, .f32⟩ : BufTy).Contents (Elt F) → (⟨S800000x1, .f32⟩ : BufTy).Contents (Elt F)),   -- %103 = divide %101, %102
    StableHlo.nullary main_c_18 (constantI S_ 32 0#32),   -- %c_18 = constant dense<0>
    StableHlo.TRef.nullary main_call2.cst (constant S_ .f32 0x00000000#32),   -- in @_var: %cst = constant dense<0.000000e+00>
    StableHlo.TRef.binary (.of main_v99 : StableHlo.TRef sig ⟨S800000x64, .f32⟩) main_call2.cst main_call2.v0 (fun x v => Host.reduceAdd x v reducesTo_S800000x64_S800000_d1 h_S_),   -- in @_var: %0 = reduce(%arg0 init: %cst) applies add across dimensions = [1]
    StableHlo.TRef.unary main_call2.v0 main_call2.v1 (broadcastInDim S800000x1 ![0] bcast_S800000_S800000x1_0),   -- in @_var: %1 = broadcast_in_dim %0, dims = [0]
    StableHlo.TRef.nullary main_call2.cst_0 (constant S_ .f32 0x42800000#32),   -- in @_var: %cst_0 = constant dense<6.400000e+01>
    StableHlo.TRef.unary main_call2.cst_0 main_call2.v2 (broadcastInDim S800000x1 ![] bcast_S_S800000x1),   -- in @_var: %2 = broadcast_in_dim %cst_0, dims = []
    StableHlo.TRef.binary main_call2.v1 main_call2.v2 main_call2.v3 Host.divf,   -- in @_var: %3 = divide %1, %2
    StableHlo.TRef.unary main_call2.v3 main_call2.v4 (broadcastInDim S800000x64 ![0, 1] bcast_S800000x1_S800000x64_0_1),   -- in @_var: %4 = broadcast_in_dim %3, dims = [0, 1]
    StableHlo.TRef.binary (.of main_v99 : StableHlo.TRef sig ⟨S800000x64, .f32⟩) main_call2.v4 main_call2.v5 subf,   -- in @_var: %5 = subtract %arg0, %4
    StableHlo.TRef.binary main_call2.v5 main_call2.v5 main_call2.v6 mulf,   -- in @_var: %6 = square %5
    StableHlo.TRef.unary (.of main_c_18 : StableHlo.TRef sig ⟨S_, .i32⟩) main_call2.v7 (sitofp .f32),   -- in @_var: %7 = convert %arg1
    StableHlo.TRef.nullary main_call2.cst_1 (constant S_ .f32 0x42800000#32),   -- in @_var: %cst_1 = constant dense<6.400000e+01>
    StableHlo.TRef.binary main_call2.cst_1 main_call2.v7 main_call2.v8 subf,   -- in @_var: %8 = subtract %cst_1, %7
    StableHlo.TRef.nullary main_call2.cst_2 (constant S_ .f32 0x00000000#32),   -- in @_var: %cst_2 = constant dense<0.000000e+00>
    StableHlo.TRef.binary main_call2.v6 main_call2.cst_2 main_call2.v9 (fun x v => Host.reduceAdd x v reducesTo_S800000x64_S800000_d1 h_S_),   -- in @_var: %9 = reduce(%6 init: %cst_2) applies add across dimensions = [1]
    StableHlo.TRef.unary main_call2.v9 main_call2.v10 (broadcastInDim S800000x1 ![0] bcast_S800000_S800000x1_0),   -- in @_var: %10 = broadcast_in_dim %9, dims = [0]
    StableHlo.TRef.unary main_call2.v8 main_call2.v11 (broadcastInDim S800000x1 ![] bcast_S_S800000x1),   -- in @_var: %11 = broadcast_in_dim %8, dims = []
    StableHlo.TRef.binary main_call2.v10 main_call2.v11 main_call2.v12 Host.divf,   -- in @_var: %12 = divide %10, %11
    StableHlo.TRef.nullary main_call2.cst_3 (constant S_ .f32 0x00000000#32),   -- in @_var: %cst_3 = constant dense<0.000000e+00>
    StableHlo.TRef.binary main_call2.v8 main_call2.cst_3 main_call2.v13 (cmpf .ogt),   -- in @_var: %13 = compare GT, %8, %cst_3, FLOAT
    StableHlo.TRef.nullary main_call2.cst_4 (constant S_ .f32 0x7FC00000#32),   -- in @_var: %cst_4 = constant dense<0x7FC00000>
    StableHlo.TRef.unary main_call2.cst_4 main_call2.call0.v0 id,   -- in @_where: %0 = convert %arg2
    StableHlo.TRef.unary main_call2.call0.v0 main_call2.call0.v1 (broadcastInDim S800000x1 ![] bcast_S_S800000x1),   -- in @_where: %1 = broadcast_in_dim %0, dims = []
    StableHlo.TRef.ternary main_call2.v13 main_call2.v12 main_call2.call0.v1 main_call2.call0.v2 (fun p a b => select (broadcastInDim S800000x1 ![] bcast_S_S800000x1 p) a b),   -- in @_where: %2 = select %arg0, %arg1, %1
    StableHlo.unary main_v103 main_v105 (broadcastInDim S800000x64 ![0, 1] bcast_S800000x1_S800000x64_0_1 : (⟨S800000x1, .f32⟩ : BufTy).Contents (Elt F) → (⟨S800000x64, .f32⟩ : BufTy).Contents (Elt F)),   -- %105 = broadcast_in_dim %103, dims = [0, 1]
    StableHlo.binary main_v99 main_v105 main_v106 (subf : (⟨S800000x64, .f32⟩ : BufTy).Contents (Elt F) → (⟨S800000x64, .f32⟩ : BufTy).Contents (Elt F) → (⟨S800000x64, .f32⟩ : BufTy).Contents (Elt F)),   -- %106 = subtract %99, %105
    StableHlo.nullary main_cst_19 (constant S_ .f32 0x3727C5AC#32),   -- %cst_19 = constant dense<9.99999974E-6>
    StableHlo.unary main_cst_19 main_v107 (broadcastInDim S800000x1 ![] bcast_S_S800000x1 : (⟨S_, .f32⟩ : BufTy).Contents (Elt F) → (⟨S800000x1, .f32⟩ : BufTy).Contents (Elt F)),   -- %107 = broadcast_in_dim %cst_19, dims = []
    StableHlo.binary main_v104 main_v107 main_v108 (addf : (⟨S800000x1, .f32⟩ : BufTy).Contents (Elt F) → (⟨S800000x1, .f32⟩ : BufTy).Contents (Elt F) → (⟨S800000x1, .f32⟩ : BufTy).Contents (Elt F)),   -- %108 = add %104, %107
    StableHlo.unary main_v108 main_v109 (Host.rsqrt : (⟨S800000x1, .f32⟩ : BufTy).Contents (Elt F) → (⟨S800000x1, .f32⟩ : BufTy).Contents (Elt F)),   -- %109 = rsqrt %108
    StableHlo.unary main_v109 main_v110 (broadcastInDim S800000x64 ![0, 1] bcast_S800000x1_S800000x64_0_1 : (⟨S800000x1, .f32⟩ : BufTy).Contents (Elt F) → (⟨S800000x64, .f32⟩ : BufTy).Contents (Elt F)),   -- %110 = broadcast_in_dim %109, dims = [0, 1]
    StableHlo.binary main_v106 main_v110 main_v111 (mulf : (⟨S800000x64, .f32⟩ : BufTy).Contents (Elt F) → (⟨S800000x64, .f32⟩ : BufTy).Contents (Elt F) → (⟨S800000x64, .f32⟩ : BufTy).Contents (Elt F)),   -- %111 = multiply %106, %110
    StableHlo.unary main_arg19 main_v112 (broadcastInDim S1x64 ![1] bcast_S64_S1x64_1 : (⟨S64, .f32⟩ : BufTy).Contents (Elt F) → (⟨S1x64, .f32⟩ : BufTy).Contents (Elt F)),   -- %112 = broadcast_in_dim %arg19, dims = [1]
    StableHlo.unary main_v112 main_v113 (broadcastInDim S800000x64 ![0, 1] bcast_S1x64_S800000x64_0_1 : (⟨S1x64, .f32⟩ : BufTy).Contents (Elt F) → (⟨S800000x64, .f32⟩ : BufTy).Contents (Elt F)),   -- %113 = broadcast_in_dim %112, dims = [0, 1]
    StableHlo.binary main_v111 main_v113 main_v114 (mulf : (⟨S800000x64, .f32⟩ : BufTy).Contents (Elt F) → (⟨S800000x64, .f32⟩ : BufTy).Contents (Elt F) → (⟨S800000x64, .f32⟩ : BufTy).Contents (Elt F)),   -- %114 = multiply %111, %113
    StableHlo.unary main_arg20 main_v115 (broadcastInDim S1x64 ![1] bcast_S64_S1x64_1 : (⟨S64, .f32⟩ : BufTy).Contents (Elt F) → (⟨S1x64, .f32⟩ : BufTy).Contents (Elt F)),   -- %115 = broadcast_in_dim %arg20, dims = [1]
    StableHlo.unary main_v115 main_v116 (broadcastInDim S800000x64 ![0, 1] bcast_S1x64_S800000x64_0_1 : (⟨S1x64, .f32⟩ : BufTy).Contents (Elt F) → (⟨S800000x64, .f32⟩ : BufTy).Contents (Elt F)),   -- %116 = broadcast_in_dim %115, dims = [0, 1]
    StableHlo.binary main_v114 main_v116 main_v117 (addf : (⟨S800000x64, .f32⟩ : BufTy).Contents (Elt F) → (⟨S800000x64, .f32⟩ : BufTy).Contents (Elt F) → (⟨S800000x64, .f32⟩ : BufTy).Contents (Elt F)) ]   -- %117 = add %114, %116

/-- The edge latents summed at their receiving nodes (scatter-add into zeros); the last operation writes `main_v120`. Operations 207 … 210 of 290, in program order. -/
abbrev ops_agg : List (HloOp τ sig (Elt F)) :=
  [ StableHlo.nullary main_cst_20 (constant S_ .f32 0x00000000#32),   -- %cst_20 = constant dense<0.000000e+00>
    StableHlo.unary main_cst_20 main_v118 (broadcastInDim S50000x64 ![] bcast_S_S50000x64 : (⟨S_, .f32⟩ : BufTy).Contents (Elt F) → (⟨S50000x64, .f32⟩ : BufTy).Contents (Elt F)),   -- %118 = broadcast_in_dim %cst_20, dims = []
    StableHlo.unary main_v3 main_v119 (broadcastInDim S800000x1 ![0] bcast_S800000_S800000x1_0 : (⟨S800000, .i32⟩ : BufTy).Contents (Elt F) → (⟨S800000x1, .i32⟩ : BufTy).Contents (Elt F)),   -- %119 = broadcast_in_dim %3, dims = [0]
    StableHlo.ternary main_v118 main_v119 main_v117 main_v120 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]   -- %120 = "scatter"(%118, %119, %117) <{indices_are_sorted = false, scatter_dimension_numbers = #scatter<update_w …

/-- The node latents: node embedding and aggregate concatenated, through linear map, swish, linear map and layer normalisation, the node embedding added, then the output perceptron (no normalisation); the last operation writes `main_v170`. Operations 211 … 290 of 290, in program order. -/
abbrev ops_nl : List (HloOp τ sig (Elt F)) :=
  [ StableHlo.binary main_v69 main_v120 main_v121 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),   -- %121 = concatenate %69, %120, dim = 1
    StableHlo.binary main_v121 main_arg21 main_v122 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),   -- %122 = dot_general %121, %arg21, contracting_dims = [1] x [0], precision = [DEFAULT, DEFAULT]
    StableHlo.unary main_arg22 main_v123 (broadcastInDim S1x64 ![1] bcast_S64_S1x64_1 : (⟨S64, .f32⟩ : BufTy).Contents (Elt F) → (⟨S1x64, .f32⟩ : BufTy).Contents (Elt F)),   -- %123 = broadcast_in_dim %arg22, dims = [1]
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),   -- %124 = broadcast_in_dim %123, dims = [0, 1]
    StableHlo.binary main_v122 main_v124 main_v125 (addf : (⟨S50000x64, .f32⟩ : BufTy).Contents (Elt F) → (⟨S50000x64, .f32⟩ : BufTy).Contents (Elt F) → (⟨S50000x64, .f32⟩ : BufTy).Contents (Elt F)),   -- %125 = add %122, %124
    StableHlo.unary main_v125 main_v126 (Host.negf : (⟨S50000x64, .f32⟩ : BufTy).Contents (Elt F) → (⟨S50000x64, .f32⟩ : BufTy).Contents (Elt F)),   -- %126 = negate %125
    StableHlo.unary main_v126 main_v127 (Host.exp : (⟨S50000x64, .f32⟩ : BufTy).Contents (Elt F) → (⟨S50000x64, .f32⟩ : BufTy).Contents (Elt F)),   -- %127 = exponential %126
    StableHlo.nullary main_cst_21 (constant S_ .f32 0x3F800000#32),   -- %cst_21 = constant dense<1.000000e+00>
    StableHlo.unary main_cst_21 main_v128 (broadcastInDim S50000x64 ![] bcast_S_S50000x64 : (⟨S_, .f32⟩ : BufTy).Contents (Elt F) → (⟨S50000x64, .f32⟩ : BufTy).Contents (Elt F)),   -- %128 = broadcast_in_dim %cst_21, dims = []
    StableHlo.binary main_v128 main_v127 main_v129 (addf : (⟨S50000x64, .f32⟩ : BufTy).Contents (Elt F) → (⟨S50000x64, .f32⟩ : BufTy).Contents (Elt F) → (⟨S50000x64, .f32⟩ : BufTy).Contents (Elt F)),   -- %129 = add %128, %127
    StableHlo.nullary main_cst_22 (constant S_ .f32 0x3F800000#32),   -- %cst_22 = constant dense<1.000000e+00>
    StableHlo.unary main_cst_22 main_v130 (broadcastInDim S50000x64 ![] bcast_S_S50000x64 : (⟨S_, .f32⟩ : BufTy).Contents (Elt F) → (⟨S50000x64, .f32⟩ : BufTy).Contents (Elt F)),   -- %130 = broadcast_in_dim %cst_22, dims = []
    StableHlo.binary main_v130 main_v129 main_v131 (Host.divf : (⟨S50000x64, .f32⟩ : BufTy).Contents (Elt F) → (⟨S50000x64, .f32⟩ : BufTy).Contents (Elt F) → (⟨S50000x64, .f32⟩ : BufTy).Contents (Elt F)),   -- %131 = divide %130, %129
    StableHlo.binary main_v125 main_v131 main_v132 (mulf : (⟨S50000x64, .f32⟩ : BufTy).Contents (Elt F) → (⟨S50000x64, .f32⟩ : BufTy).Contents (Elt F) → (⟨S50000x64, .f32⟩ : BufTy).Contents (Elt F)),   -- %132 = multiply %125, %131
    StableHlo.binary main_v132 main_arg23 main_v133 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %133 = dot_general %132, %arg23, contracting_dims = [1] x [0], precision = [DEFAULT, DEFAULT]
    StableHlo.unary main_arg24 main_v134 (broadcastInDim S1x64 ![1] bcast_S64_S1x64_1 : (⟨S64, .f32⟩ : BufTy).Contents (Elt F) → (⟨S1x64, .f32⟩ : BufTy).Contents (Elt F)),   -- %134 = broadcast_in_dim %arg24, dims = [1]
    StableHlo.unary main_v134 main_v135 (broadcastInDim S50000x64 ![0, 1] bcast_S1x64_S50000x64_0_1 : (⟨S1x64, .f32⟩ : BufTy).Contents (Elt F) → (⟨S50000x64, .f32⟩ : BufTy).Contents (Elt F)),   -- %135 = broadcast_in_dim %134, dims = [0, 1]
    StableHlo.binary main_v133 main_v135 main_v136 (addf : (⟨S50000x64, .f32⟩ : BufTy).Contents (Elt F) → (⟨S50000x64, .f32⟩ : BufTy).Contents (Elt F) → (⟨S50000x64, .f32⟩ : BufTy).Contents (Elt F)),   -- %136 = add %133, %135
    StableHlo.nullary main_cst_23 (constant S_ .f32 0x00000000#32),   -- %cst_23 = constant dense<0.000000e+00>
    StableHlo.binary main_v136 main_cst_23 main_v137 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),   -- %137 = reduce(%136 init: %cst_23) applies add across dimensions = [1]
    StableHlo.unary main_v137 main_v138 (broadcastInDim S50000x1 ![0] bcast_S50000_S50000x1_0 : (⟨S50000, .f32⟩ : BufTy).Contents (Elt F) → (⟨S50000x1, .f32⟩ : BufTy).Contents (Elt F)),   -- %138 = broadcast_in_dim %137, dims = [0]
    StableHlo.nullary main_cst_24 (constant S_ .f32 0x42800000#32),   -- %cst_24 = constant dense<6.400000e+01>
    StableHlo.unary main_cst_24 main_v139 (broadcastInDim S50000x1 ![] bcast_S_S50000x1 : (⟨S_, .f32⟩ : BufTy).Contents (Elt F) → (⟨S50000x1, .f32⟩ : BufTy).Contents (Elt F)),   -- %139 = broadcast_in_dim %cst_24, dims = []
    StableHlo.binary main_v138 main_v139 main_v140 (Host.divf : (⟨S50000x1, .f32⟩ : BufTy).Contents (Elt F) → (⟨S50000x1, .f32⟩ : BufTy).Contents (Elt F) → (⟨S50000x1, .f32⟩ : BufTy).Contents (Elt F)),   -- %140 = divide %138, %139
    StableHlo.nullary main_c_25 (constantI S_ 32 0#32),   -- %c_25 = constant dense<0>
    StableHlo.TRef.nullary main_call3.cst (constant S_ .f32 0x00000000#32),   -- in @_var_0: %cst = constant dense<0.000000e+00>
    StableHlo.TRef.binary (.of main_v136 : StableHlo.TRef sig ⟨S50000x64, .f32⟩) main_call3.cst main_call3.v0 (fun x v => Host.reduceAdd x v reducesTo_S50000x64_S50000_d1 h_S_),   -- in @_var_0: %0 = reduce(%arg0 init: %cst) applies add across dimensions = [1]
    StableHlo.TRef.unary main_call3.v0 main_call3.v1 (broadcastInDim S50000x1 ![0] bcast_S50000_S50000x1_0),   -- in @_var_0: %1 = broadcast_in_dim %0, dims = [0]
    StableHlo.TRef.nullary main_call3.cst_0 (constant S_ .f32 0x42800000#32),   -- in @_var_0: %cst_0 = constant dense<6.400000e+01>
    StableHlo.TRef.unary main_call3.cst_0 main_call3.v2 (broadcastInDim S50000x1 ![] bcast_S_S50000x1),   -- in @_var_0: %2 = broadcast_in_dim %cst_0, dims = []
    StableHlo.TRef.binary main_call3.v1 main_call3.v2 main_call3.v3 Host.divf,   -- in @_var_0: %3 = divide %1, %2
    StableHlo.TRef.unary main_call3.v3 main_call3.v4 (broadcastInDim S50000x64 ![0, 1] bcast_S50000x1_S50000x64_0_1),   -- in @_var_0: %4 = broadcast_in_dim %3, dims = [0, 1]
    StableHlo.TRef.binary (.of main_v136 : StableHlo.TRef sig ⟨S50000x64, .f32⟩) main_call3.v4 main_call3.v5 subf,   -- in @_var_0: %5 = subtract %arg0, %4
    StableHlo.TRef.binary main_call3.v5 main_call3.v5 main_call3.v6 mulf,   -- in @_var_0: %6 = square %5
    StableHlo.TRef.unary (.of main_c_25 : StableHlo.TRef sig ⟨S_, .i32⟩) main_call3.v7 (sitofp .f32),   -- in @_var_0: %7 = convert %arg1
    StableHlo.TRef.nullary main_call3.cst_1 (constant S_ .f32 0x42800000#32),   -- in @_var_0: %cst_1 = constant dense<6.400000e+01>
    StableHlo.TRef.binary main_call3.cst_1 main_call3.v7 main_call3.v8 subf,   -- in @_var_0: %8 = subtract %cst_1, %7
    StableHlo.TRef.nullary main_call3.cst_2 (constant S_ .f32 0x00000000#32),   -- in @_var_0: %cst_2 = constant dense<0.000000e+00>
    StableHlo.TRef.binary main_call3.v6 main_call3.cst_2 main_call3.v9 (fun x v => Host.reduceAdd x v reducesTo_S50000x64_S50000_d1 h_S_),   -- in @_var_0: %9 = reduce(%6 init: %cst_2) applies add across dimensions = [1]
    StableHlo.TRef.unary main_call3.v9 main_call3.v10 (broadcastInDim S50000x1 ![0] bcast_S50000_S50000x1_0),   -- in @_var_0: %10 = broadcast_in_dim %9, dims = [0]
    StableHlo.TRef.unary main_call3.v8 main_call3.v11 (broadcastInDim S50000x1 ![] bcast_S_S50000x1),   -- in @_var_0: %11 = broadcast_in_dim %8, dims = []
    StableHlo.TRef.binary main_call3.v10 main_call3.v11 main_call3.v12 Host.divf,   -- in @_var_0: %12 = divide %10, %11
    StableHlo.TRef.nullary main_call3.cst_3 (constant S_ .f32 0x00000000#32),   -- in @_var_0: %cst_3 = constant dense<0.000000e+00>
    StableHlo.TRef.binary main_call3.v8 main_call3.cst_3 main_call3.v13 (cmpf .ogt),   -- in @_var_0: %13 = compare GT, %8, %cst_3, FLOAT
    StableHlo.TRef.nullary main_call3.cst_4 (constant S_ .f32 0x7FC00000#32),   -- in @_var_0: %cst_4 = constant dense<0x7FC00000>
    StableHlo.TRef.unary main_call3.cst_4 main_call3.call0.v0 id,   -- in @_where_1: %0 = convert %arg2
    StableHlo.TRef.unary main_call3.call0.v0 main_call3.call0.v1 (broadcastInDim S50000x1 ![] bcast_S_S50000x1),   -- in @_where_1: %1 = broadcast_in_dim %0, dims = []
    StableHlo.TRef.ternary main_call3.v13 main_call3.v12 main_call3.call0.v1 main_call3.call0.v2 (fun p a b => select (broadcastInDim S50000x1 ![] bcast_S_S50000x1 p) a b),   -- in @_where_1: %2 = select %arg0, %arg1, %1
    StableHlo.unary main_v140 main_v142 (broadcastInDim S50000x64 ![0, 1] bcast_S50000x1_S50000x64_0_1 : (⟨S50000x1, .f32⟩ : BufTy).Contents (Elt F) → (⟨S50000x64, .f32⟩ : BufTy).Contents (Elt F)),   -- %142 = broadcast_in_dim %140, dims = [0, 1]
    StableHlo.binary main_v136 main_v142 main_v143 (subf : (⟨S50000x64, .f32⟩ : BufTy).Contents (Elt F) → (⟨S50000x64, .f32⟩ : BufTy).Contents (Elt F) → (⟨S50000x64, .f32⟩ : BufTy).Contents (Elt F)),   -- %143 = subtract %136, %142
    StableHlo.nullary main_cst_26 (constant S_ .f32 0x3727C5AC#32),   -- %cst_26 = constant dense<9.99999974E-6>
    StableHlo.unary main_cst_26 main_v144 (broadcastInDim S50000x1 ![] bcast_S_S50000x1 : (⟨S_, .f32⟩ : BufTy).Contents (Elt F) → (⟨S50000x1, .f32⟩ : BufTy).Contents (Elt F)),   -- %144 = broadcast_in_dim %cst_26, dims = []
    StableHlo.binary main_v141 main_v144 main_v145 (addf : (⟨S50000x1, .f32⟩ : BufTy).Contents (Elt F) → (⟨S50000x1, .f32⟩ : BufTy).Contents (Elt F) → (⟨S50000x1, .f32⟩ : BufTy).Contents (Elt F)),   -- %145 = add %141, %144
    StableHlo.unary main_v145 main_v146 (Host.rsqrt : (⟨S50000x1, .f32⟩ : BufTy).Contents (Elt F) → (⟨S50000x1, .f32⟩ : BufTy).Contents (Elt F)),   -- %146 = rsqrt %145
    StableHlo.unary main_v146 main_v147 (broadcastInDim S50000x64 ![0, 1] bcast_S50000x1_S50000x64_0_1 : (⟨S50000x1, .f32⟩ : BufTy).Contents (Elt F) → (⟨S50000x64, .f32⟩ : BufTy).Contents (Elt F)),   -- %147 = broadcast_in_dim %146, dims = [0, 1]
    StableHlo.binary main_v143 main_v147 main_v148 (mulf : (⟨S50000x64, .f32⟩ : BufTy).Contents (Elt F) → (⟨S50000x64, .f32⟩ : BufTy).Contents (Elt F) → (⟨S50000x64, .f32⟩ : BufTy).Contents (Elt F)),   -- %148 = multiply %143, %147
    StableHlo.unary main_arg25 main_v149 (broadcastInDim S1x64 ![1] bcast_S64_S1x64_1 : (⟨S64, .f32⟩ : BufTy).Contents (Elt F) → (⟨S1x64, .f32⟩ : BufTy).Contents (Elt F)),   -- %149 = broadcast_in_dim %arg25, dims = [1]
    StableHlo.unary main_v149 main_v150 (broadcastInDim S50000x64 ![0, 1] bcast_S1x64_S50000x64_0_1 : (⟨S1x64, .f32⟩ : BufTy).Contents (Elt F) → (⟨S50000x64, .f32⟩ : BufTy).Contents (Elt F)),   -- %150 = broadcast_in_dim %149, dims = [0, 1]
    StableHlo.binary main_v148 main_v150 main_v151 (mulf : (⟨S50000x64, .f32⟩ : BufTy).Contents (Elt F) → (⟨S50000x64, .f32⟩ : BufTy).Contents (Elt F) → (⟨S50000x64, .f32⟩ : BufTy).Contents (Elt F)),   -- %151 = multiply %148, %150
    StableHlo.unary main_arg26 main_v152 (broadcastInDim S1x64 ![1] bcast_S64_S1x64_1 : (⟨S64, .f32⟩ : BufTy).Contents (Elt F) → (⟨S1x64, .f32⟩ : BufTy).Contents (Elt F)),   -- %152 = broadcast_in_dim %arg26, dims = [1]
    StableHlo.unary main_v152 main_v153 (broadcastInDim S50000x64 ![0, 1] bcast_S1x64_S50000x64_0_1 : (⟨S1x64, .f32⟩ : BufTy).Contents (Elt F) → (⟨S50000x64, .f32⟩ : BufTy).Contents (Elt F)),   -- %153 = broadcast_in_dim %152, dims = [0, 1]
    StableHlo.binary main_v151 main_v153 main_v154 (addf : (⟨S50000x64, .f32⟩ : BufTy).Contents (Elt F) → (⟨S50000x64, .f32⟩ : BufTy).Contents (Elt F) → (⟨S50000x64, .f32⟩ : BufTy).Contents (Elt F)),   -- %154 = add %151, %153
    StableHlo.binary main_v154 main_v69 main_v155 (addf : (⟨S50000x64, .f32⟩ : BufTy).Contents (Elt F) → (⟨S50000x64, .f32⟩ : BufTy).Contents (Elt F) → (⟨S50000x64, .f32⟩ : BufTy).Contents (Elt F)),   -- %155 = add %154, %69
    StableHlo.binary main_v155 main_arg27 main_v156 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %156 = dot_general %155, %arg27, contracting_dims = [1] x [0], precision = [DEFAULT, DEFAULT]
    StableHlo.unary main_arg28 main_v157 (broadcastInDim S1x64 ![1] bcast_S64_S1x64_1 : (⟨S64, .f32⟩ : BufTy).Contents (Elt F) → (⟨S1x64, .f32⟩ : BufTy).Contents (Elt F)),   -- %157 = broadcast_in_dim %arg28, dims = [1]
    StableHlo.unary main_v157 main_v158 (broadcastInDim S50000x64 ![0, 1] bcast_S1x64_S50000x64_0_1 : (⟨S1x64, .f32⟩ : BufTy).Contents (Elt F) → (⟨S50000x64, .f32⟩ : BufTy).Contents (Elt F)),   -- %158 = broadcast_in_dim %157, dims = [0, 1]
    StableHlo.binary main_v156 main_v158 main_v159 (addf : (⟨S50000x64, .f32⟩ : BufTy).Contents (Elt F) → (⟨S50000x64, .f32⟩ : BufTy).Contents (Elt F) → (⟨S50000x64, .f32⟩ : BufTy).Contents (Elt F)),   -- %159 = add %156, %158
    StableHlo.unary main_v159 main_v160 (Host.negf : (⟨S50000x64, .f32⟩ : BufTy).Contents (Elt F) → (⟨S50000x64, .f32⟩ : BufTy).Contents (Elt F)),   -- %160 = negate %159
    StableHlo.unary main_v160 main_v161 (Host.exp : (⟨S50000x64, .f32⟩ : BufTy).Contents (Elt F) → (⟨S50000x64, .f32⟩ : BufTy).Contents (Elt F)),   -- %161 = exponential %160
    StableHlo.nullary main_cst_27 (constant S_ .f32 0x3F800000#32),   -- %cst_27 = constant dense<1.000000e+00>
    StableHlo.unary main_cst_27 main_v162 (broadcastInDim S50000x64 ![] bcast_S_S50000x64 : (⟨S_, .f32⟩ : BufTy).Contents (Elt F) → (⟨S50000x64, .f32⟩ : BufTy).Contents (Elt F)),   -- %162 = broadcast_in_dim %cst_27, dims = []
    StableHlo.binary main_v162 main_v161 main_v163 (addf : (⟨S50000x64, .f32⟩ : BufTy).Contents (Elt F) → (⟨S50000x64, .f32⟩ : BufTy).Contents (Elt F) → (⟨S50000x64, .f32⟩ : BufTy).Contents (Elt F)),   -- %163 = add %162, %161
    StableHlo.nullary main_cst_28 (constant S_ .f32 0x3F800000#32),   -- %cst_28 = constant dense<1.000000e+00>
    StableHlo.unary main_cst_28 main_v164 (broadcastInDim S50000x64 ![] bcast_S_S50000x64 : (⟨S_, .f32⟩ : BufTy).Contents (Elt F) → (⟨S50000x64, .f32⟩ : BufTy).Contents (Elt F)),   -- %164 = broadcast_in_dim %cst_28, dims = []
    StableHlo.binary main_v164 main_v163 main_v165 (Host.divf : (⟨S50000x64, .f32⟩ : BufTy).Contents (Elt F) → (⟨S50000x64, .f32⟩ : BufTy).Contents (Elt F) → (⟨S50000x64, .f32⟩ : BufTy).Contents (Elt F)),   -- %165 = divide %164, %163
    StableHlo.binary main_v159 main_v165 main_v166 (mulf : (⟨S50000x64, .f32⟩ : BufTy).Contents (Elt F) → (⟨S50000x64, .f32⟩ : BufTy).Contents (Elt F) → (⟨S50000x64, .f32⟩ : BufTy).Contents (Elt F)),   -- %166 = multiply %159, %165
    StableHlo.binary main_v166 main_arg29 main_v167 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %167 = dot_general %166, %arg29, contracting_dims = [1] x [0], precision = [DEFAULT, DEFAULT]
    StableHlo.unary main_arg30 main_v168 (broadcastInDim S1x64 ![1] bcast_S64_S1x64_1 : (⟨S64, .f32⟩ : BufTy).Contents (Elt F) → (⟨S1x64, .f32⟩ : BufTy).Contents (Elt F)),   -- %168 = broadcast_in_dim %arg30, dims = [1]
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),   -- %169 = broadcast_in_dim %168, dims = [0, 1]
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)) ]   -- %170 = add %167, %169

/-- @main's 290 operations in program order, the callees' operations at their call sites. -/
abbrev ops : List (HloOp τ sig (Elt F)) := ops_ef ++ ops_nf ++ ops_gather ++ ops_el ++ ops_agg ++ ops_nl

set_option maxRecDepth 8192 in
/-- Every buffer an operation of `ops_ef` touches is a TensorCore reference. -/
theorem ops_ef_sub : (ops_ef : List (HloOp τ sig (Elt F))).Forall fun op => op.bufs ⊆ tcRefs τ sig :=
  ⟨unary_bufs_sub .., reshape_bufs_sub .., unary_bufs_sub .., reshape_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
/-- Every buffer an operation of `ops_nf` touches is a TensorCore reference. -/
theorem ops_nf_sub : (ops_nf : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
/-- Every buffer an operation of `ops_gather` touches is a TensorCore reference. -/
theorem ops_gather_sub : (ops_gather : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩

set_option maxRecDepth 8192 in
/-- Every buffer an operation of `ops_el` touches is a TensorCore reference. -/
theorem ops_el_sub : (ops_el : List (HloOp τ sig (Elt F))).Forall fun op => op.bufs ⊆ tcRefs τ sig :=
  ⟨nary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

set_option maxRecDepth 8192 in
/-- Every buffer an operation of `ops_agg` touches is a TensorCore reference. -/
theorem ops_agg_sub : (ops_agg : List (HloOp τ sig (Elt F))).Forall fun op => op.bufs ⊆ tcRefs τ sig :=
  ⟨nullary_bufs_sub .., unary_bufs_sub .., unary_bufs_sub .., ternary_bufs_sub ..⟩

set_option maxRecDepth 8192 in
/-- Every buffer an operation of `ops_nl` touches is a TensorCore reference. -/
theorem ops_nl_sub : (ops_nl : List (HloOp τ sig (Elt F))).Forall fun op => op.bufs ⊆ tcRefs τ sig :=
  ⟨binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub ..⟩

/-- Every buffer an operation of the line touches is a TensorCore reference. -/
theorem ops_sub : (ops : List (HloOp τ sig (Elt F))).Forall fun op => op.bufs ⊆ tcRefs τ sig :=
  List.forall_iff_forall_mem.mpr fun op h => by
    simp only [ops, List.mem_append] at h
    rcases h with ((((h | h) | h) | h) | h) | h
    exacts [List.forall_iff_forall_mem.mp ops_ef_sub op h, List.forall_iff_forall_mem.mp ops_nf_sub op h, List.forall_iff_forall_mem.mp ops_gather_sub op h, List.forall_iff_forall_mem.mp ops_el_sub op h, List.forall_iff_forall_mem.mp ops_agg_sub op h, List.forall_iff_forall_mem.mp ops_nl_sub op h]

set_option maxRecDepth 8192 in
/-- No operation of `ops_ef` leaves a buffer at contents it does not determine. -/
theorem ops_ef_fresh : (ops_ef : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of `ops_nf` leaves a buffer at contents it does not determine. -/
theorem ops_nf_fresh : (ops_nf : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of `ops_gather` leaves a buffer at contents it does not determine. -/
theorem ops_gather_fresh : (ops_gather : List (HloOp τ sig (Elt F))).Forall fun op => op.fresh = ∅ :=
  ⟨rfl, rfl, rfl, rfl, rfl, rfl, rfl, rfl, rfl, rfl, rfl, rfl, rfl, rfl, rfl, rfl, rfl, rfl⟩

set_option maxRecDepth 8192 in
/-- No operation of `ops_el` leaves a buffer at contents it does not determine. -/
theorem ops_el_fresh : (ops_el : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- No operation of `ops_agg` leaves a buffer at contents it does not determine. -/
theorem ops_agg_fresh : (ops_agg : List (HloOp τ sig (Elt F))).Forall fun op => op.fresh = ∅ :=
  ⟨rfl, rfl, rfl, rfl⟩

set_option maxRecDepth 8192 in
/-- No operation of `ops_nl` leaves a buffer at contents it does not determine. -/
theorem ops_nl_fresh : (ops_nl : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- Every operation of the line determines what it writes. -/
theorem ops_fresh : ∀ op ∈ (ops : List (HloOp τ sig (Elt F))), op.fresh = ∅ := fun op h => by
  simp only [ops, List.mem_append] at h
  rcases h with ((((h | h) | h) | h) | h) | h
  exacts [List.forall_iff_forall_mem.mp ops_ef_fresh op h, List.forall_iff_forall_mem.mp ops_nf_fresh op h, List.forall_iff_forall_mem.mp ops_gather_fresh op h, List.forall_iff_forall_mem.mp ops_el_fresh op h, List.forall_iff_forall_mem.mp ops_agg_fresh op h, List.forall_iff_forall_mem.mp ops_nl_fresh op h]

/-- The buffers that the operations of `ops_ef` write, in order. -/
abbrev ops_ef_W : List (Ref sig .tc) := [main_v0, main_v1, main_v2, main_v3, main_v4, main_v5, main_v6, main_v7, main_v8, main_v9, main_cst, main_v10, main_v11, main_cst_0, main_v12, main_v13, main_v14, main_v15, main_v16, main_v17, main_v18, main_cst_1, main_v19, main_v20, main_cst_2, main_v21, main_v22, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v23, main_v24, main_v25, main_cst_3, main_v26, main_v27, main_v28, main_v29, main_v30, main_v31, main_v32, main_v33, main_v34, main_v35, main_v36]
set_option maxRecDepth 8192 in
theorem ops_ef_writes : (ops_ef : List (HloOp τ sig (Elt F))).Forall fun op => op.writes ⊆ (ops_ef_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ops_nf` write, in order. -/
abbrev ops_nf_W : List (Ref sig .tc) := [main_v37, main_v38, main_v39, main_v40, main_v41, main_v42, main_cst_4, main_v43, main_v44, main_cst_5, main_v45, main_v46, main_v47, main_v48, main_v49, main_v50, main_v51, main_cst_6, main_v52, main_v53, main_cst_7, main_v54, main_v55, main_c_8, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v56, main_v57, main_v58, main_cst_9, main_v59, main_v60, main_v61, main_v62, main_v63, main_v64, main_v65, main_v66, main_v67, main_v68, main_v69]
set_option maxRecDepth 8192 in
theorem ops_nf_writes : (ops_nf : List (HloOp τ sig (Elt F))).Forall fun op => op.writes ⊆ (ops_nf_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ops_gather` write, in order. -/
abbrev ops_gather_W : List (Ref sig .tc) := [main_c_10, main_v70, main_v71, main_c_11, main_v72, main_v73, main_v74, main_v75, main_v76, main_c_12, main_v77, main_v78, main_c_13, main_v79, main_v80, main_v81, main_v82, main_v83]
set_option maxRecDepth 8192 in
theorem ops_gather_writes : (ops_gather : List (HloOp τ sig (Elt F))).Forall fun op => op.writes ⊆ (ops_gather_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ops_el` write, in order. -/
abbrev ops_el_W : List (Ref sig .tc) := [main_v84, main_v85, main_v86, main_v87, main_v88, main_v89, main_v90, main_cst_14, main_v91, main_v92, main_cst_15, main_v93, main_v94, main_v95, main_v96, main_v97, main_v98, main_v99, main_cst_16, main_v100, main_v101, main_cst_17, main_v102, main_v103, main_c_18, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v104, main_v105, main_v106, main_cst_19, main_v107, main_v108, main_v109, main_v110, main_v111, main_v112, main_v113, main_v114, main_v115, main_v116, main_v117]
set_option maxRecDepth 8192 in
theorem ops_el_writes : (ops_el : List (HloOp τ sig (Elt F))).Forall fun op => op.writes ⊆ (ops_el_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ops_agg` write, in order. -/
abbrev ops_agg_W : List (Ref sig .tc) := [main_cst_20, main_v118, main_v119, main_v120]
set_option maxRecDepth 8192 in
theorem ops_agg_writes : (ops_agg : List (HloOp τ sig (Elt F))).Forall fun op => op.writes ⊆ (ops_agg_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ops_nl` write, in order. -/
abbrev ops_nl_W : List (Ref sig .tc) := [main_v121, main_v122, main_v123, main_v124, main_v125, main_v126, main_v127, main_cst_21, main_v128, main_v129, main_cst_22, main_v130, main_v131, main_v132, main_v133, main_v134, main_v135, main_v136, main_cst_23, main_v137, main_v138, main_cst_24, main_v139, main_v140, main_c_25, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v141, main_v142, main_v143, main_cst_26, main_v144, main_v145, main_v146, main_v147, main_v148, main_v149, main_v150, main_v151, main_v152, main_v153, main_v154, main_v155, main_v156, main_v157, main_v158, main_v159, main_v160, main_v161, main_cst_27, main_v162, main_v163, main_cst_28, main_v164, main_v165, main_v166, main_v167, main_v168, main_v169, main_v170]
set_option maxRecDepth 8192 in
theorem ops_nl_writes : (ops_nl : List (HloOp τ sig (Elt F))).Forall fun op => op.writes ⊆ (ops_nl_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- A buffer that no operation of the line writes keeps its contents through the line. -/
theorem ops_keep (V : Valuation τ sig (Elt F)) (r : Ref sig .tc)
    (h0 : r ∉ ops_ef_W) (h1 : r ∉ ops_nf_W) (h2 : r ∉ ops_gather_W) (h3 : r ∉ ops_el_W) (h4 : r ∉ ops_agg_W) (h5 : r ∉ ops_nl_W) :
    after ops V (Proc.devRef .tc r) = V (Proc.devRef .tc r) := by
  simp only [ops, StableHlo.after_append]
  rw [after_of_writes_sub ops_nl _ ops_nl_writes h5,
    after_of_writes_sub ops_agg _ ops_agg_writes h4,
    after_of_writes_sub ops_el _ ops_el_writes h3,
    after_of_writes_sub ops_gather _ ops_gather_writes h2,
    after_of_writes_sub ops_nf _ ops_nf_writes h1,
    after_of_writes_sub ops_ef _ ops_ef_writes h0]

/-- The operations of @main's window 0, numbers 1 … 82 of the line: the windows end inside the stretches. -/
abbrev win0 : List (HloOp τ sig (Elt F)) := ops_ef ++ ops_nf.take 17

/-- The operations of @main's window 1, numbers 83 … 164 of the line: the windows end inside the stretches. -/
abbrev win1 : List (HloOp τ sig (Elt F)) := ops_nf.drop 17 ++ ops_gather ++ ops_el.take 20

/-- The operations of @main's window 2, numbers 165 … 268 of the line: the windows end inside the stretches. -/
abbrev win2 : List (HloOp τ sig (Elt F)) := ops_el.drop 20 ++ ops_agg ++ ops_nl.take 58

/-- The operations of @main's window 3, numbers 269 … 290 of the line: the windows end inside the stretches. -/
abbrev win3 : List (HloOp τ sig (Elt F)) := ops_nl.drop 58

set_option maxRecDepth 8192 in
set_option maxHeartbeats 4000000 in
/-- Window 0 of @main is the line of its operations: the calls unfold to their callees' operations. -/
theorem main_part0_eq (c : Dev nD) : main_part0 (F := F) c = seq win0 := rfl

set_option maxRecDepth 8192 in
set_option maxHeartbeats 4000000 in
/-- Window 1 of @main is the line of its operations: the calls unfold to their callees' operations. -/
theorem main_part1_eq (c : Dev nD) : main_part1 (F := F) c = seq win1 := rfl

set_option maxRecDepth 8192 in
set_option maxHeartbeats 4000000 in
/-- Window 2 of @main is the line of its operations: the calls unfold to their callees' operations. -/
theorem main_part2_eq (c : Dev nD) : main_part2 (F := F) c = seq win2 := rfl

set_option maxRecDepth 8192 in
set_option maxHeartbeats 4000000 in
/-- Window 3 of @main is the line of its operations: the calls unfold to their callees' operations. -/
theorem main_part3_eq (c : Dev nD) : main_part3 (F := F) c = seq win3 := rfl

private theorem take_append_drop_append {α : Type} (n : Nat) (l r : List α) : l.take n ++ (l.drop n ++ r) = l ++ r := by
  rw [← List.append_assoc, List.take_append_drop]

/-- The six stretches in a row are the four windows in a row. -/
theorem ops_eq_windows : (ops : List (HloOp τ sig (Elt F))) = win0 ++ (win1 ++ (win2 ++ win3)) := by
  simp only [ops, win0, win1, win2, win3, List.append_assoc, take_append_drop_append, List.take_append_drop]

/-- @main is the straight line of its 290 operations. -/
theorem main_eq (c : Dev nD) : main (F := F) c = seq ops := by
  rw [ops_eq_windows, seq_append win0, seq_append win1, seq_append win2,
    ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

/-- On every device, for any float values, from any memory with zero counters: every weakly fair execution of @main
    terminates; each of the three results (the edge latents `main_v117`, the node output `main_v170`, the node
    embedding `main_v69`) ends at the fold of the 290 operations over the launch contents, read at its buffer; and
    every argument ends unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      (r.2.mem ((c.tc : Thread nD τ).loc main_v117) = after ops (launchContents m c) (Proc.devRef .tc main_v117)
        ∧ r.2.mem ((c.tc : Thread nD τ).loc main_v170) = after ops (launchContents m c) (Proc.devRef .tc main_v170)
        ∧ r.2.mem ((c.tc : Thread nD τ).loc main_v69) = after ops (launchContents m c) (Proc.devRef .tc main_v69))
      ∧ (r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5)
        ∧ r.2.mem ((c.tc : Thread nD τ).loc main_arg6) = m ((c.tc : Thread nD τ).loc main_arg6)
        ∧ r.2.mem ((c.tc : Thread nD τ).loc main_arg7) = m ((c.tc : Thread nD τ).loc main_arg7)
        ∧ r.2.mem ((c.tc : Thread nD τ).loc main_arg8) = m ((c.tc : Thread nD τ).loc main_arg8)
        ∧ r.2.mem ((c.tc : Thread nD τ).loc main_arg9) = m ((c.tc : Thread nD τ).loc main_arg9)
        ∧ r.2.mem ((c.tc : Thread nD τ).loc main_arg10) = m ((c.tc : Thread nD τ).loc main_arg10)
        ∧ r.2.mem ((c.tc : Thread nD τ).loc main_arg11) = m ((c.tc : Thread nD τ).loc main_arg11)
        ∧ r.2.mem ((c.tc : Thread nD τ).loc main_arg12) = m ((c.tc : Thread nD τ).loc main_arg12)
        ∧ r.2.mem ((c.tc : Thread nD τ).loc main_arg13) = m ((c.tc : Thread nD τ).loc main_arg13)
        ∧ r.2.mem ((c.tc : Thread nD τ).loc main_arg14) = m ((c.tc : Thread nD τ).loc main_arg14)
        ∧ r.2.mem ((c.tc : Thread nD τ).loc main_arg15) = m ((c.tc : Thread nD τ).loc main_arg15)
        ∧ r.2.mem ((c.tc : Thread nD τ).loc main_arg16) = m ((c.tc : Thread nD τ).loc main_arg16)
        ∧ r.2.mem ((c.tc : Thread nD τ).loc main_arg17) = m ((c.tc : Thread nD τ).loc main_arg17)
        ∧ r.2.mem ((c.tc : Thread nD τ).loc main_arg18) = m ((c.tc : Thread nD τ).loc main_arg18)
        ∧ r.2.mem ((c.tc : Thread nD τ).loc main_arg19) = m ((c.tc : Thread nD τ).loc main_arg19)
        ∧ r.2.mem ((c.tc : Thread nD τ).loc main_arg20) = m ((c.tc : Thread nD τ).loc main_arg20)
        ∧ r.2.mem ((c.tc : Thread nD τ).loc main_arg21) = m ((c.tc : Thread nD τ).loc main_arg21)
        ∧ r.2.mem ((c.tc : Thread nD τ).loc main_arg22) = m ((c.tc : Thread nD τ).loc main_arg22)
        ∧ r.2.mem ((c.tc : Thread nD τ).loc main_arg23) = m ((c.tc : Thread nD τ).loc main_arg23)
        ∧ r.2.mem ((c.tc : Thread nD τ).loc main_arg24) = m ((c.tc : Thread nD τ).loc main_arg24)
        ∧ r.2.mem ((c.tc : Thread nD τ).loc main_arg25) = m ((c.tc : Thread nD τ).loc main_arg25)
        ∧ r.2.mem ((c.tc : Thread nD τ).loc main_arg26) = m ((c.tc : Thread nD τ).loc main_arg26)
        ∧ r.2.mem ((c.tc : Thread nD τ).loc main_arg27) = m ((c.tc : Thread nD τ).loc main_arg27)
        ∧ r.2.mem ((c.tc : Thread nD τ).loc main_arg28) = m ((c.tc : Thread nD τ).loc main_arg28)
        ∧ r.2.mem ((c.tc : Thread nD τ).loc main_arg29) = m ((c.tc : Thread nD τ).loc main_arg29)
        ∧ r.2.mem ((c.tc : Thread nD τ).loc main_arg30) = m ((c.tc : Thread nD τ).loc main_arg30)) :=
  (θ_run defs _ _).mono (fun _ h c => ⟨⟨h c main_v117, h c main_v170, h c main_v69⟩,
      (h c main_arg0).trans (ops_keep _ main_arg0 (by decide) (by decide) (by decide) (by decide) (by decide) (by decide)),
      (h c main_arg1).trans (ops_keep _ main_arg1 (by decide) (by decide) (by decide) (by decide) (by decide) (by decide)),
      (h c main_arg2).trans (ops_keep _ main_arg2 (by decide) (by decide) (by decide) (by decide) (by decide) (by decide)),
      (h c main_arg3).trans (ops_keep _ main_arg3 (by decide) (by decide) (by decide) (by decide) (by decide) (by decide)),
      (h c main_arg4).trans (ops_keep _ main_arg4 (by decide) (by decide) (by decide) (by decide) (by decide) (by decide)),
      (h c main_arg5).trans (ops_keep _ main_arg5 (by decide) (by decide) (by decide) (by decide) (by decide) (by decide)),
      (h c main_arg6).trans (ops_keep _ main_arg6 (by decide) (by decide) (by decide) (by decide) (by decide) (by decide)),
      (h c main_arg7).trans (ops_keep _ main_arg7 (by decide) (by decide) (by decide) (by decide) (by decide) (by decide)),
      (h c main_arg8).trans (ops_keep _ main_arg8 (by decide) (by decide) (by decide) (by decide) (by decide) (by decide)),
      (h c main_arg9).trans (ops_keep _ main_arg9 (by decide) (by decide) (by decide) (by decide) (by decide) (by decide)),
      (h c main_arg10).trans (ops_keep _ main_arg10 (by decide) (by decide) (by decide) (by decide) (by decide) (by decide)),
      (h c main_arg11).trans (ops_keep _ main_arg11 (by decide) (by decide) (by decide) (by decide) (by decide) (by decide)),
      (h c main_arg12).trans (ops_keep _ main_arg12 (by decide) (by decide) (by decide) (by decide) (by decide) (by decide)),
      (h c main_arg13).trans (ops_keep _ main_arg13 (by decide) (by decide) (by decide) (by decide) (by decide) (by decide)),
      (h c main_arg14).trans (ops_keep _ main_arg14 (by decide) (by decide) (by decide) (by decide) (by decide) (by decide)),
      (h c main_arg15).trans (ops_keep _ main_arg15 (by decide) (by decide) (by decide) (by decide) (by decide) (by decide)),
      (h c main_arg16).trans (ops_keep _ main_arg16 (by decide) (by decide) (by decide) (by decide) (by decide) (by decide)),
      (h c main_arg17).trans (ops_keep _ main_arg17 (by decide) (by decide) (by decide) (by decide) (by decide) (by decide)),
      (h c main_arg18).trans (ops_keep _ main_arg18 (by decide) (by decide) (by decide) (by decide) (by decide) (by decide)),
      (h c main_arg19).trans (ops_keep _ main_arg19 (by decide) (by decide) (by decide) (by decide) (by decide) (by decide)),
      (h c main_arg20).trans (ops_keep _ main_arg20 (by decide) (by decide) (by decide) (by decide) (by decide) (by decide)),
      (h c main_arg21).trans (ops_keep _ main_arg21 (by decide) (by decide) (by decide) (by decide) (by decide) (by decide)),
      (h c main_arg22).trans (ops_keep _ main_arg22 (by decide) (by decide) (by decide) (by decide) (by decide) (by decide)),
      (h c main_arg23).trans (ops_keep _ main_arg23 (by decide) (by decide) (by decide) (by decide) (by decide) (by decide)),
      (h c main_arg24).trans (ops_keep _ main_arg24 (by decide) (by decide) (by decide) (by decide) (by decide) (by decide)),
      (h c main_arg25).trans (ops_keep _ main_arg25 (by decide) (by decide) (by decide) (by decide) (by decide) (by decide)),
      (h c main_arg26).trans (ops_keep _ main_arg26 (by decide) (by decide) (by decide) (by decide) (by decide) (by decide)),
      (h c main_arg27).trans (ops_keep _ main_arg27 (by decide) (by decide) (by decide) (by decide) (by decide) (by decide)),
      (h c main_arg28).trans (ops_keep _ main_arg28 (by decide) (by decide) (by decide) (by decide) (by decide) (by decide)),
      (h c main_arg29).trans (ops_keep _ main_arg29 (by decide) (by decide) (by decide) (by decide) (by decide) (by decide)),
      (h c main_arg30).trans (ops_keep _ main_arg30 (by decide) (by decide) (by decide) (by decide) (by decide) (by decide))⟩)
    (run_seq scopedRefs_eq scopedSems_eq defs main (fun _ => ops) main_eq (fun _ => ops_sub) m ρ (fun _ => ops_fresh))

end Cert.ReferenceIdeal.RefRun

end
-- ==== Proof.HostForms.lean ====
/-
  The layers as the host program spells them on whole arrays, each shown to be the layer function of Layers.lean:
  an affine layer is a dot_general plus the bias vector laid out as a row and spread over the rows; the swish is
  x * (1 / (1 + exp (-x))) with the constant one spread from a scalar; a row statistic is a sum along the columns
  from the zero pattern, laid out as a column and divided by 64; the variance as the host's library function spells
  it (the mean recomputed, the squares summed, the divisor 64 minus a zero correction, the quotient kept only where
  that divisor is positive); the normalisation spreads the column statistics back over the columns.
-/
import Idealize.ShloMosaic.Lib.Pipeline.Value
import Idealize.ShloMosaic.Lib.ValueIdx
import Idealize.ShloMosaic.Lib.ValueLayout
import Idealize.ShloMosaic.PureOps.Ideal.Laws
import proofs.«156218_j71949292142781_2_alg».proof.Proof.Layers

noncomputable section

open scoped BigOperators

namespace Cert.Gnn.HostForm

open Idealize.ShloMosaic Idealize.ShloMosaic.ValueIdx Cert.Gnn

variable {a k n : ℕ}

/-- The shape of a scalar. -/
abbrev S0 : Shape := ⟨0, ![]⟩

/-! ## Reading a spread array at an entry -/

/-- A scalar spread over any shape reads the scalar everywhere. -/
theorem bcast_scalar_apply {α : Type} {t : Shape} (c : S0.Idx → α) (h0 : S0.BroadcastsInDim t ![]) (j : t.Idx) :
    broadcastInDim t ![] h0 c j = c ix0 :=
  broadcastInDim_apply ![] h0 c j ix0 fun ax => ax.elim0

/-- A vector laid out as a row reads, at (u, q), the vector at q. -/
theorem bcast_vec_row_apply {α : Type} (b : (⟨1, ![n]⟩ : Shape).Idx → α)
    (hb1 : (⟨1, ![n]⟩ : Shape).BroadcastsInDim ⟨2, ![1, n]⟩ ![1]) (u : Fin 1) (q : Fin n) :
    broadcastInDim ⟨2, ![1, n]⟩ ![1] hb1 b (ix2 u q) = b (ix1 q) := by
  refine broadcastInDim_apply ![1] hb1 b (ix2 u q) (ix1 q) fun ax => ?_
  match ax with
  | ⟨0, _⟩ =>
    show q.val = if n = 1 then 0 else q.val
    split
    · have := q.isLt; omega
    · rfl

/-- A vector laid out as a column reads, at (r, u), the vector at r. -/
theorem bcast_vec_col_apply {α : Type} (x : (⟨1, ![a]⟩ : Shape).Idx → α)
    (hb : (⟨1, ![a]⟩ : Shape).BroadcastsInDim ⟨2, ![a, 1]⟩ ![0]) (r : Fin a) (u : Fin 1) :
    broadcastInDim ⟨2, ![a, 1]⟩ ![0] hb x (ix2 r u) = x (ix1 r) := by
  refine broadcastInDim_apply ![0] hb x (ix2 r u) (ix1 r) fun ax => ?_
  match ax with
  | ⟨0, _⟩ =>
    show r.val = if a = 1 then 0 else r.val
    split
    · have := r.isLt; omega
    · rfl

/-- A vector laid out as a row and spread over the rows reads, at (r, q), the vector at q. -/
theorem bcast2_apply {α : Type} (b : (⟨1, ![n]⟩ : Shape).Idx → α)
    (hb1 : (⟨1, ![n]⟩ : Shape).BroadcastsInDim ⟨2, ![1, n]⟩ ![1])
    (hB : (⟨2, ![1, n]⟩ : Shape).BroadcastsInDim ⟨2, ![a, n]⟩ ![0, 1]) (r : Fin a) (q : Fin n) :
    broadcastInDim ⟨2, ![a, n]⟩ ![0, 1] hB (broadcastInDim ⟨2, ![1, n]⟩ ![1] hb1 b) (ix2 r q) = b (ix1 q) := by
  rw [Cert.Dense.bcast_row_apply, bcast_vec_row_apply]

/-! ## The affine layer and the swish -/

section Affine

variable (d : DotDims ⟨2, ![a, k]⟩ ⟨2, ![k, n]⟩ ⟨2, ![a, n]⟩)
  (hlc : d.lhsContracting = [1]) (hrc : d.rhsContracting = [0]) (hln : d.lhsNonContracting = [0])
  (hrn : d.rhsNonContracting = [1]) (hlb : d.lhsBatch = []) (hrb : d.rhsBatch = [])

include hlc hrc hln hrn hlb hrb in
/-- An affine layer as the host spells it: the dot_general plus the bias laid out as a row and spread over the rows. -/
theorem dense_eq (x : FVec Ideal ⟨2, ![a, k]⟩ .f32) (W : FVec Ideal ⟨2, ![k, n]⟩ .f32) (b : FVec Ideal ⟨1, ![n]⟩ .f32)
    (hb1 : (⟨1, ![n]⟩ : Shape).BroadcastsInDim ⟨2, ![1, n]⟩ ![1])
    (hB : (⟨2, ![1, n]⟩ : Shape).BroadcastsInDim ⟨2, ![a, n]⟩ ![0, 1]) :
    (addf (Host.dotGeneral (F := Ideal) d none x W)
        (broadcastInDim ⟨2, ![a, n]⟩ ![0, 1] hB (broadcastInDim ⟨2, ![1, n]⟩ ![1] hb1 b)) : Mat a n)
      = dense (x : Mat a k) (W : Mat k n) (b : Vc n) := by
  funext j
  obtain ⟨r, q, rfl⟩ : ∃ (r : Fin a) (q : Fin n), j = ix2 r q := ⟨j 0, j 1, eq_ix2 j⟩
  rw [addf_apply, bcast2_apply, Cert.Dense.dotGeneral_eq_prod d hlc hrc hln hrn hlb hrb]
  rfl

end Affine

/-- The swish as the host spells it: the constant one spread from a scalar, the negation and the exponential the
    host's own. -/
theorem swish_eq (x : FVec Ideal ⟨2, ![a, n]⟩ .f32) (h0 : S0.BroadcastsInDim ⟨2, ![a, n]⟩ ![]) :
    (mulf x (Host.divf (broadcastInDim ⟨2, ![a, n]⟩ ![] h0 (constant (F := Ideal) S0 .f32 0x3F800000#32))
        (addf (broadcastInDim ⟨2, ![a, n]⟩ ![] h0 (constant (F := Ideal) S0 .f32 0x3F800000#32))
          (Host.exp (Host.negf x)))) : Mat a n)
      = swish (x : Mat a n) := by
  funext i
  rw [mulf_apply]
  show (x i : EReal) * Ideal.div (broadcastInDim ⟨2, ![a, n]⟩ ![] h0 (constant (F := Ideal) S0 .f32 0x3F800000#32) i)
      (broadcastInDim ⟨2, ![a, n]⟩ ![] h0 (constant (F := Ideal) S0 .f32 0x3F800000#32) i + Ideal.exp (-(x i))) = _
  rw [bcast_scalar_apply]
  rfl

/-! ## Row statistics -/

section Stats

variable (hR : (⟨2, ![a, n]⟩ : Shape).ReducesTo [1] (⟨1, ![a]⟩ : Shape))
  (hR' : (⟨2, ![a, n]⟩ : Shape).Reduces [1] (⟨1, ![a]⟩ : Shape)) (hu : 0 < S0.numel)
  (hb : (⟨1, ![a]⟩ : Shape).BroadcastsInDim ⟨2, ![a, 1]⟩ ![0])
  (h01 : S0.BroadcastsInDim ⟨2, ![a, 1]⟩ ![])
  (hS : (⟨2, ![a, 1]⟩ : Shape).BroadcastsInDim ⟨2, ![a, n]⟩ ![0, 1])

include hR' in
/-- The host's sum along the columns from the zero pattern, read at row p, is the sum of that row's entries. -/
theorem rowsum_apply (y : FVec Ideal ⟨2, ![a, n]⟩ .f32) (p : Fin a) :
    Host.reduceAdd y (constant (F := Ideal) S0 .f32 0x00000000#32) hR hu (ix1 p) = ∑ c : Fin n, (y : Mat a n) (ix2 p c) := by
  show Ideal.hostReduceAdd hR y (Ideal.ofBits .f32 0x00000000#32) (ix1 p) = _
  rw [Ideal.hostReduceAdd_single hR hR', Ideal.ofBits_zero_f32, zero_add]
  exact Finset.sum_congr rfl fun c _ => congrArg y (Cert.LibKeepdims.lift_cols hR' p c)

include hR' in
/-- The column of row means as the host spells it, read at row p. -/
theorem mean_col (y : FVec Ideal ⟨2, ![a, n]⟩ .f32) (p : Fin a) (u : Fin 1) :
    (Host.divf (broadcastInDim ⟨2, ![a, 1]⟩ ![0] hb (Host.reduceAdd y (constant (F := Ideal) S0 .f32 0x00000000#32) hR hu))
        (broadcastInDim ⟨2, ![a, 1]⟩ ![] h01 (constant (F := Ideal) S0 .f32 0x42800000#32)) : Mat a 1) (ix2 p u)
      = mean (y : Mat a n) p := by
  show Ideal.div (broadcastInDim ⟨2, ![a, 1]⟩ ![0] hb (Host.reduceAdd y (constant (F := Ideal) S0 .f32 0x00000000#32) hR hu) (ix2 p u))
      (broadcastInDim ⟨2, ![a, 1]⟩ ![] h01 (constant (F := Ideal) S0 .f32 0x42800000#32) (ix2 p u)) = _
  rw [bcast_vec_col_apply, bcast_scalar_apply, rowsum_apply hR hR' hu]
  rfl

include hR' in
/-- Each entry minus its row's mean, the mean column spread back over the columns. -/
theorem centred_eq (y : FVec Ideal ⟨2, ![a, n]⟩ .f32) :
    (subf y (broadcastInDim ⟨2, ![a, n]⟩ ![0, 1] hS
        (Host.divf (broadcastInDim ⟨2, ![a, 1]⟩ ![0] hb (Host.reduceAdd y (constant (F := Ideal) S0 .f32 0x00000000#32) hR hu))
          (broadcastInDim ⟨2, ![a, 1]⟩ ![] h01 (constant (F := Ideal) S0 .f32 0x42800000#32)))) : Mat a n)
      = centred (y : Mat a n) := by
  funext j
  obtain ⟨r, q, rfl⟩ : ∃ (r : Fin a) (q : Fin n), j = ix2 r q := ⟨j 0, j 1, eq_ix2 j⟩
  rw [subf_apply, Cert.Dense.bcast_col_apply, mean_col hR hR' hu hb h01]
  rfl

end Stats

/-- Each entry minus its row's mean, from any column that holds the row means, spread back over the columns. -/
theorem centred_of_col (y : FVec Ideal ⟨2, ![a, n]⟩ .f32) (mcol : FVec Ideal ⟨2, ![a, 1]⟩ .f32)
    (hS : (⟨2, ![a, 1]⟩ : Shape).BroadcastsInDim ⟨2, ![a, n]⟩ ![0, 1])
    (hm : ∀ (p : Fin a) (u : Fin 1), (mcol : Mat a 1) (ix2 p u) = mean (y : Mat a n) p) :
    (subf y (broadcastInDim ⟨2, ![a, n]⟩ ![0, 1] hS mcol) : Mat a n) = centred (y : Mat a n) := by
  funext j
  obtain ⟨r, q, rfl⟩ : ∃ (r : Fin a) (q : Fin n), j = ix2 r q := ⟨j 0, j 1, eq_ix2 j⟩
  rw [subf_apply, Cert.Dense.bcast_col_apply, hm]
  rfl

/-! ## The variance as the host's library function spells it, and the normalisation -/

/-- The single-precision pattern of 64.0 denotes the real number 64. -/
theorem c64_eq : c64 = ((64 : ℝ) : EReal) := by
  unfold c64
  simp [Ideal.ofBits, Ideal.ieee, -EReal.coe_mul]; norm_num

/-- The divisor of the variance: 64.0 minus the (zero) correction converted from an integer, a scalar. -/
abbrev divisor : FVec Ideal S0 .f32 :=
  subf (constant (F := Ideal) S0 .f32 0x42800000#32) (sitofp .f32 (constantI S0 32 0#32))

theorem divisor_apply (i : S0.Idx) : (divisor i : EReal) = c64 := by
  show Ideal.ofBits .f32 0x42800000#32 - (((0#32 : BitVec 32).toInt : ℝ) : EReal) = c64
  have h0 : ((0#32 : BitVec 32).toInt : ℝ) = 0 := by norm_num
  rw [h0, EReal.coe_zero, sub_zero]
  rfl

/-- The divisor is positive: the guard of the quotient holds. -/
theorem guard_apply (i : S0.Idx) :
    cmpf .ogt divisor (constant (F := Ideal) S0 .f32 0x00000000#32) i = 1#1 := by
  show Ideal.cmp .ogt (divisor i) (Ideal.ofBits .f32 0x00000000#32) = 1#1
  rw [divisor_apply, Ideal.ofBits_zero_f32, c64_eq]
  unfold Ideal.cmp
  have : (0 : EReal) < ((64 : ℝ) : EReal) := by exact_mod_cast (by norm_num : (0 : ℝ) < 64)
  simp [this]

section Var

variable (hR : (⟨2, ![a, n]⟩ : Shape).ReducesTo [1] (⟨1, ![a]⟩ : Shape))
  (hR' : (⟨2, ![a, n]⟩ : Shape).Reduces [1] (⟨1, ![a]⟩ : Shape)) (hu : 0 < S0.numel)
  (hb : (⟨1, ![a]⟩ : Shape).BroadcastsInDim ⟨2, ![a, 1]⟩ ![0])
  (h01 : S0.BroadcastsInDim ⟨2, ![a, 1]⟩ ![])

include hR' in
/-- The column of row variances as the host's library function spells it, from the centred entries: their squares
    summed along the columns, divided by the divisor spread over the column, the quotient kept where the divisor is
    positive (it is) and a not-a-number pattern elsewhere; read at row p. -/
theorem var_col (ce : FVec Ideal ⟨2, ![a, n]⟩ .f32) (yy : Mat a n) (hce : (ce : Mat a n) = centred yy)
    (p : Fin a) (u : Fin 1) :
    (select (broadcastInDim ⟨2, ![a, 1]⟩ ![] h01 (cmpf .ogt divisor (constant (F := Ideal) S0 .f32 0x00000000#32)))
        (Host.divf
          (broadcastInDim ⟨2, ![a, 1]⟩ ![0] hb (Host.reduceAdd (mulf ce ce) (constant (F := Ideal) S0 .f32 0x00000000#32) hR hu))
          (broadcastInDim ⟨2, ![a, 1]⟩ ![] h01 divisor))
        (broadcastInDim ⟨2, ![a, 1]⟩ ![] h01 (constant (F := Ideal) S0 .f32 0x7FC00000#32)) : Mat a 1) (ix2 p u)
      = var yy p := by
  rw [select_apply, bcast_scalar_apply, guard_apply, select_one]
  show Ideal.div
      (broadcastInDim ⟨2, ![a, 1]⟩ ![0] hb (Host.reduceAdd (mulf ce ce) (constant (F := Ideal) S0 .f32 0x00000000#32) hR hu) (ix2 p u))
      (broadcastInDim ⟨2, ![a, 1]⟩ ![] h01 divisor (ix2 p u)) = _
  rw [bcast_vec_col_apply, bcast_scalar_apply, divisor_apply, rowsum_apply hR hR' hu]
  unfold var
  rw [← hce]
  rfl

end Var

/-- The normalisation as the host spells it, from the centred entries and the column of row variances: the small
    constant added, the inverse square root spread over the columns, then the gain and the offset, each laid out as a
    row and spread over the rows. -/
theorem lnorm_eq (g bt : FVec Ideal ⟨1, ![n]⟩ .f32) (vcol : FVec Ideal ⟨2, ![a, 1]⟩ .f32)
    (ce : FVec Ideal ⟨2, ![a, n]⟩ .f32) (yy : Mat a n) (hce : (ce : Mat a n) = centred yy)
    (hv : ∀ (p : Fin a) (u : Fin 1), (vcol : Mat a 1) (ix2 p u) = var yy p)
    (h01 : S0.BroadcastsInDim ⟨2, ![a, 1]⟩ ![])
    (hS : (⟨2, ![a, 1]⟩ : Shape).BroadcastsInDim ⟨2, ![a, n]⟩ ![0, 1])
    (hb1 : (⟨1, ![n]⟩ : Shape).BroadcastsInDim ⟨2, ![1, n]⟩ ![1])
    (hB : (⟨2, ![1, n]⟩ : Shape).BroadcastsInDim ⟨2, ![a, n]⟩ ![0, 1]) :
    (addf (mulf (mulf ce (broadcastInDim ⟨2, ![a, n]⟩ ![0, 1] hS
          (Host.rsqrt (addf vcol (broadcastInDim ⟨2, ![a, 1]⟩ ![] h01 (constant (F := Ideal) S0 .f32 0x3727C5AC#32))))))
        (broadcastInDim ⟨2, ![a, n]⟩ ![0, 1] hB (broadcastInDim ⟨2, ![1, n]⟩ ![1] hb1 g)))
      (broadcastInDim ⟨2, ![a, n]⟩ ![0, 1] hB (broadcastInDim ⟨2, ![1, n]⟩ ![1] hb1 bt)) : Mat a n)
      = lnorm yy g bt := by
  funext j
  obtain ⟨r, q, rfl⟩ : ∃ (r : Fin a) (q : Fin n), j = ix2 r q := ⟨j 0, j 1, eq_ix2 j⟩
  rw [addf_apply, mulf_apply, mulf_apply, bcast2_apply, bcast2_apply, Cert.Dense.bcast_col_apply]
  show (ce : Mat a n) (ix2 r q) * Ideal.rsqrt ((vcol : Mat a 1) (ix2 r (0 : Fin 1))
      + broadcastInDim ⟨2, ![a, 1]⟩ ![] h01 (constant (F := Ideal) S0 .f32 0x3727C5AC#32) (ix2 r (0 : Fin 1)))
      * (g : Vc n) (ix1 q) + (bt : Vc n) (ix1 q) = _
  rw [bcast_scalar_apply, hv, hce]
  rfl

end Cert.Gnn.HostForm

end
-- ==== Proof.RefValue.lean ====
/-
  The values of the reference's six stretches, read as the layer functions of Layers.lean at the exact (extended real)
  instance: each stretch is run from an arbitrary valuation W of the buffers, and the buffer its last operation writes
  is shown to hold the layer function of W's contents at the buffers the stretch reads. A stretch with a layer
  normalisation is cut into four parts in a row - the two affine layers with the swish between them, the column of row
  means, the column of row variances (the library function's operations) and the normalisation proper -, each read from
  an arbitrary valuation, and the parts are joined through the lists of buffers each of them writes.
-/
import proofs.«156218_j71949292142781_2_alg».proof.Proof.RefRun
import proofs.«156218_j71949292142781_2_alg».proof.Proof.HostForms
import proofs.«156218_j71949292142781_2_alg».proof.Proof.Spec
import proofs.«156218_j71949292142781_2_alg».proof.Proof.Bands

noncomputable section

open scoped BigOperators

namespace Cert.ReferenceIdeal.RefVal

open Cert.ReferenceIdeal Cert.ReferenceIdeal.Gen Cert.ReferenceIdeal.RefRun Idealize.ShloMosaic Idealize.ShloMosaic.TcCoe Idealize.SL.Sem
  Idealize.ShloMosaic.StableHlo Idealize.ShloMosaic.ValueIdx Cert.Gnn

variable {F : FTy → Type} [FloatOps F]

/-- Contents carried to a typed reference's buffer type and back are the contents. -/
theorem ofBuf_toBuf {Val : EltTy → Type} {T : BufTy} (x : StableHlo.TRef sig T) (v : T.Contents Val) :
    x.ofBuf (x.toBuf v) = v := by
  obtain ⟨r, h, _, _⟩ := x
  subst h
  rfl

/-- The edge embedding: the two affine layers with the swish between them (operations 1 … 21 of the line); the last writes `main_v18`. -/
abbrev ef1 : List (HloOp τ sig (Elt F)) :=
  [ StableHlo.unary main_arg0 main_v0 ((extractStridedSlice S1x800000 ![0, 0] · slices_S2x800000_S1x800000_0_0) : (⟨S2x800000, .i32⟩ : BufTy).Contents (Elt F) → (⟨S1x800000, .i32⟩ : BufTy).Contents (Elt F)),   -- %0 = slice %arg0 [0:1, 0:800000]
    StableHlo.reshape main_v0 main_v1 rfl shapeCasts_S1x800000_S800000,   -- %1 = reshape %0
    StableHlo.unary main_arg0 main_v2 ((extractStridedSlice S1x800000 ![1, 0] · slices_S2x800000_S1x800000_1_0) : (⟨S2x800000, .i32⟩ : BufTy).Contents (Elt F) → (⟨S1x800000, .i32⟩ : BufTy).Contents (Elt F)),   -- %2 = slice %arg0 [1:2, 0:800000]
    StableHlo.reshape main_v2 main_v3 rfl shapeCasts_S1x800000_S800000,   -- %3 = reshape %2
    StableHlo.binary main_arg1 main_arg3 main_v4 ((fun l r => Host.dotGeneral dot_S800000x4_S4x64_S800000x64_1_0_0_1_n_n none l r) : (⟨S800000x4, .f32⟩ : BufTy).Contents (Elt F) → (⟨S4x64, .f32⟩ : BufTy).Contents (Elt F) → (⟨S800000x64, .f32⟩ : BufTy).Contents (Elt F)),   -- %4 = dot_general %arg1, %arg3, contracting_dims = [1] x [0], precision = [DEFAULT, DEFAULT]
    StableHlo.unary main_arg4 main_v5 (broadcastInDim S1x64 ![1] bcast_S64_S1x64_1 : (⟨S64, .f32⟩ : BufTy).Contents (Elt F) → (⟨S1x64, .f32⟩ : BufTy).Contents (Elt F)),   -- %5 = broadcast_in_dim %arg4, dims = [1]
    StableHlo.unary main_v5 main_v6 (broadcastInDim S800000x64 ![0, 1] bcast_S1x64_S800000x64_0_1 : (⟨S1x64, .f32⟩ : BufTy).Contents (Elt F) → (⟨S800000x64, .f32⟩ : BufTy).Contents (Elt F)),   -- %6 = broadcast_in_dim %5, dims = [0, 1]
    StableHlo.binary main_v4 main_v6 main_v7 (addf : (⟨S800000x64, .f32⟩ : BufTy).Contents (Elt F) → (⟨S800000x64, .f32⟩ : BufTy).Contents (Elt F) → (⟨S800000x64, .f32⟩ : BufTy).Contents (Elt F)),   -- %7 = add %4, %6
    StableHlo.unary main_v7 main_v8 (Host.negf : (⟨S800000x64, .f32⟩ : BufTy).Contents (Elt F) → (⟨S800000x64, .f32⟩ : BufTy).Contents (Elt F)),   -- %8 = negate %7
    StableHlo.unary main_v8 main_v9 (Host.exp : (⟨S800000x64, .f32⟩ : BufTy).Contents (Elt F) → (⟨S800000x64, .f32⟩ : BufTy).Contents (Elt F)),   -- %9 = exponential %8
    StableHlo.nullary main_cst (constant S_ .f32 0x3F800000#32),   -- %cst = constant dense<1.000000e+00>
    StableHlo.unary main_cst main_v10 (broadcastInDim S800000x64 ![] bcast_S_S800000x64 : (⟨S_, .f32⟩ : BufTy).Contents (Elt F) → (⟨S800000x64, .f32⟩ : BufTy).Contents (Elt F)),   -- %10 = broadcast_in_dim %cst, dims = []
    StableHlo.binary main_v10 main_v9 main_v11 (addf : (⟨S800000x64, .f32⟩ : BufTy).Contents (Elt F) → (⟨S800000x64, .f32⟩ : BufTy).Contents (Elt F) → (⟨S800000x64, .f32⟩ : BufTy).Contents (Elt F)),   -- %11 = add %10, %9
    StableHlo.nullary main_cst_0 (constant S_ .f32 0x3F800000#32),   -- %cst_0 = constant dense<1.000000e+00>
    StableHlo.unary main_cst_0 main_v12 (broadcastInDim S800000x64 ![] bcast_S_S800000x64 : (⟨S_, .f32⟩ : BufTy).Contents (Elt F) → (⟨S800000x64, .f32⟩ : BufTy).Contents (Elt F)),   -- %12 = broadcast_in_dim %cst_0, dims = []
    StableHlo.binary main_v12 main_v11 main_v13 (Host.divf : (⟨S800000x64, .f32⟩ : BufTy).Contents (Elt F) → (⟨S800000x64, .f32⟩ : BufTy).Contents (Elt F) → (⟨S800000x64, .f32⟩ : BufTy).Contents (Elt F)),   -- %13 = divide %12, %11
    StableHlo.binary main_v7 main_v13 main_v14 (mulf : (⟨S800000x64, .f32⟩ : BufTy).Contents (Elt F) → (⟨S800000x64, .f32⟩ : BufTy).Contents (Elt F) → (⟨S800000x64, .f32⟩ : BufTy).Contents (Elt F)),   -- %14 = multiply %7, %13
    StableHlo.binary main_v14 main_arg5 main_v15 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),   -- %15 = dot_general %14, %arg5, contracting_dims = [1] x [0], precision = [DEFAULT, DEFAULT]
    StableHlo.unary main_arg6 main_v16 (broadcastInDim S1x64 ![1] bcast_S64_S1x64_1 : (⟨S64, .f32⟩ : BufTy).Contents (Elt F) → (⟨S1x64, .f32⟩ : BufTy).Contents (Elt F)),   -- %16 = broadcast_in_dim %arg6, dims = [1]
    StableHlo.unary main_v16 main_v17 (broadcastInDim S800000x64 ![0, 1] bcast_S1x64_S800000x64_0_1 : (⟨S1x64, .f32⟩ : BufTy).Contents (Elt F) → (⟨S800000x64, .f32⟩ : BufTy).Contents (Elt F)),   -- %17 = broadcast_in_dim %16, dims = [0, 1]
    StableHlo.binary main_v15 main_v17 main_v18 (addf : (⟨S800000x64, .f32⟩ : BufTy).Contents (Elt F) → (⟨S800000x64, .f32⟩ : BufTy).Contents (Elt F) → (⟨S800000x64, .f32⟩ : BufTy).Contents (Elt F)) ]   -- %18 = add %15, %17

/-- The edge embedding: the column of row means (operations 22 … 27); the last writes `main_v22`. -/
abbrev ef2 : List (HloOp τ sig (Elt F)) :=
  [ StableHlo.nullary main_cst_1 (constant S_ .f32 0x00000000#32),   -- %cst_1 = constant dense<0.000000e+00>
    StableHlo.binary main_v18 main_cst_1 main_v19 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),   -- %19 = reduce(%18 init: %cst_1) applies add across dimensions = [1]
    StableHlo.unary main_v19 main_v20 (broadcastInDim S800000x1 ![0] bcast_S800000_S800000x1_0 : (⟨S800000, .f32⟩ : BufTy).Contents (Elt F) → (⟨S800000x1, .f32⟩ : BufTy).Contents (Elt F)),   -- %20 = broadcast_in_dim %19, dims = [0]
    StableHlo.nullary main_cst_2 (constant S_ .f32 0x42800000#32),   -- %cst_2 = constant dense<6.400000e+01>
    StableHlo.unary main_cst_2 main_v21 (broadcastInDim S800000x1 ![] bcast_S_S800000x1 : (⟨S_, .f32⟩ : BufTy).Contents (Elt F) → (⟨S800000x1, .f32⟩ : BufTy).Contents (Elt F)),   -- %21 = broadcast_in_dim %cst_2, dims = []
    StableHlo.binary main_v20 main_v21 main_v22 (Host.divf : (⟨S800000x1, .f32⟩ : BufTy).Contents (Elt F) → (⟨S800000x1, .f32⟩ : BufTy).Contents (Elt F) → (⟨S800000x1, .f32⟩ : BufTy).Contents (Elt F)) ]   -- %22 = divide %20, %21

/-- The edge embedding: the column of row variances, the library function's operations (operations 28 … 51); the last writes `main_v23`. -/
abbrev ef3 : List (HloOp τ sig (Elt F)) :=
  [ StableHlo.nullary main_c (constantI S_ 32 0#32),   -- %c = constant dense<0>
    StableHlo.TRef.nullary main_call0.cst (constant S_ .f32 0x00000000#32),   -- in @_var: %cst = constant dense<0.000000e+00>
    StableHlo.TRef.binary (.of main_v18 : StableHlo.TRef sig ⟨S800000x64, .f32⟩) main_call0.cst main_call0.v0 (fun x v => Host.reduceAdd x v reducesTo_S800000x64_S800000_d1 h_S_),   -- in @_var: %0 = reduce(%arg0 init: %cst) applies add across dimensions = [1]
    StableHlo.TRef.unary main_call0.v0 main_call0.v1 (broadcastInDim S800000x1 ![0] bcast_S800000_S800000x1_0),   -- in @_var: %1 = broadcast_in_dim %0, dims = [0]
    StableHlo.TRef.nullary main_call0.cst_0 (constant S_ .f32 0x42800000#32),   -- in @_var: %cst_0 = constant dense<6.400000e+01>
    StableHlo.TRef.unary main_call0.cst_0 main_call0.v2 (broadcastInDim S800000x1 ![] bcast_S_S800000x1),   -- in @_var: %2 = broadcast_in_dim %cst_0, dims = []
    StableHlo.TRef.binary main_call0.v1 main_call0.v2 main_call0.v3 Host.divf,   -- in @_var: %3 = divide %1, %2
    StableHlo.TRef.unary main_call0.v3 main_call0.v4 (broadcastInDim S800000x64 ![0, 1] bcast_S800000x1_S800000x64_0_1),   -- in @_var: %4 = broadcast_in_dim %3, dims = [0, 1]
    StableHlo.TRef.binary (.of main_v18 : StableHlo.TRef sig ⟨S800000x64, .f32⟩) main_call0.v4 main_call0.v5 subf,   -- in @_var: %5 = subtract %arg0, %4
    StableHlo.TRef.binary main_call0.v5 main_call0.v5 main_call0.v6 mulf,   -- in @_var: %6 = square %5
    StableHlo.TRef.unary (.of main_c : StableHlo.TRef sig ⟨S_, .i32⟩) main_call0.v7 (sitofp .f32),   -- in @_var: %7 = convert %arg1
    StableHlo.TRef.nullary main_call0.cst_1 (constant S_ .f32 0x42800000#32),   -- in @_var: %cst_1 = constant dense<6.400000e+01>
    StableHlo.TRef.binary main_call0.cst_1 main_call0.v7 main_call0.v8 subf,   -- in @_var: %8 = subtract %cst_1, %7
    StableHlo.TRef.nullary main_call0.cst_2 (constant S_ .f32 0x00000000#32),   -- in @_var: %cst_2 = constant dense<0.000000e+00>
    StableHlo.TRef.binary main_call0.v6 main_call0.cst_2 main_call0.v9 (fun x v => Host.reduceAdd x v reducesTo_S800000x64_S800000_d1 h_S_),   -- in @_var: %9 = reduce(%6 init: %cst_2) applies add across dimensions = [1]
    StableHlo.TRef.unary main_call0.v9 main_call0.v10 (broadcastInDim S800000x1 ![0] bcast_S800000_S800000x1_0),   -- in @_var: %10 = broadcast_in_dim %9, dims = [0]
    StableHlo.TRef.unary main_call0.v8 main_call0.v11 (broadcastInDim S800000x1 ![] bcast_S_S800000x1),   -- in @_var: %11 = broadcast_in_dim %8, dims = []
    StableHlo.TRef.binary main_call0.v10 main_call0.v11 main_call0.v12 Host.divf,   -- in @_var: %12 = divide %10, %11
    StableHlo.TRef.nullary main_call0.cst_3 (constant S_ .f32 0x00000000#32),   -- in @_var: %cst_3 = constant dense<0.000000e+00>
    StableHlo.TRef.binary main_call0.v8 main_call0.cst_3 main_call0.v13 (cmpf .ogt),   -- in @_var: %13 = compare GT, %8, %cst_3, FLOAT
    StableHlo.TRef.nullary main_call0.cst_4 (constant S_ .f32 0x7FC00000#32),   -- in @_var: %cst_4 = constant dense<0x7FC00000>
    StableHlo.TRef.unary main_call0.cst_4 main_call0.call0.v0 id,   -- in @_where: %0 = convert %arg2
    StableHlo.TRef.unary main_call0.call0.v0 main_call0.call0.v1 (broadcastInDim S800000x1 ![] bcast_S_S800000x1),   -- in @_where: %1 = broadcast_in_dim %0, dims = []
    StableHlo.TRef.ternary main_call0.v13 main_call0.v12 main_call0.call0.v1 main_call0.call0.v2 (fun p a b => select (broadcastInDim S800000x1 ![] bcast_S_S800000x1 p) a b) ]   -- in @_where: %2 = select %arg0, %arg1, %1

/-- The edge embedding: the normalisation from the centred entries and the two columns (operations 52 … 65); the last writes `main_v36`. -/
abbrev ef4 : List (HloOp τ sig (Elt F)) :=
  [ StableHlo.unary main_v22 main_v24 (broadcastInDim S800000x64 ![0, 1] bcast_S800000x1_S800000x64_0_1 : (⟨S800000x1, .f32⟩ : BufTy).Contents (Elt F) → (⟨S800000x64, .f32⟩ : BufTy).Contents (Elt F)),   -- %24 = broadcast_in_dim %22, dims = [0, 1]
    StableHlo.binary main_v18 main_v24 main_v25 (subf : (⟨S800000x64, .f32⟩ : BufTy).Contents (Elt F) → (⟨S800000x64, .f32⟩ : BufTy).Contents (Elt F) → (⟨S800000x64, .f32⟩ : BufTy).Contents (Elt F)),   -- %25 = subtract %18, %24
    StableHlo.nullary main_cst_3 (constant S_ .f32 0x3727C5AC#32),   -- %cst_3 = constant dense<9.99999974E-6>
    StableHlo.unary main_cst_3 main_v26 (broadcastInDim S800000x1 ![] bcast_S_S800000x1 : (⟨S_, .f32⟩ : BufTy).Contents (Elt F) → (⟨S800000x1, .f32⟩ : BufTy).Contents (Elt F)),   -- %26 = broadcast_in_dim %cst_3, dims = []
    StableHlo.binary main_v23 main_v26 main_v27 (addf : (⟨S800000x1, .f32⟩ : BufTy).Contents (Elt F) → (⟨S800000x1, .f32⟩ : BufTy).Contents (Elt F) → (⟨S800000x1, .f32⟩ : BufTy).Contents (Elt F)),   -- %27 = add %23, %26
    StableHlo.unary main_v27 main_v28 (Host.rsqrt : (⟨S800000x1, .f32⟩ : BufTy).Contents (Elt F) → (⟨S800000x1, .f32⟩ : BufTy).Contents (Elt F)),   -- %28 = rsqrt %27
    StableHlo.unary main_v28 main_v29 (broadcastInDim S800000x64 ![0, 1] bcast_S800000x1_S800000x64_0_1 : (⟨S800000x1, .f32⟩ : BufTy).Contents (Elt F) → (⟨S800000x64, .f32⟩ : BufTy).Contents (Elt F)),   -- %29 = broadcast_in_dim %28, dims = [0, 1]
    StableHlo.binary main_v25 main_v29 main_v30 (mulf : (⟨S800000x64, .f32⟩ : BufTy).Contents (Elt F) → (⟨S800000x64, .f32⟩ : BufTy).Contents (Elt F) → (⟨S800000x64, .f32⟩ : BufTy).Contents (Elt F)),   -- %30 = multiply %25, %29
    StableHlo.unary main_arg7 main_v31 (broadcastInDim S1x64 ![1] bcast_S64_S1x64_1 : (⟨S64, .f32⟩ : BufTy).Contents (Elt F) → (⟨S1x64, .f32⟩ : BufTy).Contents (Elt F)),   -- %31 = broadcast_in_dim %arg7, dims = [1]
    StableHlo.unary main_v31 main_v32 (broadcastInDim S800000x64 ![0, 1] bcast_S1x64_S800000x64_0_1 : (⟨S1x64, .f32⟩ : BufTy).Contents (Elt F) → (⟨S800000x64, .f32⟩ : BufTy).Contents (Elt F)),   -- %32 = broadcast_in_dim %31, dims = [0, 1]
    StableHlo.binary main_v30 main_v32 main_v33 (mulf : (⟨S800000x64, .f32⟩ : BufTy).Contents (Elt F) → (⟨S800000x64, .f32⟩ : BufTy).Contents (Elt F) → (⟨S800000x64, .f32⟩ : BufTy).Contents (Elt F)),   -- %33 = multiply %30, %32
    StableHlo.unary main_arg8 main_v34 (broadcastInDim S1x64 ![1] bcast_S64_S1x64_1 : (⟨S64, .f32⟩ : BufTy).Contents (Elt F) → (⟨S1x64, .f32⟩ : BufTy).Contents (Elt F)),   -- %34 = broadcast_in_dim %arg8, dims = [1]
    StableHlo.unary main_v34 main_v35 (broadcastInDim S800000x64 ![0, 1] bcast_S1x64_S800000x64_0_1 : (⟨S1x64, .f32⟩ : BufTy).Contents (Elt F) → (⟨S800000x64, .f32⟩ : BufTy).Contents (Elt F)),   -- %35 = broadcast_in_dim %34, dims = [0, 1]
    StableHlo.binary main_v33 main_v35 main_v36 (addf : (⟨S800000x64, .f32⟩ : BufTy).Contents (Elt F) → (⟨S800000x64, .f32⟩ : BufTy).Contents (Elt F) → (⟨S800000x64, .f32⟩ : BufTy).Contents (Elt F)) ]   -- %36 = add %33, %35

/-- The stretch is its four parts in a row. -/
theorem ops_ef_split : (ops_ef : List (HloOp τ sig (Elt F))) = ef1 ++ ef2 ++ ef3 ++ ef4 := rfl

/-- The buffers that the operations of `ef1` write, in order. -/
abbrev ef1_W : List (Ref sig .tc) := [main_v0, main_v1, main_v2, main_v3, main_v4, main_v5, main_v6, main_v7, main_v8, main_v9, main_cst, main_v10, main_v11, main_cst_0, main_v12, main_v13, main_v14, main_v15, main_v16, main_v17, main_v18]
set_option maxRecDepth 8192 in
theorem ef1_writes : (ef1 : List (HloOp τ sig (Elt F))).Forall fun op => op.writes ⊆ (ef1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ef2` write, in order. -/
abbrev ef2_W : List (Ref sig .tc) := [main_cst_1, main_v19, main_v20, main_cst_2, main_v21, main_v22]
set_option maxRecDepth 8192 in
theorem ef2_writes : (ef2 : List (HloOp τ sig (Elt F))).Forall fun op => op.writes ⊆ (ef2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ef3` write, in order. -/
abbrev ef3_W : List (Ref sig .tc) := [main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v23]
set_option maxRecDepth 8192 in
theorem ef3_writes : (ef3 : List (HloOp τ sig (Elt F))).Forall fun op => op.writes ⊆ (ef3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `ef4` write, in order. -/
abbrev ef4_W : List (Ref sig .tc) := [main_v24, main_v25, main_cst_3, main_v26, main_v27, main_v28, main_v29, main_v30, main_v31, main_v32, main_v33, main_v34, main_v35, main_v36]
set_option maxRecDepth 8192 in
theorem ef4_writes : (ef4 : List (HloOp τ sig (Elt F))).Forall fun op => op.writes ⊆ (ef4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

set_option maxRecDepth 8192 in
set_option maxHeartbeats 2000000 in
/-- The two affine layers with the swish between them, from any contents. -/
theorem ef1_y (U : Valuation τ sig (Elt Ideal)) :
    (after ef1 U (Proc.devRef .tc main_v18) : Mat 800000 64)
      = ffb (U (Proc.devRef .tc main_arg1) : Mat 800000 4) (U (Proc.devRef .tc main_arg3) : Mat 4 64) (U (Proc.devRef .tc main_arg4) : Vc 64) (U (Proc.devRef .tc main_arg5) : Mat 64 64) (U (Proc.devRef .tc main_arg6) : Vc 64) := by
  simp only [ef1]
  after_results_simp
  rw [HostForm.dense_eq dot_S800000x4_S4x64_S800000x64_1_0_0_1_n_n rfl rfl rfl rfl rfl rfl, HostForm.swish_eq,
    HostForm.dense_eq dot_S800000x64_S64x64_S800000x64_1_0_0_1_n_n rfl rfl rfl rfl rfl rfl]
  rfl

set_option maxRecDepth 8192 in
/-- The column of row means, from any contents. -/
theorem ef2_mean (U : Valuation τ sig (Elt Ideal)) (p : Fin 800000) (u : Fin 1) :
    (after ef2 U (Proc.devRef .tc main_v22) : Mat 800000 1) (ix2 p u) = mean (U (Proc.devRef .tc main_v18) : Mat 800000 64) p := by
  simp only [ef2]
  after_results_simp
  exact HostForm.mean_col reducesTo_S800000x64_S800000_d1 (by decide) h_S_ _ _ (U (Proc.devRef .tc main_v18)) p u

set_option maxRecDepth 8192 in
set_option maxHeartbeats 2000000 in
/-- The column of row variances, from any contents. -/
theorem ef3_var (U : Valuation τ sig (Elt Ideal)) (p : Fin 800000) (u : Fin 1) :
    (after ef3 U (Proc.devRef .tc main_v23) : Mat 800000 1) (ix2 p u) = var (U (Proc.devRef .tc main_v18) : Mat 800000 64) p := by
  simp only [ef3]
  after_results_simp
  simp only [ofBuf_toBuf, id_eq]
  exact HostForm.var_col reducesTo_S800000x64_S800000_d1 (by decide) h_S_ bcast_S800000_S800000x1_0 bcast_S_S800000x1 _ (U (Proc.devRef .tc main_v18))
    (HostForm.centred_eq reducesTo_S800000x64_S800000_d1 (by decide) h_S_ bcast_S800000_S800000x1_0 bcast_S_S800000x1 bcast_S800000x1_S800000x64_0_1 (U (Proc.devRef .tc main_v18))) p u

set_option maxRecDepth 8192 in
set_option maxHeartbeats 2000000 in
/-- The normalisation, from any contents whose two columns hold the row means and the row variances. -/
theorem ef4_out (U : Valuation τ sig (Elt Ideal))
    (hm : ∀ (p : Fin 800000) (u : Fin 1), (U (Proc.devRef .tc main_v22) : Mat 800000 1) (ix2 p u) = mean (U (Proc.devRef .tc main_v18) : Mat 800000 64) p)
    (hv : ∀ (p : Fin 800000) (u : Fin 1), (U (Proc.devRef .tc main_v23) : Mat 800000 1) (ix2 p u) = var (U (Proc.devRef .tc main_v18) : Mat 800000 64) p) :
    (after ef4 U (Proc.devRef .tc main_v36) : Mat 800000 64)
      = lnorm (U (Proc.devRef .tc main_v18) : Mat 800000 64) (U (Proc.devRef .tc main_arg7) : Vc 64) (U (Proc.devRef .tc main_arg8) : Vc 64) := by
  simp only [ef4]
  after_results_simp
  exact HostForm.lnorm_eq _ _ (U (Proc.devRef .tc main_v23)) _ (U (Proc.devRef .tc main_v18))
    (HostForm.centred_of_col (U (Proc.devRef .tc main_v18)) (U (Proc.devRef .tc main_v22)) _ hm) hv _ _ _ _

set_option maxRecDepth 8192 in
set_option maxHeartbeats 2000000 in
/-- The four parts in a row: the two affine layers, the swish and the normalisation of the result. -/
theorem ef_parts (W : Valuation τ sig (Elt Ideal)) :
    (after ef4 (after ef3 (after ef2 (after ef1 W))) (Proc.devRef .tc main_v36) : Mat 800000 64)
      = lnorm (ffb (W (Proc.devRef .tc main_arg1) : Mat 800000 4) (W (Proc.devRef .tc main_arg3) : Mat 4 64) (W (Proc.devRef .tc main_arg4) : Vc 64) (W (Proc.devRef .tc main_arg5) : Mat 64 64) (W (Proc.devRef .tc main_arg6) : Vc 64)) (W (Proc.devRef .tc main_arg7) : Vc 64) (W (Proc.devRef .tc main_arg8) : Vc 64) := by
  have hy : ((after ef3 (after ef2 (after ef1 W))) (Proc.devRef .tc main_v18) : Mat 800000 64) = ffb (W (Proc.devRef .tc main_arg1) : Mat 800000 4) (W (Proc.devRef .tc main_arg3) : Mat 4 64) (W (Proc.devRef .tc main_arg4) : Vc 64) (W (Proc.devRef .tc main_arg5) : Mat 64 64) (W (Proc.devRef .tc main_arg6) : Vc 64) := by
    rw [after_of_writes_sub ef3 _ ef3_writes (r := main_v18) (by decide), after_of_writes_sub ef2 _ ef2_writes (r := main_v18) (by decide)]
    exact ef1_y W
  have hm : ∀ (p : Fin 800000) (u : Fin 1), ((after ef3 (after ef2 (after ef1 W))) (Proc.devRef .tc main_v22) : Mat 800000 1) (ix2 p u) = mean ((after ef3 (after ef2 (after ef1 W))) (Proc.devRef .tc main_v18) : Mat 800000 64) p := by
    intro p u
    rw [after_of_writes_sub ef3 _ ef3_writes (r := main_v22) (by decide), after_of_writes_sub ef3 _ ef3_writes (r := main_v18) (by decide), after_of_writes_sub ef2 _ ef2_writes (r := main_v18) (by decide)]
    exact ef2_mean (after ef1 W) p u
  have hv : ∀ (p : Fin 800000) (u : Fin 1), ((after ef3 (after ef2 (after ef1 W))) (Proc.devRef .tc main_v23) : Mat 800000 1) (ix2 p u) = var ((after ef3 (after ef2 (after ef1 W))) (Proc.devRef .tc main_v18) : Mat 800000 64) p := by
    intro p u
    rw [after_of_writes_sub ef3 _ ef3_writes (r := main_v18) (by decide)]
    exact ef3_var (after ef2 (after ef1 W)) p u
  rw [ef4_out _ hm hv, hy,
    after_of_writes_sub ef3 _ ef3_writes (r := main_arg7) (by decide), after_of_writes_sub ef2 _ ef2_writes (r := main_arg7) (by decide), after_of_writes_sub ef1 _ ef1_writes (r := main_arg7) (by decide),
    after_of_writes_sub ef3 _ ef3_writes (r := main_arg8) (by decide), after_of_writes_sub ef2 _ ef2_writes (r := main_arg8) (by decide), after_of_writes_sub ef1 _ ef1_writes (r := main_arg8) (by decide)]

set_option maxRecDepth 8192 in
set_option maxHeartbeats 2000000 in
/-- The edge embedding, from any contents the stretch starts from. -/
theorem ef (W : Valuation τ sig (Elt Ideal)) :
    (after ops_ef W (Proc.devRef .tc main_v36) : Mat 800000 64) = ffbLn (W (Proc.devRef .tc main_arg1) : Mat 800000 4) (W (Proc.devRef .tc main_arg3) : Mat 4 64) (W (Proc.devRef .tc main_arg4) : Vc 64) (W (Proc.devRef .tc main_arg5) : Mat 64 64) (W (Proc.devRef .tc main_arg6) : Vc 64) (W (Proc.devRef .tc main_arg7) : Vc 64) (W (Proc.devRef .tc main_arg8) : Vc 64) := by
  rw [ops_ef_split, StableHlo.after_append, StableHlo.after_append, StableHlo.after_append]
  exact ef_parts W

/-- The node embedding: the two affine layers with the swish between them (operations 66 … 82 of the line); the last writes `main_v51`. -/
abbrev nf1 : List (HloOp τ sig (Elt F)) :=
  [ StableHlo.binary main_arg2 main_arg9 main_v37 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),   -- %37 = dot_general %arg2, %arg9, contracting_dims = [1] x [0], precision = [DEFAULT, DEFAULT]
    StableHlo.unary main_arg10 main_v38 (broadcastInDim S1x64 ![1] bcast_S64_S1x64_1 : (⟨S64, .f32⟩ : BufTy).Contents (Elt F) → (⟨S1x64, .f32⟩ : BufTy).Contents (Elt F)),   -- %38 = broadcast_in_dim %arg10, dims = [1]
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),   -- %39 = broadcast_in_dim %38, dims = [0, 1]
    StableHlo.binary main_v37 main_v39 main_v40 (addf : (⟨S50000x64, .f32⟩ : BufTy).Contents (Elt F) → (⟨S50000x64, .f32⟩ : BufTy).Contents (Elt F) → (⟨S50000x64, .f32⟩ : BufTy).Contents (Elt F)),   -- %40 = add %37, %39
    StableHlo.unary main_v40 main_v41 (Host.negf : (⟨S50000x64, .f32⟩ : BufTy).Contents (Elt F) → (⟨S50000x64, .f32⟩ : BufTy).Contents (Elt F)),   -- %41 = negate %40
    StableHlo.unary main_v41 main_v42 (Host.exp : (⟨S50000x64, .f32⟩ : BufTy).Contents (Elt F) → (⟨S50000x64, .f32⟩ : BufTy).Contents (Elt F)),   -- %42 = exponential %41
    StableHlo.nullary main_cst_4 (constant S_ .f32 0x3F800000#32),   -- %cst_4 = constant dense<1.000000e+00>
    StableHlo.unary main_cst_4 main_v43 (broadcastInDim S50000x64 ![] bcast_S_S50000x64 : (⟨S_, .f32⟩ : BufTy).Contents (Elt F) → (⟨S50000x64, .f32⟩ : BufTy).Contents (Elt F)),   -- %43 = broadcast_in_dim %cst_4, dims = []
    StableHlo.binary main_v43 main_v42 main_v44 (addf : (⟨S50000x64, .f32⟩ : BufTy).Contents (Elt F) → (⟨S50000x64, .f32⟩ : BufTy).Contents (Elt F) → (⟨S50000x64, .f32⟩ : BufTy).Contents (Elt F)),   -- %44 = add %43, %42
    StableHlo.nullary main_cst_5 (constant S_ .f32 0x3F800000#32),   -- %cst_5 = constant dense<1.000000e+00>
    StableHlo.unary main_cst_5 main_v45 (broadcastInDim S50000x64 ![] bcast_S_S50000x64 : (⟨S_, .f32⟩ : BufTy).Contents (Elt F) → (⟨S50000x64, .f32⟩ : BufTy).Contents (Elt F)),   -- %45 = broadcast_in_dim %cst_5, dims = []
    StableHlo.binary main_v45 main_v44 main_v46 (Host.divf : (⟨S50000x64, .f32⟩ : BufTy).Contents (Elt F) → (⟨S50000x64, .f32⟩ : BufTy).Contents (Elt F) → (⟨S50000x64, .f32⟩ : BufTy).Contents (Elt F)),   -- %46 = divide %45, %44
    StableHlo.binary main_v40 main_v46 main_v47 (mulf : (⟨S50000x64, .f32⟩ : BufTy).Contents (Elt F) → (⟨S50000x64, .f32⟩ : BufTy).Contents (Elt F) → (⟨S50000x64, .f32⟩ : BufTy).Contents (Elt F)),   -- %47 = multiply %40, %46
    StableHlo.binary main_v47 main_arg11 main_v48 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %48 = dot_general %47, %arg11, contracting_dims = [1] x [0], precision = [DEFAULT, DEFAULT]
    StableHlo.unary main_arg12 main_v49 (broadcastInDim S1x64 ![1] bcast_S64_S1x64_1 : (⟨S64, .f32⟩ : BufTy).Contents (Elt F) → (⟨S1x64, .f32⟩ : BufTy).Contents (Elt F)),   -- %49 = broadcast_in_dim %arg12, dims = [1]
    StableHlo.unary main_v49 main_v50 (broadcastInDim S50000x64 ![0, 1] bcast_S1x64_S50000x64_0_1 : (⟨S1x64, .f32⟩ : BufTy).Contents (Elt F) → (⟨S50000x64, .f32⟩ : BufTy).Contents (Elt F)),   -- %50 = broadcast_in_dim %49, dims = [0, 1]
    StableHlo.binary main_v48 main_v50 main_v51 (addf : (⟨S50000x64, .f32⟩ : BufTy).Contents (Elt F) → (⟨S50000x64, .f32⟩ : BufTy).Contents (Elt F) → (⟨S50000x64, .f32⟩ : BufTy).Contents (Elt F)) ]   -- %51 = add %48, %50

/-- The node embedding: the column of row means (operations 83 … 88); the last writes `main_v55`. -/
abbrev nf2 : List (HloOp τ sig (Elt F)) :=
  [ StableHlo.nullary main_cst_6 (constant S_ .f32 0x00000000#32),   -- %cst_6 = constant dense<0.000000e+00>
    StableHlo.binary main_v51 main_cst_6 main_v52 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),   -- %52 = reduce(%51 init: %cst_6) applies add across dimensions = [1]
    StableHlo.unary main_v52 main_v53 (broadcastInDim S50000x1 ![0] bcast_S50000_S50000x1_0 : (⟨S50000, .f32⟩ : BufTy).Contents (Elt F) → (⟨S50000x1, .f32⟩ : BufTy).Contents (Elt F)),   -- %53 = broadcast_in_dim %52, dims = [0]
    StableHlo.nullary main_cst_7 (constant S_ .f32 0x42800000#32),   -- %cst_7 = constant dense<6.400000e+01>
    StableHlo.unary main_cst_7 main_v54 (broadcastInDim S50000x1 ![] bcast_S_S50000x1 : (⟨S_, .f32⟩ : BufTy).Contents (Elt F) → (⟨S50000x1, .f32⟩ : BufTy).Contents (Elt F)),   -- %54 = broadcast_in_dim %cst_7, dims = []
    StableHlo.binary main_v53 main_v54 main_v55 (Host.divf : (⟨S50000x1, .f32⟩ : BufTy).Contents (Elt F) → (⟨S50000x1, .f32⟩ : BufTy).Contents (Elt F) → (⟨S50000x1, .f32⟩ : BufTy).Contents (Elt F)) ]   -- %55 = divide %53, %54

/-- The node embedding: the column of row variances, the library function's operations (operations 89 … 112); the last writes `main_v56`. -/
abbrev nf3 : List (HloOp τ sig (Elt F)) :=
  [ StableHlo.nullary main_c_8 (constantI S_ 32 0#32),   -- %c_8 = constant dense<0>
    StableHlo.TRef.nullary main_call1.cst (constant S_ .f32 0x00000000#32),   -- in @_var_0: %cst = constant dense<0.000000e+00>
    StableHlo.TRef.binary (.of main_v51 : StableHlo.TRef sig ⟨S50000x64, .f32⟩) main_call1.cst main_call1.v0 (fun x v => Host.reduceAdd x v reducesTo_S50000x64_S50000_d1 h_S_),   -- in @_var_0: %0 = reduce(%arg0 init: %cst) applies add across dimensions = [1]
    StableHlo.TRef.unary main_call1.v0 main_call1.v1 (broadcastInDim S50000x1 ![0] bcast_S50000_S50000x1_0),   -- in @_var_0: %1 = broadcast_in_dim %0, dims = [0]
    StableHlo.TRef.nullary main_call1.cst_0 (constant S_ .f32 0x42800000#32),   -- in @_var_0: %cst_0 = constant dense<6.400000e+01>
    StableHlo.TRef.unary main_call1.cst_0 main_call1.v2 (broadcastInDim S50000x1 ![] bcast_S_S50000x1),   -- in @_var_0: %2 = broadcast_in_dim %cst_0, dims = []
    StableHlo.TRef.binary main_call1.v1 main_call1.v2 main_call1.v3 Host.divf,   -- in @_var_0: %3 = divide %1, %2
    StableHlo.TRef.unary main_call1.v3 main_call1.v4 (broadcastInDim S50000x64 ![0, 1] bcast_S50000x1_S50000x64_0_1),   -- in @_var_0: %4 = broadcast_in_dim %3, dims = [0, 1]
    StableHlo.TRef.binary (.of main_v51 : StableHlo.TRef sig ⟨S50000x64, .f32⟩) main_call1.v4 main_call1.v5 subf,   -- in @_var_0: %5 = subtract %arg0, %4
    StableHlo.TRef.binary main_call1.v5 main_call1.v5 main_call1.v6 mulf,   -- in @_var_0: %6 = square %5
    StableHlo.TRef.unary (.of main_c_8 : StableHlo.TRef sig ⟨S_, .i32⟩) main_call1.v7 (sitofp .f32),   -- in @_var_0: %7 = convert %arg1
    StableHlo.TRef.nullary main_call1.cst_1 (constant S_ .f32 0x42800000#32),   -- in @_var_0: %cst_1 = constant dense<6.400000e+01>
    StableHlo.TRef.binary main_call1.cst_1 main_call1.v7 main_call1.v8 subf,   -- in @_var_0: %8 = subtract %cst_1, %7
    StableHlo.TRef.nullary main_call1.cst_2 (constant S_ .f32 0x00000000#32),   -- in @_var_0: %cst_2 = constant dense<0.000000e+00>
    StableHlo.TRef.binary main_call1.v6 main_call1.cst_2 main_call1.v9 (fun x v => Host.reduceAdd x v reducesTo_S50000x64_S50000_d1 h_S_),   -- in @_var_0: %9 = reduce(%6 init: %cst_2) applies add across dimensions = [1]
    StableHlo.TRef.unary main_call1.v9 main_call1.v10 (broadcastInDim S50000x1 ![0] bcast_S50000_S50000x1_0),   -- in @_var_0: %10 = broadcast_in_dim %9, dims = [0]
    StableHlo.TRef.unary main_call1.v8 main_call1.v11 (broadcastInDim S50000x1 ![] bcast_S_S50000x1),   -- in @_var_0: %11 = broadcast_in_dim %8, dims = []
    StableHlo.TRef.binary main_call1.v10 main_call1.v11 main_call1.v12 Host.divf,   -- in @_var_0: %12 = divide %10, %11
    StableHlo.TRef.nullary main_call1.cst_3 (constant S_ .f32 0x00000000#32),   -- in @_var_0: %cst_3 = constant dense<0.000000e+00>
    StableHlo.TRef.binary main_call1.v8 main_call1.cst_3 main_call1.v13 (cmpf .ogt),   -- in @_var_0: %13 = compare GT, %8, %cst_3, FLOAT
    StableHlo.TRef.nullary main_call1.cst_4 (constant S_ .f32 0x7FC00000#32),   -- in @_var_0: %cst_4 = constant dense<0x7FC00000>
    StableHlo.TRef.unary main_call1.cst_4 main_call1.call0.v0 id,   -- in @_where_1: %0 = convert %arg2
    StableHlo.TRef.unary main_call1.call0.v0 main_call1.call0.v1 (broadcastInDim S50000x1 ![] bcast_S_S50000x1),   -- in @_where_1: %1 = broadcast_in_dim %0, dims = []
    StableHlo.TRef.ternary main_call1.v13 main_call1.v12 main_call1.call0.v1 main_call1.call0.v2 (fun p a b => select (broadcastInDim S50000x1 ![] bcast_S_S50000x1 p) a b) ]   -- in @_where_1: %2 = select %arg0, %arg1, %1

/-- The node embedding: the normalisation from the centred entries and the two columns (operations 113 … 126); the last writes `main_v69`. -/
abbrev nf4 : List (HloOp τ sig (Elt F)) :=
  [ StableHlo.unary main_v55 main_v57 (broadcastInDim S50000x64 ![0, 1] bcast_S50000x1_S50000x64_0_1 : (⟨S50000x1, .f32⟩ : BufTy).Contents (Elt F) → (⟨S50000x64, .f32⟩ : BufTy).Contents (Elt F)),   -- %57 = broadcast_in_dim %55, dims = [0, 1]
    StableHlo.binary main_v51 main_v57 main_v58 (subf : (⟨S50000x64, .f32⟩ : BufTy).Contents (Elt F) → (⟨S50000x64, .f32⟩ : BufTy).Contents (Elt F) → (⟨S50000x64, .f32⟩ : BufTy).Contents (Elt F)),   -- %58 = subtract %51, %57
    StableHlo.nullary main_cst_9 (constant S_ .f32 0x3727C5AC#32),   -- %cst_9 = constant dense<9.99999974E-6>
    StableHlo.unary main_cst_9 main_v59 (broadcastInDim S50000x1 ![] bcast_S_S50000x1 : (⟨S_, .f32⟩ : BufTy).Contents (Elt F) → (⟨S50000x1, .f32⟩ : BufTy).Contents (Elt F)),   -- %59 = broadcast_in_dim %cst_9, dims = []
    StableHlo.binary main_v56 main_v59 main_v60 (addf : (⟨S50000x1, .f32⟩ : BufTy).Contents (Elt F) → (⟨S50000x1, .f32⟩ : BufTy).Contents (Elt F) → (⟨S50000x1, .f32⟩ : BufTy).Contents (Elt F)),   -- %60 = add %56, %59
    StableHlo.unary main_v60 main_v61 (Host.rsqrt : (⟨S50000x1, .f32⟩ : BufTy).Contents (Elt F) → (⟨S50000x1, .f32⟩ : BufTy).Contents (Elt F)),   -- %61 = rsqrt %60
    StableHlo.unary main_v61 main_v62 (broadcastInDim S50000x64 ![0, 1] bcast_S50000x1_S50000x64_0_1 : (⟨S50000x1, .f32⟩ : BufTy).Contents (Elt F) → (⟨S50000x64, .f32⟩ : BufTy).Contents (Elt F)),   -- %62 = broadcast_in_dim %61, dims = [0, 1]
    StableHlo.binary main_v58 main_v62 main_v63 (mulf : (⟨S50000x64, .f32⟩ : BufTy).Contents (Elt F) → (⟨S50000x64, .f32⟩ : BufTy).Contents (Elt F) → (⟨S50000x64, .f32⟩ : BufTy).Contents (Elt F)),   -- %63 = multiply %58, %62
    StableHlo.unary main_arg13 main_v64 (broadcastInDim S1x64 ![1] bcast_S64_S1x64_1 : (⟨S64, .f32⟩ : BufTy).Contents (Elt F) → (⟨S1x64, .f32⟩ : BufTy).Contents (Elt F)),   -- %64 = broadcast_in_dim %arg13, dims = [1]
    StableHlo.unary main_v64 main_v65 (broadcastInDim S50000x64 ![0, 1] bcast_S1x64_S50000x64_0_1 : (⟨S1x64, .f32⟩ : BufTy).Contents (Elt F) → (⟨S50000x64, .f32⟩ : BufTy).Contents (Elt F)),   -- %65 = broadcast_in_dim %64, dims = [0, 1]
    StableHlo.binary main_v63 main_v65 main_v66 (mulf : (⟨S50000x64, .f32⟩ : BufTy).Contents (Elt F) → (⟨S50000x64, .f32⟩ : BufTy).Contents (Elt F) → (⟨S50000x64, .f32⟩ : BufTy).Contents (Elt F)),   -- %66 = multiply %63, %65
    StableHlo.unary main_arg14 main_v67 (broadcastInDim S1x64 ![1] bcast_S64_S1x64_1 : (⟨S64, .f32⟩ : BufTy).Contents (Elt F) → (⟨S1x64, .f32⟩ : BufTy).Contents (Elt F)),   -- %67 = broadcast_in_dim %arg14, dims = [1]
    StableHlo.unary main_v67 main_v68 (broadcastInDim S50000x64 ![0, 1] bcast_S1x64_S50000x64_0_1 : (⟨S1x64, .f32⟩ : BufTy).Contents (Elt F) → (⟨S50000x64, .f32⟩ : BufTy).Contents (Elt F)),   -- %68 = broadcast_in_dim %67, dims = [0, 1]
    StableHlo.binary main_v66 main_v68 main_v69 (addf : (⟨S50000x64, .f32⟩ : BufTy).Contents (Elt F) → (⟨S50000x64, .f32⟩ : BufTy).Contents (Elt F) → (⟨S50000x64, .f32⟩ : BufTy).Contents (Elt F)) ]   -- %69 = add %66, %68

/-- The stretch is its four parts in a row. -/
theorem ops_nf_split : (ops_nf : List (HloOp τ sig (Elt F))) = nf1 ++ nf2 ++ nf3 ++ nf4 := rfl

/-- The buffers that the operations of `nf1` write, in order. -/
abbrev nf1_W : List (Ref sig .tc) := [main_v37, main_v38, main_v39, main_v40, main_v41, main_v42, main_cst_4, main_v43, main_v44, main_cst_5, main_v45, main_v46, main_v47, main_v48, main_v49, main_v50, main_v51]
set_option maxRecDepth 8192 in
theorem nf1_writes : (nf1 : List (HloOp τ sig (Elt F))).Forall fun op => op.writes ⊆ (nf1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `nf2` write, in order. -/
abbrev nf2_W : List (Ref sig .tc) := [main_cst_6, main_v52, main_v53, main_cst_7, main_v54, main_v55]
set_option maxRecDepth 8192 in
theorem nf2_writes : (nf2 : List (HloOp τ sig (Elt F))).Forall fun op => op.writes ⊆ (nf2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `nf3` write, in order. -/
abbrev nf3_W : List (Ref sig .tc) := [main_c_8, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_v12, main_call1_cst_3, main_call1_v13, main_call1_cst_4, main_call1_call0_v0, main_call1_call0_v1, main_v56]
set_option maxRecDepth 8192 in
theorem nf3_writes : (nf3 : List (HloOp τ sig (Elt F))).Forall fun op => op.writes ⊆ (nf3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `nf4` write, in order. -/
abbrev nf4_W : List (Ref sig .tc) := [main_v57, main_v58, main_cst_9, main_v59, main_v60, main_v61, main_v62, main_v63, main_v64, main_v65, main_v66, main_v67, main_v68, main_v69]
set_option maxRecDepth 8192 in
theorem nf4_writes : (nf4 : List (HloOp τ sig (Elt F))).Forall fun op => op.writes ⊆ (nf4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

set_option maxRecDepth 8192 in
set_option maxHeartbeats 2000000 in
/-- The two affine layers with the swish between them, from any contents. -/
theorem nf1_y (U : Valuation τ sig (Elt Ideal)) :
    (after nf1 U (Proc.devRef .tc main_v51) : Mat 50000 64)
      = ffb (U (Proc.devRef .tc main_arg2) : Mat 50000 16) (U (Proc.devRef .tc main_arg9) : Mat 16 64) (U (Proc.devRef .tc main_arg10) : Vc 64) (U (Proc.devRef .tc main_arg11) : Mat 64 64) (U (Proc.devRef .tc main_arg12) : Vc 64) := by
  simp only [nf1]
  after_results_simp
  rw [HostForm.dense_eq dot_S50000x16_S16x64_S50000x64_1_0_0_1_n_n rfl rfl rfl rfl rfl rfl, HostForm.swish_eq,
    HostForm.dense_eq dot_S50000x64_S64x64_S50000x64_1_0_0_1_n_n rfl rfl rfl rfl rfl rfl]
  rfl

set_option maxRecDepth 8192 in
/-- The column of row means, from any contents. -/
theorem nf2_mean (U : Valuation τ sig (Elt Ideal)) (p : Fin 50000) (u : Fin 1) :
    (after nf2 U (Proc.devRef .tc main_v55) : Mat 50000 1) (ix2 p u) = mean (U (Proc.devRef .tc main_v51) : Mat 50000 64) p := by
  simp only [nf2]
  after_results_simp
  exact HostForm.mean_col reducesTo_S50000x64_S50000_d1 (by decide) h_S_ _ _ (U (Proc.devRef .tc main_v51)) p u

set_option maxRecDepth 8192 in
set_option maxHeartbeats 2000000 in
/-- The column of row variances, from any contents. -/
theorem nf3_var (U : Valuation τ sig (Elt Ideal)) (p : Fin 50000) (u : Fin 1) :
    (after nf3 U (Proc.devRef .tc main_v56) : Mat 50000 1) (ix2 p u) = var (U (Proc.devRef .tc main_v51) : Mat 50000 64) p := by
  simp only [nf3]
  after_results_simp
  simp only [ofBuf_toBuf, id_eq]
  exact HostForm.var_col reducesTo_S50000x64_S50000_d1 (by decide) h_S_ bcast_S50000_S50000x1_0 bcast_S_S50000x1 _ (U (Proc.devRef .tc main_v51))
    (HostForm.centred_eq reducesTo_S50000x64_S50000_d1 (by decide) h_S_ bcast_S50000_S50000x1_0 bcast_S_S50000x1 bcast_S50000x1_S50000x64_0_1 (U (Proc.devRef .tc main_v51))) p u

set_option maxRecDepth 8192 in
set_option maxHeartbeats 2000000 in
/-- The normalisation, from any contents whose two columns hold the row means and the row variances. -/
theorem nf4_out (U : Valuation τ sig (Elt Ideal))
    (hm : ∀ (p : Fin 50000) (u : Fin 1), (U (Proc.devRef .tc main_v55) : Mat 50000 1) (ix2 p u) = mean (U (Proc.devRef .tc main_v51) : Mat 50000 64) p)
    (hv : ∀ (p : Fin 50000) (u : Fin 1), (U (Proc.devRef .tc main_v56) : Mat 50000 1) (ix2 p u) = var (U (Proc.devRef .tc main_v51) : Mat 50000 64) p) :
    (after nf4 U (Proc.devRef .tc main_v69) : Mat 50000 64)
      = lnorm (U (Proc.devRef .tc main_v51) : Mat 50000 64) (U (Proc.devRef .tc main_arg13) : Vc 64) (U (Proc.devRef .tc main_arg14) : Vc 64) := by
  simp only [nf4]
  after_results_simp
  exact HostForm.lnorm_eq _ _ (U (Proc.devRef .tc main_v56)) _ (U (Proc.devRef .tc main_v51))
    (HostForm.centred_of_col (U (Proc.devRef .tc main_v51)) (U (Proc.devRef .tc main_v55)) _ hm) hv _ _ _ _

set_option maxRecDepth 8192 in
set_option maxHeartbeats 2000000 in
/-- The four parts in a row: the two affine layers, the swish and the normalisation of the result. -/
theorem nf_parts (W : Valuation τ sig (Elt Ideal)) :
    (after nf4 (after nf3 (after nf2 (after nf1 W))) (Proc.devRef .tc main_v69) : Mat 50000 64)
      = lnorm (ffb (W (Proc.devRef .tc main_arg2) : Mat 50000 16) (W (Proc.devRef .tc main_arg9) : Mat 16 64) (W (Proc.devRef .tc main_arg10) : Vc 64) (W (Proc.devRef .tc main_arg11) : Mat 64 64) (W (Proc.devRef .tc main_arg12) : Vc 64)) (W (Proc.devRef .tc main_arg13) : Vc 64) (W (Proc.devRef .tc main_arg14) : Vc 64) := by
  have hy : ((after nf3 (after nf2 (after nf1 W))) (Proc.devRef .tc main_v51) : Mat 50000 64) = ffb (W (Proc.devRef .tc main_arg2) : Mat 50000 16) (W (Proc.devRef .tc main_arg9) : Mat 16 64) (W (Proc.devRef .tc main_arg10) : Vc 64) (W (Proc.devRef .tc main_arg11) : Mat 64 64) (W (Proc.devRef .tc main_arg12) : Vc 64) := by
    rw [after_of_writes_sub nf3 _ nf3_writes (r := main_v51) (by decide), after_of_writes_sub nf2 _ nf2_writes (r := main_v51) (by decide)]
    exact nf1_y W
  have hm : ∀ (p : Fin 50000) (u : Fin 1), ((after nf3 (after nf2 (after nf1 W))) (Proc.devRef .tc main_v55) : Mat 50000 1) (ix2 p u) = mean ((after nf3 (after nf2 (after nf1 W))) (Proc.devRef .tc main_v51) : Mat 50000 64) p := by
    intro p u
    rw [after_of_writes_sub nf3 _ nf3_writes (r := main_v55) (by decide), after_of_writes_sub nf3 _ nf3_writes (r := main_v51) (by decide), after_of_writes_sub nf2 _ nf2_writes (r := main_v51) (by decide)]
    exact nf2_mean (after nf1 W) p u
  have hv : ∀ (p : Fin 50000) (u : Fin 1), ((after nf3 (after nf2 (after nf1 W))) (Proc.devRef .tc main_v56) : Mat 50000 1) (ix2 p u) = var ((after nf3 (after nf2 (after nf1 W))) (Proc.devRef .tc main_v51) : Mat 50000 64) p := by
    intro p u
    rw [after_of_writes_sub nf3 _ nf3_writes (r := main_v51) (by decide)]
    exact nf3_var (after nf2 (after nf1 W)) p u
  rw [nf4_out _ hm hv, hy,
    after_of_writes_sub nf3 _ nf3_writes (r := main_arg13) (by decide), after_of_writes_sub nf2 _ nf2_writes (r := main_arg13) (by decide), after_of_writes_sub nf1 _ nf1_writes (r := main_arg13) (by decide),
    after_of_writes_sub nf3 _ nf3_writes (r := main_arg14) (by decide), after_of_writes_sub nf2 _ nf2_writes (r := main_arg14) (by decide), after_of_writes_sub nf1 _ nf1_writes (r := main_arg14) (by decide)]

set_option maxRecDepth 8192 in
set_option maxHeartbeats 2000000 in
/-- The node embedding, from any contents the stretch starts from. -/
theorem nf (W : Valuation τ sig (Elt Ideal)) :
    (after ops_nf W (Proc.devRef .tc main_v69) : Mat 50000 64) = ffbLn (W (Proc.devRef .tc main_arg2) : Mat 50000 16) (W (Proc.devRef .tc main_arg9) : Mat 16 64) (W (Proc.devRef .tc main_arg10) : Vc 64) (W (Proc.devRef .tc main_arg11) : Mat 64 64) (W (Proc.devRef .tc main_arg12) : Vc 64) (W (Proc.devRef .tc main_arg13) : Vc 64) (W (Proc.devRef .tc main_arg14) : Vc 64) := by
  rw [ops_nf_split, StableHlo.after_append, StableHlo.after_append, StableHlo.after_append]
  exact nf_parts W

/-- The host program's own shape facts and dimension records for the index wrap, the gather and the scatter-add. -/
def HR : Cert.Gnn.Spec.HostDims :=
  ⟨bcast_S_S800000, bcast_S800000_S800000x1_0, bcast_S_S50000x64, gather_S50000x64_S800000x1_S800000x64_1_0_n_n_0_1_164,
    scatter_S50000x64_S800000x1_S800000x64_1_0_0_1⟩

set_option maxRecDepth 8192 in
set_option maxHeartbeats 2000000 in
/-- The node embedding gathered at the (wrapped) sender indices, carried as the host's own term. -/
theorem gather_s (W : Valuation τ sig (Elt Ideal)) :
    (after ops_gather W (Proc.devRef .tc main_v76) : Mat 800000 64)
      = Spec.gath HR (W (Proc.devRef .tc main_v69) : Mat 50000 64) (W (Proc.devRef .tc main_v1) : IVec Spec.SI 32) := by
  simp only [ops_gather]
  after_results_simp
  rfl

set_option maxRecDepth 8192 in
set_option maxHeartbeats 2000000 in
/-- The node embedding gathered at the (wrapped) receiver indices, carried as the host's own term. -/
theorem gather_r (W : Valuation τ sig (Elt Ideal)) :
    (after ops_gather W (Proc.devRef .tc main_v83) : Mat 800000 64)
      = Spec.gath HR (W (Proc.devRef .tc main_v69) : Mat 50000 64) (W (Proc.devRef .tc main_v3) : IVec Spec.SI 32) := by
  simp only [ops_gather]
  after_results_simp
  rfl

set_option maxRecDepth 8192 in
set_option maxHeartbeats 2000000 in
/-- The edge latents summed into their receiver nodes, carried as the host's own term. -/
theorem agg (W : Valuation τ sig (Elt Ideal)) :
    (after ops_agg W (Proc.devRef .tc main_v120) : Mat 50000 64)
      = Spec.agg HR (W (Proc.devRef .tc main_v3) : IVec Spec.SI 32) (W (Proc.devRef .tc main_v117) : Mat 800000 64) := by
  simp only [ops_agg]
  after_results_simp
  rfl

/-- The edge latents: the two affine layers with the swish between them (operations 145 … 162 of the line); the last writes `main_v99`. -/
abbrev el1 : List (HloOp τ sig (Elt F)) :=
  [ StableHlo.nary ![main_v36, main_v76, main_v83] main_v84 (fun u => concatenate S800000x192 1 [⟨S800000x64, u 0⟩, ⟨S800000x64, u 1⟩, ⟨S800000x64, u 2⟩] concatenates_S800000x64_S800000x64_S800000x64_S800000x192_d1),   -- %84 = concatenate %36, %76, %83, dim = 1
    StableHlo.binary main_v84 main_arg15 main_v85 ((fun l r => Host.dotGeneral dot_S800000x192_S192x64_S800000x64_1_0_0_1_n_n none l r) : (⟨S800000x192, .f32⟩ : BufTy).Contents (Elt F) → (⟨S192x64, .f32⟩ : BufTy).Contents (Elt F) → (⟨S800000x64, .f32⟩ : BufTy).Contents (Elt F)),   -- %85 = dot_general %84, %arg15, contracting_dims = [1] x [0], precision = [DEFAULT, DEFAULT]
    StableHlo.unary main_arg16 main_v86 (broadcastInDim S1x64 ![1] bcast_S64_S1x64_1 : (⟨S64, .f32⟩ : BufTy).Contents (Elt F) → (⟨S1x64, .f32⟩ : BufTy).Contents (Elt F)),   -- %86 = broadcast_in_dim %arg16, dims = [1]
    StableHlo.unary main_v86 main_v87 (broadcastInDim S800000x64 ![0, 1] bcast_S1x64_S800000x64_0_1 : (⟨S1x64, .f32⟩ : BufTy).Contents (Elt F) → (⟨S800000x64, .f32⟩ : BufTy).Contents (Elt F)),   -- %87 = broadcast_in_dim %86, dims = [0, 1]
    StableHlo.binary main_v85 main_v87 main_v88 (addf : (⟨S800000x64, .f32⟩ : BufTy).Contents (Elt F) → (⟨S800000x64, .f32⟩ : BufTy).Contents (Elt F) → (⟨S800000x64, .f32⟩ : BufTy).Contents (Elt F)),   -- %88 = add %85, %87
    StableHlo.unary main_v88 main_v89 (Host.negf : (⟨S800000x64, .f32⟩ : BufTy).Contents (Elt F) → (⟨S800000x64, .f32⟩ : BufTy).Contents (Elt F)),   -- %89 = negate %88
    StableHlo.unary main_v89 main_v90 (Host.exp : (⟨S800000x64, .f32⟩ : BufTy).Contents (Elt F) → (⟨S800000x64, .f32⟩ : BufTy).Contents (Elt F)),   -- %90 = exponential %89
    StableHlo.nullary main_cst_14 (constant S_ .f32 0x3F800000#32),   -- %cst_14 = constant dense<1.000000e+00>
    StableHlo.unary main_cst_14 main_v91 (broadcastInDim S800000x64 ![] bcast_S_S800000x64 : (⟨S_, .f32⟩ : BufTy).Contents (Elt F) → (⟨S800000x64, .f32⟩ : BufTy).Contents (Elt F)),   -- %91 = broadcast_in_dim %cst_14, dims = []
    StableHlo.binary main_v91 main_v90 main_v92 (addf : (⟨S800000x64, .f32⟩ : BufTy).Contents (Elt F) → (⟨S800000x64, .f32⟩ : BufTy).Contents (Elt F) → (⟨S800000x64, .f32⟩ : BufTy).Contents (Elt F)),   -- %92 = add %91, %90
    StableHlo.nullary main_cst_15 (constant S_ .f32 0x3F800000#32),   -- %cst_15 = constant dense<1.000000e+00>
    StableHlo.unary main_cst_15 main_v93 (broadcastInDim S800000x64 ![] bcast_S_S800000x64 : (⟨S_, .f32⟩ : BufTy).Contents (Elt F) → (⟨S800000x64, .f32⟩ : BufTy).Contents (Elt F)),   -- %93 = broadcast_in_dim %cst_15, dims = []
    StableHlo.binary main_v93 main_v92 main_v94 (Host.divf : (⟨S800000x64, .f32⟩ : BufTy).Contents (Elt F) → (⟨S800000x64, .f32⟩ : BufTy).Contents (Elt F) → (⟨S800000x64, .f32⟩ : BufTy).Contents (Elt F)),   -- %94 = divide %93, %92
    StableHlo.binary main_v88 main_v94 main_v95 (mulf : (⟨S800000x64, .f32⟩ : BufTy).Contents (Elt F) → (⟨S800000x64, .f32⟩ : BufTy).Contents (Elt F) → (⟨S800000x64, .f32⟩ : BufTy).Contents (Elt F)),   -- %95 = multiply %88, %94
    StableHlo.binary main_v95 main_arg17 main_v96 ((fun l r => Host.dotGeneral dot_S800000x64_S64x64_S800000x64_1_0_0_1_n_n none l r) : (⟨S800000x64, .f32⟩ : BufTy).Contents (Elt F) → (⟨S64x64, .f32⟩ : BufTy).Contents (Elt F) → (⟨S800000x64, .f32⟩ : BufTy).Contents (Elt F)),   -- %96 = dot_general %95, %arg17, contracting_dims = [1] x [0], precision = [DEFAULT, DEFAULT]
    StableHlo.unary main_arg18 main_v97 (broadcastInDim S1x64 ![1] bcast_S64_S1x64_1 : (⟨S64, .f32⟩ : BufTy).Contents (Elt F) → (⟨S1x64, .f32⟩ : BufTy).Contents (Elt F)),   -- %97 = broadcast_in_dim %arg18, dims = [1]
    StableHlo.unary main_v97 main_v98 (broadcastInDim S800000x64 ![0, 1] bcast_S1x64_S800000x64_0_1 : (⟨S1x64, .f32⟩ : BufTy).Contents (Elt F) → (⟨S800000x64, .f32⟩ : BufTy).Contents (Elt F)),   -- %98 = broadcast_in_dim %97, dims = [0, 1]
    StableHlo.binary main_v96 main_v98 main_v99 (addf : (⟨S800000x64, .f32⟩ : BufTy).Contents (Elt F) → (⟨S800000x64, .f32⟩ : BufTy).Contents (Elt F) → (⟨S800000x64, .f32⟩ : BufTy).Contents (Elt F)) ]   -- %99 = add %96, %98

/-- The edge latents: the column of row means (operations 163 … 168); the last writes `main_v103`. -/
abbrev el2 : List (HloOp τ sig (Elt F)) :=
  [ StableHlo.nullary main_cst_16 (constant S_ .f32 0x00000000#32),   -- %cst_16 = constant dense<0.000000e+00>
    StableHlo.binary main_v99 main_cst_16 main_v100 ((fun x v => Host.reduceAdd x v reducesTo_S800000x64_S800000_d1 h_S_) : (⟨S800000x64, .f32⟩ : BufTy).Contents (Elt F) → (⟨S_, .f32⟩ : BufTy).Contents (Elt F) → (⟨S800000, .f32⟩ : BufTy).Contents (Elt F)),   -- %100 = reduce(%99 init: %cst_16) applies add across dimensions = [1]
    StableHlo.unary main_v100 main_v101 (broadcastInDim S800000x1 ![0] bcast_S800000_S800000x1_0 : (⟨S800000, .f32⟩ : BufTy).Contents (Elt F) → (⟨S800000x1, .f32⟩ : BufTy).Contents (Elt F)),   -- %101 = broadcast_in_dim %100, dims = [0]
    StableHlo.nullary main_cst_17 (constant S_ .f32 0x42800000#32),   -- %cst_17 = constant dense<6.400000e+01>
    StableHlo.unary main_cst_17 main_v102 (broadcastInDim S800000x1 ![] bcast_S_S800000x1 : (⟨S_, .f32⟩ : BufTy).Contents (Elt F) → (⟨S800000x1, .f32⟩ : BufTy).Contents (Elt F)),   -- %102 = broadcast_in_dim %cst_17, dims = []
    StableHlo.binary main_v101 main_v102 main_v103 (Host.divf : (⟨S800000x1, .f32⟩ : BufTy).Contents (Elt F) → (⟨S800000x1, .f32⟩ : BufTy).Contents (Elt F) → (⟨S800000x1, .f32⟩ : BufTy).Contents (Elt F)) ]   -- %103 = divide %101, %102

/-- The edge latents: the column of row variances, the library function's operations (operations 169 … 192); the last writes `main_v104`. -/
abbrev el3 : List (HloOp τ sig (Elt F)) :=
  [ StableHlo.nullary main_c_18 (constantI S_ 32 0#32),   -- %c_18 = constant dense<0>
    StableHlo.TRef.nullary main_call2.cst (constant S_ .f32 0x00000000#32),   -- in @_var: %cst = constant dense<0.000000e+00>
    StableHlo.TRef.binary (.of main_v99 : StableHlo.TRef sig ⟨S800000x64, .f32⟩) main_call2.cst main_call2.v0 (fun x v => Host.reduceAdd x v reducesTo_S800000x64_S800000_d1 h_S_),   -- in @_var: %0 = reduce(%arg0 init: %cst) applies add across dimensions = [1]
    StableHlo.TRef.unary main_call2.v0 main_call2.v1 (broadcastInDim S800000x1 ![0] bcast_S800000_S800000x1_0),   -- in @_var: %1 = broadcast_in_dim %0, dims = [0]
    StableHlo.TRef.nullary main_call2.cst_0 (constant S_ .f32 0x42800000#32),   -- in @_var: %cst_0 = constant dense<6.400000e+01>
    StableHlo.TRef.unary main_call2.cst_0 main_call2.v2 (broadcastInDim S800000x1 ![] bcast_S_S800000x1),   -- in @_var: %2 = broadcast_in_dim %cst_0, dims = []
    StableHlo.TRef.binary main_call2.v1 main_call2.v2 main_call2.v3 Host.divf,   -- in @_var: %3 = divide %1, %2
    StableHlo.TRef.unary main_call2.v3 main_call2.v4 (broadcastInDim S800000x64 ![0, 1] bcast_S800000x1_S800000x64_0_1),   -- in @_var: %4 = broadcast_in_dim %3, dims = [0, 1]
    StableHlo.TRef.binary (.of main_v99 : StableHlo.TRef sig ⟨S800000x64, .f32⟩) main_call2.v4 main_call2.v5 subf,   -- in @_var: %5 = subtract %arg0, %4
    StableHlo.TRef.binary main_call2.v5 main_call2.v5 main_call2.v6 mulf,   -- in @_var: %6 = square %5
    StableHlo.TRef.unary (.of main_c_18 : StableHlo.TRef sig ⟨S_, .i32⟩) main_call2.v7 (sitofp .f32),   -- in @_var: %7 = convert %arg1
    StableHlo.TRef.nullary main_call2.cst_1 (constant S_ .f32 0x42800000#32),   -- in @_var: %cst_1 = constant dense<6.400000e+01>
    StableHlo.TRef.binary main_call2.cst_1 main_call2.v7 main_call2.v8 subf,   -- in @_var: %8 = subtract %cst_1, %7
    StableHlo.TRef.nullary main_call2.cst_2 (constant S_ .f32 0x00000000#32),   -- in @_var: %cst_2 = constant dense<0.000000e+00>
    StableHlo.TRef.binary main_call2.v6 main_call2.cst_2 main_call2.v9 (fun x v => Host.reduceAdd x v reducesTo_S800000x64_S800000_d1 h_S_),   -- in @_var: %9 = reduce(%6 init: %cst_2) applies add across dimensions = [1]
    StableHlo.TRef.unary main_call2.v9 main_call2.v10 (broadcastInDim S800000x1 ![0] bcast_S800000_S800000x1_0),   -- in @_var: %10 = broadcast_in_dim %9, dims = [0]
    StableHlo.TRef.unary main_call2.v8 main_call2.v11 (broadcastInDim S800000x1 ![] bcast_S_S800000x1),   -- in @_var: %11 = broadcast_in_dim %8, dims = []
    StableHlo.TRef.binary main_call2.v10 main_call2.v11 main_call2.v12 Host.divf,   -- in @_var: %12 = divide %10, %11
    StableHlo.TRef.nullary main_call2.cst_3 (constant S_ .f32 0x00000000#32),   -- in @_var: %cst_3 = constant dense<0.000000e+00>
    StableHlo.TRef.binary main_call2.v8 main_call2.cst_3 main_call2.v13 (cmpf .ogt),   -- in @_var: %13 = compare GT, %8, %cst_3, FLOAT
    StableHlo.TRef.nullary main_call2.cst_4 (constant S_ .f32 0x7FC00000#32),   -- in @_var: %cst_4 = constant dense<0x7FC00000>
    StableHlo.TRef.unary main_call2.cst_4 main_call2.call0.v0 id,   -- in @_where: %0 = convert %arg2
    StableHlo.TRef.unary main_call2.call0.v0 main_call2.call0.v1 (broadcastInDim S800000x1 ![] bcast_S_S800000x1),   -- in @_where: %1 = broadcast_in_dim %0, dims = []
    StableHlo.TRef.ternary main_call2.v13 main_call2.v12 main_call2.call0.v1 main_call2.call0.v2 (fun p a b => select (broadcastInDim S800000x1 ![] bcast_S_S800000x1 p) a b) ]   -- in @_where: %2 = select %arg0, %arg1, %1

/-- The edge latents: the normalisation from the centred entries and the two columns (operations 193 … 206); the last writes `main_v117`. -/
abbrev el4 : List (HloOp τ sig (Elt F)) :=
  [ StableHlo.unary main_v103 main_v105 (broadcastInDim S800000x64 ![0, 1] bcast_S800000x1_S800000x64_0_1 : (⟨S800000x1, .f32⟩ : BufTy).Contents (Elt F) → (⟨S800000x64, .f32⟩ : BufTy).Contents (Elt F)),   -- %105 = broadcast_in_dim %103, dims = [0, 1]
    StableHlo.binary main_v99 main_v105 main_v106 (subf : (⟨S800000x64, .f32⟩ : BufTy).Contents (Elt F) → (⟨S800000x64, .f32⟩ : BufTy).Contents (Elt F) → (⟨S800000x64, .f32⟩ : BufTy).Contents (Elt F)),   -- %106 = subtract %99, %105
    StableHlo.nullary main_cst_19 (constant S_ .f32 0x3727C5AC#32),   -- %cst_19 = constant dense<9.99999974E-6>
    StableHlo.unary main_cst_19 main_v107 (broadcastInDim S800000x1 ![] bcast_S_S800000x1 : (⟨S_, .f32⟩ : BufTy).Contents (Elt F) → (⟨S800000x1, .f32⟩ : BufTy).Contents (Elt F)),   -- %107 = broadcast_in_dim %cst_19, dims = []
    StableHlo.binary main_v104 main_v107 main_v108 (addf : (⟨S800000x1, .f32⟩ : BufTy).Contents (Elt F) → (⟨S800000x1, .f32⟩ : BufTy).Contents (Elt F) → (⟨S800000x1, .f32⟩ : BufTy).Contents (Elt F)),   -- %108 = add %104, %107
    StableHlo.unary main_v108 main_v109 (Host.rsqrt : (⟨S800000x1, .f32⟩ : BufTy).Contents (Elt F) → (⟨S800000x1, .f32⟩ : BufTy).Contents (Elt F)),   -- %109 = rsqrt %108
    StableHlo.unary main_v109 main_v110 (broadcastInDim S800000x64 ![0, 1] bcast_S800000x1_S800000x64_0_1 : (⟨S800000x1, .f32⟩ : BufTy).Contents (Elt F) → (⟨S800000x64, .f32⟩ : BufTy).Contents (Elt F)),   -- %110 = broadcast_in_dim %109, dims = [0, 1]
    StableHlo.binary main_v106 main_v110 main_v111 (mulf : (⟨S800000x64, .f32⟩ : BufTy).Contents (Elt F) → (⟨S800000x64, .f32⟩ : BufTy).Contents (Elt F) → (⟨S800000x64, .f32⟩ : BufTy).Contents (Elt F)),   -- %111 = multiply %106, %110
    StableHlo.unary main_arg19 main_v112 (broadcastInDim S1x64 ![1] bcast_S64_S1x64_1 : (⟨S64, .f32⟩ : BufTy).Contents (Elt F) → (⟨S1x64, .f32⟩ : BufTy).Contents (Elt F)),   -- %112 = broadcast_in_dim %arg19, dims = [1]
    StableHlo.unary main_v112 main_v113 (broadcastInDim S800000x64 ![0, 1] bcast_S1x64_S800000x64_0_1 : (⟨S1x64, .f32⟩ : BufTy).Contents (Elt F) → (⟨S800000x64, .f32⟩ : BufTy).Contents (Elt F)),   -- %113 = broadcast_in_dim %112, dims = [0, 1]
    StableHlo.binary main_v111 main_v113 main_v114 (mulf : (⟨S800000x64, .f32⟩ : BufTy).Contents (Elt F) → (⟨S800000x64, .f32⟩ : BufTy).Contents (Elt F) → (⟨S800000x64, .f32⟩ : BufTy).Contents (Elt F)),   -- %114 = multiply %111, %113
    StableHlo.unary main_arg20 main_v115 (broadcastInDim S1x64 ![1] bcast_S64_S1x64_1 : (⟨S64, .f32⟩ : BufTy).Contents (Elt F) → (⟨S1x64, .f32⟩ : BufTy).Contents (Elt F)),   -- %115 = broadcast_in_dim %arg20, dims = [1]
    StableHlo.unary main_v115 main_v116 (broadcastInDim S800000x64 ![0, 1] bcast_S1x64_S800000x64_0_1 : (⟨S1x64, .f32⟩ : BufTy).Contents (Elt F) → (⟨S800000x64, .f32⟩ : BufTy).Contents (Elt F)),   -- %116 = broadcast_in_dim %115, dims = [0, 1]
    StableHlo.binary main_v114 main_v116 main_v117 (addf : (⟨S800000x64, .f32⟩ : BufTy).Contents (Elt F) → (⟨S800000x64, .f32⟩ : BufTy).Contents (Elt F) → (⟨S800000x64, .f32⟩ : BufTy).Contents (Elt F)) ]   -- %117 = add %114, %116

/-- The stretch is its four parts in a row. -/
theorem ops_el_split : (ops_el : List (HloOp τ sig (Elt F))) = el1 ++ el2 ++ el3 ++ el4 := rfl

/-- The buffers that the operations of `el1` write, in order. -/
abbrev el1_W : List (Ref sig .tc) := [main_v84, main_v85, main_v86, main_v87, main_v88, main_v89, main_v90, main_cst_14, main_v91, main_v92, main_cst_15, main_v93, main_v94, main_v95, main_v96, main_v97, main_v98, main_v99]
set_option maxRecDepth 8192 in
theorem el1_writes : (el1 : List (HloOp τ sig (Elt F))).Forall fun op => op.writes ⊆ (el1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `el2` write, in order. -/
abbrev el2_W : List (Ref sig .tc) := [main_cst_16, main_v100, main_v101, main_cst_17, main_v102, main_v103]
set_option maxRecDepth 8192 in
theorem el2_writes : (el2 : List (HloOp τ sig (Elt F))).Forall fun op => op.writes ⊆ (el2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `el3` write, in order. -/
abbrev el3_W : List (Ref sig .tc) := [main_c_18, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v104]
set_option maxRecDepth 8192 in
theorem el3_writes : (el3 : List (HloOp τ sig (Elt F))).Forall fun op => op.writes ⊆ (el3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `el4` write, in order. -/
abbrev el4_W : List (Ref sig .tc) := [main_v105, main_v106, main_cst_19, main_v107, main_v108, main_v109, main_v110, main_v111, main_v112, main_v113, main_v114, main_v115, main_v116, main_v117]
set_option maxRecDepth 8192 in
theorem el4_writes : (el4 : List (HloOp τ sig (Elt F))).Forall fun op => op.writes ⊆ (el4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

set_option maxRecDepth 8192 in
set_option maxHeartbeats 2000000 in
/-- The two affine layers with the swish between them, from any contents. -/
theorem el1_y (U : Valuation τ sig (Elt Ideal)) :
    (after el1 U (Proc.devRef .tc main_v99) : Mat 800000 64)
      = ffb (concatenate S800000x192 1 [⟨S800000x64, U (Proc.devRef .tc main_v36)⟩, ⟨S800000x64, U (Proc.devRef .tc main_v76)⟩, ⟨S800000x64, U (Proc.devRef .tc main_v83)⟩] concatenates_S800000x64_S800000x64_S800000x64_S800000x192_d1 : Mat 800000 192) (U (Proc.devRef .tc main_arg15) : Mat 192 64) (U (Proc.devRef .tc main_arg16) : Vc 64) (U (Proc.devRef .tc main_arg17) : Mat 64 64) (U (Proc.devRef .tc main_arg18) : Vc 64) := by
  simp only [el1]
  after_results_simp
  rw [HostForm.dense_eq dot_S800000x192_S192x64_S800000x64_1_0_0_1_n_n rfl rfl rfl rfl rfl rfl, HostForm.swish_eq,
    HostForm.dense_eq dot_S800000x64_S64x64_S800000x64_1_0_0_1_n_n rfl rfl rfl rfl rfl rfl]
  rfl

set_option maxRecDepth 8192 in
/-- The column of row means, from any contents. -/
theorem el2_mean (U : Valuation τ sig (Elt Ideal)) (p : Fin 800000) (u : Fin 1) :
    (after el2 U (Proc.devRef .tc main_v103) : Mat 800000 1) (ix2 p u) = mean (U (Proc.devRef .tc main_v99) : Mat 800000 64) p := by
  simp only [el2]
  after_results_simp
  exact HostForm.mean_col reducesTo_S800000x64_S800000_d1 (by decide) h_S_ _ _ (U (Proc.devRef .tc main_v99)) p u

set_option maxRecDepth 8192 in
set_option maxHeartbeats 2000000 in
/-- The column of row variances, from any contents. -/
theorem el3_var (U : Valuation τ sig (Elt Ideal)) (p : Fin 800000) (u : Fin 1) :
    (after el3 U (Proc.devRef .tc main_v104) : Mat 800000 1) (ix2 p u) = var (U (Proc.devRef .tc main_v99) : Mat 800000 64) p := by
  simp only [el3]
  after_results_simp
  simp only [ofBuf_toBuf, id_eq]
  exact HostForm.var_col reducesTo_S800000x64_S800000_d1 (by decide) h_S_ bcast_S800000_S800000x1_0 bcast_S_S800000x1 _ (U (Proc.devRef .tc main_v99))
    (HostForm.centred_eq reducesTo_S800000x64_S800000_d1 (by decide) h_S_ bcast_S800000_S800000x1_0 bcast_S_S800000x1 bcast_S800000x1_S800000x64_0_1 (U (Proc.devRef .tc main_v99))) p u

set_option maxRecDepth 8192 in
set_option maxHeartbeats 2000000 in
/-- The normalisation, from any contents whose two columns hold the row means and the row variances. -/
theorem el4_out (U : Valuation τ sig (Elt Ideal))
    (hm : ∀ (p : Fin 800000) (u : Fin 1), (U (Proc.devRef .tc main_v103) : Mat 800000 1) (ix2 p u) = mean (U (Proc.devRef .tc main_v99) : Mat 800000 64) p)
    (hv : ∀ (p : Fin 800000) (u : Fin 1), (U (Proc.devRef .tc main_v104) : Mat 800000 1) (ix2 p u) = var (U (Proc.devRef .tc main_v99) : Mat 800000 64) p) :
    (after el4 U (Proc.devRef .tc main_v117) : Mat 800000 64)
      = lnorm (U (Proc.devRef .tc main_v99) : Mat 800000 64) (U (Proc.devRef .tc main_arg19) : Vc 64) (U (Proc.devRef .tc main_arg20) : Vc 64) := by
  simp only [el4]
  after_results_simp
  exact HostForm.lnorm_eq _ _ (U (Proc.devRef .tc main_v104)) _ (U (Proc.devRef .tc main_v99))
    (HostForm.centred_of_col (U (Proc.devRef .tc main_v99)) (U (Proc.devRef .tc main_v103)) _ hm) hv _ _ _ _

set_option maxRecDepth 8192 in
set_option maxHeartbeats 2000000 in
/-- The four parts in a row: the two affine layers, the swish and the normalisation of the result. -/
theorem el_parts (W : Valuation τ sig (Elt Ideal)) :
    (after el4 (after el3 (after el2 (after el1 W))) (Proc.devRef .tc main_v117) : Mat 800000 64)
      = lnorm (ffb (concatenate S800000x192 1 [⟨S800000x64, W (Proc.devRef .tc main_v36)⟩, ⟨S800000x64, W (Proc.devRef .tc main_v76)⟩, ⟨S800000x64, W (Proc.devRef .tc main_v83)⟩] concatenates_S800000x64_S800000x64_S800000x64_S800000x192_d1 : Mat 800000 192) (W (Proc.devRef .tc main_arg15) : Mat 192 64) (W (Proc.devRef .tc main_arg16) : Vc 64) (W (Proc.devRef .tc main_arg17) : Mat 64 64) (W (Proc.devRef .tc main_arg18) : Vc 64)) (W (Proc.devRef .tc main_arg19) : Vc 64) (W (Proc.devRef .tc main_arg20) : Vc 64) := by
  have hy : ((after el3 (after el2 (after el1 W))) (Proc.devRef .tc main_v99) : Mat 800000 64) = ffb (concatenate S800000x192 1 [⟨S800000x64, W (Proc.devRef .tc main_v36)⟩, ⟨S800000x64, W (Proc.devRef .tc main_v76)⟩, ⟨S800000x64, W (Proc.devRef .tc main_v83)⟩] concatenates_S800000x64_S800000x64_S800000x64_S800000x192_d1 : Mat 800000 192) (W (Proc.devRef .tc main_arg15) : Mat 192 64) (W (Proc.devRef .tc main_arg16) : Vc 64) (W (Proc.devRef .tc main_arg17) : Mat 64 64) (W (Proc.devRef .tc main_arg18) : Vc 64) := by
    rw [after_of_writes_sub el3 _ el3_writes (r := main_v99) (by decide), after_of_writes_sub el2 _ el2_writes (r := main_v99) (by decide)]
    exact el1_y W
  have hm : ∀ (p : Fin 800000) (u : Fin 1), ((after el3 (after el2 (after el1 W))) (Proc.devRef .tc main_v103) : Mat 800000 1) (ix2 p u) = mean ((after el3 (after el2 (after el1 W))) (Proc.devRef .tc main_v99) : Mat 800000 64) p := by
    intro p u
    rw [after_of_writes_sub el3 _ el3_writes (r := main_v103) (by decide), after_of_writes_sub el3 _ el3_writes (r := main_v99) (by decide), after_of_writes_sub el2 _ el2_writes (r := main_v99) (by decide)]
    exact el2_mean (after el1 W) p u
  have hv : ∀ (p : Fin 800000) (u : Fin 1), ((after el3 (after el2 (after el1 W))) (Proc.devRef .tc main_v104) : Mat 800000 1) (ix2 p u) = var ((after el3 (after el2 (after el1 W))) (Proc.devRef .tc main_v99) : Mat 800000 64) p := by
    intro p u
    rw [after_of_writes_sub el3 _ el3_writes (r := main_v99) (by decide)]
    exact el3_var (after el2 (after el1 W)) p u
  rw [el4_out _ hm hv, hy,
    after_of_writes_sub el3 _ el3_writes (r := main_arg19) (by decide), after_of_writes_sub el2 _ el2_writes (r := main_arg19) (by decide), after_of_writes_sub el1 _ el1_writes (r := main_arg19) (by decide),
    after_of_writes_sub el3 _ el3_writes (r := main_arg20) (by decide), after_of_writes_sub el2 _ el2_writes (r := main_arg20) (by decide), after_of_writes_sub el1 _ el1_writes (r := main_arg20) (by decide)]

set_option maxRecDepth 8192 in
set_option maxHeartbeats 2000000 in
/-- The edge latents, from any contents the stretch starts from. -/
theorem el (W : Valuation τ sig (Elt Ideal)) :
    (after ops_el W (Proc.devRef .tc main_v117) : Mat 800000 64) = lnorm (dense (swish (dense (concatenate S800000x192 1 [⟨S800000x64, W (Proc.devRef .tc main_v36)⟩, ⟨S800000x64, W (Proc.devRef .tc main_v76)⟩, ⟨S800000x64, W (Proc.devRef .tc main_v83)⟩] concatenates_S800000x64_S800000x64_S800000x64_S800000x192_d1 : Mat 800000 192) (W (Proc.devRef .tc main_arg15) : Mat 192 64) (W (Proc.devRef .tc main_arg16) : Vc 64))) (W (Proc.devRef .tc main_arg17) : Mat 64 64) (W (Proc.devRef .tc main_arg18) : Vc 64)) (W (Proc.devRef .tc main_arg19) : Vc 64) (W (Proc.devRef .tc main_arg20) : Vc 64) := by
  rw [ops_el_split, StableHlo.after_append, StableHlo.after_append, StableHlo.after_append]
  exact el_parts W

/-- The node latents: the node embedding added back, then the output perceptron, two affine layers with a swish between them (operations 273 … 290); the last writes `main_v170`. -/
abbrev nl5 : List (HloOp τ sig (Elt F)) :=
  [ StableHlo.binary main_v154 main_v69 main_v155 (addf : (⟨S50000x64, .f32⟩ : BufTy).Contents (Elt F) → (⟨S50000x64, .f32⟩ : BufTy).Contents (Elt F) → (⟨S50000x64, .f32⟩ : BufTy).Contents (Elt F)),   -- %155 = add %154, %69
    StableHlo.binary main_v155 main_arg27 main_v156 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %156 = dot_general %155, %arg27, contracting_dims = [1] x [0], precision = [DEFAULT, DEFAULT]
    StableHlo.unary main_arg28 main_v157 (broadcastInDim S1x64 ![1] bcast_S64_S1x64_1 : (⟨S64, .f32⟩ : BufTy).Contents (Elt F) → (⟨S1x64, .f32⟩ : BufTy).Contents (Elt F)),   -- %157 = broadcast_in_dim %arg28, dims = [1]
    StableHlo.unary main_v157 main_v158 (broadcastInDim S50000x64 ![0, 1] bcast_S1x64_S50000x64_0_1 : (⟨S1x64, .f32⟩ : BufTy).Contents (Elt F) → (⟨S50000x64, .f32⟩ : BufTy).Contents (Elt F)),   -- %158 = broadcast_in_dim %157, dims = [0, 1]
    StableHlo.binary main_v156 main_v158 main_v159 (addf : (⟨S50000x64, .f32⟩ : BufTy).Contents (Elt F) → (⟨S50000x64, .f32⟩ : BufTy).Contents (Elt F) → (⟨S50000x64, .f32⟩ : BufTy).Contents (Elt F)),   -- %159 = add %156, %158
    StableHlo.unary main_v159 main_v160 (Host.negf : (⟨S50000x64, .f32⟩ : BufTy).Contents (Elt F) → (⟨S50000x64, .f32⟩ : BufTy).Contents (Elt F)),   -- %160 = negate %159
    StableHlo.unary main_v160 main_v161 (Host.exp : (⟨S50000x64, .f32⟩ : BufTy).Contents (Elt F) → (⟨S50000x64, .f32⟩ : BufTy).Contents (Elt F)),   -- %161 = exponential %160
    StableHlo.nullary main_cst_27 (constant S_ .f32 0x3F800000#32),   -- %cst_27 = constant dense<1.000000e+00>
    StableHlo.unary main_cst_27 main_v162 (broadcastInDim S50000x64 ![] bcast_S_S50000x64 : (⟨S_, .f32⟩ : BufTy).Contents (Elt F) → (⟨S50000x64, .f32⟩ : BufTy).Contents (Elt F)),   -- %162 = broadcast_in_dim %cst_27, dims = []
    StableHlo.binary main_v162 main_v161 main_v163 (addf : (⟨S50000x64, .f32⟩ : BufTy).Contents (Elt F) → (⟨S50000x64, .f32⟩ : BufTy).Contents (Elt F) → (⟨S50000x64, .f32⟩ : BufTy).Contents (Elt F)),   -- %163 = add %162, %161
    StableHlo.nullary main_cst_28 (constant S_ .f32 0x3F800000#32),   -- %cst_28 = constant dense<1.000000e+00>
    StableHlo.unary main_cst_28 main_v164 (broadcastInDim S50000x64 ![] bcast_S_S50000x64 : (⟨S_, .f32⟩ : BufTy).Contents (Elt F) → (⟨S50000x64, .f32⟩ : BufTy).Contents (Elt F)),   -- %164 = broadcast_in_dim %cst_28, dims = []
    StableHlo.binary main_v164 main_v163 main_v165 (Host.divf : (⟨S50000x64, .f32⟩ : BufTy).Contents (Elt F) → (⟨S50000x64, .f32⟩ : BufTy).Contents (Elt F) → (⟨S50000x64, .f32⟩ : BufTy).Contents (Elt F)),   -- %165 = divide %164, %163
    StableHlo.binary main_v159 main_v165 main_v166 (mulf : (⟨S50000x64, .f32⟩ : BufTy).Contents (Elt F) → (⟨S50000x64, .f32⟩ : BufTy).Contents (Elt F) → (⟨S50000x64, .f32⟩ : BufTy).Contents (Elt F)),   -- %166 = multiply %159, %165
    StableHlo.binary main_v166 main_arg29 main_v167 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %167 = dot_general %166, %arg29, contracting_dims = [1] x [0], precision = [DEFAULT, DEFAULT]
    StableHlo.unary main_arg30 main_v168 (broadcastInDim S1x64 ![1] bcast_S64_S1x64_1 : (⟨S64, .f32⟩ : BufTy).Contents (Elt F) → (⟨S1x64, .f32⟩ : BufTy).Contents (Elt F)),   -- %168 = broadcast_in_dim %arg30, dims = [1]
    StableHlo.unary main_v168 main_v169 (broadcastInDim S50000x64 ![0, 1] bcast_S1x64_S50000x64_0_1 : (⟨S1x64, .f32⟩ : BufTy).Contents (Elt F) → (⟨S50000x64, .f32⟩ : BufTy).Contents (Elt F)),   -- %169 = broadcast_in_dim %168, dims = [0, 1]
    StableHlo.binary main_v167 main_v169 main_v170 (addf : (⟨S50000x64, .f32⟩ : BufTy).Contents (Elt F) → (⟨S50000x64, .f32⟩ : BufTy).Contents (Elt F) → (⟨S50000x64, .f32⟩ : BufTy).Contents (Elt F)) ]   -- %170 = add %167, %169

/-- The node latents: the two affine layers with the swish between them (operations 211 … 228 of the line); the last writes `main_v136`. -/
abbrev nl1 : List (HloOp τ sig (Elt F)) :=
  [ StableHlo.binary main_v69 main_v120 main_v121 ((fun a b => concatenate S50000x128 1 [⟨S50000x64, a⟩, ⟨S50000x64, b⟩] concatenates_S50000x64_S50000x64_S50000x128_d1) : (⟨S50000x64, .f32⟩ : BufTy).Contents (Elt F) → (⟨S50000x64, .f32⟩ : BufTy).Contents (Elt F) → (⟨S50000x128, .f32⟩ : BufTy).Contents (Elt F)),   -- %121 = concatenate %69, %120, dim = 1
    StableHlo.binary main_v121 main_arg21 main_v122 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),   -- %122 = dot_general %121, %arg21, contracting_dims = [1] x [0], precision = [DEFAULT, DEFAULT]
    StableHlo.unary main_arg22 main_v123 (broadcastInDim S1x64 ![1] bcast_S64_S1x64_1 : (⟨S64, .f32⟩ : BufTy).Contents (Elt F) → (⟨S1x64, .f32⟩ : BufTy).Contents (Elt F)),   -- %123 = broadcast_in_dim %arg22, dims = [1]
    StableHlo.unary main_v123 main_v124 (broadcastInDim S50000x64 ![0, 1] bcast_S1x64_S50000x64_0_1 : (⟨S1x64, .f32⟩ : BufTy).Contents (Elt F) → (⟨S50000x64, .f32⟩ : BufTy).Contents (Elt F)),   -- %124 = broadcast_in_dim %123, dims = [0, 1]
    StableHlo.binary main_v122 main_v124 main_v125 (addf : (⟨S50000x64, .f32⟩ : BufTy).Contents (Elt F) → (⟨S50000x64, .f32⟩ : BufTy).Contents (Elt F) → (⟨S50000x64, .f32⟩ : BufTy).Contents (Elt F)),   -- %125 = add %122, %124
    StableHlo.unary main_v125 main_v126 (Host.negf : (⟨S50000x64, .f32⟩ : BufTy).Contents (Elt F) → (⟨S50000x64, .f32⟩ : BufTy).Contents (Elt F)),   -- %126 = negate %125
    StableHlo.unary main_v126 main_v127 (Host.exp : (⟨S50000x64, .f32⟩ : BufTy).Contents (Elt F) → (⟨S50000x64, .f32⟩ : BufTy).Contents (Elt F)),   -- %127 = exponential %126
    StableHlo.nullary main_cst_21 (constant S_ .f32 0x3F800000#32),   -- %cst_21 = constant dense<1.000000e+00>
    StableHlo.unary main_cst_21 main_v128 (broadcastInDim S50000x64 ![] bcast_S_S50000x64 : (⟨S_, .f32⟩ : BufTy).Contents (Elt F) → (⟨S50000x64, .f32⟩ : BufTy).Contents (Elt F)),   -- %128 = broadcast_in_dim %cst_21, dims = []
    StableHlo.binary main_v128 main_v127 main_v129 (addf : (⟨S50000x64, .f32⟩ : BufTy).Contents (Elt F) → (⟨S50000x64, .f32⟩ : BufTy).Contents (Elt F) → (⟨S50000x64, .f32⟩ : BufTy).Contents (Elt F)),   -- %129 = add %128, %127
    StableHlo.nullary main_cst_22 (constant S_ .f32 0x3F800000#32),   -- %cst_22 = constant dense<1.000000e+00>
    StableHlo.unary main_cst_22 main_v130 (broadcastInDim S50000x64 ![] bcast_S_S50000x64 : (⟨S_, .f32⟩ : BufTy).Contents (Elt F) → (⟨S50000x64, .f32⟩ : BufTy).Contents (Elt F)),   -- %130 = broadcast_in_dim %cst_22, dims = []
    StableHlo.binary main_v130 main_v129 main_v131 (Host.divf : (⟨S50000x64, .f32⟩ : BufTy).Contents (Elt F) → (⟨S50000x64, .f32⟩ : BufTy).Contents (Elt F) → (⟨S50000x64, .f32⟩ : BufTy).Contents (Elt F)),   -- %131 = divide %130, %129
    StableHlo.binary main_v125 main_v131 main_v132 (mulf : (⟨S50000x64, .f32⟩ : BufTy).Contents (Elt F) → (⟨S50000x64, .f32⟩ : BufTy).Contents (Elt F) → (⟨S50000x64, .f32⟩ : BufTy).Contents (Elt F)),   -- %132 = multiply %125, %131
    StableHlo.binary main_v132 main_arg23 main_v133 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),   -- %133 = dot_general %132, %arg23, contracting_dims = [1] x [0], precision = [DEFAULT, DEFAULT]
    StableHlo.unary main_arg24 main_v134 (broadcastInDim S1x64 ![1] bcast_S64_S1x64_1 : (⟨S64, .f32⟩ : BufTy).Contents (Elt F) → (⟨S1x64, .f32⟩ : BufTy).Contents (Elt F)),   -- %134 = broadcast_in_dim %arg24, dims = [1]
    StableHlo.unary main_v134 main_v135 (broadcastInDim S50000x64 ![0, 1] bcast_S1x64_S50000x64_0_1 : (⟨S1x64, .f32⟩ : BufTy).Contents (Elt F) → (⟨S50000x64, .f32⟩ : BufTy).Contents (Elt F)),   -- %135 = broadcast_in_dim %134, dims = [0, 1]
    StableHlo.binary main_v133 main_v135 main_v136 (addf : (⟨S50000x64, .f32⟩ : BufTy).Contents (Elt F) → (⟨S50000x64, .f32⟩ : BufTy).Contents (Elt F) → (⟨S50000x64, .f32⟩ : BufTy).Contents (Elt F)) ]   -- %136 = add %133, %135

/-- The node latents: the column of row means (operations 229 … 234); the last writes `main_v140`. -/
abbrev nl2 : List (HloOp τ sig (Elt F)) :=
  [ StableHlo.nullary main_cst_23 (constant S_ .f32 0x00000000#32),   -- %cst_23 = constant dense<0.000000e+00>
    StableHlo.binary main_v136 main_cst_23 main_v137 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),   -- %137 = reduce(%136 init: %cst_23) applies add across dimensions = [1]
    StableHlo.unary main_v137 main_v138 (broadcastInDim S50000x1 ![0] bcast_S50000_S50000x1_0 : (⟨S50000, .f32⟩ : BufTy).Contents (Elt F) → (⟨S50000x1, .f32⟩ : BufTy).Contents (Elt F)),   -- %138 = broadcast_in_dim %137, dims = [0]
    StableHlo.nullary main_cst_24 (constant S_ .f32 0x42800000#32),   -- %cst_24 = constant dense<6.400000e+01>
    StableHlo.unary main_cst_24 main_v139 (broadcastInDim S50000x1 ![] bcast_S_S50000x1 : (⟨S_, .f32⟩ : BufTy).Contents (Elt F) → (⟨S50000x1, .f32⟩ : BufTy).Contents (Elt F)),   -- %139 = broadcast_in_dim %cst_24, dims = []
    StableHlo.binary main_v138 main_v139 main_v140 (Host.divf : (⟨S50000x1, .f32⟩ : BufTy).Contents (Elt F) → (⟨S50000x1, .f32⟩ : BufTy).Contents (Elt F) → (⟨S50000x1, .f32⟩ : BufTy).Contents (Elt F)) ]   -- %140 = divide %138, %139

/-- The node latents: the column of row variances, the library function's operations (operations 235 … 258); the last writes `main_v141`. -/
abbrev nl3 : List (HloOp τ sig (Elt F)) :=
  [ StableHlo.nullary main_c_25 (constantI S_ 32 0#32),   -- %c_25 = constant dense<0>
    StableHlo.TRef.nullary main_call3.cst (constant S_ .f32 0x00000000#32),   -- in @_var_0: %cst = constant dense<0.000000e+00>
    StableHlo.TRef.binary (.of main_v136 : StableHlo.TRef sig ⟨S50000x64, .f32⟩) main_call3.cst main_call3.v0 (fun x v => Host.reduceAdd x v reducesTo_S50000x64_S50000_d1 h_S_),   -- in @_var_0: %0 = reduce(%arg0 init: %cst) applies add across dimensions = [1]
    StableHlo.TRef.unary main_call3.v0 main_call3.v1 (broadcastInDim S50000x1 ![0] bcast_S50000_S50000x1_0),   -- in @_var_0: %1 = broadcast_in_dim %0, dims = [0]
    StableHlo.TRef.nullary main_call3.cst_0 (constant S_ .f32 0x42800000#32),   -- in @_var_0: %cst_0 = constant dense<6.400000e+01>
    StableHlo.TRef.unary main_call3.cst_0 main_call3.v2 (broadcastInDim S50000x1 ![] bcast_S_S50000x1),   -- in @_var_0: %2 = broadcast_in_dim %cst_0, dims = []
    StableHlo.TRef.binary main_call3.v1 main_call3.v2 main_call3.v3 Host.divf,   -- in @_var_0: %3 = divide %1, %2
    StableHlo.TRef.unary main_call3.v3 main_call3.v4 (broadcastInDim S50000x64 ![0, 1] bcast_S50000x1_S50000x64_0_1),   -- in @_var_0: %4 = broadcast_in_dim %3, dims = [0, 1]
    StableHlo.TRef.binary (.of main_v136 : StableHlo.TRef sig ⟨S50000x64, .f32⟩) main_call3.v4 main_call3.v5 subf,   -- in @_var_0: %5 = subtract %arg0, %4
    StableHlo.TRef.binary main_call3.v5 main_call3.v5 main_call3.v6 mulf,   -- in @_var_0: %6 = square %5
    StableHlo.TRef.unary (.of main_c_25 : StableHlo.TRef sig ⟨S_, .i32⟩) main_call3.v7 (sitofp .f32),   -- in @_var_0: %7 = convert %arg1
    StableHlo.TRef.nullary main_call3.cst_1 (constant S_ .f32 0x42800000#32),   -- in @_var_0: %cst_1 = constant dense<6.400000e+01>
    StableHlo.TRef.binary main_call3.cst_1 main_call3.v7 main_call3.v8 subf,   -- in @_var_0: %8 = subtract %cst_1, %7
    StableHlo.TRef.nullary main_call3.cst_2 (constant S_ .f32 0x00000000#32),   -- in @_var_0: %cst_2 = constant dense<0.000000e+00>
    StableHlo.TRef.binary main_call3.v6 main_call3.cst_2 main_call3.v9 (fun x v => Host.reduceAdd x v reducesTo_S50000x64_S50000_d1 h_S_),   -- in @_var_0: %9 = reduce(%6 init: %cst_2) applies add across dimensions = [1]
    StableHlo.TRef.unary main_call3.v9 main_call3.v10 (broadcastInDim S50000x1 ![0] bcast_S50000_S50000x1_0),   -- in @_var_0: %10 = broadcast_in_dim %9, dims = [0]
    StableHlo.TRef.unary main_call3.v8 main_call3.v11 (broadcastInDim S50000x1 ![] bcast_S_S50000x1),   -- in @_var_0: %11 = broadcast_in_dim %8, dims = []
    StableHlo.TRef.binary main_call3.v10 main_call3.v11 main_call3.v12 Host.divf,   -- in @_var_0: %12 = divide %10, %11
    StableHlo.TRef.nullary main_call3.cst_3 (constant S_ .f32 0x00000000#32),   -- in @_var_0: %cst_3 = constant dense<0.000000e+00>
    StableHlo.TRef.binary main_call3.v8 main_call3.cst_3 main_call3.v13 (cmpf .ogt),   -- in @_var_0: %13 = compare GT, %8, %cst_3, FLOAT
    StableHlo.TRef.nullary main_call3.cst_4 (constant S_ .f32 0x7FC00000#32),   -- in @_var_0: %cst_4 = constant dense<0x7FC00000>
    StableHlo.TRef.unary main_call3.cst_4 main_call3.call0.v0 id,   -- in @_where_1: %0 = convert %arg2
    StableHlo.TRef.unary main_call3.call0.v0 main_call3.call0.v1 (broadcastInDim S50000x1 ![] bcast_S_S50000x1),   -- in @_where_1: %1 = broadcast_in_dim %0, dims = []
    StableHlo.TRef.ternary main_call3.v13 main_call3.v12 main_call3.call0.v1 main_call3.call0.v2 (fun p a b => select (broadcastInDim S50000x1 ![] bcast_S_S50000x1 p) a b) ]   -- in @_where_1: %2 = select %arg0, %arg1, %1

/-- The node latents: the normalisation from the centred entries and the two columns (operations 259 … 272); the last writes `main_v154`. -/
abbrev nl4 : List (HloOp τ sig (Elt F)) :=
  [ StableHlo.unary main_v140 main_v142 (broadcastInDim S50000x64 ![0, 1] bcast_S50000x1_S50000x64_0_1 : (⟨S50000x1, .f32⟩ : BufTy).Contents (Elt F) → (⟨S50000x64, .f32⟩ : BufTy).Contents (Elt F)),   -- %142 = broadcast_in_dim %140, dims = [0, 1]
    StableHlo.binary main_v136 main_v142 main_v143 (subf : (⟨S50000x64, .f32⟩ : BufTy).Contents (Elt F) → (⟨S50000x64, .f32⟩ : BufTy).Contents (Elt F) → (⟨S50000x64, .f32⟩ : BufTy).Contents (Elt F)),   -- %143 = subtract %136, %142
    StableHlo.nullary main_cst_26 (constant S_ .f32 0x3727C5AC#32),   -- %cst_26 = constant dense<9.99999974E-6>
    StableHlo.unary main_cst_26 main_v144 (broadcastInDim S50000x1 ![] bcast_S_S50000x1 : (⟨S_, .f32⟩ : BufTy).Contents (Elt F) → (⟨S50000x1, .f32⟩ : BufTy).Contents (Elt F)),   -- %144 = broadcast_in_dim %cst_26, dims = []
    StableHlo.binary main_v141 main_v144 main_v145 (addf : (⟨S50000x1, .f32⟩ : BufTy).Contents (Elt F) → (⟨S50000x1, .f32⟩ : BufTy).Contents (Elt F) → (⟨S50000x1, .f32⟩ : BufTy).Contents (Elt F)),   -- %145 = add %141, %144
    StableHlo.unary main_v145 main_v146 (Host.rsqrt : (⟨S50000x1, .f32⟩ : BufTy).Contents (Elt F) → (⟨S50000x1, .f32⟩ : BufTy).Contents (Elt F)),   -- %146 = rsqrt %145
    StableHlo.unary main_v146 main_v147 (broadcastInDim S50000x64 ![0, 1] bcast_S50000x1_S50000x64_0_1 : (⟨S50000x1, .f32⟩ : BufTy).Contents (Elt F) → (⟨S50000x64, .f32⟩ : BufTy).Contents (Elt F)),   -- %147 = broadcast_in_dim %146, dims = [0, 1]
    StableHlo.binary main_v143 main_v147 main_v148 (mulf : (⟨S50000x64, .f32⟩ : BufTy).Contents (Elt F) → (⟨S50000x64, .f32⟩ : BufTy).Contents (Elt F) → (⟨S50000x64, .f32⟩ : BufTy).Contents (Elt F)),   -- %148 = multiply %143, %147
    StableHlo.unary main_arg25 main_v149 (broadcastInDim S1x64 ![1] bcast_S64_S1x64_1 : (⟨S64, .f32⟩ : BufTy).Contents (Elt F) → (⟨S1x64, .f32⟩ : BufTy).Contents (Elt F)),   -- %149 = broadcast_in_dim %arg25, dims = [1]
    StableHlo.unary main_v149 main_v150 (broadcastInDim S50000x64 ![0, 1] bcast_S1x64_S50000x64_0_1 : (⟨S1x64, .f32⟩ : BufTy).Contents (Elt F) → (⟨S50000x64, .f32⟩ : BufTy).Contents (Elt F)),   -- %150 = broadcast_in_dim %149, dims = [0, 1]
    StableHlo.binary main_v148 main_v150 main_v151 (mulf : (⟨S50000x64, .f32⟩ : BufTy).Contents (Elt F) → (⟨S50000x64, .f32⟩ : BufTy).Contents (Elt F) → (⟨S50000x64, .f32⟩ : BufTy).Contents (Elt F)),   -- %151 = multiply %148, %150
    StableHlo.unary main_arg26 main_v152 (broadcastInDim S1x64 ![1] bcast_S64_S1x64_1 : (⟨S64, .f32⟩ : BufTy).Contents (Elt F) → (⟨S1x64, .f32⟩ : BufTy).Contents (Elt F)),   -- %152 = broadcast_in_dim %arg26, dims = [1]
    StableHlo.unary main_v152 main_v153 (broadcastInDim S50000x64 ![0, 1] bcast_S1x64_S50000x64_0_1 : (⟨S1x64, .f32⟩ : BufTy).Contents (Elt F) → (⟨S50000x64, .f32⟩ : BufTy).Contents (Elt F)),   -- %153 = broadcast_in_dim %152, dims = [0, 1]
    StableHlo.binary main_v151 main_v153 main_v154 (addf : (⟨S50000x64, .f32⟩ : BufTy).Contents (Elt F) → (⟨S50000x64, .f32⟩ : BufTy).Contents (Elt F) → (⟨S50000x64, .f32⟩ : BufTy).Contents (Elt F)) ]   -- %154 = add %151, %153

/-- The stretch is its four parts in a row. -/
theorem ops_nl_split : (ops_nl : List (HloOp τ sig (Elt F))) = nl1 ++ nl2 ++ nl3 ++ nl4 ++ nl5 := rfl

/-- The buffers that the operations of `nl1` write, in order. -/
abbrev nl1_W : List (Ref sig .tc) := [main_v121, main_v122, main_v123, main_v124, main_v125, main_v126, main_v127, main_cst_21, main_v128, main_v129, main_cst_22, main_v130, main_v131, main_v132, main_v133, main_v134, main_v135, main_v136]
set_option maxRecDepth 8192 in
theorem nl1_writes : (nl1 : List (HloOp τ sig (Elt F))).Forall fun op => op.writes ⊆ (nl1_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `nl2` write, in order. -/
abbrev nl2_W : List (Ref sig .tc) := [main_cst_23, main_v137, main_v138, main_cst_24, main_v139, main_v140]
set_option maxRecDepth 8192 in
theorem nl2_writes : (nl2 : List (HloOp τ sig (Elt F))).Forall fun op => op.writes ⊆ (nl2_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `nl3` write, in order. -/
abbrev nl3_W : List (Ref sig .tc) := [main_c_25, main_call3_cst, main_call3_v0, main_call3_v1, main_call3_cst_0, main_call3_v2, main_call3_v3, main_call3_v4, main_call3_v5, main_call3_v6, main_call3_v7, main_call3_cst_1, main_call3_v8, main_call3_cst_2, main_call3_v9, main_call3_v10, main_call3_v11, main_call3_v12, main_call3_cst_3, main_call3_v13, main_call3_cst_4, main_call3_call0_v0, main_call3_call0_v1, main_v141]
set_option maxRecDepth 8192 in
theorem nl3_writes : (nl3 : List (HloOp τ sig (Elt F))).Forall fun op => op.writes ⊆ (nl3_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

/-- The buffers that the operations of `nl4` write, in order. -/
abbrev nl4_W : List (Ref sig .tc) := [main_v142, main_v143, main_cst_26, main_v144, main_v145, main_v146, main_v147, main_v148, main_v149, main_v150, main_v151, main_v152, main_v153, main_v154]
set_option maxRecDepth 8192 in
theorem nl4_writes : (nl4 : List (HloOp τ sig (Elt F))).Forall fun op => op.writes ⊆ (nl4_W.map (Proc.devRef (τ := τ) .tc)).toFinset := by
  simp only [List.Forall]
  exact ⟨by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide),
    by simp only [nullary_writes, unary_writes, binary_writes, ternary_writes, quaternary_writes, reshape_writes, nary_writes, Finset.singleton_subset_iff, List.mem_toFinset]; exact List.mem_map_of_mem (by decide)⟩

set_option maxRecDepth 8192 in
set_option maxHeartbeats 2000000 in
/-- The two affine layers with the swish between them, from any contents. -/
theorem nl1_y (U : Valuation τ sig (Elt Ideal)) :
    (after nl1 U (Proc.devRef .tc main_v136) : Mat 50000 64)
      = ffb (concatenate S50000x128 1 [⟨S50000x64, U (Proc.devRef .tc main_v69)⟩, ⟨S50000x64, U (Proc.devRef .tc main_v120)⟩] concatenates_S50000x64_S50000x64_S50000x128_d1 : Mat 50000 128) (U (Proc.devRef .tc main_arg21) : Mat 128 64) (U (Proc.devRef .tc main_arg22) : Vc 64) (U (Proc.devRef .tc main_arg23) : Mat 64 64) (U (Proc.devRef .tc main_arg24) : Vc 64) := by
  simp only [nl1]
  after_results_simp
  rw [HostForm.dense_eq dot_S50000x128_S128x64_S50000x64_1_0_0_1_n_n rfl rfl rfl rfl rfl rfl, HostForm.swish_eq,
    HostForm.dense_eq dot_S50000x64_S64x64_S50000x64_1_0_0_1_n_n rfl rfl rfl rfl rfl rfl]
  rfl

set_option maxRecDepth 8192 in
/-- The column of row means, from any contents. -/
theorem nl2_mean (U : Valuation τ sig (Elt Ideal)) (p : Fin 50000) (u : Fin 1) :
    (after nl2 U (Proc.devRef .tc main_v140) : Mat 50000 1) (ix2 p u) = mean (U (Proc.devRef .tc main_v136) : Mat 50000 64) p := by
  simp only [nl2]
  after_results_simp
  exact HostForm.mean_col reducesTo_S50000x64_S50000_d1 (by decide) h_S_ _ _ (U (Proc.devRef .tc main_v136)) p u

set_option maxRecDepth 8192 in
set_option maxHeartbeats 2000000 in
/-- The column of row variances, from any contents. -/
theorem nl3_var (U : Valuation τ sig (Elt Ideal)) (p : Fin 50000) (u : Fin 1) :
    (after nl3 U (Proc.devRef .tc main_v141) : Mat 50000 1) (ix2 p u) = var (U (Proc.devRef .tc main_v136) : Mat 50000 64) p := by
  simp only [nl3]
  after_results_simp
  simp only [ofBuf_toBuf, id_eq]
  exact HostForm.var_col reducesTo_S50000x64_S50000_d1 (by decide) h_S_ bcast_S50000_S50000x1_0 bcast_S_S50000x1 _ (U (Proc.devRef .tc main_v136))
    (HostForm.centred_eq reducesTo_S50000x64_S50000_d1 (by decide) h_S_ bcast_S50000_S50000x1_0 bcast_S_S50000x1 bcast_S50000x1_S50000x64_0_1 (U (Proc.devRef .tc main_v136))) p u

set_option maxRecDepth 8192 in
set_option maxHeartbeats 2000000 in
/-- The normalisation, from any contents whose two columns hold the row means and the row variances. -/
theorem nl4_out (U : Valuation τ sig (Elt Ideal))
    (hm : ∀ (p : Fin 50000) (u : Fin 1), (U (Proc.devRef .tc main_v140) : Mat 50000 1) (ix2 p u) = mean (U (Proc.devRef .tc main_v136) : Mat 50000 64) p)
    (hv : ∀ (p : Fin 50000) (u : Fin 1), (U (Proc.devRef .tc main_v141) : Mat 50000 1) (ix2 p u) = var (U (Proc.devRef .tc main_v136) : Mat 50000 64) p) :
    (after nl4 U (Proc.devRef .tc main_v154) : Mat 50000 64)
      = lnorm (U (Proc.devRef .tc main_v136) : Mat 50000 64) (U (Proc.devRef .tc main_arg25) : Vc 64) (U (Proc.devRef .tc main_arg26) : Vc 64) := by
  simp only [nl4]
  after_results_simp
  exact HostForm.lnorm_eq _ _ (U (Proc.devRef .tc main_v141)) _ (U (Proc.devRef .tc main_v136))
    (HostForm.centred_of_col (U (Proc.devRef .tc main_v136)) (U (Proc.devRef .tc main_v140)) _ hm) hv _ _ _ _

set_option maxRecDepth 8192 in
set_option maxHeartbeats 2000000 in
/-- The four parts in a row: the two affine layers, the swish and the normalisation of the result. -/
theorem nl_parts (W : Valuation τ sig (Elt Ideal)) :
    (after nl4 (after nl3 (after nl2 (after nl1 W))) (Proc.devRef .tc main_v154) : Mat 50000 64)
      = lnorm (ffb (concatenate S50000x128 1 [⟨S50000x64, W (Proc.devRef .tc main_v69)⟩, ⟨S50000x64, W (Proc.devRef .tc main_v120)⟩] concatenates_S50000x64_S50000x64_S50000x128_d1 : Mat 50000 128) (W (Proc.devRef .tc main_arg21) : Mat 128 64) (W (Proc.devRef .tc main_arg22) : Vc 64) (W (Proc.devRef .tc main_arg23) : Mat 64 64) (W (Proc.devRef .tc main_arg24) : Vc 64)) (W (Proc.devRef .tc main_arg25) : Vc 64) (W (Proc.devRef .tc main_arg26) : Vc 64) := by
  have hy : ((after nl3 (after nl2 (after nl1 W))) (Proc.devRef .tc main_v136) : Mat 50000 64) = ffb (concatenate S50000x128 1 [⟨S50000x64, W (Proc.devRef .tc main_v69)⟩, ⟨S50000x64, W (Proc.devRef .tc main_v120)⟩] concatenates_S50000x64_S50000x64_S50000x128_d1 : Mat 50000 128) (W (Proc.devRef .tc main_arg21) : Mat 128 64) (W (Proc.devRef .tc main_arg22) : Vc 64) (W (Proc.devRef .tc main_arg23) : Mat 64 64) (W (Proc.devRef .tc main_arg24) : Vc 64) := by
    rw [after_of_writes_sub nl3 _ nl3_writes (r := main_v136) (by decide), after_of_writes_sub nl2 _ nl2_writes (r := main_v136) (by decide)]
    exact nl1_y W
  have hm : ∀ (p : Fin 50000) (u : Fin 1), ((after nl3 (after nl2 (after nl1 W))) (Proc.devRef .tc main_v140) : Mat 50000 1) (ix2 p u) = mean ((after nl3 (after nl2 (after nl1 W))) (Proc.devRef .tc main_v136) : Mat 50000 64) p := by
    intro p u
    rw [after_of_writes_sub nl3 _ nl3_writes (r := main_v140) (by decide), after_of_writes_sub nl3 _ nl3_writes (r := main_v136) (by decide), after_of_writes_sub nl2 _ nl2_writes (r := main_v136) (by decide)]
    exact nl2_mean (after nl1 W) p u
  have hv : ∀ (p : Fin 50000) (u : Fin 1), ((after nl3 (after nl2 (after nl1 W))) (Proc.devRef .tc main_v141) : Mat 50000 1) (ix2 p u) = var ((after nl3 (after nl2 (after nl1 W))) (Proc.devRef .tc main_v136) : Mat 50000 64) p := by
    intro p u
    rw [after_of_writes_sub nl3 _ nl3_writes (r := main_v136) (by decide)]
    exact nl3_var (after nl2 (after nl1 W)) p u
  rw [nl4_out _ hm hv, hy,
    after_of_writes_sub nl3 _ nl3_writes (r := main_arg25) (by decide), after_of_writes_sub nl2 _ nl2_writes (r := main_arg25) (by decide), after_of_writes_sub nl1 _ nl1_writes (r := main_arg25) (by decide),
    after_of_writes_sub nl3 _ nl3_writes (r := main_arg26) (by decide), after_of_writes_sub nl2 _ nl2_writes (r := main_arg26) (by decide), after_of_writes_sub nl1 _ nl1_writes (r := main_arg26) (by decide)]

set_option maxRecDepth 8192 in
set_option maxHeartbeats 2000000 in
/-- The node embedding added back and the output perceptron, from any contents. -/
theorem nl5_out (U : Valuation τ sig (Elt Ideal)) :
    (after nl5 U (Proc.devRef .tc main_v170) : Mat 50000 64)
      = ffb (plus (U (Proc.devRef .tc main_v154) : Mat 50000 64) (U (Proc.devRef .tc main_v69) : Mat 50000 64)) (U (Proc.devRef .tc main_arg27) : Mat 64 64) (U (Proc.devRef .tc main_arg28) : Vc 64) (U (Proc.devRef .tc main_arg29) : Mat 64 64) (U (Proc.devRef .tc main_arg30) : Vc 64) := by
  simp only [nl5]
  after_results_simp
  rw [HostForm.dense_eq dot_S50000x64_S64x64_S50000x64_1_0_0_1_n_n rfl rfl rfl rfl rfl rfl, HostForm.swish_eq,
    HostForm.dense_eq dot_S50000x64_S64x64_S50000x64_1_0_0_1_n_n rfl rfl rfl rfl rfl rfl]
  rfl

/-- A buffer none of the first four parts writes keeps its contents through them. -/
theorem nl_keep4 (U : Valuation τ sig (Elt Ideal)) (r : Ref sig .tc) (h1 : r ∉ nl1_W) (h2 : r ∉ nl2_W) (h3 : r ∉ nl3_W) (h4 : r ∉ nl4_W) :
    after nl4 (after nl3 (after nl2 (after nl1 U))) (Proc.devRef .tc r) = U (Proc.devRef .tc r) := by
  rw [after_of_writes_sub nl4 _ nl4_writes h4, after_of_writes_sub nl3 _ nl3_writes h3, after_of_writes_sub nl2 _ nl2_writes h2,
    after_of_writes_sub nl1 _ nl1_writes h1]

set_option maxRecDepth 8192 in
set_option maxHeartbeats 2000000 in
/-- The node latents, from any contents the stretch starts from. -/
theorem nl (W : Valuation τ sig (Elt Ideal)) :
    (after ops_nl W (Proc.devRef .tc main_v170) : Mat 50000 64)
      = ffb (plus (lnorm (dense (swish (dense (concatenate S50000x128 1 [⟨S50000x64, W (Proc.devRef .tc main_v69)⟩, ⟨S50000x64, W (Proc.devRef .tc main_v120)⟩] concatenates_S50000x64_S50000x64_S50000x128_d1 : Mat 50000 128) (W (Proc.devRef .tc main_arg21) : Mat 128 64) (W (Proc.devRef .tc main_arg22) : Vc 64))) (W (Proc.devRef .tc main_arg23) : Mat 64 64) (W (Proc.devRef .tc main_arg24) : Vc 64)) (W (Proc.devRef .tc main_arg25) : Vc 64) (W (Proc.devRef .tc main_arg26) : Vc 64))
            (W (Proc.devRef .tc main_v69) : Mat 50000 64))
          (W (Proc.devRef .tc main_arg27) : Mat 64 64) (W (Proc.devRef .tc main_arg28) : Vc 64) (W (Proc.devRef .tc main_arg29) : Mat 64 64) (W (Proc.devRef .tc main_arg30) : Vc 64) := by
  rw [ops_nl_split, StableHlo.after_append, StableHlo.after_append, StableHlo.after_append, StableHlo.after_append]
  rw [nl5_out, nl_parts W,
    nl_keep4 W main_v69 (by decide) (by decide) (by decide) (by decide),
    nl_keep4 W main_arg27 (by decide) (by decide) (by decide) (by decide),
    nl_keep4 W main_arg28 (by decide) (by decide) (by decide) (by decide),
    nl_keep4 W main_arg29 (by decide) (by decide) (by decide) (by decide),
    nl_keep4 W main_arg30 (by decide) (by decide) (by decide) (by decide)]
  rfl

/-! ## The stretches in a row

From one valuation V of the buffers (the launch contents), the three results of the whole line as the network's three
functions of V's contents at the argument buffers (Spec.lean): the node embedding, the edge latents and the node latents.
A buffer a stretch does not write is carried across it by the list of the buffers the stretch writes. -/

set_option maxRecDepth 8192 in
set_option maxHeartbeats 2000000 in
/-- Row 0 of the edge index, taken apart by a slice and a reshape, is that row. -/
theorem ef1_row_s (U : Valuation τ sig (Elt Ideal)) :
    (after ef1 U (Proc.devRef .tc main_v1) : IVec Spec.SI 32) = Spec.rowOf (U (Proc.devRef .tc main_arg0) : IVec Spec.SE2 32) 0 := by
  simp only [ef1]
  after_results_simp
  funext i
  obtain ⟨e, rfl⟩ : ∃ e : Fin 800000, i = ix1 e := ⟨i 0, eq_ix1 i⟩
  show shapeCast (⟨1, ![800000]⟩ : Shape) (extractStridedSlice S1x800000 ![0, 0] (U (Proc.devRef .tc main_arg0)) slices_S2x800000_S1x800000_0_0) shapeCasts_S1x800000_S800000 (ix1 e) = _
  rw [shapeCast_1a_a_apply, slice2_axis0_eq]
  rfl

/-- … and it is still there at the end of the stretch. -/
theorem row_s (V : Valuation τ sig (Elt Ideal)) :
    (after ops_ef V (Proc.devRef .tc main_v1) : IVec Spec.SI 32) = Spec.rowOf (V (Proc.devRef .tc main_arg0) : IVec Spec.SE2 32) 0 := by
  rw [ops_ef_split, StableHlo.after_append, StableHlo.after_append, StableHlo.after_append,
    after_of_writes_sub ef4 _ ef4_writes (r := main_v1) (by decide), after_of_writes_sub ef3 _ ef3_writes (r := main_v1) (by decide),
    after_of_writes_sub ef2 _ ef2_writes (r := main_v1) (by decide)]
  exact ef1_row_s V

set_option maxRecDepth 8192 in
set_option maxHeartbeats 2000000 in
/-- Row 1 of the edge index, taken apart by a slice and a reshape, is that row. -/
theorem ef1_row_r (U : Valuation τ sig (Elt Ideal)) :
    (after ef1 U (Proc.devRef .tc main_v3) : IVec Spec.SI 32) = Spec.rowOf (U (Proc.devRef .tc main_arg0) : IVec Spec.SE2 32) 1 := by
  simp only [ef1]
  after_results_simp
  funext i
  obtain ⟨e, rfl⟩ : ∃ e : Fin 800000, i = ix1 e := ⟨i 0, eq_ix1 i⟩
  show shapeCast (⟨1, ![800000]⟩ : Shape) (extractStridedSlice S1x800000 ![1, 0] (U (Proc.devRef .tc main_arg0)) slices_S2x800000_S1x800000_1_0) shapeCasts_S1x800000_S800000 (ix1 e) = _
  rw [shapeCast_1a_a_apply, slice2_axis0_eq]
  rfl

/-- … and it is still there at the end of the stretch. -/
theorem row_r (V : Valuation τ sig (Elt Ideal)) :
    (after ops_ef V (Proc.devRef .tc main_v3) : IVec Spec.SI 32) = Spec.rowOf (V (Proc.devRef .tc main_arg0) : IVec Spec.SE2 32) 1 := by
  rw [ops_ef_split, StableHlo.after_append, StableHlo.after_append, StableHlo.after_append,
    after_of_writes_sub ef4 _ ef4_writes (r := main_v3) (by decide), after_of_writes_sub ef3 _ ef3_writes (r := main_v3) (by decide),
    after_of_writes_sub ef2 _ ef2_writes (r := main_v3) (by decide)]
  exact ef1_row_r V

section Chain

variable (V : Valuation τ sig (Elt Ideal))

set_option maxRecDepth 8192 in
set_option maxHeartbeats 2000000 in
/-- The node embedding after the first two stretches. -/
theorem nf_chain :
    (after ops_nf (after ops_ef V) (Proc.devRef .tc main_v69) : Mat 50000 64) = (ffbLn (V (Proc.devRef .tc main_arg2) : Mat 50000 16) (V (Proc.devRef .tc main_arg9) : Mat 16 64) (V (Proc.devRef .tc main_arg10) : Vc 64) (V (Proc.devRef .tc main_arg11) : Mat 64 64) (V (Proc.devRef .tc main_arg12) : Vc 64) (V (Proc.devRef .tc main_arg13) : Vc 64) (V (Proc.devRef .tc main_arg14) : Vc 64)) := by
  rw [nf, after_of_writes_sub ops_ef _ ops_ef_writes (r := main_arg2) (by decide),
    after_of_writes_sub ops_ef _ ops_ef_writes (r := main_arg9) (by decide),
    after_of_writes_sub ops_ef _ ops_ef_writes (r := main_arg10) (by decide),
    after_of_writes_sub ops_ef _ ops_ef_writes (r := main_arg11) (by decide),
    after_of_writes_sub ops_ef _ ops_ef_writes (r := main_arg12) (by decide),
    after_of_writes_sub ops_ef _ ops_ef_writes (r := main_arg13) (by decide),
    after_of_writes_sub ops_ef _ ops_ef_writes (r := main_arg14) (by decide)]

set_option maxRecDepth 8192 in
set_option maxHeartbeats 2000000 in
/-- The edge latents after the first four stretches. -/
theorem el_chain :
    (after ops_el (after ops_gather (after ops_nf (after ops_ef V))) (Proc.devRef .tc main_v117) : Mat 800000 64)
      = (Spec.edgeLatents HR (Spec.rowOf (V (Proc.devRef .tc main_arg0) : IVec Spec.SE2 32) 0) (Spec.rowOf (V (Proc.devRef .tc main_arg0) : IVec Spec.SE2 32) 1) (ffbLn (V (Proc.devRef .tc main_arg2) : Mat 50000 16) (V (Proc.devRef .tc main_arg9) : Mat 16 64) (V (Proc.devRef .tc main_arg10) : Vc 64) (V (Proc.devRef .tc main_arg11) : Mat 64 64) (V (Proc.devRef .tc main_arg12) : Vc 64) (V (Proc.devRef .tc main_arg13) : Vc 64) (V (Proc.devRef .tc main_arg14) : Vc 64)) (V (Proc.devRef .tc main_arg1) : Mat 800000 4) (V (Proc.devRef .tc main_arg3) : Mat 4 64) (V (Proc.devRef .tc main_arg4) : Vc 64) (V (Proc.devRef .tc main_arg5) : Mat 64 64) (V (Proc.devRef .tc main_arg6) : Vc 64) (V (Proc.devRef .tc main_arg7) : Vc 64) (V (Proc.devRef .tc main_arg8) : Vc 64) (V (Proc.devRef .tc main_arg15) : Mat 192 64) (V (Proc.devRef .tc main_arg16) : Vc 64) (V (Proc.devRef .tc main_arg17) : Mat 64 64) (V (Proc.devRef .tc main_arg18) : Vc 64) (V (Proc.devRef .tc main_arg19) : Vc 64) (V (Proc.devRef .tc main_arg20) : Vc 64)) := by
  rw [el, gather_s, gather_r, after_of_writes_sub ops_gather _ ops_gather_writes (r := main_v36) (by decide), after_of_writes_sub ops_nf _ ops_nf_writes (r := main_v36) (by decide), ef, nf_chain V,
    after_of_writes_sub ops_nf _ ops_nf_writes (r := main_v1) (by decide), after_of_writes_sub ops_nf _ ops_nf_writes (r := main_v3) (by decide), row_s V, row_r V,
    after_of_writes_sub ops_gather _ ops_gather_writes (r := main_arg15) (by decide), after_of_writes_sub ops_nf _ ops_nf_writes (r := main_arg15) (by decide), after_of_writes_sub ops_ef _ ops_ef_writes (r := main_arg15) (by decide),
    after_of_writes_sub ops_gather _ ops_gather_writes (r := main_arg16) (by decide), after_of_writes_sub ops_nf _ ops_nf_writes (r := main_arg16) (by decide), after_of_writes_sub ops_ef _ ops_ef_writes (r := main_arg16) (by decide),
    after_of_writes_sub ops_gather _ ops_gather_writes (r := main_arg17) (by decide), after_of_writes_sub ops_nf _ ops_nf_writes (r := main_arg17) (by decide), after_of_writes_sub ops_ef _ ops_ef_writes (r := main_arg17) (by decide),
    after_of_writes_sub ops_gather _ ops_gather_writes (r := main_arg18) (by decide), after_of_writes_sub ops_nf _ ops_nf_writes (r := main_arg18) (by decide), after_of_writes_sub ops_ef _ ops_ef_writes (r := main_arg18) (by decide),
    after_of_writes_sub ops_gather _ ops_gather_writes (r := main_arg19) (by decide), after_of_writes_sub ops_nf _ ops_nf_writes (r := main_arg19) (by decide), after_of_writes_sub ops_ef _ ops_ef_writes (r := main_arg19) (by decide),
    after_of_writes_sub ops_gather _ ops_gather_writes (r := main_arg20) (by decide), after_of_writes_sub ops_nf _ ops_nf_writes (r := main_arg20) (by decide), after_of_writes_sub ops_ef _ ops_ef_writes (r := main_arg20) (by decide)]
  rw [Cert.Gnn.Bands.dense_cat3 (k := 64)]
  rfl

set_option maxRecDepth 8192 in
set_option maxHeartbeats 2000000 in
/-- The node latents after all six stretches. -/
theorem nl_chain :
    (after ops_nl (after ops_agg (after ops_el (after ops_gather (after ops_nf (after ops_ef V))))) (Proc.devRef .tc main_v170) : Mat 50000 64)
      = (Spec.nodeLatents HR (Spec.rowOf (V (Proc.devRef .tc main_arg0) : IVec Spec.SE2 32) 1) (ffbLn (V (Proc.devRef .tc main_arg2) : Mat 50000 16) (V (Proc.devRef .tc main_arg9) : Mat 16 64) (V (Proc.devRef .tc main_arg10) : Vc 64) (V (Proc.devRef .tc main_arg11) : Mat 64 64) (V (Proc.devRef .tc main_arg12) : Vc 64) (V (Proc.devRef .tc main_arg13) : Vc 64) (V (Proc.devRef .tc main_arg14) : Vc 64)) (Spec.edgeLatents HR (Spec.rowOf (V (Proc.devRef .tc main_arg0) : IVec Spec.SE2 32) 0) (Spec.rowOf (V (Proc.devRef .tc main_arg0) : IVec Spec.SE2 32) 1) (ffbLn (V (Proc.devRef .tc main_arg2) : Mat 50000 16) (V (Proc.devRef .tc main_arg9) : Mat 16 64) (V (Proc.devRef .tc main_arg10) : Vc 64) (V (Proc.devRef .tc main_arg11) : Mat 64 64) (V (Proc.devRef .tc main_arg12) : Vc 64) (V (Proc.devRef .tc main_arg13) : Vc 64) (V (Proc.devRef .tc main_arg14) : Vc 64)) (V (Proc.devRef .tc main_arg1) : Mat 800000 4) (V (Proc.devRef .tc main_arg3) : Mat 4 64) (V (Proc.devRef .tc main_arg4) : Vc 64) (V (Proc.devRef .tc main_arg5) : Mat 64 64) (V (Proc.devRef .tc main_arg6) : Vc 64) (V (Proc.devRef .tc main_arg7) : Vc 64) (V (Proc.devRef .tc main_arg8) : Vc 64) (V (Proc.devRef .tc main_arg15) : Mat 192 64) (V (Proc.devRef .tc main_arg16) : Vc 64) (V (Proc.devRef .tc main_arg17) : Mat 64 64) (V (Proc.devRef .tc main_arg18) : Vc 64) (V (Proc.devRef .tc main_arg19) : Vc 64) (V (Proc.devRef .tc main_arg20) : Vc 64)) (V (Proc.devRef .tc main_arg21) : Mat 128 64) (V (Proc.devRef .tc main_arg22) : Vc 64) (V (Proc.devRef .tc main_arg23) : Mat 64 64) (V (Proc.devRef .tc main_arg24) : Vc 64) (V (Proc.devRef .tc main_arg25) : Vc 64) (V (Proc.devRef .tc main_arg26) : Vc 64) (V (Proc.devRef .tc main_arg27) : Mat 64 64) (V (Proc.devRef .tc main_arg28) : Vc 64) (V (Proc.devRef .tc main_arg29) : Mat 64 64) (V (Proc.devRef .tc main_arg30) : Vc 64)) := by
  rw [nl, agg, after_of_writes_sub ops_agg _ ops_agg_writes (r := main_v69) (by decide), after_of_writes_sub ops_el _ ops_el_writes (r := main_v69) (by decide), after_of_writes_sub ops_gather _ ops_gather_writes (r := main_v69) (by decide), nf_chain V,
    after_of_writes_sub ops_el _ ops_el_writes (r := main_v3) (by decide), after_of_writes_sub ops_gather _ ops_gather_writes (r := main_v3) (by decide), after_of_writes_sub ops_nf _ ops_nf_writes (r := main_v3) (by decide), row_r V, el_chain V,
    after_of_writes_sub ops_agg _ ops_agg_writes (r := main_arg21) (by decide), after_of_writes_sub ops_el _ ops_el_writes (r := main_arg21) (by decide), after_of_writes_sub ops_gather _ ops_gather_writes (r := main_arg21) (by decide), after_of_writes_sub ops_nf _ ops_nf_writes (r := main_arg21) (by decide), after_of_writes_sub ops_ef _ ops_ef_writes (r := main_arg21) (by decide),
    after_of_writes_sub ops_agg _ ops_agg_writes (r := main_arg22) (by decide), after_of_writes_sub ops_el _ ops_el_writes (r := main_arg22) (by decide), after_of_writes_sub ops_gather _ ops_gather_writes (r := main_arg22) (by decide), after_of_writes_sub ops_nf _ ops_nf_writes (r := main_arg22) (by decide), after_of_writes_sub ops_ef _ ops_ef_writes (r := main_arg22) (by decide),
    after_of_writes_sub ops_agg _ ops_agg_writes (r := main_arg23) (by decide), after_of_writes_sub ops_el _ ops_el_writes (r := main_arg23) (by decide), after_of_writes_sub ops_gather _ ops_gather_writes (r := main_arg23) (by decide), after_of_writes_sub ops_nf _ ops_nf_writes (r := main_arg23) (by decide), after_of_writes_sub ops_ef _ ops_ef_writes (r := main_arg23) (by decide),
    after_of_writes_sub ops_agg _ ops_agg_writes (r := main_arg24) (by decide), after_of_writes_sub ops_el _ ops_el_writes (r := main_arg24) (by decide), after_of_writes_sub ops_gather _ ops_gather_writes (r := main_arg24) (by decide), after_of_writes_sub ops_nf _ ops_nf_writes (r := main_arg24) (by decide), after_of_writes_sub ops_ef _ ops_ef_writes (r := main_arg24) (by decide),
    after_of_writes_sub ops_agg _ ops_agg_writes (r := main_arg25) (by decide), after_of_writes_sub ops_el _ ops_el_writes (r := main_arg25) (by decide), after_of_writes_sub ops_gather _ ops_gather_writes (r := main_arg25) (by decide), after_of_writes_sub ops_nf _ ops_nf_writes (r := main_arg25) (by decide), after_of_writes_sub ops_ef _ ops_ef_writes (r := main_arg25) (by decide),
    after_of_writes_sub ops_agg _ ops_agg_writes (r := main_arg26) (by decide), after_of_writes_sub ops_el _ ops_el_writes (r := main_arg26) (by decide), after_of_writes_sub ops_gather _ ops_gather_writes (r := main_arg26) (by decide), after_of_writes_sub ops_nf _ ops_nf_writes (r := main_arg26) (by decide), after_of_writes_sub ops_ef _ ops_ef_writes (r := main_arg26) (by decide),
    after_of_writes_sub ops_agg _ ops_agg_writes (r := main_arg27) (by decide), after_of_writes_sub ops_el _ ops_el_writes (r := main_arg27) (by decide), after_of_writes_sub ops_gather _ ops_gather_writes (r := main_arg27) (by decide), after_of_writes_sub ops_nf _ ops_nf_writes (r := main_arg27) (by decide), after_of_writes_sub ops_ef _ ops_ef_writes (r := main_arg27) (by decide),
    after_of_writes_sub ops_agg _ ops_agg_writes (r := main_arg28) (by decide), after_of_writes_sub ops_el _ ops_el_writes (r := main_arg28) (by decide), after_of_writes_sub ops_gather _ ops_gather_writes (r := main_arg28) (by decide), after_of_writes_sub ops_nf _ ops_nf_writes (r := main_arg28) (by decide), after_of_writes_sub ops_ef _ ops_ef_writes (r := main_arg28) (by decide),
    after_of_writes_sub ops_agg _ ops_agg_writes (r := main_arg29) (by decide), after_of_writes_sub ops_el _ ops_el_writes (r := main_arg29) (by decide), after_of_writes_sub ops_gather _ ops_gather_writes (r := main_arg29) (by decide), after_of_writes_sub ops_nf _ ops_nf_writes (r := main_arg29) (by decide), after_of_writes_sub ops_ef _ ops_ef_writes (r := main_arg29) (by decide),
    after_of_writes_sub ops_agg _ ops_agg_writes (r := main_arg30) (by decide), after_of_writes_sub ops_el _ ops_el_writes (r := main_arg30) (by decide), after_of_writes_sub ops_gather _ ops_gather_writes (r := main_arg30) (by decide), after_of_writes_sub ops_nf _ ops_nf_writes (r := main_arg30) (by decide), after_of_writes_sub ops_ef _ ops_ef_writes (r := main_arg30) (by decide)]
  rw [Cert.Gnn.Bands.dense_cat2 (k := 64)]
  rfl

end Chain

/-! ## The three results of the run -/

set_option maxRecDepth 8192 in
set_option maxHeartbeats 2000000 in
/-- The node embedding the run returns is the embedding layer of the node features. -/
theorem ref_nf (m : (ℓ : Loc nD τ sig) → Buf (Elt Ideal) ℓ) (c : Dev nD) :
    (after ops (launchContents m c) (Proc.devRef .tc main_v69) : Mat 50000 64) = (ffbLn (m ((c.tc : Thread nD τ).loc main_arg2) : Mat 50000 16) (m ((c.tc : Thread nD τ).loc main_arg9) : Mat 16 64) (m ((c.tc : Thread nD τ).loc main_arg10) : Vc 64) (m ((c.tc : Thread nD τ).loc main_arg11) : Mat 64 64) (m ((c.tc : Thread nD τ).loc main_arg12) : Vc 64) (m ((c.tc : Thread nD τ).loc main_arg13) : Vc 64) (m ((c.tc : Thread nD τ).loc main_arg14) : Vc 64)) := by
  simp only [ops, StableHlo.after_append]
  rw [after_of_writes_sub ops_nl _ ops_nl_writes (r := main_v69) (by decide), after_of_writes_sub ops_agg _ ops_agg_writes (r := main_v69) (by decide), after_of_writes_sub ops_el _ ops_el_writes (r := main_v69) (by decide), after_of_writes_sub ops_gather _ ops_gather_writes (r := main_v69) (by decide)]
  exact nf_chain (launchContents m c)

set_option maxRecDepth 8192 in
set_option maxHeartbeats 2000000 in
/-- The edge latents the run returns are the network's edge latents of the arguments. -/
theorem ref_el (m : (ℓ : Loc nD τ sig) → Buf (Elt Ideal) ℓ) (c : Dev nD) :
    (after ops (launchContents m c) (Proc.devRef .tc main_v117) : Mat 800000 64) = (Spec.edgeLatents HR (Spec.rowOf (m ((c.tc : Thread nD τ).loc main_arg0) : IVec Spec.SE2 32) 0) (Spec.rowOf (m ((c.tc : Thread nD τ).loc main_arg0) : IVec Spec.SE2 32) 1) (ffbLn (m ((c.tc : Thread nD τ).loc main_arg2) : Mat 50000 16) (m ((c.tc : Thread nD τ).loc main_arg9) : Mat 16 64) (m ((c.tc : Thread nD τ).loc main_arg10) : Vc 64) (m ((c.tc : Thread nD τ).loc main_arg11) : Mat 64 64) (m ((c.tc : Thread nD τ).loc main_arg12) : Vc 64) (m ((c.tc : Thread nD τ).loc main_arg13) : Vc 64) (m ((c.tc : Thread nD τ).loc main_arg14) : Vc 64)) (m ((c.tc : Thread nD τ).loc main_arg1) : Mat 800000 4) (m ((c.tc : Thread nD τ).loc main_arg3) : Mat 4 64) (m ((c.tc : Thread nD τ).loc main_arg4) : Vc 64) (m ((c.tc : Thread nD τ).loc main_arg5) : Mat 64 64) (m ((c.tc : Thread nD τ).loc main_arg6) : Vc 64) (m ((c.tc : Thread nD τ).loc main_arg7) : Vc 64) (m ((c.tc : Thread nD τ).loc main_arg8) : Vc 64) (m ((c.tc : Thread nD τ).loc main_arg15) : Mat 192 64) (m ((c.tc : Thread nD τ).loc main_arg16) : Vc 64) (m ((c.tc : Thread nD τ).loc main_arg17) : Mat 64 64) (m ((c.tc : Thread nD τ).loc main_arg18) : Vc 64) (m ((c.tc : Thread nD τ).loc main_arg19) : Vc 64) (m ((c.tc : Thread nD τ).loc main_arg20) : Vc 64)) := by
  simp only [ops, StableHlo.after_append]
  rw [after_of_writes_sub ops_nl _ ops_nl_writes (r := main_v117) (by decide), after_of_writes_sub ops_agg _ ops_agg_writes (r := main_v117) (by decide)]
  exact el_chain (launchContents m c)

set_option maxRecDepth 8192 in
set_option maxHeartbeats 2000000 in
/-- The node latents the run returns are the network's node latents of the arguments. -/
theorem ref_nl (m : (ℓ : Loc nD τ sig) → Buf (Elt Ideal) ℓ) (c : Dev nD) :
    (after ops (launchContents m c) (Proc.devRef .tc main_v170) : Mat 50000 64) = (Spec.nodeLatents HR (Spec.rowOf (m ((c.tc : Thread nD τ).loc main_arg0) : IVec Spec.SE2 32) 1) (ffbLn (m ((c.tc : Thread nD τ).loc main_arg2) : Mat 50000 16) (m ((c.tc : Thread nD τ).loc main_arg9) : Mat 16 64) (m ((c.tc : Thread nD τ).loc main_arg10) : Vc 64) (m ((c.tc : Thread nD τ).loc main_arg11) : Mat 64 64) (m ((c.tc : Thread nD τ).loc main_arg12) : Vc 64) (m ((c.tc : Thread nD τ).loc main_arg13) : Vc 64) (m ((c.tc : Thread nD τ).loc main_arg14) : Vc 64)) (Spec.edgeLatents HR (Spec.rowOf (m ((c.tc : Thread nD τ).loc main_arg0) : IVec Spec.SE2 32) 0) (Spec.rowOf (m ((c.tc : Thread nD τ).loc main_arg0) : IVec Spec.SE2 32) 1) (ffbLn (m ((c.tc : Thread nD τ).loc main_arg2) : Mat 50000 16) (m ((c.tc : Thread nD τ).loc main_arg9) : Mat 16 64) (m ((c.tc : Thread nD τ).loc main_arg10) : Vc 64) (m ((c.tc : Thread nD τ).loc main_arg11) : Mat 64 64) (m ((c.tc : Thread nD τ).loc main_arg12) : Vc 64) (m ((c.tc : Thread nD τ).loc main_arg13) : Vc 64) (m ((c.tc : Thread nD τ).loc main_arg14) : Vc 64)) (m ((c.tc : Thread nD τ).loc main_arg1) : Mat 800000 4) (m ((c.tc : Thread nD τ).loc main_arg3) : Mat 4 64) (m ((c.tc : Thread nD τ).loc main_arg4) : Vc 64) (m ((c.tc : Thread nD τ).loc main_arg5) : Mat 64 64) (m ((c.tc : Thread nD τ).loc main_arg6) : Vc 64) (m ((c.tc : Thread nD τ).loc main_arg7) : Vc 64) (m ((c.tc : Thread nD τ).loc main_arg8) : Vc 64) (m ((c.tc : Thread nD τ).loc main_arg15) : Mat 192 64) (m ((c.tc : Thread nD τ).loc main_arg16) : Vc 64) (m ((c.tc : Thread nD τ).loc main_arg17) : Mat 64 64) (m ((c.tc : Thread nD τ).loc main_arg18) : Vc 64) (m ((c.tc : Thread nD τ).loc main_arg19) : Vc 64) (m ((c.tc : Thread nD τ).loc main_arg20) : Vc 64)) (m ((c.tc : Thread nD τ).loc main_arg21) : Mat 128 64) (m ((c.tc : Thread nD τ).loc main_arg22) : Vc 64) (m ((c.tc : Thread nD τ).loc main_arg23) : Mat 64 64) (m ((c.tc : Thread nD τ).loc main_arg24) : Vc 64) (m ((c.tc : Thread nD τ).loc main_arg25) : Vc 64) (m ((c.tc : Thread nD τ).loc main_arg26) : Vc 64) (m ((c.tc : Thread nD τ).loc main_arg27) : Mat 64 64) (m ((c.tc : Thread nD τ).loc main_arg28) : Vc 64) (m ((c.tc : Thread nD τ).loc main_arg29) : Mat 64 64) (m ((c.tc : Thread nD τ).loc main_arg30) : Vc 64)) := by
  simp only [ops, StableHlo.after_append]
  exact nl_chain (launchContents m c)

end Cert.ReferenceIdeal.RefVal

end
-- ==== Proof.lean ====
/-
  The certificate of the graph-network kernel against its reference.

  Both programs compute, on the extended reals, the same three arrays (Proof/Spec.lean): the node embedding NF (two
  affine layers with a swish between them and a layer normalisation of each row), the edge latents EL (the edge features
  embedded the same way, joined with NF gathered at each edge's sender and receiver, through an affine layer, swish,
  affine layer and normalisation) and the node latents NL (NF joined with EL summed into the receivers, through the same
  kind of block, NF added back, then two affine layers with a swish). The kernel computes them in three tiled passes over
  blocks of rows; every layer acts row by row, so each pass's output array is the layer of the whole input arrays
  (Proof/Layers.lean, Proof/KernelArrays.lean). The kernel multiplies each piece of a join by its band of the weight
  matrix and adds the products where the reference multiplies the joined array by the whole matrix: the two agree
  because a sum over the joined columns splits into the sums over the pieces (Proof/Bands.lean), which needs only that
  addition of extended reals is associative and commutative - the inputs' finiteness is never used. Rounding to a
  narrower float format is the identity on the extended reals; the gather and the scatter-add are the same host steps on
  both sides and are never opened.
-/
import proofs.«156218_j71949292142781_2_alg».proof.Defs
import proofs.«156218_j71949292142781_2_alg».proof.Proof.Gen.Kernel
import proofs.«156218_j71949292142781_2_alg».proof.Proof.Gen.Kernel.Skeleton
import proofs.«156218_j71949292142781_2_alg».proof.Proof.Gen.Kernel.Launch
import proofs.«156218_j71949292142781_2_alg».proof.Proof.Gen.Kernel.Points
import proofs.«156218_j71949292142781_2_alg».proof.Proof.Gen.Kernel.Frame
import proofs.«156218_j71949292142781_2_alg».proof.Proof.Gen.KernelIdeal
import proofs.«156218_j71949292142781_2_alg».proof.Proof.Gen.KernelIdeal.Skeleton
import proofs.«156218_j71949292142781_2_alg».proof.Proof.Gen.KernelIdeal.Launch
import proofs.«156218_j71949292142781_2_alg».proof.Proof.Gen.KernelIdeal.Points
import proofs.«156218_j71949292142781_2_alg».proof.Proof.Gen.KernelIdeal.Frame
import proofs.«156218_j71949292142781_2_alg».proof.Proof.Gen.ReferenceIdeal
import proofs.«156218_j71949292142781_2_alg».proof.Proof.Gen.Pre_finite_inputs
import proofs.«156218_j71949292142781_2_alg».proof.Proof.KernelRun
import proofs.«156218_j71949292142781_2_alg».proof.Proof.KernelValue
import proofs.«156218_j71949292142781_2_alg».proof.Proof.RefRun
import proofs.«156218_j71949292142781_2_alg».proof.Proof.RefValue
import Idealize.ShloMosaic.Adequacy
import Idealize.ShloMosaic.Init

noncomputable section

namespace Cert.Proof

open Idealize.ShloMosaic Idealize.SL.Sem Cert.Gnn

/-- The word-level kernel runs and leaves its arguments as launched. -/
theorem frame_kernel : Cert.frame_Kernel :=
  fun m ρ _ => Cert.Kernel.Gen.frame m ρ

/-- The idealized kernel runs and leaves its arguments as launched. -/
theorem frame_kernelIdeal : Cert.frame_KernelIdeal :=
  fun m ρ _ => Cert.KernelIdeal.Gen.frame m ρ

/-- The idealized reference runs and leaves its arguments as launched: its run with the results dropped. -/
theorem frame_reference : Cert.frame_ReferenceIdeal :=
  fun m ρ _ => (θ_run Cert.ReferenceIdeal.defs _ _).mono (fun _ h c => (h c).2)
    (Cert.ReferenceIdeal.RefRun.run (F := Ideal) m ρ)

/-- The two programs state the host's gather and scatter-add with the same dimension records. -/
theorem dims_eq :
    Cert.KernelIdeal.KVal.HK = Cert.ReferenceIdeal.RefVal.HR := rfl

/-- The node embedding of equal arrays. -/
theorem nf_congr {A2 B2 : Mat 50000 16} {A9 B9 : Mat 16 64} {A10 B10 : Vc 64} {A11 B11 : Mat 64 64} {A12 B12 : Vc 64} {A13 B13 : Vc 64} {A14 B14 : Vc 64}
    (h2 : B2 = A2) (h9 : B9 = A9) (h10 : B10 = A10) (h11 : B11 = A11) (h12 : B12 = A12) (h13 : B13 = A13) (h14 : B14 = A14) :
    ffbLn B2 B9 B10 B11 B12 B13 B14 = ffbLn A2 A9 A10 A11 A12 A13 A14 := by
  subst_vars; rfl

/-- The edge latents of equal arrays, the host steps stated with either program's records. -/
theorem el_congr {A0 B0 : IVec Cert.Gnn.Spec.SE2 32} {A1 B1 : Mat 800000 4} {A2 B2 : Mat 50000 16} {A3 B3 : Mat 4 64} {A4 B4 : Vc 64} {A5 B5 : Mat 64 64} {A6 B6 : Vc 64} {A7 B7 : Vc 64} {A8 B8 : Vc 64} {A9 B9 : Mat 16 64} {A10 B10 : Vc 64} {A11 B11 : Mat 64 64} {A12 B12 : Vc 64} {A13 B13 : Vc 64} {A14 B14 : Vc 64} {A15 B15 : Mat 192 64} {A16 B16 : Vc 64} {A17 B17 : Mat 64 64} {A18 B18 : Vc 64} {A19 B19 : Vc 64} {A20 B20 : Vc 64}
    (h0 : B0 = A0) (h1 : B1 = A1) (h2 : B2 = A2) (h3 : B3 = A3) (h4 : B4 = A4) (h5 : B5 = A5) (h6 : B6 = A6) (h7 : B7 = A7) (h8 : B8 = A8) (h9 : B9 = A9) (h10 : B10 = A10) (h11 : B11 = A11) (h12 : B12 = A12) (h13 : B13 = A13) (h14 : B14 = A14) (h15 : B15 = A15) (h16 : B16 = A16) (h17 : B17 = A17) (h18 : B18 = A18) (h19 : B19 = A19) (h20 : B20 = A20) :
    Cert.Gnn.Spec.edgeLatents Cert.ReferenceIdeal.RefVal.HR (Cert.Gnn.Spec.rowOf B0 0) (Cert.Gnn.Spec.rowOf B0 1) (ffbLn B2 B9 B10 B11 B12 B13 B14) B1 B3 B4 B5 B6 B7 B8 B15 B16 B17 B18 B19 B20
      = Cert.Gnn.Spec.edgeLatents Cert.KernelIdeal.KVal.HK (Cert.Gnn.Spec.rowOf A0 0) (Cert.Gnn.Spec.rowOf A0 1) (ffbLn A2 A9 A10 A11 A12 A13 A14) A1 A3 A4 A5 A6 A7 A8 A15 A16 A17 A18 A19 A20 := by
  subst_vars; rfl

/-- The node latents of equal arrays, the host steps stated with either program's records. -/
theorem nl_congr {A0 B0 : IVec Cert.Gnn.Spec.SE2 32} {A1 B1 : Mat 800000 4} {A2 B2 : Mat 50000 16} {A3 B3 : Mat 4 64} {A4 B4 : Vc 64} {A5 B5 : Mat 64 64} {A6 B6 : Vc 64} {A7 B7 : Vc 64} {A8 B8 : Vc 64} {A9 B9 : Mat 16 64} {A10 B10 : Vc 64} {A11 B11 : Mat 64 64} {A12 B12 : Vc 64} {A13 B13 : Vc 64} {A14 B14 : Vc 64} {A15 B15 : Mat 192 64} {A16 B16 : Vc 64} {A17 B17 : Mat 64 64} {A18 B18 : Vc 64} {A19 B19 : Vc 64} {A20 B20 : Vc 64} {A21 B21 : Mat 128 64} {A22 B22 : Vc 64} {A23 B23 : Mat 64 64} {A24 B24 : Vc 64} {A25 B25 : Vc 64} {A26 B26 : Vc 64} {A27 B27 : Mat 64 64} {A28 B28 : Vc 64} {A29 B29 : Mat 64 64} {A30 B30 : Vc 64}
    (h0 : B0 = A0) (h1 : B1 = A1) (h2 : B2 = A2) (h3 : B3 = A3) (h4 : B4 = A4) (h5 : B5 = A5) (h6 : B6 = A6) (h7 : B7 = A7) (h8 : B8 = A8) (h9 : B9 = A9) (h10 : B10 = A10) (h11 : B11 = A11) (h12 : B12 = A12) (h13 : B13 = A13) (h14 : B14 = A14) (h15 : B15 = A15) (h16 : B16 = A16) (h17 : B17 = A17) (h18 : B18 = A18) (h19 : B19 = A19) (h20 : B20 = A20) (h21 : B21 = A21) (h22 : B22 = A22) (h23 : B23 = A23) (h24 : B24 = A24) (h25 : B25 = A25) (h26 : B26 = A26) (h27 : B27 = A27) (h28 : B28 = A28) (h29 : B29 = A29) (h30 : B30 = A30) :
    Cert.Gnn.Spec.nodeLatents Cert.ReferenceIdeal.RefVal.HR (Cert.Gnn.Spec.rowOf B0 1) (ffbLn B2 B9 B10 B11 B12 B13 B14) (Cert.Gnn.Spec.edgeLatents Cert.ReferenceIdeal.RefVal.HR (Cert.Gnn.Spec.rowOf B0 0) (Cert.Gnn.Spec.rowOf B0 1) (ffbLn B2 B9 B10 B11 B12 B13 B14) B1 B3 B4 B5 B6 B7 B8 B15 B16 B17 B18 B19 B20) B21 B22 B23 B24 B25 B26 B27 B28 B29 B30
      = Cert.Gnn.Spec.nodeLatents Cert.KernelIdeal.KVal.HK (Cert.Gnn.Spec.rowOf A0 1) (ffbLn A2 A9 A10 A11 A12 A13 A14) (Cert.Gnn.Spec.edgeLatents Cert.KernelIdeal.KVal.HK (Cert.Gnn.Spec.rowOf A0 0) (Cert.Gnn.Spec.rowOf A0 1) (ffbLn A2 A9 A10 A11 A12 A13 A14) A1 A3 A4 A5 A6 A7 A8 A15 A16 A17 A18 A19 A20) A21 A22 A23 A24 A25 A26 A27 A28 A29 A30 := by
  subst_vars; rfl

/-- From memories that agree on the arguments, both idealized programs end with the three arrays of Proof/Spec.lean:
    the kernel by its three passes read as whole-array layers, the reference by its host operations read the same way
    and the joined products split into bands. -/
theorem algebraic : Cert.algebraic_KernelIdeal_ReferenceIdeal := by
  intro m ρ m' ρ' _ hagree
  refine ⟨fun c => Cert.KernelIdeal.KVal.EL m c, fun c => Cert.KernelIdeal.KVal.NL m c,
    fun c => Cert.KernelIdeal.KVal.NF m c, ?_, ?_⟩
  · exact (θ_run _ _ _).mono (fun r h c => ⟨(h c).1.1.trans (Cert.KernelIdeal.KVal.val_el m ρ c),
      (h c).1.2.1.trans (Cert.KernelIdeal.KVal.val_nl m ρ c), (h c).1.2.2.trans (Cert.KernelIdeal.KVal.val_nf m ρ c),
      (h c).2⟩) (Cert.KernelIdeal.KRun.run m ρ)
  · refine (θ_run Cert.ReferenceIdeal.defs _ _).mono
      (fun r h c => ⟨(h c).1.1.trans ((Cert.ReferenceIdeal.RefVal.ref_el m' c).trans ?_),
        (h c).1.2.1.trans ((Cert.ReferenceIdeal.RefVal.ref_nl m' c).trans ?_),
        (h c).1.2.2.trans ((Cert.ReferenceIdeal.RefVal.ref_nf m' c).trans ?_), (h c).2⟩)
      (Cert.ReferenceIdeal.RefRun.run (F := Ideal) m' ρ')
    all_goals
      obtain ⟨h0, h1, h2, h3, h4, h5, h6, h7, h8, h9, h10, h11, h12, h13, h14, h15, h16, h17, h18, h19, h20, h21, h22,
        h23, h24, h25, h26, h27, h28, h29, h30⟩ := hagree c
    · exact el_congr h0 h1 h2 h3 h4 h5 h6 h7 h8 h9 h10 h11 h12 h13 h14 h15 h16 h17 h18 h19 h20
    · exact nl_congr h0 h1 h2 h3 h4 h5 h6 h7 h8 h9 h10 h11 h12 h13 h14 h15 h16 h17 h18 h19 h20 h21 h22 h23 h24 h25 h26 h27 h28 h29 h30
    · exact nf_congr h2 h9 h10 h11 h12 h13 h14

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
